-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x7x1 : Shape := ⟨3, ![4096, 7, 1]⟩
abbrev S4096x4096 : Shape := ⟨2, ![4096, 4096]⟩
abbrev S1024 : Shape := ⟨1, ![1024]⟩
abbrev S1x64 : Shape := ⟨2, ![1, 64]⟩
abbrev S64 : Shape := ⟨1, ![64]⟩
abbrev S_ : Shape := ⟨0, ![]⟩

class Facts : Prop where
  bcast_S_S4096x7x1 : S_.BroadcastsInDim S4096x7x1 (![] : Fin 0 → Fin S4096x7x1.rank)
  reducesTo_S4096x7x1_S_d0_1_2 : S4096x7x1.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S1024 : S_.BroadcastsInDim S1024 (![] : Fin 0 → Fin S1024.rank)
  reducesTo_S1024_S_d0 : S1024.ReducesTo [0] S_
  transposes_S4096x4096_S4096x4096_1_0 : S4096x4096.Transposes [1, 0] S4096x4096

variable [Facts]

def fn_part2 {F : FTy → Type} [FloatOps F] (main_arg1 : FVec F S4096x4096 .f32) (main_arg4 : IVec S1024 32) (main_v32 : IVec S_ 1) (main_c_12 : IVec S_ 32) : IVec S_ 1 :=
  let main_v33 : IVec S1024 32 := broadcastInDim S1024 ![] bcast_S_S1024 main_c_12
  let main_v34 : IVec S1024 1 := cmpi .sge main_arg4 main_v33
  let main_c_13 : IVec S_ 32 := constantI S_ 32 4095#32
  let main_v35 : IVec S1024 32 := broadcastInDim S1024 ![] bcast_S_S1024 main_c_13
  let main_v36 : IVec S1024 1 := cmpi .sle main_arg4 main_v35
  let main_v37 : IVec S1024 1 := andi main_v34 main_v36
  let main_c_14 : IVec S_ 1 := constantI S_ 1 1#1
  let main_v38 : IVec S_ 1 := (fun x v => Host.reduce IntOp.andi x v reducesTo_S1024_S_d0 h_S_) main_v37 main_c_14
  let main_v39 : IVec S_ 1 := andi main_v32 main_v38
  let main_v40 : FVec F S4096x4096 .f32 := (transpose S4096x4096 [1, 0] · transposes_S4096x4096_S4096x4096_1_0) main_arg1
  let main_v41 : IVec S4096x4096 1 := cmpf .oeq main_arg1 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v39 main_v42
  main_v43

def fn_part1 {F : FTy → Type} [FloatOps F] (main_arg1 : FVec F S4096x4096 .f32) (main_arg2 : IVec S1024 32) (main_arg3 : IVec S1024 32) (main_arg4 : IVec S1024 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S1024 32 := broadcastInDim S1024 ![] bcast_S_S1024 main_c_6
  let main_v20 : IVec S1024 1 := cmpi .sge main_arg2 main_v19
  let main_c_7 : IVec S_ 32 := constantI S_ 32 4095#32
  let main_v21 : IVec S1024 32 := broadcastInDim S1024 ![] bcast_S_S1024 main_c_7
  let main_v22 : IVec S1024 1 := cmpi .sle main_arg2 main_v21
  let main_v23 : IVec S1024 1 := andi main_v20 main_v22
  let main_c_8 : IVec S_ 1 := constantI S_ 1 1#1
  let main_v24 : IVec S_ 1 := (fun x v => Host.reduce IntOp.andi x v reducesTo_S1024_S_d0 h_S_) main_v23 main_c_8
  let main_v25 : IVec S_ 1 := andi main_v18 main_v24
  let main_c_9 : IVec S_ 32 := constantI S_ 32 0#32
  let main_v26 : IVec S1024 32 := broadcastInDim S1024 ![] bcast_S_S1024 main_c_9
  let main_v27 : IVec S1024 1 := cmpi .sge main_arg3 main_v26
  let main_c_10 : IVec S_ 32 := constantI S_ 32 4095#32
  let main_v28 : IVec S1024 32 := broadcastInDim S1024 ![] bcast_S_S1024 main_c_10
  let main_v29 : IVec S1024 1 := cmpi .sle main_arg3 main_v28
  let main_v30 : IVec S1024 1 := andi main_v27 main_v29
  let main_c_11 : IVec S_ 1 := constantI S_ 1 1#1
  let main_v31 : IVec S_ 1 := (fun x v => Host.reduce IntOp.andi x v reducesTo_S1024_S_d0 h_S_) main_v30 main_c_11
  let main_v32 : IVec S_ 1 := andi main_v25 main_v31
  let main_c_12 : IVec S_ 32 := constantI S_ 32 0#32
  fn_part2 (F := F) main_arg1 main_arg4 main_v32 main_c_12

def fn {F : FTy → Type} [FloatOps F] (main_arg0 : FVec F S4096x7x1 .f32) (main_arg1 : FVec F S4096x4096 .f32) (main_arg2 : IVec S1024 32) (main_arg3 : IVec S1024 32) (main_arg4 : IVec S1024 32) (main_arg5 : FVec F S1x64 .f32) (main_arg6 : FVec F S64 .f32) : IVec S_ 1 :=
  let main_v0 : FVec F S4096x7x1 .f32 := Host.absf main_arg0
  let main_cst : FVec F S_ .f32 := constant S_ .f32 0x7F800000#32
  let main_v1 : FVec F S4096x7x1 .f32 := broadcastInDim S4096x7x1 ![] bcast_S_S4096x7x1 main_cst
  let main_v2 : IVec S4096x7x1 1 := cmpf .olt main_v0 main_v1
  let main_c : IVec S_ 1 := constantI S_ 1 1#1
  let main_v3 : IVec S_ 1 := (fun x v => Host.reduce IntOp.andi x v reducesTo_S4096x7x1_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x64 .f32 := Host.absf main_arg5
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_arg3 main_arg4 main_v13 main_v16
-- ==== Kernel.lean ====
abbrev S4096x7x1 : Shape := ⟨3, ![4096, 7, 1]⟩
abbrev S4096x4096 : Shape := ⟨2, ![4096, 4096]⟩
abbrev S1024 : Shape := ⟨1, ![1024]⟩
abbrev S1x64 : Shape := ⟨2, ![1, 64]⟩
abbrev S64 : Shape := ⟨1, ![64]⟩
abbrev S4096x7 : Shape := ⟨2, ![4096, 7]⟩
abbrev S7x4096 : Shape := ⟨2, ![7, 4096]⟩
abbrev S3x4096 : Shape := ⟨2, ![3, 4096]⟩
abbrev S4096 : Shape := ⟨1, ![4096]⟩
abbrev S_ : Shape := ⟨0, ![]⟩
abbrev S16 : Shape := ⟨1, ![16]⟩
abbrev S1x4096 : Shape := ⟨2, ![1, 4096]⟩
abbrev S28x28 : Shape := ⟨2, ![28, 28]⟩
abbrev S28x1x28x1 : Shape := ⟨4, ![28, 1, 28, 1]⟩
abbrev S1x1x1x64 : Shape := ⟨4, ![1, 1, 1, 64]⟩
abbrev S28x1x28x64 : Shape := ⟨4, ![28, 1, 28, 64]⟩
abbrev S28x1792 : Shape := ⟨2, ![28, 1792]⟩
abbrev S1792x28 : Shape := ⟨2, ![1792, 28]⟩
abbrev S28x64 : Shape := ⟨2, ![28, 64]⟩
abbrev S1792 : Shape := ⟨1, ![1792]⟩
abbrev S1792x1 : Shape := ⟨2, ![1792, 1]⟩
abbrev S1792x4096 : Shape := ⟨2, ![1792, 4096]⟩
abbrev S4096x512 : Shape := ⟨2, ![4096, 512]⟩
abbrev S1792x512 : Shape := ⟨2, ![1792, 512]⟩
abbrev S21x4096 : Shape := ⟨2, ![21, 4096]⟩
abbrev S21x512 : Shape := ⟨2, ![21, 512]⟩
abbrev S512x512 : Shape := ⟨2, ![512, 512]⟩
abbrev S512 : Shape := ⟨1, ![512]⟩
abbrev S1x512 : Shape := ⟨2, ![1, 512]⟩
abbrev S7x512 : Shape := ⟨2, ![7, 512]⟩
abbrev S28x512 : Shape := ⟨2, ![28, 512]⟩
abbrev S28x64x4096 : Shape := ⟨3, ![28, 64, 4096]⟩
abbrev S4096x28x64 : Shape := ⟨3, ![4096, 28, 64]⟩

abbrev nBuf : Table → Nat
  | .hbm => 32
  | .local .tc .vmem => 9
  | .local .scVector .vmem => 2
  | _ => 0

abbrev bufTy : (tb : Table) → Fin (nBuf tb) → BufTy
  | .hbm, ⟨0, _⟩ => ⟨S4096x7x1, .f32⟩
  | .hbm, ⟨1, _⟩ => ⟨S4096x4096, .f32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S1x64, .f32⟩
  | .hbm, ⟨6, _⟩ => ⟨S64, .f32⟩
  | .hbm, ⟨7, _⟩ => ⟨S4096x7, .f32⟩
  | .hbm, ⟨8, _⟩ => ⟨S7x4096, .f32⟩
  | .hbm, ⟨9, _⟩ => ⟨S3x4096, .f32⟩
  | .hbm, ⟨10, _⟩ => ⟨S28x28, .i32⟩
  | .hbm, ⟨11, _⟩ => ⟨S28x28, .i32⟩
  | .hbm, ⟨12, _⟩ => ⟨S_, .i32⟩
  | .hbm, ⟨13, _⟩ => ⟨S28x28, .i32⟩
  | .hbm, ⟨14, _⟩ => ⟨S28x28, .i32⟩
  | .hbm, ⟨15, _⟩ => ⟨S28x28, .i1⟩
  | .hbm, ⟨16, _⟩ => ⟨S28x28, .f32⟩
  | .hbm, ⟨17, _⟩ => ⟨S28x1x28x1, .f32⟩
  | .hbm, ⟨18, _⟩ => ⟨S1x1x1x64, .f32⟩
  | .hbm, ⟨19, _⟩ => ⟨S28x1x28x64, .f32⟩
  | .hbm, ⟨20, _⟩ => ⟨S28x1x28x64, .f32⟩
  | .hbm, ⟨21, _⟩ => ⟨S28x1x28x64, .f32⟩
  | .hbm, ⟨22, _⟩ => ⟨S28x1792, .f32⟩
  | .hbm, ⟨23, _⟩ => ⟨S1792x28, .f32⟩
  | .hbm, ⟨24, _⟩ => ⟨S1792x28, .bf16⟩
  | .hbm, ⟨25, _⟩ => ⟨S1x64, .f32⟩
  | .hbm, ⟨26, _⟩ => ⟨S28x64, .f32⟩
  | .hbm, ⟨27, _⟩ => ⟨S1792, .f32⟩
  | .hbm, ⟨28, _⟩ => ⟨S1792x1, .f32⟩
  | .hbm, ⟨29, _⟩ => ⟨S1792x4096, .f32⟩
  | .hbm, ⟨30, _⟩ => ⟨S28x64x4096, .f32⟩
  | .hbm, ⟨31, _⟩ => ⟨S4096x28x64, .f32⟩
  | .local .tc .vmem, ⟨0, _⟩ => ⟨S4096x512, .f32⟩
  | .local .tc .vmem, ⟨1, _⟩ => ⟨S4096x512, .f32⟩
  | .local .tc .vmem, ⟨2, _⟩ => ⟨S3x4096, .f32⟩
  | .local .tc .vmem, ⟨3, _⟩ => ⟨S7x4096, .f32⟩
  | .local .tc .vmem, ⟨4, _⟩ => ⟨S1792x28, .bf16⟩
  | .local .tc .vmem, ⟨5, _⟩ => ⟨S1792x1, .f32⟩
  | .local .tc .vmem, ⟨6, _⟩ => ⟨S1792x512, .f32⟩
  | .local .tc .vmem, ⟨7, _⟩ => ⟨S1792x512, .f32⟩
  | .local .tc .vmem, ⟨8, _⟩ => ⟨S21x4096, .bf16⟩
  | .local .scVector .vmem, ⟨0, _⟩ => ⟨S1024, .i32⟩
  | .local .scVector .vmem, ⟨1, _⟩ => ⟨S4096, .f32⟩
  | _, _ => ⟨S4096x7x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_arg4_scv : Ref sig .scVector := ⟨.hbm, 4, rfl⟩
abbrev main_arg3_scv : Ref sig .scVector := ⟨.hbm, 3, rfl⟩
abbrev main_arg2_scv : Ref sig .scVector := ⟨.hbm, 2, rfl⟩
abbrev main_v2_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc1_scratch0 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v11 : BitVec 1 := Scalar.cmpi .slt v1 c3_i32
  let v12 : BitVec 32 := Scalar.extui v11
  let c0_i32_4 : BitVec 32 := 0#32
  let v13 : BitVec 1 := Scalar.cmpi .ne v12 c0_i32_4
  v13

@[reducible] def k0_t1_loop : Scf.Loop 32 :=
  let c0_i32_6 : BitVec 32 := 0#32
  let c32_i32 : BitVec 32 := 32#32
  let v15 : BitVec 32 := Scalar.addi c0_i32_6 c32_i32
  let c1_i32_7 : BitVec 32 := 1#32
  ⟨c0_i32_6, v15, c1_i32_7⟩
def k0_off1 (k0_t1 : Fin k0_t1_loop.trips) (c0_i32_14 : BitVec 32) : Fin 1 → Nat :=
  let c0_i32_6 : BitVec 32 := 0#32
  let c1_i32_7 : BitVec 32 := 1#32
  let arg8 : BitVec 32 := Scf.iv c0_i32_6 c1_i32_7 k0_t1
  let c128_i32 : BitVec 32 := 128#32
  let v18 : BitVec 32 := Scalar.muli arg8 c128_i32
  let v19 : BitVec 32 := Scalar.addi v18 c0_i32_14
  let v20 : Index := Scalar.indexCast v19
  ![v20.toNat]
@[reducible] def k0_t2_loop : Scf.Loop 32 :=
  let c0_i32_11 : BitVec 32 := 0#32
  let c64_i32 : BitVec 32 := 64#32
  let v17 : BitVec 32 := Scalar.addi c0_i32_11 c64_i32
  let c1_i32_12 : BitVec 32 := 1#32
  ⟨c0_i32_11, v17, c1_i32_12⟩
def k0_off2 (k0_t2 : Fin k0_t2_loop.trips) : Fin 1 → Nat :=
  let c0_i32_11 : BitVec 32 := 0#32
  let c1_i32_12 : BitVec 32 := 1#32
  let arg8 : BitVec 32 := Scf.iv c0_i32_11 c1_i32_12 k0_t2
  let c16_i32 : BitVec 32 := 16#32
  let v18 : BitVec 32 := Scalar.muli arg8 c16_i32
  let v19 : Index := Scalar.indexCast v18
  ![v19.toNat]

def k0_chk1 (i : grid0.Coords) (v20 : IVec S16 32) : Prop :=
  (∀ (k0_h4 : k0_cond4 i = 1#1), ∀ a x, ((![v20] : Fin 1 → IVec S16 32) a x).toNat < S4096.size a)
instance k0_chk1.dec : ∀ (i : grid0.Coords) (v20 : IVec S16 32), Decidable (k0_chk1 i v20) := fun i v20 => decidable_of_iff' _ (Iff.of_eq (k0_chk1.eq_1 i v20))
theorem k0_idx1_inb : ∀ (i : grid0.Coords) (v20 : IVec S16 32) (k0_hw1 : k0_chk1 i v20), ∀ (k0_h4 : k0_cond4 i = 1#1), ∀ a x, ((![v20] : Fin 1 → IVec S16 32) a x).toNat < S4096.size a := fun i v20 k0_hw1 k0_h4 => k0_hw1 k0_h4
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r3 : BitVec 32 := 0#32
  ![v1.toNat, 0]
abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_4 : Index := 0#32
  ![v8.toNat, 0]
def k1_off2 (i : grid1.Coords) : Fin 2 → Nat :=
  let c0_8 : Index := 0#32
  let arg0 : BitVec 32 := BitVec.ofNat 32 (i 0).val
  let c512_i32_7 : BitVec 32 := 512#32
  let v17 : BitVec 32 := Scalar.muli arg0 c512_i32_7
  let v18 : Index := Scalar.indexCast v17
  ![0, v18.toNat]
def k1_off3 (i : grid1.Coords) : Fin 2 → Nat :=
  let c0_10 : Index := 0#32
  let arg0 : BitVec 32 := BitVec.ofNat 32 (i 0).val
  let c512_i32_9 : BitVec 32 := 512#32
  let v24 : BitVec 32 := Scalar.muli arg0 c512_i32_9
  let v25 : Index := Scalar.indexCast v24
  ![0, v25.toNat]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S7x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1792x28 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1792x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1792x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x7x1_S4096x7 : S4096x7x1.ShapeCasts S4096x7
  transposes_S4096x7_S7x4096_1_0 : S4096x7.Transposes [1, 0] S7x4096
  h_S16 : 0 < S16.numel
  h_S4096 : 0 < S4096.numel
  squeezes_S1x4096_S4096 : S1x4096.Squeezes S4096
  bcast_S_S28x28 : S_.BroadcastsInDim S28x28 (![] : Fin 0 → Fin S28x28.rank)
  bcast_S28x28_S28x1x28x1_0_2 : S28x28.BroadcastsInDim S28x1x28x1 (![0, 2] : Fin 2 → Fin S28x1x28x1.rank)
  bcast_S1x64_S1x1x1x64_1_3 : S1x64.BroadcastsInDim S1x1x1x64 (![1, 3] : Fin 2 → Fin S1x1x1x64.rank)
  bcast_S28x1x28x1_S28x1x28x64_0_1_2_3 : S28x1x28x1.BroadcastsInDim S28x1x28x64 (![0, 1, 2, 3] : Fin 4 → Fin S28x1x28x64.rank)
  bcast_S1x1x1x64_S28x1x28x64_0_1_2_3 : S1x1x1x64.BroadcastsInDim S28x1x28x64 (![0, 1, 2, 3] : Fin 4 → Fin S28x1x28x64.rank)
  shapeCasts_S28x1x28x64_S28x1792 : S28x1x28x64.ShapeCasts S28x1792
  transposes_S28x1792_S1792x28_1_0 : S28x1792.Transposes [1, 0] S1792x28
  bitsLt_bf16_f32 : FTy.bits .bf16 < FTy.bits .f32
  shapeCasts_S64_S1x64 : S64.ShapeCasts S1x64
  bcast_S1x64_S28x64_0_1 : S1x64.BroadcastsInDim S28x64 (![0, 1] : Fin 2 → Fin S28x64.rank)
  shapeCasts_S28x64_S1792 : S28x64.ShapeCasts S1792
  shapeCasts_S1792_S1792x1 : S1792.ShapeCasts S1792x1
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  inb_S7x4096_S7x4096_0_0 : ∀ a, (![0, 0] : Fin 2 → Nat) a + S7x4096.size a ≤ S7x4096.size a
  h_S7x4096 : 0 < S7x4096.numel
  shapeCasts_S7x4096_S7x4096 : S7x4096.ShapeCasts S7x4096
  slices_S3x4096_o0_0_S1x4096 : S3x4096.Slices ![0, 0] S1x4096
  broadcasts_S1x4096_S7x4096 : S1x4096.Broadcasts S7x4096
  slices_S3x4096_o1_0_S1x4096 : S3x4096.Slices ![1, 0] S1x4096
  slices_S3x4096_o2_0_S1x4096 : S3x4096.Slices ![2, 0] S1x4096
  concatenates_S7x4096_S7x4096_S7x4096_S21x4096_d0 : Shape.Concatenates [S7x4096, S7x4096, S7x4096] S21x4096 0
  inb_S21x4096_S21x4096_0_0 : ∀ a, (![0, 0] : Fin 2 → Nat) a + S21x4096.size a ≤ S21x4096.size a
  h_S21x4096 : 0 < S21x4096.numel
  shapeCasts_S21x4096_S21x4096 : S21x4096.ShapeCasts S21x4096
  packedbf16_S21x4096_S21x4096_0_0 : (Rect.unit (s := S21x4096) ![0, 0] S21x4096.size inb_S21x4096_S21x4096_0_0).PackedRows (EltTy.packing .bf16)
  inb_S4096x512_S4096x512_0_0 : ∀ a, (![0, 0] : Fin 2 → Nat) a + S4096x512.size a ≤ S4096x512.size a
  h_S4096x512 : 0 < S4096x512.numel
  h_S512x512 : 0 < S512x512.numel
  iota_S512x512_d0_w32 : S512x512.Iotas .tc 32 [0]
  iota_S512x512_d1_w32 : S512x512.Iotas .tc 32 [1]
  reduces_S512x512_S512 : S512x512.Reduces [0] S512
  shapeCasts_S512_S1x512 : S512.ShapeCasts S1x512
  h_S21x512 : 0 < S21x512.numel
  broadcasts_S1x512_S21x512 : S1x512.Broadcasts S21x512
  h_S7x512 : 0 < S7x512.numel
  shapeCasts_S7x512_S7x512 : S7x512.ShapeCasts S7x512
  concatenates_S21x512_S7x512_S28x512_d0 : Shape.Concatenates [S21x512, S7x512] S28x512 0
  inb_S1792x28_S1792x28_0_0 : ∀ a, (![0, 0] : Fin 2 → Nat) a + S1792x28.size a ≤ S1792x28.size a
  h_S1792x28 : 0 < S1792x28.numel
  shapeCasts_S1792x28_S1792x28 : S1792x28.ShapeCasts S1792x28
  inb_S1792x1_S1792x1_0_0 : ∀ a, (![0, 0] : Fin 2 → Nat) a + S1792x1.size a ≤ S1792x1.size a
  h_S1792x1 : 0 < S1792x1.numel
  shapeCasts_S1792x1_S1792x1 : S1792x1.ShapeCasts S1792x1
  broadcasts_S1792x1_S1792x512 : S1792x1.Broadcasts S1792x512
  inb_S1792x512_S1792x512_0_0 : ∀ a, (![0, 0] : Fin 2 → Nat) a + S1792x512.size a ≤ S1792x512.size a
  h_S1792x512 : 0 < S1792x512.numel
  shapeCasts_S1792x4096_S28x64x4096 : S1792x4096.ShapeCasts S28x64x4096
  transposes_S28x64x4096_S4096x28x64_2_0_1 : S28x64x4096.Transposes [2, 0, 1] S4096x28x64
  dot_S21x4096_S4096x512_S21x512_1_0_0_1_n_n_wf : DotDims.WF S21x4096 S4096x512 S21x512 [1] [0] [0] [1] [] []
  dot_S1792x28_S28x512_S1792x512_1_0_0_1_n_n_wf : DotDims.WF S1792x28 S28x512 S1792x512 [1] [0] [0] [1] [] []
  hcc0_scoped0 : 0 + S_.numel ≤ 12
  hcc0_scoped1 : 1 + S_.numel ≤ 12
  hcc0_scoped2 : 2 + S_.numel ≤ 12
  hcc0_scoped3 : 3 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, ∀ (k0_h4 : k0_cond4 i = 1#1), k0_t1_loop.OK
  k0_off1_inb : ∀ (i : grid0.Coords) (k0_t1 : Fin k0_t1_loop.trips), ∀ (k0_h4 : k0_cond4 i = 1#1), ∀ (r : Fin 8), ∀ a, (k0_off1 k0_t1 (BitVec.ofNat 32 (16 * r.val))) a + S16.size a ≤ S4096.size a
  k0_t2_ok : ∀ i : grid0.Coords, ∀ (k0_h4 : k0_cond4 i = 1#1), k0_t2_loop.OK
  k0_off2_inb : ∀ (i : grid0.Coords) (k0_t2 : Fin k0_t2_loop.trips), ∀ (k0_h4 : k0_cond4 i = 1#1), ∀ a, (k0_off2 k0_t2) a + S16.size a ≤ S1024.size a
  k0_off3_inb : ∀ i : grid0.Coords, ∀ (k0_h4 : k0_cond4 i = 1#1), ∀ a, (k0_off3 i) a + S1x4096.size a ≤ S3x4096.size a
  hrank1 : 0 < grid1.rank
  k1_off1_inb : ∀ i : grid1.Coords, ∀ a, (k1_off1 i) a + S512x512.size a ≤ S4096x512.size a
  k1_off2_inb : ∀ i : grid1.Coords, ∀ a, (k1_off2 i) a + S21x512.size a ≤ S21x4096.size a
  k1_off3_inb : ∀ i : grid1.Coords, ∀ a, (k1_off3 i) a + S7x512.size a ≤ S7x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x4096.size a
  hwx1_0 : ∀ i : grid1.Coords, EltTy.bits .f32 = 32 ∨ (Rect.block (s := S4096x4096) S4096x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x4096.size a ≤ S3x4096.size a
  hwx1_1 : ∀ i : grid1.Coords, EltTy.bits .f32 = 32 ∨ (Rect.block (s := S3x4096) S3x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S7x4096.size a ≤ S7x4096.size a
  hwx1_2 : ∀ i : grid1.Coords, EltTy.bits .f32 = 32 ∨ (Rect.block (s := S7x4096) S7x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1792x28.size a ≤ S1792x28.size a
  hwx1_3 : ∀ i : grid1.Coords, EltTy.bits .bf16 = 32 ∨ (Rect.block (s := S1792x28) S1792x28.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1792x1.size a ≤ S1792x1.size a
  hwx1_4 : ∀ i : grid1.Coords, EltTy.bits .f32 = 32 ∨ (Rect.block (s := S1792x1) S1792x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1792x512.size a ≤ S1792x4096.size a
  hwx1_5 : ∀ i : grid1.Coords, EltTy.bits .f32 = 32 ∨ (Rect.block (s := S1792x4096) S1792x512.size (cc1_transform_5 i) (hinb1_5 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
def dot_S21x4096_S4096x512_S21x512_1_0_0_1_n_n : DotDims S21x4096 S4096x512 S21x512 where
  lhsContracting := [1]
  rhsContracting := [0]
  lhsNonContracting := [0]
  rhsNonContracting := [1]
  lhsBatch := []
  rhsBatch := []
  wf := dot_S21x4096_S4096x512_S21x512_1_0_0_1_n_n_wf
def dot_S1792x28_S28x512_S1792x512_1_0_0_1_n_n : DotDims S1792x28 S28x512 S1792x512 where
  lhsContracting := [1]
  rhsContracting := [0]
  lhsNonContracting := [0]
  rhsNonContracting := [1]
  lhsBatch := []
  rhsBatch := []
  wf := dot_S1792x28_S28x512_S1792x512_1_0_0_1_n_n_wf

abbrev win1_0 : Pipeline.Window sig grid1 :=
  Pipeline.Window.ofSpec (Memref.whole main_arg1) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S3x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S7x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1792x28.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1792x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1792x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x7x1 : Shape := ⟨3, ![4096, 7, 1]⟩
abbrev S4096x4096 : Shape := ⟨2, ![4096, 4096]⟩
abbrev S1024 : Shape := ⟨1, ![1024]⟩
abbrev S1x64 : Shape := ⟨2, ![1, 64]⟩
abbrev S64 : Shape := ⟨1, ![64]⟩
abbrev S_ : Shape := ⟨0, ![]⟩
abbrev S1024x1 : Shape := ⟨2, ![1024, 1]⟩
abbrev S4096x1024 : Shape := ⟨2, ![4096, 1024]⟩
abbrev S1x1024 : Shape := ⟨2, ![1, 1024]⟩
abbrev S4096 : Shape := ⟨1, ![4096]⟩
abbrev S4096x1 : Shape := ⟨2, ![4096, 1]⟩
abbrev S1024x7x1 : Shape := ⟨3, ![1024, 7, 1]⟩
abbrev S1024x7 : Shape := ⟨2, ![1024, 7]⟩
abbrev S4096x7 : Shape := ⟨2, ![4096, 7]⟩
abbrev S4096x28x1 : Shape := ⟨3, ![4096, 28, 1]⟩
abbrev S4096x28x64 : Shape := ⟨3, ![4096, 28, 64]⟩
abbrev S1x1x64 : Shape := ⟨3, ![1, 1, 64]⟩

abbrev nBuf : Space → Nat
  | .hbm => 108
  | .vmem => 0
  | .smem => 0
  | _ => 0

abbrev bufTy : (tb : Table) → Fin (tcTables nBuf tb) → BufTy
  | .hbm, ⟨0, _⟩ => ⟨S4096x7x1, .f32⟩
  | .hbm, ⟨1, _⟩ => ⟨S4096x4096, .f32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S1x64, .f32⟩
  | .hbm, ⟨6, _⟩ => ⟨S64, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S4096x1024, .f32⟩
  | .hbm, ⟨16, _⟩ => ⟨S1x1024, .i32⟩
  | .hbm, ⟨17, _⟩ => ⟨S4096, .i32⟩
  | .hbm, ⟨18, _⟩ => ⟨S4096x1, .i32⟩
  | .hbm, ⟨19, _⟩ => ⟨S4096x1024, .i32⟩
  | .hbm, ⟨20, _⟩ => ⟨S4096x1024, .i32⟩
  | .hbm, ⟨21, _⟩ => ⟨S4096x1024, .i1⟩
  | .hbm, ⟨22, _⟩ => ⟨S4096x1024, .f32⟩
  | .hbm, ⟨23, _⟩ => ⟨S4096x1024, .f32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x7x1, .f32⟩
  | .hbm, ⟨33, _⟩ => ⟨S1024x7, .f32⟩
  | .hbm, ⟨34, _⟩ => ⟨S4096x7, .f32⟩
  | .hbm, ⟨35, _⟩ => ⟨S_, .f32⟩
  | .hbm, ⟨36, _⟩ => ⟨S4096x7, .f32⟩
  | .hbm, ⟨37, _⟩ => ⟨S4096x7, .f32⟩
  | .hbm, ⟨38, _⟩ => ⟨S4096x7x1, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S4096x1024, .f32⟩
  | .hbm, ⟨48, _⟩ => ⟨S1x1024, .i32⟩
  | .hbm, ⟨49, _⟩ => ⟨S4096, .i32⟩
  | .hbm, ⟨50, _⟩ => ⟨S4096x1, .i32⟩
  | .hbm, ⟨51, _⟩ => ⟨S4096x1024, .i32⟩
  | .hbm, ⟨52, _⟩ => ⟨S4096x1024, .i32⟩
  | .hbm, ⟨53, _⟩ => ⟨S4096x1024, .i1⟩
  | .hbm, ⟨54, _⟩ => ⟨S4096x1024, .f32⟩
  | .hbm, ⟨55, _⟩ => ⟨S4096x1024, .f32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1024x7x1, .f32⟩
  | .hbm, ⟨65, _⟩ => ⟨S1024x7, .f32⟩
  | .hbm, ⟨66, _⟩ => ⟨S4096x7, .f32⟩
  | .hbm, ⟨67, _⟩ => ⟨S_, .f32⟩
  | .hbm, ⟨68, _⟩ => ⟨S4096x7, .f32⟩
  | .hbm, ⟨69, _⟩ => ⟨S4096x7, .f32⟩
  | .hbm, ⟨70, _⟩ => ⟨S4096x7x1, .f32⟩
  | .hbm, ⟨71, _⟩ => ⟨S_, .i32⟩
  | .hbm, ⟨72, _⟩ => ⟨S1024, .i32⟩
  | .hbm, ⟨73, _⟩ => ⟨S1024, .i1⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S1024, .i32⟩
  | .hbm, ⟨78, _⟩ => ⟨S1024x1, .i32⟩
  | .hbm, ⟨79, _⟩ => ⟨S4096x1024, .f32⟩
  | .hbm, ⟨80, _⟩ => ⟨S1x1024, .i32⟩
  | .hbm, ⟨81, _⟩ => ⟨S4096, .i32⟩
  | .hbm, ⟨82, _⟩ => ⟨S4096x1, .i32⟩
  | .hbm, ⟨83, _⟩ => ⟨S4096x1024, .i32⟩
  | .hbm, ⟨84, _⟩ => ⟨S4096x1024, .i32⟩
  | .hbm, ⟨85, _⟩ => ⟨S4096x1024, .i1⟩
  | .hbm, ⟨86, _⟩ => ⟨S4096x1024, .f32⟩
  | .hbm, ⟨87, _⟩ => ⟨S4096x1024, .f32⟩
  | .hbm, ⟨88, _⟩ => ⟨S_, .i32⟩
  | .hbm, ⟨89, _⟩ => ⟨S1024, .i32⟩
  | .hbm, ⟨90, _⟩ => ⟨S1024, .i1⟩
  | .hbm, ⟨91, _⟩ => ⟨S_, .i32⟩
  | .hbm, ⟨92, _⟩ => ⟨S1024, .i32⟩
  | .hbm, ⟨93, _⟩ => ⟨S1024, .i32⟩
  | .hbm, ⟨94, _⟩ => ⟨S1024, .i32⟩
  | .hbm, ⟨95, _⟩ => ⟨S1024x1, .i32⟩
  | .hbm, ⟨96, _⟩ => ⟨S1024x7x1, .f32⟩
  | .hbm, ⟨97, _⟩ => ⟨S1024x7, .f32⟩
  | .hbm, ⟨98, _⟩ => ⟨S4096x7, .f32⟩
  | .hbm, ⟨99, _⟩ => ⟨S_, .f32⟩
  | .hbm, ⟨100, _⟩ => ⟨S4096x7, .f32⟩
  | .hbm, ⟨101, _⟩ => ⟨S4096x7, .f32⟩
  | .hbm, ⟨102, _⟩ => ⟨S4096x7x1, .f32⟩
  | .hbm, ⟨103, _⟩ => ⟨S4096x28x1, .f32⟩
  | .hbm, ⟨104, _⟩ => ⟨S4096x28x64, .f32⟩
  | .hbm, ⟨105, _⟩ => ⟨S1x1x64, .f32⟩
  | .hbm, ⟨106, _⟩ => ⟨S4096x28x64, .f32⟩
  | .hbm, ⟨107, _⟩ => ⟨S4096x28x64, .f32⟩
  | _, _ => ⟨S4096x7x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_c_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_10 : Ref sig .tc := ⟨.hbm, 88, rfl⟩
abbrev main_v69 : Ref sig .tc := ⟨.hbm, 89, rfl⟩
abbrev main_v70 : Ref sig .tc := ⟨.hbm, 90, rfl⟩
abbrev main_c_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S4096_S4096x1_0 : S4096.BroadcastsInDim S4096x1 (![0] : Fin 1 → Fin S4096x1.rank)
  bcast_S1x1024_S4096x1024_0_1 : S1x1024.BroadcastsInDim S4096x1024 (![0, 1] : Fin 2 → Fin S4096x1024.rank)
  bcast_S4096x1_S4096x1024_0_1 : S4096x1.BroadcastsInDim S4096x1024 (![0, 1] : Fin 2 → Fin S4096x1024.rank)
  shapeCasts_S1024x7x1_S1024x7 : S1024x7x1.ShapeCasts S1024x7
  bcast_S_S4096x7 : S_.BroadcastsInDim S4096x7 (![] : Fin 0 → Fin S4096x7.rank)
  shapeCasts_S4096x7_S4096x7x1 : S4096x7.ShapeCasts S4096x7x1
  concatenates_S4096x7x1_S4096x7x1_S4096x7x1_S4096x7x1_S4096x28x1_d1 : Shape.Concatenates [S4096x7x1, S4096x7x1, S4096x7x1, S4096x7x1] S4096x28x1 1
  bcast_S64_S1x1x64_2 : S64.BroadcastsInDim S1x1x64 (![2] : Fin 1 → Fin S1x1x64.rank)
  bcast_S1x1x64_S4096x28x64_0_1_2 : S1x1x64.BroadcastsInDim S4096x28x64 (![0, 1, 2] : Fin 3 → Fin S4096x28x64.rank)
  gather_S4096x4096_S1024x1_S4096x1024_0_1_n_n_1_1_40961_wf : GatherDims.WF S4096x4096 S1024x1 S4096x1024 [0] [1] [] [1] [] 1 ![4096, 1]
  gather_S4096x7x1_S1024x1_S1024x7x1_12_0_n_n_0_1_171_wf : GatherDims.WF S4096x7x1 S1024x1 S1024x7x1 [1, 2] [0] [] [0] [] 1 ![1, 7, 1]
  dot_S4096x1024_S1024x7_S4096x7_1_0_0_1_n_n_wf : DotDims.WF S4096x1024 S1024x7 S4096x7 [1] [0] [0] [1] [] []
  dot_S4096x28x1_S1x64_S4096x28x64_2_0_01_1_n_n_wf : DotDims.WF S4096x28x1 S1x64 S4096x28x64 [2] [0] [0, 1] [1] [] []

variable [Facts₀]

def gather_S4096x4096_S1024x1_S4096x1024_0_1_n_n_1_1_40961 : GatherDims S4096x4096 S1024x1 S4096x1024 where
  offsetDims := [0]
  collapsedSliceDims := [1]
  operandBatchingDims := []
  startIndicesBatchingDims := []
  startIndexMap := [1]
  indexVectorDim := 1
  sliceSizes := ![4096, 1]
  wf := gather_S4096x4096_S1024x1_S4096x1024_0_1_n_n_1_1_40961_wf
def gather_S4096x7x1_S1024x1_S1024x7x1_12_0_n_n_0_1_171 : GatherDims S4096x7x1 S1024x1 S1024x7x1 where
  offsetDims := [1, 2]
  collapsedSliceDims := [0]
  operandBatchingDims := []
  startIndicesBatchingDims := []
  startIndexMap := [0]
  indexVectorDim := 1
  sliceSizes := ![1, 7, 1]
  wf := gather_S4096x7x1_S1024x1_S1024x7x1_12_0_n_n_0_1_171_wf
def dot_S4096x1024_S1024x7_S4096x7_1_0_0_1_n_n : DotDims S4096x1024 S1024x7 S4096x7 where
  lhsContracting := [1]
  rhsContracting := [0]
  lhsNonContracting := [0]
  rhsNonContracting := [1]
  lhsBatch := []
  rhsBatch := []
  wf := dot_S4096x1024_S1024x7_S4096x7_1_0_0_1_n_n_wf
def dot_S4096x28x1_S1x64_S4096x28x64_2_0_01_1_n_n : DotDims S4096x28x1 S1x64 S4096x28x64 where
  lhsContracting := [2]
  rhsContracting := [0]
  lhsNonContracting := [0, 1]
  rhsNonContracting := [1]
  lhsBatch := []
  rhsBatch := []
  wf := dot_S4096x28x1_S1x64_S4096x28x64_2_0_01_1_n_n_wf

class Facts : Prop extends Facts₀ where

variable [Facts]
-- ==== Proof.Spec.lean ====
import Idealize.ShloMosaic.PureOps.Ideal
import Idealize.ShloMosaic.Lib.ValueIdx

/-!
# What the kernel computes, as one function of the seven argument arrays (extended reals)

`cnt idx m` is the number of entries of an index list that name row `m` (the histogram the vector
subcores build).  For role `r` (0 leaders, 1 nonmembers, 2 members) and feature column `f`,
`g r f m = cnt_r m · feature[m, f] · 2⁻¹⁰`; `ht r f p = Σ_m g r f m · adj[m, p] − adj[p, p] · g r f p` is the
aggregate over the role's list with node `p` itself left out; rows 21…27 of `h0` are the node's own
features; the result is `h0[k, p] · weight[0, o] + bias[o]`, written as the product with the 28-fold
block-diagonal copy of `weight` (one nonzero term per row).
-/

noncomputable section

namespace Cert.Spec

open Idealize.ShloMosaic Idealize.ShloMosaic.ValueIdx

abbrev SF : Shape := ⟨3, ![4096, 7, 1]⟩
abbrev SA : Shape := ⟨2, ![4096, 4096]⟩
abbrev SI : Shape := ⟨1, ![1024]⟩
abbrev SW : Shape := ⟨2, ![1, 64]⟩
abbrev SB : Shape := ⟨1, ![64]⟩
abbrev SO : Shape := ⟨3, ![4096, 28, 64]⟩

/-- How many entries of the index list name row `m` (a word is read unsigned). -/
def cnt (idx : SI.Idx → BitVec 32) (m : Fin 4096) : ℕ :=
  (Finset.univ.filter fun j : Fin 1024 => (idx (ix1 j)).toNat = m.val).card

/-- The three role lists in the order the kernel stacks their histograms: leaders, nonmembers, members. -/
def roles (mem nonm lead : SI.Idx → BitVec 32) : Fin 3 → SI.Idx → BitVec 32 := ![lead, nonm, mem]

/-- The scaled, counted feature: `cnt_r m · feature[m, f] · 2⁻¹⁰` (the literal is the f32 word of 1/1024). -/
def g (feat : SF.Idx → EReal) (idxr : Fin 3 → SI.Idx → BitVec 32) (r : Fin 3) (f : Fin 7) (m : Fin 4096) : EReal :=
  (((cnt (idxr r) m : ℝ) : EReal) * feat (ix3 m f 0)) * Ideal.ofBits .f32 0x3A800000#32

/-- The aggregate over role `r`'s list at node `p`, the node itself left out. -/
def ht (feat : SF.Idx → EReal) (adj : SA.Idx → EReal) (idxr : Fin 3 → SI.Idx → BitVec 32) (r : Fin 3) (f : Fin 7) (p : Fin 4096) : EReal :=
  (∑ m : Fin 4096, g feat idxr r f m * adj (ix2 m p)) - adj (ix2 p p) * g feat idxr r f p

/-- The 28 rows per node: three roles × seven feature columns, then the node's own seven features. -/
def h0 (feat : SF.Idx → EReal) (adj : SA.Idx → EReal) (idxr : Fin 3 → SI.Idx → BitVec 32) (k : Fin 28) (p : Fin 4096) : EReal :=
  if h : k.val < 21 then ht feat adj idxr ⟨k.val / 7, by omega⟩ ⟨k.val % 7, by omega⟩ p
  else feat (ix3 p ⟨k.val - 21, by omega⟩ 0)

/-- The result at node `p`, row `k`, channel `o`. -/
def kout (feat : SF.Idx → EReal) (adj : SA.Idx → EReal) (idxr : Fin 3 → SI.Idx → BitVec 32) (w : SW.Idx → EReal) (b : SB.Idx → EReal)
    (p : Fin 4096) (k : Fin 28) (o : Fin 64) : EReal :=
  (∑ k' : Fin 28, ((if k = k' then (1 : EReal) else 0) * w (ix2 0 o)) * h0 feat adj idxr k' p) + b (ix1 o)

/-- The kernel's result array as one function of the arguments. -/
def KSpec (feat : SF.Idx → EReal) (adj : SA.Idx → EReal) (mem nonm lead : SI.Idx → BitVec 32) (w : SW.Idx → EReal) (b : SB.Idx → EReal) :
    SO.Idx → EReal :=
  fun i => kout feat adj (roles mem nonm lead) w b (i 0) (i 1) (i 2)

theorem KSpec_apply (feat : SF.Idx → EReal) (adj : SA.Idx → EReal) (mem nonm lead : SI.Idx → BitVec 32) (w : SW.Idx → EReal) (b : SB.Idx → EReal)
    (p : Fin 4096) (k : Fin 28) (o : Fin 64) :
    KSpec feat adj mem nonm lead w b (ix3 p k o) = kout feat adj (roles mem nonm lead) w b p k o := rfl

/-- The block-diagonal product keeps one term: row `k` times `weight[0, o]`. -/
theorem kout_eq (feat : SF.Idx → EReal) (adj : SA.Idx → EReal) (idxr : Fin 3 → SI.Idx → BitVec 32) (w : SW.Idx → EReal) (b : SB.Idx → EReal)
    (p : Fin 4096) (k : Fin 28) (o : Fin 64) :
    kout feat adj idxr w b p k o = w (ix2 0 o) * h0 feat adj idxr k p + b (ix1 o) := by
  unfold kout
  congr 1
  rw [Finset.sum_eq_single k]
  · rw [if_pos rfl, one_mul]
  · intro k' _ hk; rw [if_neg (Ne.symm hk), zero_mul, zero_mul]
  · intro h; exact absurd (Finset.mem_univ k) h

/-! ## The reference's form of the same result

Per role list the reference gathers column `idx j` of `adj` and row `idx j` of `feature` for each of the 1024
entries `j`, masks the entries that name node `p` itself, multiplies, sums over `j`, and divides by 1024.
An index word in range names the row `toNat` of it (`rowFin`; out of range the reference clamps, which the
precondition excludes). -/

/-- The row an index word names (total: reduced mod 4096; the identity on words in range). -/
def rowFin (idx : SI.Idx → BitVec 32) (j : Fin 1024) : Fin 4096 := ⟨(idx (ix1 j)).toNat % 4096, Nat.mod_lt _ (by decide)⟩

/-- The reference's aggregate for one role list at node `p`, feature column `f`. -/
def href (feat : SF.Idx → EReal) (adj : SA.Idx → EReal) (idx : SI.Idx → BitVec 32) (p : Fin 4096) (f : Fin 7) : EReal :=
  (∑ j : Fin 1024, (adj (ix2 p (rowFin idx j)) * (if rowFin idx j ≠ p then (1 : EReal) else 0)) * feat (ix3 (rowFin idx j) f 0))
    / Ideal.ofBits .f32 0x44800000#32

/-- The reference's 28 rows per node. -/
def rh0 (feat : SF.Idx → EReal) (adj : SA.Idx → EReal) (idxr : Fin 3 → SI.Idx → BitVec 32) (k : Fin 28) (p : Fin 4096) : EReal :=
  if h : k.val < 21 then href feat adj (idxr ⟨k.val / 7, by omega⟩) p ⟨k.val % 7, by omega⟩
  else feat (ix3 p ⟨k.val - 21, by omega⟩ 0)

/-- The reference's result at node `p`, row `k`, channel `o`. -/
def rout (feat : SF.Idx → EReal) (adj : SA.Idx → EReal) (idxr : Fin 3 → SI.Idx → BitVec 32) (w : SW.Idx → EReal) (b : SB.Idx → EReal)
    (p : Fin 4096) (k : Fin 28) (o : Fin 64) : EReal :=
  rh0 feat adj idxr k p * w (ix2 0 o) + b (ix1 o)

/-- The reference's result array as one function of the arguments. -/
def RSpec (feat : SF.Idx → EReal) (adj : SA.Idx → EReal) (mem nonm lead : SI.Idx → BitVec 32) (w : SW.Idx → EReal) (b : SB.Idx → EReal) :
    SO.Idx → EReal :=
  fun i => rout feat adj (roles mem nonm lead) w b (i 0) (i 1) (i 2)

theorem RSpec_apply (feat : SF.Idx → EReal) (adj : SA.Idx → EReal) (mem nonm lead : SI.Idx → BitVec 32) (w : SW.Idx → EReal) (b : SB.Idx → EReal)
    (p : Fin 4096) (k : Fin 28) (o : Fin 64) :
    RSpec feat adj mem nonm lead w b (ix3 p k o) = rout feat adj (roles mem nonm lead) w b p k o := rfl

/-! ## What the precondition gives (the hypotheses the two forms are equal under) -/

/-- Every entry is a real number. -/
def AllReal {s : Shape} (x : s.Idx → EReal) : Prop := ∀ i, ∃ r : ℝ, x i = (r : EReal)
/-- `adj` is symmetric. -/
def Symm (adj : SA.Idx → EReal) : Prop := ∀ p q : Fin 4096, adj (ix2 p q) = adj (ix2 q p)
/-- Every word of the list names a row: below 4096 read unsigned (so also non-negative read signed). -/
def InRange (idx : SI.Idx → BitVec 32) : Prop := ∀ j : Fin 1024, (idx (ix1 j)).toNat < 4096

end Cert.Spec

end
-- ==== Proof.PreFacts.lean ====
import proofs.«201762_g83623013253620_cont_9to1_m_623_34_alg».proof.Pre_input_domain
import proofs.«201762_g83623013253620_cont_9to1_m_623_34_alg».proof.Proof.Gen.Pre_input_domain
import proofs.«201762_g83623013253620_cont_9to1_m_623_34_alg».proof.Proof.Spec
import Idealize.ShloMosaic.Lib.ReduceAll
import Idealize.ShloMosaic.Lib.ValueIdx
import Idealize.ShloMosaic.Lib.Pipeline.Value

/-!
# The precondition, decoded

The printed predicate is a conjunction of eight "all entries" reductions: |x| < +∞ for the four float arrays,
0 ≤ x and x ≤ 4095 (read signed) for the three index lists, and adj = adjᵀ entrywise.  Stated to hold, it gives:
every index word is below 4096 read unsigned (for every float instance); at the extended reals every entry of
the feature array and of adj is a real number; and adj is symmetric.
-/

noncomputable section

namespace Cert.Proof.PreFacts

open Idealize.ShloMosaic Idealize.ShloMosaic.ValueIdx
open Cert.Pre_input_domain

instance : Subsingleton S_.Idx := ⟨fun a b => funext fun d => d.elim0⟩

/-- A conjunction of two one-bit scalars that is 1 has both conjuncts 1. -/
theorem and0 {x y : IVec S_ 1} (h : andi x y ix0 = 1#1) : x ix0 = 1#1 ∧ y ix0 = 1#1 := IntOp.andi_eq_one.1 h

/-- A boolean read as a one-bit word is 1 exactly when it is true. -/
theorem ofBool_eq_one {b : Bool} : BitVec.ofBool b = 1#1 ↔ b = true := by cases b <;> decide

/-- A word in [0, 4095] read signed is below 4096 read unsigned. -/
theorem toNat_lt_of_signed (w : BitVec 32) (h0 : IntOp.cmpi .sge w 0#32 = 1#1) (h1 : IntOp.cmpi .sle w 4095#32 = 1#1) :
    w.toNat < 4096 := by
  rw [IntOp.cmpi_sge] at h0
  rw [IntOp.cmpi_sle] at h1
  have z : (0#32 : BitVec 32).toInt = 0 := by decide
  have c : (4095#32 : BitVec 32).toInt = 4095 := by decide
  rw [z] at h0
  rw [c] at h1
  have hc := BitVec.toInt_eq_toNat_cond w
  have hl := w.isLt
  split at hc <;> omega

/-- The transposed array at (p, q) is the array at (q, p). -/
theorem transpose_ix2 {α : Type} (x : S4096x4096.Idx → α) (hT : S4096x4096.Transposes [1, 0] S4096x4096) (p q : Fin 4096) :
    transpose S4096x4096 [1, 0] x hT (ix2 p q) = x (ix2 q p) :=
  transpose_apply [1, 0] x hT (ix2 p q) (ix2 q p) fun b => match b with | ⟨0, _⟩ => rfl | ⟨1, _⟩ => rfl

/-- The predicate read back entry by entry, for every float instance: the two arrays the value equation reads are
    below +∞ in absolute value, the three lists are in range, adj compares equal to its transpose, and the weight and the
    bias are below +∞ in absolute value. -/
theorem split {F : FTy → Type} [FloatOps F]
    (a0 : FVec F S4096x7x1 .f32) (a1 : FVec F S4096x4096 .f32) (a2 a3 a4 : IVec S1024 32)
    (a5 : FVec F S1x64 .f32) (a6 : FVec F S64 .f32)
    (h : Cert.Pre_input_domain.fn (F := F) a0 a1 a2 a3 a4 a5 a6 = fun _ => 1#1) :
    (∀ i, FloatOps.cmpf .olt (FloatOps.hostAbsf (a0 i)) (FloatOps.ofBits (F := F) .f32 0x7F800000#32) = 1#1) ∧
    (∀ i, FloatOps.cmpf .olt (FloatOps.hostAbsf (a1 i)) (FloatOps.ofBits (F := F) .f32 0x7F800000#32) = 1#1) ∧
    Cert.Spec.InRange a2 ∧ Cert.Spec.InRange a3 ∧ Cert.Spec.InRange a4 ∧
    (∀ p q : Fin 4096, FloatOps.cmpf .oeq (a1 (ix2 p q)) (a1 (ix2 q p)) = 1#1) ∧
    (∀ i, FloatOps.cmpf .olt (FloatOps.hostAbsf (a5 i)) (FloatOps.ofBits (F := F) .f32 0x7F800000#32) = 1#1) ∧
    (∀ i, FloatOps.cmpf .olt (FloatOps.hostAbsf (a6 i)) (FloatOps.ofBits (F := F) .f32 0x7F800000#32) = 1#1) := by
  have e := congrFun h ix0
  unfold Cert.Pre_input_domain.fn at e
  dsimp only at e
  unfold Cert.Pre_input_domain.fn_part1 at e
  dsimp only at e
  unfold Cert.Pre_input_domain.fn_part2 at e
  dsimp only at e
  obtain ⟨e, eT⟩ := and0 e
  obtain ⟨e, e4⟩ := and0 e
  obtain ⟨e, e3⟩ := and0 e
  obtain ⟨e, e2⟩ := and0 e
  obtain ⟨e, e6⟩ := and0 e
  obtain ⟨e, e5⟩ := and0 e
  obtain ⟨e0, e1⟩ := and0 e
  have rng : ∀ a : IVec S1024 32,
      Host.reduce IntOp.andi
        (andi (cmpi CmpIPredicate.sge a (broadcastInDim S1024 ![] Facts.bcast_S_S1024 (constantI S_ 32 0#32)))
          (cmpi CmpIPredicate.sle a (broadcastInDim S1024 ![] Facts.bcast_S_S1024 (constantI S_ 32 4095#32))))
        (constantI S_ 1 1#1) Facts.reducesTo_S1024_S_d0 Facts.h_S_ ix0 = 1#1 → Cert.Spec.InRange a := by
    intro a ea j
    have hj := Host.reduce_andi_all _ _ _ _ _ ea (ix1 j)
    obtain ⟨h0, h1⟩ := IntOp.andi_eq_one.1 hj
    exact toNat_lt_of_signed (a (ix1 j)) h0 h1
  refine ⟨fun i => ?_, fun i => ?_, rng a2 e2, rng a3 e3, rng a4 e4, fun p q => ?_, fun i => ?_, fun i => ?_⟩
  · exact Host.reduce_andi_all _ _ _ _ _ e0 i
  · exact Host.reduce_andi_all _ _ _ _ _ e1 i
  · have hpq := Host.reduce_andi_all _ _ _ _ _ eT (ix2 p q)
    rw [cmpf_apply, transpose_ix2] at hpq
    exact hpq
  · exact Host.reduce_andi_all _ _ _ _ _ e5 i
  · exact Host.reduce_andi_all _ _ _ _ _ e6 i

theorem ranges {F : FTy → Type} [FloatOps F]
    (a0 : FVec F S4096x7x1 .f32) (a1 : FVec F S4096x4096 .f32) (a2 a3 a4 : IVec S1024 32)
    (a5 : FVec F S1x64 .f32) (a6 : FVec F S64 .f32)
    (h : Cert.Pre_input_domain.fn (F := F) a0 a1 a2 a3 a4 a5 a6 = fun _ => 1#1) :
    Cert.Spec.InRange a2 ∧ Cert.Spec.InRange a3 ∧ Cert.Spec.InRange a4 :=
  let s := split a0 a1 a2 a3 a4 a5 a6 h
  ⟨s.2.2.1, s.2.2.2.1, s.2.2.2.2.1⟩

/-- An extended real whose absolute value is below +∞ is a real number. -/
theorem real_of_abs_lt (x : EReal)
    (hx : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have top : Ideal.ofBits .f32 0x7F800000#32 = ⊤ := by simp [Ideal.ofBits, Ideal.ieee]
  change Ideal.cmp .olt (max x (-x)) (Ideal.ofBits .f32 0x7F800000#32) = 1#1 at hx
  rw [top] at hx
  induction x using EReal.rec with
  | bot => simp [Ideal.cmp] at hx
  | coe r => exact ⟨r, rfl⟩
  | top => simp [Ideal.cmp] at hx

theorem reals
    (a0 : FVec Ideal S4096x7x1 .f32) (a1 : FVec Ideal S4096x4096 .f32) (a2 a3 a4 : IVec S1024 32)
    (a5 : FVec Ideal S1x64 .f32) (a6 : FVec Ideal S64 .f32)
    (h : Cert.Pre_input_domain.fn (F := Ideal) a0 a1 a2 a3 a4 a5 a6 = fun _ => 1#1) :
    Cert.Spec.AllReal (s := Cert.Spec.SF) a0 ∧ Cert.Spec.AllReal (s := Cert.Spec.SA) a1 :=
  let s := split a0 a1 a2 a3 a4 a5 a6 h
  ⟨fun i => real_of_abs_lt (a0 i) (s.1 i), fun i => real_of_abs_lt (a1 i) (s.2.1 i)⟩

/-- The weight and the bias are real numbers too. -/
theorem reals_wb
    (a0 : FVec Ideal S4096x7x1 .f32) (a1 : FVec Ideal S4096x4096 .f32) (a2 a3 a4 : IVec S1024 32)
    (a5 : FVec Ideal S1x64 .f32) (a6 : FVec Ideal S64 .f32)
    (h : Cert.Pre_input_domain.fn (F := Ideal) a0 a1 a2 a3 a4 a5 a6 = fun _ => 1#1) :
    Cert.Spec.AllReal (s := Cert.Spec.SW) a5 ∧ Cert.Spec.AllReal (s := Cert.Spec.SB) a6 :=
  let s := split a0 a1 a2 a3 a4 a5 a6 h
  ⟨fun i => real_of_abs_lt (a5 i) (s.2.2.2.2.2.2.1 i), fun i => real_of_abs_lt (a6 i) (s.2.2.2.2.2.2.2 i)⟩

theorem symm
    (a0 : FVec Ideal S4096x7x1 .f32) (a1 : FVec Ideal S4096x4096 .f32) (a2 a3 a4 : IVec S1024 32)
    (a5 : FVec Ideal S1x64 .f32) (a6 : FVec Ideal S64 .f32)
    (h : Cert.Pre_input_domain.fn (F := Ideal) a0 a1 a2 a3 a4 a5 a6 = fun _ => 1#1) :
    Cert.Spec.Symm a1 := by
  intro p q
  have hpq := (split a0 a1 a2 a3 a4 a5 a6 h).2.2.2.2.2.1 p q
  change Ideal.cmp .oeq (a1 (ix2 p q)) (a1 (ix2 q p)) = 1#1 at hpq
  exact of_decide_eq_true (ofBool_eq_one.1 hpq)

end Cert.Proof.PreFacts

end
-- ==== Proof.PreAt.lean ====
import proofs.«201762_g83623013253620_cont_9to1_m_623_34_alg».proof.Defs
import proofs.«201762_g83623013253620_cont_9to1_m_623_34_alg».proof.Proof.PreFacts

/-!
# The decoded precondition, stated of an initial memory

The claims' preconditions say the printed predicate holds of the seven argument arrays a memory holds on every
device.  Here the decoded facts (index lists in range; at the extended reals the feature array and adj real, adj
symmetric, weight and bias real) are restated of those arrays.
-/

noncomputable section

namespace Cert.Proof.PreAt

open Idealize.ShloMosaic Idealize.SL.Sem
open Cert.Spec

/-- At the extended reals: the three lists in range, feature and adj real, adj symmetric. -/
theorem pre_ideal (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg2))
    ∧ InRange (m ((c.tc : Thread Cert.KernelIdeal.nD Cert.KernelIdeal.τ).loc Cert.KernelIdeal.main_arg3))
    ∧ InRange (m ((c.tc : Thread Cert.KernelIdeal.nD Cert.KernelIdeal.τ).loc Cert.KernelIdeal.main_arg4))
    ∧ AllReal (s := SF) (m ((c.tc : Thread Cert.KernelIdeal.nD Cert.KernelIdeal.τ).loc Cert.KernelIdeal.main_arg0))
    ∧ AllReal (s := SA) (m ((c.tc : Thread Cert.KernelIdeal.nD Cert.KernelIdeal.τ).loc Cert.KernelIdeal.main_arg1))
    ∧ Symm (m ((c.tc : Thread Cert.KernelIdeal.nD Cert.KernelIdeal.τ).loc Cert.KernelIdeal.main_arg1)) :=
  have r := Cert.Proof.PreFacts.ranges _ _ _ _ _ _ _ (h c)
  have q := Cert.Proof.PreFacts.reals _ _ _ _ _ _ _ (h c)
  ⟨r.1, r.2.1, r.2.2, q.1, q.2, Cert.Proof.PreFacts.symm _ _ _ _ _ _ _ (h c)⟩

/-- At the extended reals: weight and bias real. -/
theorem pre_ideal_wb (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := SW) (m ((c.tc : Thread Cert.KernelIdeal.nD Cert.KernelIdeal.τ).loc Cert.KernelIdeal.main_arg5))
    ∧ AllReal (s := SB) (m ((c.tc : Thread Cert.KernelIdeal.nD Cert.KernelIdeal.τ).loc Cert.KernelIdeal.main_arg6)) :=
  Cert.Proof.PreFacts.reals_wb _ _ _ _ _ _ _ (h c)

/-- At the bit-exact instance: the three lists in range. -/
theorem pre_bits (m : (ℓ : Loc Cert.Kernel.nD Cert.Kernel.τ Cert.Kernel.sig) → Buf (Elt Bits) ℓ)
    (h : Cert.Pre_Kernel m) (c : Dev Cert.Kernel.nD) :
    InRange (m ((c.tc : Thread Cert.Kernel.nD Cert.Kernel.τ).loc Cert.Kernel.main_arg2))
    ∧ InRange (m ((c.tc : Thread Cert.Kernel.nD Cert.Kernel.τ).loc Cert.Kernel.main_arg3))
    ∧ InRange (m ((c.tc : Thread Cert.Kernel.nD Cert.Kernel.τ).loc Cert.Kernel.main_arg4)) :=
  Cert.Proof.PreFacts.ranges _ _ _ _ _ _ _ (h c)

end Cert.Proof.PreAt

end
-- ==== Proof.Hist.lean ====
import proofs.«201762_g83623013253620_cont_9to1_m_623_34_alg».proof.KernelIdeal
import Idealize.ShloMosaic.Lib.ValueIdx

/-!
The histogram a role tile builds, for any float instance: starting from the all-zero accumulator,
64 steps; step `k` takes the 16 list words `16k … 16k+15` and adds one at the element each word names
(an indexed store with accumulation).  A step whose words do not all name an element is the identity
(the precondition excludes it; the program has no step there).
-/

noncomputable section

namespace Cert.Proof.KI

open Cert.KernelIdeal Idealize.ShloMosaic Idealize.ShloMosaic.ValueIdx

variable {F : FTy → Type} [FloatOps F]

/-- The 16 words of the list read at trip `k`. -/
def chunk (idx : IVec S1024 32) (k : ℕ) : IVec S16 32 :=
  fun x => idx (ix1 ⟨(16 * k + (x 0).val) % 1024, Nat.mod_lt _ (by decide)⟩)

/-- The vector of ones the tile adds. -/
def ones16 : FVec F S16 .f32 := broadcast S16 (Scalar.ofBits (F := F) .f32 0x3F800000#32)

/-- The all-zero accumulator. -/
def zeros4096 : Vec F S4096 .f32 := fun _ => Scalar.ofBits (F := F) .f32 0x00000000#32

/-- One trip: add one at every element the 16 words name. -/
def histStep (acc : Vec F S4096 .f32) (iv : IVec S16 32) : Vec F S4096 .f32 :=
  if h : ∀ a x, ((![iv] : Fin 1 → IVec S16 32) a x).toNat < S4096.size a then
    storeIdx acc ![iv] (ones16 (F := F)) (fun _ => 1#1) true h
  else acc

/-- The accumulator before trip `k`. -/
def histN (idx : IVec S1024 32) : ℕ → Vec F S4096 .f32
  | 0 => zeros4096
  | k + 1 => histStep (histN idx k) (chunk idx k)

/-- The histogram of a 1024-entry list. -/
def hist (idx : IVec S1024 32) : Vec F S4096 .f32 := histN idx 64

theorem histN_succ (idx : IVec S1024 32) (k : ℕ) : histN (F := F) idx (k + 1) = histStep (histN idx k) (chunk idx k) := rfl

end Cert.Proof.KI

end
-- ==== Proof.LibStoreIdxAdd.lean ====
import Idealize.ShloMosaic.PureOps.Ideal

/-!
# An indexed store with accumulation, read at an element (extended reals)

A vector subcore's indexed store with `add` takes the lanes of the stored vector in ascending order and adds
lane `k` onto the element its indices name.  On the extended reals addition is associative and commutative,
so the order does not matter: the element at `j` ends at its old value plus the sum of the lanes that name `j`.
With a vector of ones this is the old value plus the NUMBER of lanes naming `j` — a histogram step.
-/

noncomputable section

namespace Cert.Lib.StoreIdxAdd

open Idealize.ShloMosaic

variable {s : Shape} {d : Fin 1 → Nat}

/-- What lane `k` adds onto element `j`: its value when its indices name `j`, nothing otherwise. -/
def lane (idxs : Fin s.rank → IVec ⟨1, d⟩ 32) (v : Vec Ideal ⟨1, d⟩ .f32) (h : ∀ a x, (idxs a x).toNat < s.size a)
    (j : s.Idx) (k : Fin (d 0)) : EReal :=
  if idxAt idxs h (Shape.ofLane k) = j then v (Shape.ofLane k) else 0

theorem idx_eq_iff (i j : s.Idx) : (∀ a, (j a).val = (i a).val) ↔ i = j :=
  ⟨fun e => funext fun a => Fin.ext (e a).symm, fun e a => by rw [e]⟩

/-- The fold over any list of lanes, read at `j`. -/
theorem foldl_apply (idxs : Fin s.rank → IVec ⟨1, d⟩ 32) (v : Vec Ideal ⟨1, d⟩ .f32) (h : ∀ a x, (idxs a x).toNat < s.size a)
    (j : s.Idx) (l : List (Fin (d 0))) (f : Vec Ideal s .f32) :
    (l.foldl (fun (g : Vec Ideal s .f32) k =>
        (fun j' => if (∀ a, (j' a).val = ((idxAt idxs h (Shape.ofLane k)) a).val)
          then Elt.idxAdd (F := Ideal) .f32 (g (idxAt idxs h (Shape.ofLane k))) (v (Shape.ofLane k)) else g j' : Vec Ideal s .f32)) f) j
      = f j + (l.map (lane idxs v h j)).sum := by
  induction l generalizing f with
  | nil => simp
  | cons k l ih =>
    rw [List.foldl_cons, ih, List.map_cons, List.sum_cons, ← add_assoc]
    congr 1
    unfold lane
    by_cases e : idxAt idxs h (Shape.ofLane k) = j
    · rw [if_pos ((idx_eq_iff _ _).mpr e), if_pos e, e]; rfl
    · rw [if_neg (fun c => e ((idx_eq_iff _ _).mp c)), if_neg e, add_zero]

/-- **The indexed store with accumulation at an element**: the old value plus the lanes that name it. -/
theorem storeIdx_add_apply (f : Vec Ideal s .f32) (idxs : Fin s.rank → IVec ⟨1, d⟩ 32) (v : Vec Ideal ⟨1, d⟩ .f32)
    (h : ∀ a x, (idxs a x).toNat < s.size a) (j : s.Idx) :
    storeIdx (F := Ideal) f idxs v (fun _ => 1#1) true h j = f j + ∑ k : Fin (d 0), lane idxs v h j k := by
  rw [Fin.sum_univ_def]
  exact foldl_apply idxs v h j (List.finRange (d 0)) f

/-- Adding one `n` times on the extended reals gives the real number `n`. -/
theorem nsmul_one (n : ℕ) : n • (1 : EReal) = ((n : ℝ) : EReal) := by
  induction n with
  | zero => simp
  | succ n ih => rw [succ_nsmul, ih, Nat.cast_succ, EReal.coe_add, EReal.coe_one]

/-- With a vector of ones: the old value plus the number of lanes naming the element. -/
theorem storeIdx_add_ones_apply (f : Vec Ideal s .f32) (idxs : Fin s.rank → IVec ⟨1, d⟩ 32) (v : Vec Ideal ⟨1, d⟩ .f32)
    (hv : ∀ x, v x = 1) (h : ∀ a x, (idxs a x).toNat < s.size a) (j : s.Idx) :
    storeIdx (F := Ideal) f idxs v (fun _ => 1#1) true h j
      = f j + ((Finset.univ.filter fun k : Fin (d 0) => idxAt idxs h (Shape.ofLane k) = j).card : ℝ) := by
  rw [storeIdx_add_apply]
  congr 1
  unfold lane
  simp only [hv]
  rw [Finset.sum_ite, Finset.sum_const_zero, add_zero, Finset.sum_const, nsmul_one]

end Cert.Lib.StoreIdxAdd

end
-- ==== Proof.HistVal.lean ====
import proofs.«201762_g83623013253620_cont_9to1_m_623_34_alg».proof.Proof.Hist
import proofs.«201762_g83623013253620_cont_9to1_m_623_34_alg».proof.Proof.Spec
import proofs.«201762_g83623013253620_cont_9to1_m_623_34_alg».proof.Proof.LibStoreIdxAdd

/-!
# The histogram's value on the extended reals

Starting from zero, each of the 64 steps adds one at the element each of its 16 list words names.  Reading
element `m` after `K` steps gives the number of list positions `j < 16K` whose word names `m`: one step adds the
number of its lanes naming `m`, and lane `k` of step `K` is list position `16K + k`.  After 64 steps every
position has been counted: the value is `cnt idx m` as a real number.
-/

noncomputable section

namespace Cert.Proof.HistVal

open Cert.KernelIdeal Idealize.ShloMosaic Idealize.ShloMosaic.ValueIdx Cert.Proof.KI

/-! ## The two literals -/

/-- The word `0x3F800000` denotes `1`. -/
theorem ofBits_one : Ideal.ofBits .f32 0x3F800000#32 = 1 := by
  simp [Ideal.ofBits, Ideal.ieee, -EReal.coe_mul]; norm_num

/-- The all-zero word denotes `0`. -/
theorem ofBits_zero : Ideal.ofBits .f32 0x00000000#32 = 0 := by
  simp [Ideal.ofBits, Ideal.ieee]

/-! ## Counting positions below a bound -/

/-- How many list positions `j < 16K` hold a word naming `m`. -/
def cntUpTo (idx : IVec S1024 32) (K : ℕ) (m : Fin 4096) : ℕ :=
  (Finset.univ.filter fun j : Fin 1024 => j.val < 16 * K ∧ (idx (ix1 j)).toNat = m.val).card

/-- How many of the 16 lanes of step `K` hold a word naming `m`. -/
def cntLanes (idx : IVec S1024 32) (K : ℕ) (m : Fin 4096) : ℕ :=
  (Finset.univ.filter fun k : Fin 16 => (chunk idx K (Shape.ofLane (d := ![16]) k)).toNat = m.val).card

theorem cntUpTo_zero (idx : IVec S1024 32) (m : Fin 4096) : cntUpTo idx 0 m = 0 := by
  unfold cntUpTo
  rw [Finset.card_eq_zero, Finset.filter_eq_empty_iff]
  intro j _ hj
  exact absurd hj.1 (by omega)

theorem cntUpTo_full (idx : IVec S1024 32) (m : Fin 4096) : cntUpTo idx 64 m = Cert.Spec.cnt idx m := by
  unfold cntUpTo Cert.Spec.cnt
  congr 1
  refine Finset.filter_congr fun j _ => ?_
  have := j.isLt
  constructor
  · exact fun e => e.2
  · exact fun e => ⟨by omega, e⟩

/-- Lane `k` of step `K` reads list position `16K + k`. -/
theorem chunk_lane (idx : IVec S1024 32) (K : ℕ) (hK : K < 64) (k : Fin 16) :
    chunk idx K (Shape.ofLane (d := ![16]) k) = idx (ix1 ⟨16 * K + k.val, by have := k.isLt; omega⟩) := by
  unfold chunk
  congr 2
  apply Fin.ext
  show (16 * K + k.val) % 1024 = 16 * K + k.val
  have := k.isLt
  exact Nat.mod_eq_of_lt (by omega)

/-- Step `K` counts the positions `16K … 16K+15`. -/
theorem cntUpTo_succ (idx : IVec S1024 32) (K : ℕ) (hK : K < 64) (m : Fin 4096) :
    cntUpTo idx (K + 1) m = cntUpTo idx K m + cntLanes idx K m := by
  unfold cntUpTo cntLanes
  have hsplit : (Finset.univ.filter fun j : Fin 1024 => j.val < 16 * (K + 1) ∧ (idx (ix1 j)).toNat = m.val)
      = (Finset.univ.filter fun j : Fin 1024 => j.val < 16 * K ∧ (idx (ix1 j)).toNat = m.val)
        ∪ (Finset.univ.filter fun j : Fin 1024 => (16 * K ≤ j.val ∧ j.val < 16 * K + 16) ∧ (idx (ix1 j)).toNat = m.val) := by
    ext j
    simp only [Finset.mem_union, Finset.mem_filter, Finset.mem_univ, true_and]
    constructor
    · rintro ⟨h1, h2⟩
      by_cases hj : j.val < 16 * K
      · exact Or.inl ⟨hj, h2⟩
      · exact Or.inr ⟨⟨by omega, by omega⟩, h2⟩
    · rintro (⟨h1, h2⟩ | ⟨⟨h1, h1'⟩, h2⟩)
      · exact ⟨by omega, h2⟩
      · exact ⟨by omega, h2⟩
  have hdisj : Disjoint
      (Finset.univ.filter fun j : Fin 1024 => j.val < 16 * K ∧ (idx (ix1 j)).toNat = m.val)
      (Finset.univ.filter fun j : Fin 1024 => (16 * K ≤ j.val ∧ j.val < 16 * K + 16) ∧ (idx (ix1 j)).toNat = m.val) :=
    Finset.disjoint_filter.mpr fun j _ h1 h2 => by omega
  rw [hsplit, Finset.card_union_of_disjoint hdisj]
  congr 1
  symm
  -- lane `k` of step `K` is list position `16K + k`
  refine Finset.card_bij (fun k _ => (⟨16 * K + k.val, by have := k.isLt; omega⟩ : Fin 1024)) ?_ ?_ ?_
  · intro k hk
    rw [Finset.mem_filter] at hk ⊢
    have := k.isLt
    refine ⟨Finset.mem_univ _, ⟨Nat.le_add_right _ _, by show 16 * K + k.val < 16 * K + 16; omega⟩, ?_⟩
    rw [← chunk_lane idx K hK k]; exact hk.2
  · intro k _ k' _ e
    have e' : 16 * K + k.val = 16 * K + k'.val := congrArg Fin.val e
    exact Fin.ext (by omega)
  · intro j hj
    rw [Finset.mem_filter] at hj
    obtain ⟨_, ⟨h1, h2⟩, h3⟩ := hj
    refine ⟨⟨j.val - 16 * K, by omega⟩, ?_, ?_⟩
    · rw [Finset.mem_filter]
      refine ⟨Finset.mem_univ _, ?_⟩
      rw [chunk_lane idx K hK]
      have e : (⟨16 * K + (j.val - 16 * K), by omega⟩ : Fin 1024) = j := Fin.ext (by show 16 * K + (j.val - 16 * K) = j.val; omega)
      rw [e]; exact h3
    · exact Fin.ext (by show 16 * K + (j.val - 16 * K) = j.val; omega)

/-! ## The accumulator after `K` steps -/

theorem chunk_inRange (idx : IVec S1024 32) (h : Cert.Spec.InRange idx) (K : ℕ) :
    ∀ a x, ((![chunk idx K] : Fin 1 → IVec S16 32) a x).toNat < S4096.size a := by
  intro a x
  have ha : a = 0 := Fin.eq_zero a
  subst ha
  exact h _

theorem histN_eq (idx : IVec S1024 32) (h : Cert.Spec.InRange idx) (m : Fin 4096) :
    ∀ K, K ≤ 64 → histN (F := Ideal) idx K (ix1 m) = (((cntUpTo idx K m : ℕ) : ℝ) : EReal) := by
  intro K
  induction K with
  | zero =>
    intro _
    rw [cntUpTo_zero]
    show Ideal.ofBits .f32 0x00000000#32 = _
    rw [ofBits_zero]; simp
  | succ K ih =>
    intro hK
    have hK' : K < 64 := by omega
    rw [histN_succ]
    unfold histStep
    have hv : ∀ x : S16.Idx, (ones16 (F := Ideal)) x = 1 := fun _ => ofBits_one
    rw [dif_pos (chunk_inRange idx h K),
      Cert.Lib.StoreIdxAdd.storeIdx_add_ones_apply _ _ (ones16 (F := Ideal)) hv _ _, ih (by omega),
      cntUpTo_succ idx K hK' m, Nat.cast_add, EReal.coe_add]
    congr 3
    unfold cntLanes
    congr 1
    refine Finset.filter_congr fun k _ => ?_
    constructor
    · intro e
      exact congrArg Fin.val (congrFun e 0)
    · intro e
      funext a
      have ha : a = 0 := Fin.eq_zero a
      subst ha
      exact Fin.ext e

/-- **The histogram at an element** is the number of list entries naming it. -/
theorem hist_eq_cnt (idx : IVec Cert.KernelIdeal.S1024 32) (h : Cert.Spec.InRange idx) (mm : Fin 4096) :
    Cert.Proof.KI.hist (F := Ideal) idx (ix1 mm) = (((Cert.Spec.cnt idx mm : ℕ) : ℝ) : EReal) := by
  unfold hist
  rw [histN_eq idx h mm 64 (le_refl _), cntUpTo_full]

end Cert.Proof.HistVal

end
-- ==== Proof.Common.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«201762_g83623013253620_cont_9to1_m_623_34_alg».proof.Proof.Gen.KernelIdeal
import proofs.«201762_g83623013253620_cont_9to1_m_623_34_alg».proof.Proof.Gen.KernelIdeal.Skeleton

/-!
The program as the launch of its 35 threads sees it, for any float instance: one SparseCore call
(a vector-subcore kernel on 2 × 16 tiles) and one TensorCore pipeline.  The ghost state is a product:
the handshakes' rounds, the pipeline's cells' rounds, and the counters of the tiles' own copies
(each copy is waited for at once, so no schedule is needed for them).
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UR : Type := URounds (GSem nD τ sig) Unit
abbrev UU : Type := UH × (UR × Counters)

abbrev EH : Emb UH (MT nD τ sig (HIx 1) (Elt F) ℕ UU ℕ) := embL

end Cert.Proof.KI

end
-- ==== Proof.CommonP.lean ====
import proofs.«201762_g83623013253620_cont_9to1_m_623_34_alg».proof.Proof.Common
import proofs.«201762_g83623013253620_cont_9to1_m_623_34_alg».proof.Proof.Hist

/-!
What the SparseCore call's handshakes carry.  Role tile `r ∈ {0, 1, 2}` is the tile with
`2·subcore + core = r`: (core, subcore) = (0,0), (1,0), (0,1).  It is handed its role's index list
(leaders, nonmembers, members) whole and row `r` of the 3 × 4096 counts array, and hands back the
list unchanged and the row holding the list's histogram.  The other 29 tiles are handed nothing.
-/

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A tile's grid coordinates from its core and subcore. -/
def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0

variable (m : (ℓ : Loc nD τ sig) → Buf (Elt F) ℓ)

abbrev leadLoc (d : Dev nD) : Loc nD τ sig := (SparseCore.T d).loc main_arg4
abbrev nonmLoc (d : Dev nD) : Loc nD τ sig := (SparseCore.T d).loc main_arg3
abbrev memLoc (d : Dev nD) : Loc nD τ sig := (SparseCore.T d).loc main_arg2
abbrev cntLoc (d : Dev nD) : Loc nD τ sig := (SparseCore.T d).loc main_v2

/-- Row `r` of the counts array: the indices whose first coordinate is `r`. -/
def rowSet (r : ℕ) : Finset S3x4096.Idx := Finset.univ.filter fun y => (y 0).val = r

variable [FloatOps F]

/-- The counts array after the call: row 0 the leaders' histogram, row 1 the nonmembers', row 2 the members'. -/
def CNT (d : Dev nD) : Buf (Elt F) (cntLoc d) :=
  fun (y : S3x4096.Idx) =>
    if (y 0).val = 0 then hist (F := F) (m (leadLoc d)) (ix1 (y 1))
    else if (y 0).val = 1 then hist (F := F) (m (nonmLoc d)) (ix1 (y 1))
    else hist (F := F) (m (memLoc d)) (ix1 (y 1))

abbrev leadPts (d : Dev nD) : sProp 𝕄 := leadLoc d ↦{fullShare} m (leadLoc d)
abbrev nonmPts (d : Dev nD) : sProp 𝕄 := nonmLoc d ↦{fullShare} m (nonmLoc d)
abbrev memPts (d : Dev nD) : sProp 𝕄 := memLoc d ↦{fullShare} m (memLoc d)
abbrev rowPts (d : Dev nD) (r : ℕ) (f : Buf (Elt F) (cntLoc d)) : sProp 𝕄 := cntLoc d ↦[rowSet r]{fullShare} f

/-- What the tile with number `w = 2·subcore + core` is handed (`f` the counts array's contents then). -/
def tileRes (d : Dev nD) (w : ℕ) (f : Buf (Elt F) (cntLoc d)) : sProp 𝕄 :=
  if w = 0 then iprop(leadPts m d ∗ rowPts d 0 f)
  else if w = 1 then iprop(nonmPts m d ∗ rowPts d 1 f)
  else if w = 2 then iprop(memPts m d ∗ rowPts d 2 f)
  else iprop(emp)

/-- What SparseCore `c` is handed: its tiles' shares (core 0 runs roles 0 and 2, core 1 role 1). -/
def coreRes (d : Dev nD) (c : ℕ) (f : Buf (Elt F) (cntLoc d)) : sProp 𝕄 :=
  if c = 0 then iprop((leadPts m d ∗ rowPts d 0 f) ∗ (memPts m d ∗ rowPts d 2 f))
  else iprop(nonmPts m d ∗ rowPts d 1 f)

instance tileRes_storable (d : Dev nD) (w : ℕ) (f : Buf (Elt F) (cntLoc d)) : BI.Storable (upEmb : UEmb _ 𝕄) (tileRes m d w f) := by
  unfold tileRes; split
  · infer_instance
  · split
    · infer_instance
    · split <;> infer_instance
instance coreRes_storable (d : Dev nD) (c : ℕ) (f : Buf (Elt F) (cntLoc d)) : BI.Storable (upEmb : UEmb _ 𝕄) (coreRes m d c f) := by
  unfold coreRes; split <;> infer_instance

/-- The one call's payloads: in, the counts array at its launch contents; out, at the histograms. -/
def P : (K (F := F)).Pay (nD := nD) (Val := Elt F) (Name := ℕ) (U := UU) where
  st := fun _ d c => coreRes m d c.val (m (cntLoc d))
  dn := fun _ d c => coreRes m d c.val (CNT m d)
  go := fun _ d c i => tileRes m d (2 * i.val + c.val) (m (cntLoc d))
  td := fun _ d c i => tileRes m d (2 * i.val + c.val) (CNT m d)
  x := fun _ _ => iprop(emp)

instance P_storable : (P (F := F) m).IsStorable where
  st _ d c := by unfold P; infer_instance
  dn _ d c := by unfold P; infer_instance
  go _ d c i := by unfold P; infer_instance
  td _ d c i := by unfold P; infer_instance

end Cert.Proof.KI

end
-- ==== Proof.HostVal.lean ====
/-
  The host stages of the kernel program's entry function, as pure functions of the argument arrays at the
  ideal values, each read at an index:

  * `ftOf`   : the feature array [4096, 7, 1] reshaped to [4096, 7] and transposed: (f, m) ↦ feature (m, f, 0);
  * `eyeOf`  : the 28 × 28 identity matrix, built as the conversion of "row number + 0 = column number";
  * `kronOf` : the Kronecker product of a 28 × 28 matrix with a 1 × 64 row, as a 28 × 1792 matrix;
  * `w2tOf`  : the transposed Kronecker product of the identity with the weight row, narrowed (the identity on
               extended reals): row k·64 + o, column k' holds [k = k'] · weight (0, o);
  * `btOf`   : the bias row repeated 28 times as a column of 1792 entries: row k·64 + o holds bias o;
  * `outOf`  : a [1792, 4096] array reshaped to [28, 64, 4096] and transposed to [4096, 28, 64]:
               (p, k, o) ↦ x (k·64 + o, p).
-/
import proofs.«201762_g83623013253620_cont_9to1_m_623_34_alg».proof.KernelIdeal
import proofs.«201762_g83623013253620_cont_9to1_m_623_34_alg».proof.Proof.Gen.KernelIdeal
import Idealize.ShloMosaic.Lib.ValueIdx
import Idealize.ShloMosaic.Lib.Pipeline.Value
import Idealize.ShloMosaic.Lib.ValueLayout
import Idealize.ShloMosaic.Lib.IdealHost

noncomputable section

namespace Cert.Proof.HostVal

open Cert.KernelIdeal Cert.KernelIdeal.Facts₀ Cert.KernelIdeal.Facts
open Idealize.ShloMosaic Idealize.ShloMosaic.ValueIdx

/-! ## The stages -/

/-- The feature array with its unit axis dropped, transposed: a [7, 4096] matrix. -/
def ftOf (feat : FVec Ideal S4096x7x1 .f32) : FVec Ideal S7x4096 .f32 :=
  transpose S7x4096 [1, 0] (shapeCast S4096x7 feat shapeCasts_S4096x7x1_S4096x7) transposes_S4096x7_S7x4096_1_0

/-- The 28 × 28 identity: the conversion of the bit "row number + 0 = column number". -/
def eyeOf : FVec Ideal S28x28 .f32 :=
  uitofp (F := Ideal) .f32
    (cmpi .eq
      (addi (iotaInDim S28x28 32 0) (broadcastInDim S28x28 ![] bcast_S_S28x28 (constantI S_ 32 0#32)))
      (iotaInDim S28x28 32 1))

/-- The Kronecker product of a 28 × 28 matrix `e` and a 1 × 64 row `w`: entry (a, c·64 + d) is e (a, c) · w (0, d). -/
def kronOf (e : FVec Ideal S28x28 .f32) (w : FVec Ideal S1x64 .f32) : FVec Ideal S28x1792 .f32 :=
  shapeCast S28x1792
    (mulf
      (broadcastInDim S28x1x28x64 ![0, 1, 2, 3] bcast_S28x1x28x1_S28x1x28x64_0_1_2_3
        (broadcastInDim S28x1x28x1 ![0, 2] bcast_S28x28_S28x1x28x1_0_2 e))
      (broadcastInDim S28x1x28x64 ![0, 1, 2, 3] bcast_S1x1x1x64_S28x1x28x64_0_1_2_3
        (broadcastInDim S1x1x1x64 ![1, 3] bcast_S1x64_S1x1x1x64_1_3 w)))
    shapeCasts_S28x1x28x64_S28x1792

/-- The transposed Kronecker product of the identity with the weight row, narrowed: a [1792, 28] matrix. -/
def w2tOf (w : FVec Ideal S1x64 .f32) : FVec Ideal S1792x28 .bf16 :=
  truncf .bf16 (transpose S1792x28 [1, 0] (kronOf eyeOf w) transposes_S28x1792_S1792x28_1_0) bitsLt_bf16_f32

/-- The bias row repeated down 28 rows and laid out as a column of 1792 entries. -/
def btOf (b : FVec Ideal S64 .f32) : FVec Ideal S1792x1 .f32 :=
  shapeCast S1792x1
    (shapeCast S1792
      (broadcastInDim S28x64 ![0, 1] bcast_S1x64_S28x64_0_1 (shapeCast S1x64 b shapeCasts_S64_S1x64))
      shapeCasts_S28x64_S1792)
    shapeCasts_S1792_S1792x1

/-- A [1792, 4096] array split into [28, 64, 4096] and transposed to [4096, 28, 64]. -/
def outOf (x : FVec Ideal S1792x4096 .f32) : FVec Ideal S4096x28x64 .f32 :=
  transpose S4096x28x64 [2, 0, 1] (shapeCast S28x64x4096 x shapeCasts_S1792x4096_S28x64x4096)
    transposes_S28x64x4096_S4096x28x64_2_0_1

/-! ## The stages read at an index -/

/-- Row k·64 + o of a 1792-row array, for k below 28 and o below 64. -/
abbrev row (k : Fin 28) (o : Fin 64) : Fin 1792 := ⟨k.val * 64 + o.val, by have := k.isLt; have := o.isLt; omega⟩

/-- (H1) the transposed features at (f, m) are the feature array at (m, f, 0). -/
theorem ftOf_apply (feat : FVec Ideal S4096x7x1 .f32) (f : Fin 7) (m : Fin 4096) :
    ftOf feat (ix2 f m) = feat (ix3 m f (0 : Fin 1)) := by
  unfold ftOf
  refine (transpose_ix2_apply _ _ f m).trans ?_
  refine shapeCast_apply _ _ (ix2 m f) (ix3 m f (0 : Fin 1)) ?_
  rw [Shape.rowMajor_val_three, Shape.rowMajor_val_two]
  show (m.val * 7 + f.val) * 1 + 0 = m.val * 7 + f.val
  omega

/-- The bit "a + 0 = c" of two numbers below 28, as 32-bit words, is the bit of a = c. -/
theorem eyeBit (a c : Fin 28) :
    IntOp.cmpi .eq (IntOp.addi (BitVec.ofNat 32 a.val) 0#32) (BitVec.ofNat 32 c.val) = if a = c then 1#1 else 0#1 := by
  unfold IntOp.cmpi IntOp.addi
  rw [BitVec.add_zero]
  by_cases h : a = c
  · subst h; simp
  · rw [if_neg h]
    have hne : BitVec.ofNat 32 a.val ≠ BitVec.ofNat 32 c.val := by
      intro he
      have h2 := congrArg BitVec.toNat he
      rw [BitVec.toNat_ofNat, BitVec.toNat_ofNat] at h2
      have ha := a.isLt; have hc := c.isLt
      apply h; apply Fin.ext; omega
    show BitVec.ofBool (BitVec.ofNat 32 a.val == BitVec.ofNat 32 c.val) = 0#1
    rw [beq_eq_false_iff_ne.mpr hne]
    rfl

/-- The identity matrix at (a, c) is 1 on the diagonal and 0 off it. -/
theorem eyeOf_apply (a c : Fin 28) : eyeOf (ix2 a c) = if a = c then (1 : EReal) else 0 := by
  show ((((IntOp.cmpi .eq (IntOp.addi (BitVec.ofNat 32 a.val) 0#32) (BitVec.ofNat 32 c.val)).toNat : ℕ) : ℝ) : EReal) = _
  rw [eyeBit]
  by_cases h : a = c
  · rw [if_pos h, if_pos h]; simp
  · rw [if_neg h, if_neg h]; simp

/-- The Kronecker product at (a, c·64 + d) is e (a, c) · w (0, d). -/
theorem kronOf_apply (e : FVec Ideal S28x28 .f32) (w : FVec Ideal S1x64 .f32) (a c : Fin 28) (d : Fin 64) :
    kronOf e w (ix2 a (row c d)) = e (ix2 a c) * w (ix2 (0 : Fin 1) d) := by
  unfold kronOf
  refine (shapeCast_apply _ _ (ix2 a (row c d)) (ix4 a (0 : Fin 1) c d) ?_).trans ?_
  · rw [Shape.rowMajor_val_four, Shape.rowMajor_val_two]
    show ((a.val * 1 + 0) * 28 + c.val) * 64 + d.val = a.val * 1792 + (c.val * 64 + d.val)
    omega
  rw [mulf_apply]
  congr 1
  · refine (broadcastInDim_apply _ _ _ (ix4 a (0 : Fin 1) c d) (ix4 a (0 : Fin 1) c (0 : Fin 1))
      (fun b => match b with | ⟨0, _⟩ => rfl | ⟨1, _⟩ => rfl | ⟨2, _⟩ => rfl | ⟨3, _⟩ => rfl)).trans ?_
    exact broadcastInDim_apply _ _ _ (ix4 a (0 : Fin 1) c (0 : Fin 1)) (ix2 a c)
      (fun b => match b with | ⟨0, _⟩ => rfl | ⟨1, _⟩ => rfl)
  · refine (broadcastInDim_apply _ _ _ (ix4 a (0 : Fin 1) c d) (ix4 (0 : Fin 1) (0 : Fin 1) (0 : Fin 1) d)
      (fun b => match b with | ⟨0, _⟩ => rfl | ⟨1, _⟩ => rfl | ⟨2, _⟩ => rfl | ⟨3, _⟩ => rfl)).trans ?_
    exact broadcastInDim_apply _ _ _ (ix4 (0 : Fin 1) (0 : Fin 1) (0 : Fin 1) d) (ix2 (0 : Fin 1) d)
      (fun b => match b with | ⟨0, _⟩ => rfl | ⟨1, _⟩ => rfl)

/-- (H2) the transposed Kronecker product at (k·64 + o, k') is [k = k'] · weight (0, o). -/
theorem w2tOf_apply (w : FVec Ideal S1x64 .f32) (k k' : Fin 28) (o : Fin 64) :
    w2tOf w (ix2 (row k o) k') = (if k = k' then (1 : EReal) else 0) * w (ix2 (0 : Fin 1) o) := by
  unfold w2tOf
  rw [truncf_apply]
  refine (transpose_ix2_apply _ _ (row k o) k').trans ?_
  rw [kronOf_apply, eyeOf_apply]
  by_cases h : k = k'
  · rw [if_pos h, if_pos h.symm]
  · rw [if_neg h, if_neg (fun h' => h h'.symm)]

/-- (H3) the bias column at row k·64 + o is bias o. -/
theorem btOf_apply (b : FVec Ideal S64 .f32) (k : Fin 28) (o : Fin 64) :
    btOf b (ix2 (row k o) (0 : Fin 1)) = b (ix1 o) := by
  unfold btOf
  refine (shapeCast_apply _ _ (ix2 (row k o) (0 : Fin 1)) (ix1 (row k o)) ?_).trans ?_
  · rw [Shape.rowMajor_val_one, Shape.rowMajor_val_two]
    show k.val * 64 + o.val = (k.val * 64 + o.val) * 1 + 0
    omega
  refine (shapeCast_apply _ _ (ix1 (row k o)) (ix2 k o) ?_).trans ?_
  · rw [Shape.rowMajor_val_one, Shape.rowMajor_val_two]
    show k.val * 64 + o.val = k.val * 64 + o.val
    rfl
  refine (broadcastInDim_apply _ _ _ (ix2 k o) (ix2 (0 : Fin 1) o)
    (fun a => match a with | ⟨0, _⟩ => rfl | ⟨1, _⟩ => rfl)).trans ?_
  exact shapeCast_a_1a_apply _ _ (0 : Fin 1) o

/-- (H4) the result at (p, k, o) is the [1792, 4096] array at (k·64 + o, p). -/
theorem outOf_apply (x : FVec Ideal S1792x4096 .f32) (p : Fin 4096) (k : Fin 28) (o : Fin 64) :
    outOf x (ix3 p k o) = x (ix2 (row k o) p) := by
  unfold outOf
  refine (transpose_apply _ _ _ (ix3 p k o) (ix3 k o p)
    (fun b => match b with | ⟨0, _⟩ => rfl | ⟨1, _⟩ => rfl | ⟨2, _⟩ => rfl)).trans ?_
  refine shapeCast_apply _ _ (ix3 k o p) (ix2 (row k o) p) ?_
  rw [Shape.rowMajor_val_two, Shape.rowMajor_val_three]
  show (k.val * 64 + o.val) * 4096 + p.val = (k.val * 64 + o.val) * 4096 + p.val
  rfl

/-! ## Rows of a 1792-row array, and the stages composed -/

/-- Every row of a 1792-row array is row k·64 + o for one k below 28 and one o below 64. -/
theorem exists_row (r : Fin 1792) : ∃ (k : Fin 28) (o : Fin 64), r = row k o :=
  ⟨⟨r.val / 64, by have := r.isLt; omega⟩, ⟨r.val % 64, Nat.mod_lt _ (by decide)⟩,
    Fin.ext (by show r.val = r.val / 64 * 64 + r.val % 64; omega)⟩

/-- The block number and the position within the block of row k·64 + o. -/
theorem row_div (k : Fin 28) (o : Fin 64) : (row k o).val / 64 = k.val := by
  show (k.val * 64 + o.val) / 64 = k.val
  have := o.isLt; omega

theorem row_mod (k : Fin 28) (o : Fin 64) : (row k o).val % 64 = o.val := by
  show (k.val * 64 + o.val) % 64 = o.val
  have := o.isLt; omega

/-- The host tail applied to a [1792, 4096] array whose entry (r, p) is the product of row r of the transposed
    Kronecker matrix with column p of a 28-row matrix `H`, plus the bias column: at (p, k, o) the block-diagonal
    sum over the 28 rows of `H` with weight (0, o), plus bias o. -/
theorem outOf_of_rows (w : FVec Ideal S1x64 .f32) (b : FVec Ideal S64 .f32) (H : Fin 28 → Fin 4096 → EReal)
    (x : FVec Ideal S1792x4096 .f32)
    (hx : ∀ (r : Fin 1792) (p : Fin 4096),
      x (ix2 r p) = (∑ k' : Fin 28, w2tOf w (ix2 r k') * H k' p) + btOf b (ix2 r (0 : Fin 1)))
    (p : Fin 4096) (k : Fin 28) (o : Fin 64) :
    outOf x (ix3 p k o)
      = (∑ k' : Fin 28, ((if k = k' then (1 : EReal) else 0) * w (ix2 (0 : Fin 1) o)) * H k' p) + b (ix1 o) := by
  rw [outOf_apply, hx, btOf_apply]
  congr 1
  exact Finset.sum_congr rfl fun k' _ => by rw [w2tOf_apply]

end Cert.Proof.HostVal

end
-- ==== Proof.PayVal1.lean ====
import proofs.«201762_g83623013253620_cont_9to1_m_623_34_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The scratch payload read at an index

The value written to the 21 × 4096 scratch at the first grid point, read at the ideal values at the index
`(r * 7 + f, m)` with `r < 3`, `f < 7`: the count row `r` at column `m` times the feature row `f` at column `m`,
times the f32 word `0x3A800000` (2⁻¹⁰).
-/

noncomputable section

open scoped BigOperators

namespace Cert.Proof.PayVal

open Cert.KernelIdeal Cert.KernelIdeal.Gen Idealize.ShloMosaic Idealize.ShloMosaic.ValueIdx

/-- One of the three row blocks before scaling: count row `o` broadcast over the 7 feature rows, times the features. -/
theorem rowBlock_apply (o : Nat) (X : FVec Ideal S3x4096 .f32) (Y : FVec Ideal S7x4096 .f32)
    (h : S3x4096.Slices ![o, 0] S1x4096) (hb : S1x4096.Broadcasts S7x4096) (ho : o < 3) (f : Fin 7) (m : Fin 4096) :
    mulf (broadcastTo S7x4096 (extractStridedSlice S1x4096 ![o, 0] X h) hb) Y (ix2 f m)
      = X (ix2 (⟨o, ho⟩ : Fin 3) m) * Y (ix2 f m) := by
  rw [mulf_apply]
  refine congrArg (· * Y (ix2 f m)) ?_
  refine (broadcastTo_1b_ab_apply (extractStridedSlice S1x4096 ![o, 0] X h) hb f m).trans ?_
  exact slice2_axis0_apply o X h (0 : Fin 1) m (⟨o, ho⟩ : Fin 3) rfl

/-- Three 7 × 4096 blocks stacked along the rows, read at row `r * 7 + f`: block `r` at row `f`. -/
theorem stack3_apply {α : Type} (A0 A1 A2 : S7x4096.Idx → α)
    (h : Shape.Concatenates [S7x4096, S7x4096, S7x4096] S21x4096 0) (r : Fin 3) (f : Fin 7) (m : Fin 4096) :
    concatenate S21x4096 0 [⟨S7x4096, A0⟩, ⟨S7x4096, A1⟩, ⟨S7x4096, A2⟩] h (ix2 (⟨r.val * 7 + f.val, by omega⟩ : Fin 21) m)
      = (match r with | ⟨0, _⟩ => A0 | ⟨1, _⟩ => A1 | ⟨2, _⟩ => A2) (ix2 f m) := by
  have hi : ∀ (j0 : Fin 21) (b : Fin S7x4096.rank), b.cast (rfl : S7x4096.rank = S21x4096.rank) ≠ (0 : Fin S21x4096.rank) →
      ((ix2 f m : S7x4096.Idx) b).val = ((ix2 j0 m : S21x4096.Idx) (b.cast (rfl : S7x4096.rank = S21x4096.rank))).val := by
    intro j0 b hb
    match b with
    | ⟨0, _⟩ => exact absurd rfl hb
    | ⟨1, _⟩ => rfl
  match r with
  | ⟨0, _⟩ =>
    exact concatenate_apply_piece (0 : Fin S21x4096.rank) [⟨S7x4096, A0⟩, ⟨S7x4096, A1⟩, ⟨S7x4096, A2⟩] h _ 0
      (by show (0 : Nat) < 3; omega) S7x4096 A0 rfl rfl 0 rfl (ix2 f m) (hi _)
      (by show 0 + f.val = 0 * 7 + f.val; omega)
  | ⟨1, _⟩ =>
    exact concatenate_apply_piece (0 : Fin S21x4096.rank) [⟨S7x4096, A0⟩, ⟨S7x4096, A1⟩, ⟨S7x4096, A2⟩] h _ 1
      (by show (1 : Nat) < 3; omega) S7x4096 A1 rfl rfl 7 rfl (ix2 f m) (hi _)
      (by show 7 + f.val = 1 * 7 + f.val; omega)
  | ⟨2, _⟩ =>
    exact concatenate_apply_piece (0 : Fin S21x4096.rank) [⟨S7x4096, A0⟩, ⟨S7x4096, A1⟩, ⟨S7x4096, A2⟩] h _ 2
      (by show (2 : Nat) < 3; omega) S7x4096 A2 rfl rfl 14 rfl (ix2 f m) (hi _)
      (by show 14 + f.val = 2 * 7 + f.val; omega)

theorem pay1_apply (v38 : Vec Ideal S3x4096 .f32) (v40 : Vec Ideal S7x4096 .f32) (r : Fin 3) (f : Fin 7) (m : Fin 4096) :
    k1_pay1 (F := Ideal) v38 v40 (ix2 ⟨r.val * 7 + f.val, by omega⟩ m)
      = (v38 (ix2 r m) * v40 (ix2 f m)) * Ideal.ofBits .f32 0x3A800000#32 := by
  unfold k1_pay1
  rw [shapeCast_self, shapeCast_self, shapeCast_self]
  rw [truncf_apply, mulf_apply, broadcast_apply]
  refine congrArg (· * _) ?_
  refine (stack3_apply _ _ _ _ r f m).trans ?_
  match r with
  | ⟨0, _⟩ => exact rowBlock_apply 0 v38 v40 _ _ (by omega) f m
  | ⟨1, _⟩ => exact rowBlock_apply 1 v38 v40 _ _ (by omega) f m
  | ⟨2, _⟩ => exact rowBlock_apply 2 v38 v40 _ _ (by omega) f m

end Cert.Proof.PayVal
-- ==== Proof.PayValMat.lean ====
import proofs.«201762_g83623013253620_cont_9to1_m_623_34_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The two matrix products read at an index

At the ideal values a product into a zero accumulator, read at an output index, is the sum over the one contracted
axis of the operands' products: `[21, 4096] × [4096, 512]` at `(k, q)` sums over `m < 4096`, and
`[1792, 28] × [28, 512]` at `(R, q)` sums over `k' < 28`.
-/

noncomputable section

open scoped BigOperators

namespace Cert.Proof.PayVal

open Cert.KernelIdeal Cert.KernelIdeal.Gen Idealize.ShloMosaic Idealize.ShloMosaic.ValueIdx

/-- The dimension numbers of the first product, `[21, 4096] × [4096, 512] → [21, 512]`. -/
abbrev D1 : DotDims S21x4096 S4096x512 S21x512 := dot_S21x4096_S4096x512_S21x512_1_0_0_1_n_n
/-- The dimension numbers of the second product, `[1792, 28] × [28, 512] → [1792, 512]`. -/
abbrev D2 : DotDims S1792x28 S28x512 S1792x512 := dot_S1792x28_S28x512_S1792x512_1_0_0_1_n_n

/-! ## The first product -/

/-- The left operand's row is the output's row. -/
theorem mm1_lhs0 (i : S21x512.Idx) (c : D1.contr.Idx) : (D1.lhsIdx i c 0).val = (i 0).val := by
  unfold DotDims.lhsIdx
  rw [dif_neg (show ¬(0 : Fin S21x4096.rank) ∈ D1.lhsBatch by decide),
    dif_pos (show (0 : Fin S21x4096.rank) ∈ D1.lhsNonContracting by decide)]
  rfl

/-- The right operand's column is the output's column. -/
theorem mm1_rhs1 (i : S21x512.Idx) (c : D1.contr.Idx) : (D1.rhsIdx i c 1).val = (i 1).val := by
  unfold DotDims.rhsIdx
  rw [dif_neg (show ¬(1 : Fin S4096x512.rank) ∈ D1.rhsBatch by decide),
    dif_pos (show (1 : Fin S4096x512.rank) ∈ D1.rhsNonContracting by decide)]
  rfl

/-- The first product into zero at `(k, q)`: `∑ m, A (k, m) * B (m, q)`. -/
theorem mm1_apply (A : FVec Ideal S21x4096 .bf16) (B : FVec Ideal S4096x512 .bf16) (k : Fin 21) (q : Fin 512) :
    matmul D1 none A B (constant (F := Ideal) S21x512 .f32 0x00000000#32) (ix2 k q)
      = ∑ m : Fin 4096, A (ix2 k m) * B (ix2 m q) := by
  simp only [matmul]
  rw [Ideal.matmul_constant_zero_apply, ← Equiv.sum_comp (contrEquiv1 D1 4096 rfl rfl).symm]
  refine Finset.sum_congr rfl fun m _ => ?_
  have hm := contrEquiv1_symm_val D1 4096 rfl rfl m
  have el : D1.lhsIdx (ix2 k q) ((contrEquiv1 D1 4096 rfl rfl).symm m) = ix2 k m := funext fun a => Fin.ext (by
    match a with
    | ⟨0, _⟩ => exact mm1_lhs0 _ _
    | ⟨1, _⟩ => exact (D1.lhsIdx_val_of_single rfl _ _).trans hm)
  have er : D1.rhsIdx (ix2 k q) ((contrEquiv1 D1 4096 rfl rfl).symm m) = ix2 m q := funext fun a => Fin.ext (by
    match a with
    | ⟨0, _⟩ => exact (D1.rhsIdx_val_of_single rfl _ _).trans hm
    | ⟨1, _⟩ => exact mm1_rhs1 _ _)
  rw [el, er]

/-! ## The second product -/

/-- The left operand's row is the output's row. -/
theorem mm2_lhs0 (i : S1792x512.Idx) (c : D2.contr.Idx) : (D2.lhsIdx i c 0).val = (i 0).val := by
  unfold DotDims.lhsIdx
  rw [dif_neg (show ¬(0 : Fin S1792x28.rank) ∈ D2.lhsBatch by decide),
    dif_pos (show (0 : Fin S1792x28.rank) ∈ D2.lhsNonContracting by decide)]
  rfl

/-- The right operand's column is the output's column. -/
theorem mm2_rhs1 (i : S1792x512.Idx) (c : D2.contr.Idx) : (D2.rhsIdx i c 1).val = (i 1).val := by
  unfold DotDims.rhsIdx
  rw [dif_neg (show ¬(1 : Fin S28x512.rank) ∈ D2.rhsBatch by decide),
    dif_pos (show (1 : Fin S28x512.rank) ∈ D2.rhsNonContracting by decide)]
  rfl

/-- The second product into zero at `(R, q)`: `∑ k', A (R, k') * B (k', q)`. -/
theorem mm2_apply (A : FVec Ideal S1792x28 .bf16) (B : FVec Ideal S28x512 .bf16) (R : Fin 1792) (q : Fin 512) :
    matmul D2 none A B (constant (F := Ideal) S1792x512 .f32 0x00000000#32) (ix2 R q)
      = ∑ k' : Fin 28, A (ix2 R k') * B (ix2 k' q) := by
  simp only [matmul]
  rw [Ideal.matmul_constant_zero_apply, ← Equiv.sum_comp (contrEquiv1 D2 28 rfl rfl).symm]
  refine Finset.sum_congr rfl fun k' _ => ?_
  have hk := contrEquiv1_symm_val D2 28 rfl rfl k'
  have el : D2.lhsIdx (ix2 R q) ((contrEquiv1 D2 28 rfl rfl).symm k') = ix2 R k' := funext fun a => Fin.ext (by
    match a with
    | ⟨0, _⟩ => exact mm2_lhs0 _ _
    | ⟨1, _⟩ => exact (D2.lhsIdx_val_of_single rfl _ _).trans hk)
  have er : D2.rhsIdx (ix2 R q) ((contrEquiv1 D2 28 rfl rfl).symm k') = ix2 k' q := funext fun a => Fin.ext (by
    match a with
    | ⟨0, _⟩ => exact (D2.rhsIdx_val_of_single rfl _ _).trans hk
    | ⟨1, _⟩ => exact mm2_rhs1 _ _)
  rw [el, er]

end Cert.Proof.PayVal
-- ==== Proof.PayValDiag.lean ====
import proofs.«201762_g83623013253620_cont_9to1_m_623_34_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The diagonal of a block, a column broadcast along the rows, and two stacked blocks, read at an index

* The diagonal of a 512 × 512 block taken by masking with "row index = column index" and summing over the rows:
  at `q` it is the block's entry `(q, q)`, the other 511 terms of the sum being the zero word.
* A `[a, 1]` column broadcast to `[a, b]` reads, at `(p, c)`, the column at `(p, 0)`.
* A 21-row block on top of a 7-row block: row `k'` is row `k'` of the first if `k' < 21`, else row `k' - 21` of the second.
-/

noncomputable section

open scoped BigOperators

namespace Cert.Proof.PayVal

open Cert.KernelIdeal Cert.KernelIdeal.Gen Idealize.ShloMosaic Idealize.ShloMosaic.ValueIdx

/-! ## The diagonal -/

/-- Over column `q`, the index with row `a` inserted is `(a, q)`. -/
theorem lift_rows (hred : S512x512.Reduces [0] S512) (q : Fin 512) (a : Fin 512) :
    hred.lift (ix1 q) a = ix2 a q :=
  funext fun c => Fin.ext (by
    match c with
    | ⟨0, _⟩ => rfl
    | ⟨1, _⟩ => rfl)

/-- The mask "row index = column index" at `(a, q)` is set exactly when `a = q`. -/
theorem eyeMask_apply (h0 : S512x512.Iotas .tc 32 [0]) (h1 : S512x512.Iotas .tc 32 [1]) (a q : Fin 512) :
    cmpi .eq (iota .tc S512x512 32 [0] h0) (iota .tc S512x512 32 [1] h1) (ix2 a q) = if a = q then 1#1 else 0#1 := by
  show IntOp.cmpi .eq (iota .tc S512x512 32 [0] h0 (ix2 a q)) (iota .tc S512x512 32 [1] h1 (ix2 a q)) = _
  rw [iota_single_apply, iota_single_apply]
  show IntOp.cmpi .eq (BitVec.ofNat 32 a.val) (BitVec.ofNat 32 q.val) = _
  have ha : a.val < 512 := a.isLt
  have hq : q.val < 512 := q.isLt
  by_cases h : a = q
  · subst h
    rw [if_pos rfl]
    exact IntOp.cmpi_eq.2 rfl
  · rw [if_neg h]
    have hne : BitVec.ofNat 32 a.val ≠ BitVec.ofNat 32 q.val := by
      intro e
      have := congrArg BitVec.toNat e
      simp only [BitVec.toNat_ofNat] at this
      rw [Nat.mod_eq_of_lt (by omega), Nat.mod_eq_of_lt (by omega)] at this
      exact h (Fin.ext this)
    exact eq_zero_of_ne_one fun e => hne (IntOp.cmpi_eq.1 e)

/-- The masked block summed over its rows, at `q`: the diagonal entry `(q, q)`. -/
theorem diag_apply (v9 : FVec Ideal S512x512 .f32) (h0 : S512x512.Iotas .tc 32 [0]) (h1 : S512x512.Iotas .tc 32 [1])
    (hred : S512x512.Reduces [0] S512) (hφ : FKind.Formats .f32) (hacc : (0x00000000#32 : BitVec 32) = 0x00000000#32)
    (q : Fin 512) :
    multiReduction (F := Ideal) .add [0] S512
        (select (cmpi .eq (iota .tc S512x512 32 [0] h0) (iota .tc S512x512 32 [1] h1)) v9
          (broadcast S512x512 (Scalar.ofBits (F := Ideal) .f32 0x00000000#32)))
        0x00000000#32 hred hφ hacc (ix1 q)
      = v9 (ix2 q q) := by
  refine (Ideal.multiReduction_add_single _ 0x00000000#32 hred hφ hacc (ix1 q)).trans ?_
  show ∑ a : Fin 512, select (cmpi .eq (iota .tc S512x512 32 [0] h0) (iota .tc S512x512 32 [1] h1)) v9
      (broadcast S512x512 (Scalar.ofBits (F := Ideal) .f32 0x00000000#32)) (hred.lift (ix1 q) a) = v9 (ix2 q q)
  have hterm : ∀ a : Fin 512, select (cmpi .eq (iota .tc S512x512 32 [0] h0) (iota .tc S512x512 32 [1] h1)) v9
      (broadcast S512x512 (Scalar.ofBits (F := Ideal) .f32 0x00000000#32)) (hred.lift (ix1 q) a)
        = if a = q then v9 (ix2 a q) else 0 := by
    intro a
    rw [lift_rows, select_apply, eyeMask_apply, broadcast_apply]
    by_cases h : a = q
    · rw [if_pos h, if_pos h, select_one]
    · rw [if_neg h, if_neg h, select_zero]
      exact Ideal.ofBits_zero_f32
  rw [Finset.sum_congr rfl fun a _ => hterm a]
  rw [Finset.sum_eq_single q (fun b _ hb => if_neg hb) (fun hq => absurd (Finset.mem_univ q) hq)]
  exact if_pos rfl

/-! ## A column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Two stacked blocks -/

/-- A 21-row block on top of a 7-row block, read at row `k'`. -/
theorem stack2_apply {α : Type} (X : S21x512.Idx → α) (Y : S7x512.Idx → α)
    (h : Shape.Concatenates [S21x512, S7x512] S28x512 0) (k' : Fin 28) (q : Fin 512) :
    concatenate S28x512 0 [⟨S21x512, X⟩, ⟨S7x512, Y⟩] h (ix2 k' q)
      = if hk : k'.val < 21 then X (ix2 (⟨k'.val, hk⟩ : Fin 21) q) else Y (ix2 (⟨k'.val - 21, by omega⟩ : Fin 7) q) := by
  by_cases hk : k'.val < 21
  · rw [dif_pos hk]
    refine concatenate_pair_apply_left (0 : Fin S28x512.rank) X Y h (ix2 k' q) rfl (ix2 (⟨k'.val, hk⟩ : Fin 21) q) fun b => ?_
    match b with
    | ⟨0, _⟩ => rfl
    | ⟨1, _⟩ => rfl
  · rw [dif_neg hk]
    refine concatenate_pair_apply_right (0 : Fin S28x512.rank) X Y h (ix2 k' q) rfl rfl
      (ix2 (⟨k'.val - 21, by omega⟩ : Fin 7) q) (fun b hb => ?_) ?_
    · match b with
      | ⟨0, _⟩ => exact absurd rfl hb
      | ⟨1, _⟩ => rfl
    · show k'.val - 21 + 21 = k'.val
      omega

end Cert.Proof.PayVal
-- ==== Proof.PayVal2.lean ====
import proofs.«201762_g83623013253620_cont_9to1_m_623_34_alg».proof.Proof.PayValMat
import proofs.«201762_g83623013253620_cont_9to1_m_623_34_alg».proof.Proof.PayValDiag

/-!
# The output-block payload read at an index

The 1792 × 512 output block of the second kernel, read at the ideal values at the index `(R, q)`:
`∑ k' < 28, v29 (R, k') * H k' q + v33 (R, 0)`, where for `k' < 21` the factor `H k' q` is
`∑ m < 4096, v4 (k', m) * v3 (m, q)` less the diagonal term `v9 (q, q) * v19 (k', q)`, and for `21 ≤ k'` it is
`v26 (k' - 21, q)`.
-/

noncomputable section

open scoped BigOperators

namespace Cert.Proof.PayVal

open Cert.KernelIdeal Cert.KernelIdeal.Gen Idealize.ShloMosaic Idealize.ShloMosaic.ValueIdx

/-- The 28 × 512 factor the second product contracts with: rows below 21 are the first product less the diagonal term,
the last 7 rows are the block of the feature rows. -/
def H (v3 : Vec Ideal S4096x512 .f32) (v4 : Vec Ideal S21x4096 .bf16) (v9 : Vec Ideal S512x512 .f32)
    (v19 : Vec Ideal S21x512 .bf16) (v26 : Vec Ideal S7x512 .f32) (k' : Fin 28) (q : Fin 512) : EReal :=
  if h : k'.val < 21 then
    (∑ m : Fin 4096, v4 (ix2 (⟨k'.val, h⟩ : Fin 21) m) * v3 (ix2 m q)) - v9 (ix2 q q) * v19 (ix2 (⟨k'.val, h⟩ : Fin 21) q)
  else v26 (ix2 (⟨k'.val - 21, by omega⟩ : Fin 7) q)

/-- A row below 21 of the factor: the first product less the diagonal term. -/
theorem H_of_lt (v3 : Vec Ideal S4096x512 .f32) (v4 : Vec Ideal S21x4096 .bf16) (v9 : Vec Ideal S512x512 .f32)
    (v19 : Vec Ideal S21x512 .bf16) (v26 : Vec Ideal S7x512 .f32) (k' : Fin 28) (q : Fin 512) (h : k'.val < 21) :
    H v3 v4 v9 v19 v26 k' q
      = (∑ m : Fin 4096, v4 (ix2 (⟨k'.val, h⟩ : Fin 21) m) * v3 (ix2 m q))
          - v9 (ix2 q q) * v19 (ix2 (⟨k'.val, h⟩ : Fin 21) q) :=
  dif_pos h

/-- One of the last 7 rows of the factor: a feature row. -/
theorem H_of_not_lt (v3 : Vec Ideal S4096x512 .f32) (v4 : Vec Ideal S21x4096 .bf16) (v9 : Vec Ideal S512x512 .f32)
    (v19 : Vec Ideal S21x512 .bf16) (v26 : Vec Ideal S7x512 .f32) (k' : Fin 28) (q : Fin 512) (h : ¬k'.val < 21) :
    H v3 v4 v9 v19 v26 k' q = v26 (ix2 (⟨k'.val - 21, by omega⟩ : Fin 7) q) :=
  dif_neg h

theorem pay2_apply (v3 : Vec Ideal S4096x512 .f32) (v4 : Vec Ideal S21x4096 .bf16) (v9 : Vec Ideal S512x512 .f32)
    (v19 : Vec Ideal S21x512 .bf16) (v26 : Vec Ideal S7x512 .f32) (v29 : Vec Ideal S1792x28 .bf16)
    (v33 : Vec Ideal S1792x1 .f32) (R : Fin 1792) (q : Fin 512) :
    k1_pay2 (F := Ideal) v3 v4 v9 v19 v26 v29 v33 (ix2 R q)
      = (∑ k' : Fin 28, v29 (ix2 R k') * H v3 v4 v9 v19 v26 k' q) + v33 (ix2 R (0 : Fin 1)) := by
  unfold k1_pay2
  rw [addf_apply]
  refine congrArg₂ (· + ·) ?_ ?_
  · -- the second product: a sum over the 28 rows of the stacked factor
    refine (mm2_apply _ _ R q).trans ?_
    refine Finset.sum_congr rfl fun k' _ => ?_
    rw [shapeCast_self, truncf_apply]
    refine congrArg (v29 (ix2 R k') * ·) ?_
    refine (stack2_apply _ _ _ k' q).trans ?_
    unfold H
    by_cases hk : k'.val < 21
    · -- a row of the first product less the diagonal term
      rw [dif_pos hk, dif_pos hk, subf_apply, mulf_apply, extf_apply]
      refine congrArg₂ (· - ·) ?_ ?_
      · refine (mm1_apply _ _ (⟨k'.val, hk⟩ : Fin 21) q).trans ?_
        exact Finset.sum_congr rfl fun m _ => by rw [truncf_apply]
      · refine congrArg (· * v19 (ix2 (⟨k'.val, hk⟩ : Fin 21) q)) ?_
        refine (broadcastTo_1b_ab_apply _ _ (⟨k'.val, hk⟩ : Fin 21) q).trans ?_
        refine (shapeCast_a_1a_apply _ _ (0 : Fin 1) q).trans ?_
        exact diag_apply v9 _ _ _ _ _ q
    · -- a feature row
      rw [dif_neg hk, dif_neg hk, shapeCast_self]
  · -- the bias column broadcast along the 512 columns
    refine (broadcastTo_a1_ab_apply _ _ R q).trans ?_
    rw [shapeCast_self]

end Cert.Proof.PayVal
-- ==== Proof.KernelVal.lean ====
/-
  The second kernel's value at the ideal values, assembled into the closed form `Cert.Spec.KSpec`.

  Grid point i of the second kernel computes the 1792 × 512 block of columns 512·i … 512·i + 511 of a
  1792 × 4096 array from: the column block i of `adj`; the 21 × 4096 scratch (counts × features × 2⁻¹⁰);
  the 512 × 512 diagonal block of `adj`; the column blocks i of the scratch and of the transposed
  features; the transposed Kronecker matrix of the weight; and the bias column.  Read at row k·64 + o and
  column q, the block is the closed form's value at node 512·i + q, row k, channel o — a term-by-term identity.
  The host tail (reshape, transpose) then yields the closed form's array.
-/
import proofs.«201762_g83623013253620_cont_9to1_m_623_34_alg».proof.Proof.Spec
import proofs.«201762_g83623013253620_cont_9to1_m_623_34_alg».proof.Proof.HostVal
import proofs.«201762_g83623013253620_cont_9to1_m_623_34_alg».proof.Proof.PayVal1
import proofs.«201762_g83623013253620_cont_9to1_m_623_34_alg».proof.Proof.PayVal2

noncomputable section

open scoped BigOperators

namespace Cert.Proof.KernelVal

open Cert.KernelIdeal Cert.KernelIdeal.Gen Idealize.ShloMosaic Idealize.ShloMosaic.ValueIdx
open Cert.Proof.HostVal Cert.Proof.PayVal

/-! ## Column blocks -/

/-- Column q of column block i of a 4096-column array. -/
def col (i : Fin 8) (q : Fin 512) : Fin 4096 := ⟨512 * i.val + q.val, by have := i.isLt; have := q.isLt; omega⟩

/-- Column block i of `adj`: all rows, columns 512·i …. -/
def colBlock (adj : Vec Ideal S4096x4096 .f32) (i : Fin 8) : Vec Ideal S4096x512 .f32 :=
  fun y => adj (ix2 (y 0) (col i (y 1)))

/-- Diagonal block i of `adj`: rows and columns 512·i …. -/
def diagBlock (adj : Vec Ideal S4096x4096 .f32) (i : Fin 8) : Vec Ideal S512x512 .f32 :=
  fun y => adj (ix2 (col i (y 0)) (col i (y 1)))

/-- Column block i of the 21 × 4096 scratch. -/
def gtBlock (gt : Vec Ideal S21x4096 .bf16) (i : Fin 8) : Vec Ideal S21x512 .bf16 :=
  fun y => gt (ix2 (y 0) (col i (y 1)))

/-- Column block i of the 7 × 4096 transposed features. -/
def ftBlock (ft : Vec Ideal S7x4096 .f32) (i : Fin 8) : Vec Ideal S7x512 .f32 :=
  fun y => ft (ix2 (y 0) (col i (y 1)))

theorem colBlock_apply (adj : Vec Ideal S4096x4096 .f32) (i : Fin 8) (m : Fin 4096) (q : Fin 512) :
    colBlock adj i (ix2 m q) = adj (ix2 m (col i q)) := rfl
theorem diagBlock_apply (adj : Vec Ideal S4096x4096 .f32) (i : Fin 8) (q q' : Fin 512) :
    diagBlock adj i (ix2 q q') = adj (ix2 (col i q) (col i q')) := rfl
theorem gtBlock_apply (gt : Vec Ideal S21x4096 .bf16) (i : Fin 8) (r : Fin 21) (q : Fin 512) :
    gtBlock gt i (ix2 r q) = gt (ix2 r (col i q)) := rfl
theorem ftBlock_apply (ft : Vec Ideal S7x4096 .f32) (i : Fin 8) (f : Fin 7) (q : Fin 512) :
    ftBlock ft i (ix2 f q) = ft (ix2 f (col i q)) := rfl

/-! ## The block a grid point computes, and the whole array -/

/-- The 1792 × 512 block grid point i computes, from the arguments and the three count rows. -/
def blockVal (feat : Vec Ideal S4096x7x1 .f32) (adj : Vec Ideal S4096x4096 .f32) (cntv : Vec Ideal S3x4096 .f32)
    (w : Vec Ideal S1x64 .f32) (b : Vec Ideal S64 .f32) (i : Fin 8) : Vec Ideal S1792x512 .f32 :=
  k1_pay2 (F := Ideal) (colBlock adj i) (k1_pay1 (F := Ideal) cntv (ftOf feat)) (diagBlock adj i)
    (gtBlock (k1_pay1 (F := Ideal) cntv (ftOf feat)) i) (ftBlock (ftOf feat) i) (w2tOf w) (btOf b)

/-- The 1792 × 4096 array the eight blocks make up. -/
def KArr (feat : Vec Ideal S4096x7x1 .f32) (adj : Vec Ideal S4096x4096 .f32) (cntv : Vec Ideal S3x4096 .f32)
    (w : Vec Ideal S1x64 .f32) (b : Vec Ideal S64 .f32) : Vec Ideal S1792x4096 .f32 :=
  fun j => blockVal feat adj cntv w b ⟨(j 1).val / 512, by have := idx2_lt1 j; omega⟩
    (ix2 (j 0) (⟨(j 1).val % 512, Nat.mod_lt _ (by decide)⟩ : Fin 512))

theorem KArr_apply (feat : Vec Ideal S4096x7x1 .f32) (adj : Vec Ideal S4096x4096 .f32) (cntv : Vec Ideal S3x4096 .f32)
    (w : Vec Ideal S1x64 .f32) (b : Vec Ideal S64 .f32) (R : Fin 1792) (p : Fin 4096) :
    KArr feat adj cntv w b (ix2 R p)
      = blockVal feat adj cntv w b ⟨p.val / 512, by have := p.isLt; omega⟩
          (ix2 R (⟨p.val % 512, Nat.mod_lt _ (by decide)⟩ : Fin 512)) := rfl

/-! ## The block is the closed form -/

section
variable (feat : Vec Ideal S4096x7x1 .f32) (adj : Vec Ideal S4096x4096 .f32)
  (mem nonm lead : Cert.Spec.SI.Idx → BitVec 32) (w : Vec Ideal S1x64 .f32) (b : Vec Ideal S64 .f32)
  (cntv : Vec Ideal S3x4096 .f32)
  (hc : ∀ (r : Fin 3) (mm : Fin 4096),
    cntv (ix2 r mm) = (((Cert.Spec.cnt (Cert.Spec.roles mem nonm lead r) mm : ℕ) : ℝ) : EReal))
include hc

/-- The scratch at row k' below 21 and column m is the scaled, counted feature of role k' / 7, column k' % 7. -/
theorem gt_apply (k' : Fin 28) (h : k'.val < 21) (m : Fin 4096) :
    k1_pay1 (F := Ideal) cntv (ftOf feat) (ix2 (⟨k'.val, h⟩ : Fin 21) m)
      = Cert.Spec.g feat (Cert.Spec.roles mem nonm lead) ⟨k'.val / 7, by omega⟩ ⟨k'.val % 7, Nat.mod_lt _ (by decide)⟩ m := by
  have e : (⟨k'.val, h⟩ : Fin 21)
      = ⟨(⟨k'.val / 7, by omega⟩ : Fin 3).val * 7 + (⟨k'.val % 7, Nat.mod_lt _ (by decide)⟩ : Fin 7).val,
          by show k'.val / 7 * 7 + k'.val % 7 < 21; omega⟩ :=
    Fin.ext (by show k'.val = k'.val / 7 * 7 + k'.val % 7; omega)
  rw [e]
  refine (pay1_apply cntv (ftOf feat) ⟨k'.val / 7, by omega⟩ ⟨k'.val % 7, Nat.mod_lt _ (by decide)⟩ m).trans ?_
  rw [ftOf_apply, hc]
  rfl

/-- The 28 × 512 factor at grid point i is the closed form's 28 rows at node 512·i + q. -/
theorem H_eq_h0 (i : Fin 8) (k' : Fin 28) (q : Fin 512) :
    H (colBlock adj i) (k1_pay1 (F := Ideal) cntv (ftOf feat)) (diagBlock adj i)
        (gtBlock (k1_pay1 (F := Ideal) cntv (ftOf feat)) i) (ftBlock (ftOf feat) i) k' q
      = Cert.Spec.h0 feat adj (Cert.Spec.roles mem nonm lead) k' (col i q) := by
  unfold H Cert.Spec.h0
  by_cases h : k'.val < 21
  · rw [dif_pos h, dif_pos h]
    unfold Cert.Spec.ht
    congr 1
    · refine Finset.sum_congr rfl fun m _ => ?_
      rw [colBlock_apply, gt_apply feat mem nonm lead cntv hc k' h m]
    · rw [diagBlock_apply, gtBlock_apply, gt_apply feat mem nonm lead cntv hc k' h (col i q)]
  · rw [dif_neg h, dif_neg h, ftBlock_apply, ftOf_apply]

/-- (K1) the block of grid point i at row k·64 + o, column q is the closed form at node 512·i + q, row k, channel o. -/
theorem block_eq_kout (i : Fin 8) (k : Fin 28) (o : Fin 64) (q : Fin 512) :
    blockVal feat adj cntv w b i (ix2 (row k o) q)
      = Cert.Spec.kout feat adj (Cert.Spec.roles mem nonm lead) w b (col i q) k o := by
  unfold blockVal
  rw [pay2_apply, btOf_apply]
  unfold Cert.Spec.kout
  congr 1
  refine Finset.sum_congr rfl fun k' _ => ?_
  rw [w2tOf_apply, H_eq_h0 feat adj mem nonm lead cntv hc i k' q]

/-- (K2) the host tail applied to the assembled array is the closed form's array. -/
theorem kval_eq :
    outOf (KArr feat adj cntv w b) = Cert.Spec.KSpec feat adj mem nonm lead w b := by
  funext j
  obtain ⟨p, k, o, rfl⟩ : ∃ (p : Fin 4096) (k : Fin 28) (o : Fin 64), j = ix3 p k o := ⟨j 0, j 1, j 2, eq_ix3 j⟩
  rw [outOf_apply, Cert.Spec.KSpec_apply, KArr_apply, block_eq_kout feat adj mem nonm lead w b cntv hc]
  congr 1
  exact Fin.ext (by show 512 * (p.val / 512) + p.val % 512 = p.val; omega)

end

end Cert.Proof.KernelVal

end
-- ==== Proof.LibIndexSum.lean ====
import Idealize.ShloMosaic.PureOps.Ideal

/-!
# Sums through an index list, regrouped by the value of the index

A sum over the entries `j` of an index list of a quantity that depends on `j` only through the index
`idx j` is the sum over the possible indices `m` of that quantity taken as many times as `m` occurs in
the list.  This is the step between "gather the rows an index list names, then reduce" and "count the
occurrences of each row (a histogram), then take one weighted reduction over all rows".  The second form
with the own row left out: leaving out the entries with `idx j = p` subtracts row `p`'s term taken
`count p` times.
-/

noncomputable section

namespace Cert.Lib.IndexSum

variable {E N : Type} [Fintype E] [Fintype N] [DecidableEq N]

/-- How many entries of the list name `m`. -/
def count (idx : E → N) (m : N) : ℕ := (Finset.univ.filter fun j => idx j = m).card

/-- In any commutative additive monoid: the sum through the list is the counted sum over the indices. -/
theorem sum_comp_eq_sum_count_nsmul {M : Type} [AddCommMonoid M] (idx : E → N) (g : N → M) :
    ∑ j, g (idx j) = ∑ m, count idx m • g m := by
  rw [← Finset.sum_fiberwise_of_maps_to (s := Finset.univ) (t := Finset.univ) (g := idx) (fun _ _ => Finset.mem_univ _)]
  refine Finset.sum_congr rfl fun m _ => ?_
  rw [Finset.sum_congr rfl (fun j hj => by rw [(Finset.mem_filter.mp hj).2] :
    ∀ j ∈ Finset.univ.filter (fun j => idx j = m), g (idx j) = g m), Finset.sum_const]
  rfl

/-- Over the reals, with the count as a factor. -/
theorem sum_comp_eq_sum_count_mul (idx : E → N) (g : N → ℝ) :
    ∑ j, g (idx j) = ∑ m, (count idx m : ℝ) * g m := by
  rw [sum_comp_eq_sum_count_nsmul]
  exact Finset.sum_congr rfl fun m _ => nsmul_eq_mul _ _

/-- The own row left out: a sum through the list of `a · [idx j ≠ p] · x` is the counted sum over all rows
    minus row `p`'s term taken `count p` times. -/
theorem sum_excl_eq (idx : E → N) (a x : N → ℝ) (p : N) :
    ∑ j, a (idx j) * (if idx j ≠ p then 1 else 0) * x (idx j)
      = (∑ m, ((count idx m : ℝ) * x m) * a m) - ((count idx p : ℝ) * x p) * a p := by
  rw [sum_comp_eq_sum_count_mul idx (fun m => a m * (if m ≠ p then 1 else 0) * x m), eq_sub_iff_add_eq,
    ← Finset.add_sum_erase _ _ (Finset.mem_univ p), ← Finset.add_sum_erase (f := fun m => ((count idx m : ℝ) * x m) * a m) _ (Finset.mem_univ p)]
  have h : ∀ m ∈ Finset.univ.erase p, (count idx m : ℝ) * (a m * (if m ≠ p then 1 else 0) * x m) = ((count idx m : ℝ) * x m) * a m :=
    fun m hm => by rw [if_pos (Finset.ne_of_mem_erase hm)]; ring
  rw [Finset.sum_congr rfl h]
  simp only [ne_eq, not_true_eq_false, if_false]
  ring

end Cert.Lib.IndexSum

end
-- ==== Proof.Law.lean ====
import proofs.«201762_g83623013253620_cont_9to1_m_623_34_alg».proof.Proof.Spec
import proofs.«201762_g83623013253620_cont_9to1_m_623_34_alg».proof.Proof.LibIndexSum

/-!
# The two closed forms agree under the precondition

The kernel's form counts how often each row `m` occurs in a role list and takes one weighted sum over all
4096 rows, minus the own row's term; the reference's form sums over the 1024 entries of the list, leaving out
the entries that name the own row, and divides by 1024.  With every entry a real number the extended-real
expressions are the images of real expressions; regrouping the entries of the list by the row they name turns
the second sum into the first with `adj[p, m]` in place of `adj[m, p]`, and symmetry of `adj` closes the gap.
The scaling `2⁻¹⁰` inside the sum and the division by `1024` outside it are the same factor.
-/

noncomputable section

namespace Cert.Proof.Law

open Idealize.ShloMosaic Idealize.ShloMosaic.ValueIdx Cert.Spec

/-! ## The two literals -/

/-- The word `0x3A800000` denotes `2⁻¹⁰ = 1/1024`. -/
theorem ofBits_inv1024 : Ideal.ofBits .f32 0x3A800000#32 = ((1 / 1024 : ℝ) : EReal) := by
  simp [Ideal.ofBits, Ideal.ieee, -EReal.coe_mul]; norm_num

/-- The word `0x44800000` denotes `2¹⁰ = 1024`. -/
theorem ofBits_1024 : Ideal.ofBits .f32 0x44800000#32 = ((1024 : ℝ) : EReal) := by
  simp [Ideal.ofBits, Ideal.ieee, -EReal.coe_mul]; norm_num

/-! ## Real numbers inside the extended reals -/

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The indicator `[c]` in the extended reals is the image of the real indicator. -/
theorem coe_ite (c : Prop) [Decidable c] :
    (if c then (1 : EReal) else 0) = (((if c then (1 : ℝ) else 0) : ℝ) : EReal) := by
  split <;> simp

/-! ## Counting entries of a list in range -/

/-- For a list in range the count of the words equal to `m` is the count of the rows named equal to `m`. -/
theorem cnt_eq_count (idx : SI.Idx → BitVec 32) (h : InRange idx) (m : Fin 4096) :
    cnt idx m = Cert.Lib.IndexSum.count (rowFin idx) m := by
  unfold cnt Cert.Lib.IndexSum.count
  congr 1
  refine Finset.filter_congr fun j _ => ?_
  have hj := h j
  constructor
  · intro e
    apply Fin.ext
    show (idx (ix1 j)).toNat % 4096 = m.val
    rw [Nat.mod_eq_of_lt hj]; exact e
  · intro e
    have e' : (idx (ix1 j)).toNat % 4096 = m.val := congrArg Fin.val e
    rwa [Nat.mod_eq_of_lt hj] at e'

/-! ## One aggregate -/

/-- The counted sum over all rows minus the own row's term is the masked sum through the list over 1024. -/
theorem ht_eq_href (feat : SF.Idx → EReal) (adj : SA.Idx → EReal) (idxr : Fin 3 → SI.Idx → BitVec 32)
    (hf : AllReal feat) (ha : AllReal adj) (hs : Symm adj) (hr : ∀ r, InRange (idxr r))
    (r : Fin 3) (f : Fin 7) (p : Fin 4096) :
    ht feat adj idxr r f p = href feat adj (idxr r) p f := by
  choose F hF using hf
  choose A hA using ha
  have hsym : ∀ a c : Fin 4096, A (ix2 a c) = A (ix2 c a) := fun a c => by
    have := hs a c
    rw [hA, hA] at this
    exact EReal.coe_eq_coe_iff.mp this
  -- the kernel's side as the image of a real number
  have hL : ht feat adj idxr r f p
      = (((∑ m : Fin 4096, (((cnt (idxr r) m : ℝ) * F (ix3 m f 0)) * (1 / 1024 : ℝ)) * A (ix2 m p))
          - A (ix2 p p) * ((((cnt (idxr r) p : ℝ)) * F (ix3 p f 0)) * (1 / 1024 : ℝ)) : ℝ) : EReal) := by
    unfold ht g
    rw [EReal.coe_sub, coe_sum]
    simp only [EReal.coe_mul, hF, hA, ofBits_inv1024]
  -- the reference's side as the image of a real number
  have hR : href feat adj (idxr r) p f
      = (((∑ j : Fin 1024, (A (ix2 p (rowFin (idxr r) j)) * (if rowFin (idxr r) j ≠ p then (1 : ℝ) else 0))
            * F (ix3 (rowFin (idxr r) j) f 0)) / 1024 : ℝ) : EReal) := by
    unfold href
    rw [EReal.coe_div, coe_sum, ofBits_1024]
    simp only [EReal.coe_mul, hF, hA, coe_ite]
  rw [hL, hR, EReal.coe_eq_coe_iff]
  -- in the reals: regroup the list by the row named, use symmetry, and pull the scale out
  rw [Cert.Lib.IndexSum.sum_excl_eq (rowFin (idxr r)) (fun m => A (ix2 p m)) (fun m => F (ix3 m f 0)) p]
  simp only [← cnt_eq_count (idxr r) (hr r)]
  rw [sub_div, Finset.sum_div]
  congr 1
  · refine Finset.sum_congr rfl fun m _ => ?_
    rw [hsym p m]; ring
  · ring

theorem law (feat : Cert.Spec.SF.Idx → EReal) (adj : Cert.Spec.SA.Idx → EReal) (mem nonm lead : Cert.Spec.SI.Idx → BitVec 32) (w : Cert.Spec.SW.Idx → EReal) (b : Cert.Spec.SB.Idx → EReal)
    (hf : Cert.Spec.AllReal feat) (ha : Cert.Spec.AllReal adj) (hs : Cert.Spec.Symm adj)
    (hm : Cert.Spec.InRange mem) (hn : Cert.Spec.InRange nonm) (hl : Cert.Spec.InRange lead) :
    Cert.Spec.KSpec feat adj mem nonm lead w b = Cert.Spec.RSpec feat adj mem nonm lead w b := by
  have hr : ∀ r, InRange (roles mem nonm lead r) := by
    intro r
    fin_cases r
    · exact hl
    · exact hn
    · exact hm
  funext i
  obtain ⟨p, k, o, rfl⟩ : ∃ (p : Fin 4096) (k : Fin 28) (o : Fin 64), i = ix3 p k o := ⟨i 0, i 1, i 2, eq_ix3 i⟩
  rw [KSpec_apply, RSpec_apply, kout_eq]
  unfold rout
  rw [mul_comm]
  congr 2
  unfold h0 rh0
  split
  · exact ht_eq_href feat adj (roles mem nonm lead) hf ha hs hr _ _ _
  · rfl

end Cert.Proof.Law

end
-- ==== Proof.RefValueLib.lean ====
import proofs.«201762_g83623013253620_cont_9to1_m_623_34_alg».proof.Proof.Gen.ReferenceIdeal
import Idealize.ShloMosaic.Lib.ValueIdx
import Idealize.ShloMosaic.Lib.IdealHost

/-!
# The reference's gathers read at an index, and the words around them

The reference takes column `idx j` of `adj` (a gather along axis 1 of a `4096 × 4096` array, whole columns) and
row `idx j` of `feature` (a gather along axis 0 of a `4096 × 7 × 1` array, whole rows).  A gather's start index is
read as a signed integer and clamped into the axis; each result element is the operand at the clamped start on
the gathered axis and at the result's own coordinates on the others.  For a word below `4096` the wrap of a
negative index, the signed reading and the clamp are all the identity.  The mask "entry `j` does not name node
`p`" is `1` or `0` as an extended real, and the divisor's word is the real `1024`, so the division is the
extended reals' own quotient.
-/

noncomputable section

namespace Cert.Proof.RefValue

open Idealize.ShloMosaic Idealize.ShloMosaic.ValueIdx Cert.ReferenceIdeal Cert.ReferenceIdeal.Gen

/-! ## The two gathers at an index -/

local notation "dA" => gather_S4096x4096_S1024x1_S4096x1024_0_1_n_n_1_1_40961

/-- Column gather of `adj`: element `(p, j)` is `adj[p, s]`, `s` the start index `idx[j, 0]` read signed and clamped
    into `[0, 4095]`. -/
theorem gather_adj_apply {α : Type} {w : Nat} (x : S4096x4096.Idx → α) (idx : IVec S1024x1 w) (p : Fin 4096) (j : Fin 1024) :
    Host.gather gather_S4096x4096_S1024x1_S4096x1024_0_1_n_n_1_1_40961 x idx (ix2 p j)
      = x (ix2 p ⟨min (idx (ix2 j 0)).toInt.toNat 4095, by omega⟩) := by
  unfold Host.gather
  congr 1
  funext a
  refine Fin.ext ?_
  match a with
  | ⟨0, _⟩ =>
    show GatherDims.start dA (ix2 p j) idx 0 + GatherDims.batchCoord dA (ix2 p j) 0 + GatherDims.offCoord dA (ix2 p j) 0 = p.val
    rw [GatherDims.batchCoord_eq_zero _ _ _ (by decide)]
    unfold GatherDims.start
    rw [dif_neg (by decide)]
    unfold GatherDims.offCoord
    rw [dif_pos (by decide)]
    have hk : ∀ (h : List.idxOf (0 : Fin 2) (GatherDims.sKept dA) < (GatherDims.offsetDims dA).length),
        (GatherDims.offsetDims dA)[List.idxOf (0 : Fin 2) (GatherDims.sKept dA)]'h = (0 : Fin 2) := by decide
    rw [hk]
    show 0 + 0 + p.val = p.val
    omega
  | ⟨1, _⟩ =>
    show GatherDims.start dA (ix2 p j) idx 1 + GatherDims.batchCoord dA (ix2 p j) 1 + GatherDims.offCoord dA (ix2 p j) 1 = _
    rw [GatherDims.batchCoord_eq_zero _ _ _ (by decide), GatherDims.offCoord_eq_zero _ _ _ (by decide)]
    simp only [Nat.add_zero]
    unfold GatherDims.start
    rw [dif_pos (by decide)]
    have hsi : GatherDims.siIdx dA (ix2 p j) ⟨List.idxOf (1 : Fin 2) (GatherDims.startIndexMap dA), List.idxOf_lt_length_iff.2 (by decide)⟩ = ix2 j 0 := by
      funext b; refine Fin.ext ?_
      match b with
      | ⟨0, _⟩ => rfl
      | ⟨1, _⟩ => rfl
    rw [hsi]
    rfl

local notation "dF" => gather_S4096x7x1_S1024x1_S1024x7x1_12_0_n_n_0_1_171

/-- Row gather of `feature`: element `(j, f, z)` is `feature[s, f, z]`, `s` the start index `idx[j, 0]` read signed and
    clamped into `[0, 4095]`. -/
theorem gather_feat_apply {α : Type} {w : Nat} (x : S4096x7x1.Idx → α) (idx : IVec S1024x1 w) (j : Fin 1024) (f : Fin 7) (z : Fin 1) :
    Host.gather gather_S4096x7x1_S1024x1_S1024x7x1_12_0_n_n_0_1_171 x idx (ix3 j f z)
      = x (ix3 ⟨min (idx (ix2 j 0)).toInt.toNat 4095, by omega⟩ f z) := by
  unfold Host.gather
  congr 1
  funext a
  refine Fin.ext ?_
  match a with
  | ⟨0, _⟩ =>
    show GatherDims.start dF (ix3 j f z) idx 0 + GatherDims.batchCoord dF (ix3 j f z) 0 + GatherDims.offCoord dF (ix3 j f z) 0 = _
    rw [GatherDims.batchCoord_eq_zero _ _ _ (by decide), GatherDims.offCoord_eq_zero _ _ _ (by decide)]
    simp only [Nat.add_zero]
    unfold GatherDims.start
    rw [dif_pos (by decide)]
    have hsi : GatherDims.siIdx dF (ix3 j f z) ⟨List.idxOf (0 : Fin 3) (GatherDims.startIndexMap dF), List.idxOf_lt_length_iff.2 (by decide)⟩ = ix2 j 0 := by
      funext b; refine Fin.ext ?_
      match b with
      | ⟨0, _⟩ => rfl
      | ⟨1, _⟩ => rfl
    rw [hsi]
    rfl
  | ⟨1, _⟩ =>
    show GatherDims.start dF (ix3 j f z) idx 1 + GatherDims.batchCoord dF (ix3 j f z) 1 + GatherDims.offCoord dF (ix3 j f z) 1 = f.val
    rw [GatherDims.batchCoord_eq_zero _ _ _ (by decide)]
    unfold GatherDims.start
    rw [dif_neg (by decide)]
    unfold GatherDims.offCoord
    rw [dif_pos (by decide)]
    have hk : ∀ (h : List.idxOf (1 : Fin 3) (GatherDims.sKept dF) < (GatherDims.offsetDims dF).length),
        (GatherDims.offsetDims dF)[List.idxOf (1 : Fin 3) (GatherDims.sKept dF)]'h = (1 : Fin 3) := by decide
    rw [hk]
    show 0 + 0 + f.val = f.val
    omega
  | ⟨2, _⟩ =>
    show GatherDims.start dF (ix3 j f z) idx 2 + GatherDims.batchCoord dF (ix3 j f z) 2 + GatherDims.offCoord dF (ix3 j f z) 2 = z.val
    rw [GatherDims.batchCoord_eq_zero _ _ _ (by decide)]
    unfold GatherDims.start
    rw [dif_neg (by decide)]
    unfold GatherDims.offCoord
    rw [dif_pos (by decide)]
    have hk : ∀ (h : List.idxOf (2 : Fin 3) (GatherDims.sKept dF) < (GatherDims.offsetDims dF).length),
        (GatherDims.offsetDims dF)[List.idxOf (2 : Fin 3) (GatherDims.sKept dF)]'h = (2 : Fin 3) := by decide
    rw [hk]
    show 0 + 0 + z.val = z.val
    omega

/-! ## Words in range, the mask, and the divisor -/

/-- A word below 4096 has the sign bit clear: read signed it is its unsigned value. -/
theorem toInt_of_lt (w : BitVec 32) (h : w.toNat < 4096) : w.toInt = (w.toNat : Int) :=
  BitVec.toInt_eq_toNat_of_lt (by omega)

/-- The wrap of a negative start index (add the extent when below zero) leaves a word in range alone. -/
theorem wrap_eq (w : BitVec 32) (h : w.toNat < 4096) :
    Scalar.select (IntOp.cmpi .slt w 0#32) (IntOp.addi w 4096#32) w = w := by
  have h0 : IntOp.cmpi .slt w 0#32 = 0#1 := by
    have hs : w.slt 0#32 = false := by
      have := toInt_of_lt w h
      simp [BitVec.slt, this]
    show BitVec.ofBool (w.slt 0#32) = 0#1
    rw [hs]; rfl
  rw [h0]; exact select_zero _ _

/-- The clamp of a start index into the axis leaves a word in range alone. -/
theorem clamp_eq (w : BitVec 32) (h : w.toNat < 4096) : min w.toInt.toNat 4095 = w.toNat := by
  rw [toInt_of_lt w h, Int.toNat_natCast]; omega

/-- The 0/1 mask "the word is not node p" as an extended real. -/
theorem mask_apply (w : BitVec 32) (p : Fin 4096) :
    (FloatOps.uitofp (F := Ideal) .f32 (IntOp.cmpi .ne w (BitVec.ofNat 32 p.val)) : EReal)
      = if w.toNat ≠ p.val then (1 : EReal) else 0 := by
  have hp : (BitVec.ofNat 32 p.val).toNat = p.val := by
    rw [BitVec.toNat_ofNat]; exact Nat.mod_eq_of_lt (by have := p.isLt; omega)
  by_cases hw : w = BitVec.ofNat 32 p.val
  · have h1 : IntOp.cmpi .ne w (BitVec.ofNat 32 p.val) = 0#1 := by
      show BitVec.ofBool (w != BitVec.ofNat 32 p.val) = 0#1
      rw [hw]; simp
    rw [h1, if_neg (by rw [hw, hp]; exact fun h => h rfl)]
    show (((0#1 : BitVec 1).toNat : ℝ) : EReal) = 0
    simp
  · have h1 : IntOp.cmpi .ne w (BitVec.ofNat 32 p.val) = 1#1 := by
      show BitVec.ofBool (w != BitVec.ofNat 32 p.val) = 1#1
      have : (w != BitVec.ofNat 32 p.val) = true := by simpa using hw
      rw [this]; rfl
    have hne : w.toNat ≠ p.val := fun h => hw (by rw [← h, BitVec.ofNat_toNat, BitVec.setWidth_eq])
    rw [h1, if_pos hne]
    show (((1#1 : BitVec 1).toNat : ℝ) : EReal) = 1
    simp

/-- The f32 word 0x44800000 is 1024. -/
theorem ofBits_1024 : Ideal.ofBits .f32 0x44800000#32 = ((1024 : ℝ) : EReal) := by
  simp [Ideal.ofBits, Ideal.ieee, -EReal.coe_mul]; norm_num

/-- Division by that word is the extended reals' own quotient. -/
theorem div_1024 (x : EReal) : Ideal.div x (Ideal.ofBits .f32 0x44800000#32) = x / Ideal.ofBits .f32 0x44800000#32 := by
  have hne : Ideal.ofBits .f32 0x44800000#32 ≠ 0 := by
    rw [ofBits_1024]; exact_mod_cast (by norm_num : (1024 : ℝ) ≠ 0)
  rw [Ideal.div, if_neg hne, div_eq_mul_inv]

end Cert.Proof.RefValue

end
-- ==== Proof.RefValueMembers.lean ====
import proofs.«201762_g83623013253620_cont_9to1_m_623_34_alg».proof.Proof.Gen.ReferenceIdeal.Read
import proofs.«201762_g83623013253620_cont_9to1_m_623_34_alg».proof.Proof.Spec
import proofs.«201762_g83623013253620_cont_9to1_m_623_34_alg».proof.Proof.RefValueLib

/-!
# The reference's aggregate over the members list, read at an index

For an index list `idx` whose words are all below `4096`, the reference's block for this list at node `p`,
feature column `f` is `(Σ_j adj[p, idx j] · [idx j ≠ p] · feature[idx j, f]) / 1024`: the gathered column of
`adj`, the mask of the entries that name `p` itself, the gathered row of `feature`, the contraction over the
`1024` entries, and the division, each read at an index.
-/

noncomputable section

namespace Cert.Proof.RefValue.Members

open Idealize.ShloMosaic Idealize.ShloMosaic.ValueIdx Cert.ReferenceIdeal Cert.ReferenceIdeal.Gen Cert.ReferenceIdeal.Read Cert.Spec Cert.Proof.RefValue

variable (x0 : (⟨S4096x7x1, .f32⟩ : BufTy).Contents (Elt Ideal)) (x1 : (⟨S4096x4096, .f32⟩ : BufTy).Contents (Elt Ideal))
  (idx : (⟨S1024, .i32⟩ : BufTy).Contents (Elt Ideal))

/-- The clamped start index of an entry in range is the row the entry names. -/
theorem start_eq (h : InRange idx) (k : Fin 1024) (w : BitVec 32) (hw : w = idx (ix1 k)) (hlt : min w.toInt.toNat 4095 < 4096) :
    (⟨min w.toInt.toNat 4095, hlt⟩ : Fin 4096) = rowFin idx k := by
  subst hw
  exact Fin.ext (by
    show min (idx (ix1 k)).toInt.toNat 4095 = (idx (ix1 k)).toNat % 4096
    rw [clamp_eq _ (h k)]; exact (Nat.mod_eq_of_lt (h k)).symm)

/-- The start indices of the column gather: the wrapped word is the word. -/
theorem startA (h : InRange idx) (k : Fin 1024) : val_main_v5 (F := Ideal) idx (ix2 k (0 : Fin 1)) = idx (ix1 k) := by
  have e : idx_main_v5 (ix2 k (0 : Fin 1)) = ix1 k := funext fun a => Fin.ext (by match a with | ⟨0, _⟩ => rfl)
  rw [val_main_v5_apply, e, val_main_v4_apply, val_main_v1_apply, val_main_v3_apply, val_main_v0_apply, val_main_v2_apply,
    val_main_c_apply, val_main_c_0_apply]
  exact wrap_eq _ (h k)

/-- The start indices of the row gather: the wrapped word is the word. -/
theorem startF (h : InRange idx) (k : Fin 1024) : val_main_v20 (F := Ideal) idx (ix2 k (0 : Fin 1)) = idx (ix1 k) := by
  have e : idx_main_v20 (ix2 k (0 : Fin 1)) = ix1 k := funext fun a => Fin.ext (by match a with | ⟨0, _⟩ => rfl)
  rw [val_main_v20_apply, e, val_main_v19_apply, val_main_v16_apply, val_main_v18_apply, val_main_v15_apply, val_main_v17_apply,
    val_main_c_1_apply, val_main_c_2_apply]
  exact wrap_eq _ (h k)

/-- The gathered column of `adj`. -/
theorem colA (h : InRange idx) (p : Fin 4096) (k : Fin 1024) :
    val_main_v6 (F := Ideal) x1 idx (ix2 p k) = x1 (ix2 p (rowFin idx k)) := by
  unfold val_main_v6
  rw [gather_adj_apply]
  exact congrArg (fun r => x1 (ix2 p r)) (start_eq idx h k _ (startA idx h k) _)

/-- The mask of the entries that name node `p`. -/
theorem mask (h : InRange idx) (p : Fin 4096) (k : Fin 1024) :
    val_main_v13 (F := Ideal) idx (ix2 p k) = if rowFin idx k ≠ p then (1 : EReal) else 0 := by
  have e1 : idx_main_v7 (idx_main_v10 (ix2 p k)) = ix1 k := funext fun a => Fin.ext (by match a with | ⟨0, _⟩ => rfl)
  have e2 : ((idx_main_v9 (idx_main_v11 (ix2 p k))) 0).val = p.val := rfl
  rw [val_main_v13_apply, val_main_v12_apply, val_main_v10_apply, val_main_v7_apply, val_main_v11_apply, val_main_v9_apply,
    val_main_v8_apply, e1, e2, mask_apply]
  have hiff : (rowFin idx k ≠ p) ↔ ((idx (ix1 k)).toNat ≠ p.val) := by
    rw [Ne, Ne, Fin.ext_iff]
    show ¬ ((idx (ix1 k)).toNat % 4096 = p.val) ↔ _
    rw [Nat.mod_eq_of_lt (h k)]
  exact (if_congr hiff rfl rfl).symm

/-- The gathered row of `feature`, as the `1024 × 7` matrix the contraction takes. -/
theorem rowF (h : InRange idx) (k : Fin 1024) (f : Fin 7) :
    val_main_v22 (F := Ideal) x0 idx (ix2 k f) = x0 (ix3 (rowFin idx k) f (0 : Fin 1)) := by
  have e : idx_main_v22 (ix2 k f) = ix3 k f (0 : Fin 1) := funext fun a => Fin.ext (by
    match a with
    | ⟨0, _⟩ => show (k.val * 7 + f.val) / 7 = k.val; omega
    | ⟨1, _⟩ => show (k.val * 7 + f.val) / 1 % 7 = f.val; omega
    | ⟨2, _⟩ => rfl)
  rw [val_main_v22_apply, e]
  unfold val_main_v21
  rw [gather_feat_apply]
  exact congrArg (fun r => x0 (ix3 r f (0 : Fin 1))) (start_eq idx h k _ (startF idx h k) _)

/-- The block at node `p`, feature column `f`. -/
theorem block (h : InRange idx) (p : Fin 4096) (f : Fin 7) :
    val_main_v26 (F := Ideal) x0 x1 idx (ix3 p f (0 : Fin 1)) = href x0 x1 idx p f := by
  have e : idx_main_v26 (ix3 p f (0 : Fin 1)) = ix2 p f := funext fun a => Fin.ext (by
    match a with
    | ⟨0, _⟩ => show ((p.val * 7 + f.val) * 1 + 0) / 7 = p.val; omega
    | ⟨1, _⟩ => show ((p.val * 7 + f.val) * 1 + 0) % 7 = f.val; omega)
  rw [val_main_v26_apply, e, val_main_v25_apply, val_main_v23_apply, val_main_v24_apply, val_main_cst_apply,
    Ideal.hostDivf_def, Ideal.ofBits_def, div_1024]
  unfold href
  congr 1
  refine Finset.sum_congr rfl fun k _ => ?_
  have el : lidx_main_v23 (ix2 p f) k = ix2 p k := funext fun a => Fin.ext (by match a with | ⟨0, _⟩ => rfl | ⟨1, _⟩ => rfl)
  have er : ridx_main_v23 (ix2 p f) k = ix2 k f := funext fun a => Fin.ext (by match a with | ⟨0, _⟩ => rfl | ⟨1, _⟩ => rfl)
  rw [el, er, val_main_v14_apply, colA x1 idx h p k, mask idx h p k, rowF x0 idx h k f, Ideal.mulf_def]

end Cert.Proof.RefValue.Members

end
-- ==== Proof.RefValueNonmembers.lean ====
import proofs.«201762_g83623013253620_cont_9to1_m_623_34_alg».proof.Proof.Gen.ReferenceIdeal.Read
import proofs.«201762_g83623013253620_cont_9to1_m_623_34_alg».proof.Proof.Spec
import proofs.«201762_g83623013253620_cont_9to1_m_623_34_alg».proof.Proof.RefValueLib

/-!
# The reference's aggregate over the nonmembers list, read at an index

For an index list `idx` whose words are all below `4096`, the reference's block for this list at node `p`,
feature column `f` is `(Σ_j adj[p, idx j] · [idx j ≠ p] · feature[idx j, f]) / 1024`: the gathered column of
`adj`, the mask of the entries that name `p` itself, the gathered row of `feature`, the contraction over the
`1024` entries, and the division, each read at an index.
-/

noncomputable section

namespace Cert.Proof.RefValue.Nonmembers

open Idealize.ShloMosaic Idealize.ShloMosaic.ValueIdx Cert.ReferenceIdeal Cert.ReferenceIdeal.Gen Cert.ReferenceIdeal.Read Cert.Spec Cert.Proof.RefValue

variable (x0 : (⟨S4096x7x1, .f32⟩ : BufTy).Contents (Elt Ideal)) (x1 : (⟨S4096x4096, .f32⟩ : BufTy).Contents (Elt Ideal))
  (idx : (⟨S1024, .i32⟩ : BufTy).Contents (Elt Ideal))

/-- The clamped start index of an entry in range is the row the entry names. -/
theorem start_eq (h : InRange idx) (k : Fin 1024) (w : BitVec 32) (hw : w = idx (ix1 k)) (hlt : min w.toInt.toNat 4095 < 4096) :
    (⟨min w.toInt.toNat 4095, hlt⟩ : Fin 4096) = rowFin idx k := by
  subst hw
  exact Fin.ext (by
    show min (idx (ix1 k)).toInt.toNat 4095 = (idx (ix1 k)).toNat % 4096
    rw [clamp_eq _ (h k)]; exact (Nat.mod_eq_of_lt (h k)).symm)

/-- The start indices of the column gather: the wrapped word is the word. -/
theorem startA (h : InRange idx) (k : Fin 1024) : val_main_v32 (F := Ideal) idx (ix2 k (0 : Fin 1)) = idx (ix1 k) := by
  have e : idx_main_v32 (ix2 k (0 : Fin 1)) = ix1 k := funext fun a => Fin.ext (by match a with | ⟨0, _⟩ => rfl)
  rw [val_main_v32_apply, e, val_main_v31_apply, val_main_v28_apply, val_main_v30_apply, val_main_v27_apply, val_main_v29_apply,
    val_main_c_3_apply, val_main_c_4_apply]
  exact wrap_eq _ (h k)

/-- The start indices of the row gather: the wrapped word is the word. -/
theorem startF (h : InRange idx) (k : Fin 1024) : val_main_v47 (F := Ideal) idx (ix2 k (0 : Fin 1)) = idx (ix1 k) := by
  have e : idx_main_v47 (ix2 k (0 : Fin 1)) = ix1 k := funext fun a => Fin.ext (by match a with | ⟨0, _⟩ => rfl)
  rw [val_main_v47_apply, e, val_main_v46_apply, val_main_v43_apply, val_main_v45_apply, val_main_v42_apply, val_main_v44_apply,
    val_main_c_5_apply, val_main_c_6_apply]
  exact wrap_eq _ (h k)

/-- The gathered column of `adj`. -/
theorem colA (h : InRange idx) (p : Fin 4096) (k : Fin 1024) :
    val_main_v33 (F := Ideal) x1 idx (ix2 p k) = x1 (ix2 p (rowFin idx k)) := by
  unfold val_main_v33
  rw [gather_adj_apply]
  exact congrArg (fun r => x1 (ix2 p r)) (start_eq idx h k _ (startA idx h k) _)

/-- The mask of the entries that name node `p`. -/
theorem mask (h : InRange idx) (p : Fin 4096) (k : Fin 1024) :
    val_main_v40 (F := Ideal) idx (ix2 p k) = if rowFin idx k ≠ p then (1 : EReal) else 0 := by
  have e1 : idx_main_v34 (idx_main_v37 (ix2 p k)) = ix1 k := funext fun a => Fin.ext (by match a with | ⟨0, _⟩ => rfl)
  have e2 : ((idx_main_v36 (idx_main_v38 (ix2 p k))) 0).val = p.val := rfl
  rw [val_main_v40_apply, val_main_v39_apply, val_main_v37_apply, val_main_v34_apply, val_main_v38_apply, val_main_v36_apply,
    val_main_v35_apply, e1, e2, mask_apply]
  have hiff : (rowFin idx k ≠ p) ↔ ((idx (ix1 k)).toNat ≠ p.val) := by
    rw [Ne, Ne, Fin.ext_iff]
    show ¬ ((idx (ix1 k)).toNat % 4096 = p.val) ↔ _
    rw [Nat.mod_eq_of_lt (h k)]
  exact (if_congr hiff rfl rfl).symm

/-- The gathered row of `feature`, as the `1024 × 7` matrix the contraction takes. -/
theorem rowF (h : InRange idx) (k : Fin 1024) (f : Fin 7) :
    val_main_v49 (F := Ideal) x0 idx (ix2 k f) = x0 (ix3 (rowFin idx k) f (0 : Fin 1)) := by
  have e : idx_main_v49 (ix2 k f) = ix3 k f (0 : Fin 1) := funext fun a => Fin.ext (by
    match a with
    | ⟨0, _⟩ => show (k.val * 7 + f.val) / 7 = k.val; omega
    | ⟨1, _⟩ => show (k.val * 7 + f.val) / 1 % 7 = f.val; omega
    | ⟨2, _⟩ => rfl)
  rw [val_main_v49_apply, e]
  unfold val_main_v48
  rw [gather_feat_apply]
  exact congrArg (fun r => x0 (ix3 r f (0 : Fin 1))) (start_eq idx h k _ (startF idx h k) _)

/-- The block at node `p`, feature column `f`. -/
theorem block (h : InRange idx) (p : Fin 4096) (f : Fin 7) :
    val_main_v53 (F := Ideal) x0 x1 idx (ix3 p f (0 : Fin 1)) = href x0 x1 idx p f := by
  have e : idx_main_v53 (ix3 p f (0 : Fin 1)) = ix2 p f := funext fun a => Fin.ext (by
    match a with
    | ⟨0, _⟩ => show ((p.val * 7 + f.val) * 1 + 0) / 7 = p.val; omega
    | ⟨1, _⟩ => show ((p.val * 7 + f.val) * 1 + 0) % 7 = f.val; omega)
  rw [val_main_v53_apply, e, val_main_v52_apply, val_main_v50_apply, val_main_v51_apply, val_main_cst_7_apply,
    Ideal.hostDivf_def, Ideal.ofBits_def, div_1024]
  unfold href
  congr 1
  refine Finset.sum_congr rfl fun k _ => ?_
  have el : lidx_main_v50 (ix2 p f) k = ix2 p k := funext fun a => Fin.ext (by match a with | ⟨0, _⟩ => rfl | ⟨1, _⟩ => rfl)
  have er : ridx_main_v50 (ix2 p f) k = ix2 k f := funext fun a => Fin.ext (by match a with | ⟨0, _⟩ => rfl | ⟨1, _⟩ => rfl)
  rw [el, er, val_main_v41_apply, colA x1 idx h p k, mask idx h p k, rowF x0 idx h k f, Ideal.mulf_def]

end Cert.Proof.RefValue.Nonmembers

end
-- ==== Proof.RefValueLeaders.lean ====
import proofs.«201762_g83623013253620_cont_9to1_m_623_34_alg».proof.Proof.Gen.ReferenceIdeal.Read
import proofs.«201762_g83623013253620_cont_9to1_m_623_34_alg».proof.Proof.Spec
import proofs.«201762_g83623013253620_cont_9to1_m_623_34_alg».proof.Proof.RefValueLib

/-!
# The reference's aggregate over the leaders list, read at an index

For an index list `idx` whose words are all below `4096`, the reference's block for this list at node `p`,
feature column `f` is `(Σ_j adj[p, idx j] · [idx j ≠ p] · feature[idx j, f]) / 1024`: the gathered column of
`adj`, the mask of the entries that name `p` itself, the gathered row of `feature`, the contraction over the
`1024` entries, and the division, each read at an index.
-/

noncomputable section

namespace Cert.Proof.RefValue.Leaders

open Idealize.ShloMosaic Idealize.ShloMosaic.ValueIdx Cert.ReferenceIdeal Cert.ReferenceIdeal.Gen Cert.ReferenceIdeal.Read Cert.Spec Cert.Proof.RefValue

variable (x0 : (⟨S4096x7x1, .f32⟩ : BufTy).Contents (Elt Ideal)) (x1 : (⟨S4096x4096, .f32⟩ : BufTy).Contents (Elt Ideal))
  (idx : (⟨S1024, .i32⟩ : BufTy).Contents (Elt Ideal))

/-- The clamped start index of an entry in range is the row the entry names. -/
theorem start_eq (h : InRange idx) (k : Fin 1024) (w : BitVec 32) (hw : w = idx (ix1 k)) (hlt : min w.toInt.toNat 4095 < 4096) :
    (⟨min w.toInt.toNat 4095, hlt⟩ : Fin 4096) = rowFin idx k := by
  subst hw
  exact Fin.ext (by
    show min (idx (ix1 k)).toInt.toNat 4095 = (idx (ix1 k)).toNat % 4096
    rw [clamp_eq _ (h k)]; exact (Nat.mod_eq_of_lt (h k)).symm)

/-- The start indices of the column gather: the wrapped word is the word. -/
theorem startA (h : InRange idx) (k : Fin 1024) : val_main_v59 (F := Ideal) idx (ix2 k (0 : Fin 1)) = idx (ix1 k) := by
  have e : idx_main_v59 (ix2 k (0 : Fin 1)) = ix1 k := funext fun a => Fin.ext (by match a with | ⟨0, _⟩ => rfl)
  rw [val_main_v59_apply, e, val_main_v58_apply, val_main_v55_apply, val_main_v57_apply, val_main_v54_apply, val_main_v56_apply,
    val_main_c_8_apply, val_main_c_9_apply]
  exact wrap_eq _ (h k)

/-- The start indices of the row gather: the wrapped word is the word. -/
theorem startF (h : InRange idx) (k : Fin 1024) : val_main_v74 (F := Ideal) idx (ix2 k (0 : Fin 1)) = idx (ix1 k) := by
  have e : idx_main_v74 (ix2 k (0 : Fin 1)) = ix1 k := funext fun a => Fin.ext (by match a with | ⟨0, _⟩ => rfl)
  rw [val_main_v74_apply, e, val_main_v73_apply, val_main_v70_apply, val_main_v72_apply, val_main_v69_apply, val_main_v71_apply,
    val_main_c_10_apply, val_main_c_11_apply]
  exact wrap_eq _ (h k)

/-- The gathered column of `adj`. -/
theorem colA (h : InRange idx) (p : Fin 4096) (k : Fin 1024) :
    val_main_v60 (F := Ideal) x1 idx (ix2 p k) = x1 (ix2 p (rowFin idx k)) := by
  unfold val_main_v60
  rw [gather_adj_apply]
  exact congrArg (fun r => x1 (ix2 p r)) (start_eq idx h k _ (startA idx h k) _)

/-- The mask of the entries that name node `p`. -/
theorem mask (h : InRange idx) (p : Fin 4096) (k : Fin 1024) :
    val_main_v67 (F := Ideal) idx (ix2 p k) = if rowFin idx k ≠ p then (1 : EReal) else 0 := by
  have e1 : idx_main_v61 (idx_main_v64 (ix2 p k)) = ix1 k := funext fun a => Fin.ext (by match a with | ⟨0, _⟩ => rfl)
  have e2 : ((idx_main_v63 (idx_main_v65 (ix2 p k))) 0).val = p.val := rfl
  rw [val_main_v67_apply, val_main_v66_apply, val_main_v64_apply, val_main_v61_apply, val_main_v65_apply, val_main_v63_apply,
    val_main_v62_apply, e1, e2, mask_apply]
  have hiff : (rowFin idx k ≠ p) ↔ ((idx (ix1 k)).toNat ≠ p.val) := by
    rw [Ne, Ne, Fin.ext_iff]
    show ¬ ((idx (ix1 k)).toNat % 4096 = p.val) ↔ _
    rw [Nat.mod_eq_of_lt (h k)]
  exact (if_congr hiff rfl rfl).symm

/-- The gathered row of `feature`, as the `1024 × 7` matrix the contraction takes. -/
theorem rowF (h : InRange idx) (k : Fin 1024) (f : Fin 7) :
    val_main_v76 (F := Ideal) x0 idx (ix2 k f) = x0 (ix3 (rowFin idx k) f (0 : Fin 1)) := by
  have e : idx_main_v76 (ix2 k f) = ix3 k f (0 : Fin 1) := funext fun a => Fin.ext (by
    match a with
    | ⟨0, _⟩ => show (k.val * 7 + f.val) / 7 = k.val; omega
    | ⟨1, _⟩ => show (k.val * 7 + f.val) / 1 % 7 = f.val; omega
    | ⟨2, _⟩ => rfl)
  rw [val_main_v76_apply, e]
  unfold val_main_v75
  rw [gather_feat_apply]
  exact congrArg (fun r => x0 (ix3 r f (0 : Fin 1))) (start_eq idx h k _ (startF idx h k) _)

/-- The block at node `p`, feature column `f`. -/
theorem block (h : InRange idx) (p : Fin 4096) (f : Fin 7) :
    val_main_v80 (F := Ideal) x0 x1 idx (ix3 p f (0 : Fin 1)) = href x0 x1 idx p f := by
  have e : idx_main_v80 (ix3 p f (0 : Fin 1)) = ix2 p f := funext fun a => Fin.ext (by
    match a with
    | ⟨0, _⟩ => show ((p.val * 7 + f.val) * 1 + 0) / 7 = p.val; omega
    | ⟨1, _⟩ => show ((p.val * 7 + f.val) * 1 + 0) % 7 = f.val; omega)
  rw [val_main_v80_apply, e, val_main_v79_apply, val_main_v77_apply, val_main_v78_apply, val_main_cst_12_apply,
    Ideal.hostDivf_def, Ideal.ofBits_def, div_1024]
  unfold href
  congr 1
  refine Finset.sum_congr rfl fun k _ => ?_
  have el : lidx_main_v77 (ix2 p f) k = ix2 p k := funext fun a => Fin.ext (by match a with | ⟨0, _⟩ => rfl | ⟨1, _⟩ => rfl)
  have er : ridx_main_v77 (ix2 p f) k = ix2 k f := funext fun a => Fin.ext (by match a with | ⟨0, _⟩ => rfl | ⟨1, _⟩ => rfl)
  rw [el, er, val_main_v68_apply, colA x1 idx h p k, mask idx h p k, rowF x0 idx h k f, Ideal.mulf_def]

end Cert.Proof.RefValue.Leaders

end
-- ==== Proof.RefValue.lean ====
import proofs.«201762_g83623013253620_cont_9to1_m_623_34_alg».proof.Proof.Gen.ReferenceIdeal.Read
import proofs.«201762_g83623013253620_cont_9to1_m_623_34_alg».proof.Proof.Spec
import proofs.«201762_g83623013253620_cont_9to1_m_623_34_alg».proof.Proof.RefValueMembers
import proofs.«201762_g83623013253620_cont_9to1_m_623_34_alg».proof.Proof.RefValueNonmembers
import proofs.«201762_g83623013253620_cont_9to1_m_623_34_alg».proof.Proof.RefValueLeaders

/-!
# The reference's result as one function of its seven arguments

The reference lays the leaders', nonmembers' and members' aggregates and the node's own features along axis 1
(28 rows per node), contracts the trailing axis of extent one with `weight` (a sum of one term), and adds
`bias` along the last axis.  Read at `(p, k, o)` this is `rh0[k, p] · weight[0, o] + bias[o]`, with `rh0` the
aggregate of the list `k / 7` at feature column `k % 7` for `k < 21` and `feature[p, k − 21]` above: the function
`RSpec`, for index lists whose words are all below `4096`.
-/

noncomputable section

namespace Cert.Proof.RefValue

open Idealize.ShloMosaic Idealize.ShloMosaic.ValueIdx Idealize.SL.Sem Cert.ReferenceIdeal Cert.ReferenceIdeal.Gen Cert.ReferenceIdeal.Read Cert.Spec

section Stages

variable (x0 : (⟨S4096x7x1, .f32⟩ : BufTy).Contents (Elt Ideal)) (x1 : (⟨S4096x4096, .f32⟩ : BufTy).Contents (Elt Ideal))
  (x2 x3 x4 : (⟨S1024, .i32⟩ : BufTy).Contents (Elt Ideal))
  (x5 : (⟨S1x64, .f32⟩ : BufTy).Contents (Elt Ideal)) (x6 : (⟨S64, .f32⟩ : BufTy).Contents (Elt Ideal))

/-- The 28 rows per node: piece `k / 7` of the four laid along axis 1, at row `k % 7` of it. -/
theorem rows (h2 : InRange x2) (h3 : InRange x3) (h4 : InRange x4) (p : Fin 4096) (k : Fin 28) :
    val_main_v81 (F := Ideal) x0 x1 x2 x3 x4 (ix3 p k (0 : Fin 1)) = rh0 x0 x1 (roles x2 x3 x4) k p := by
  have hk28 : k.val < 28 := k.isLt
  unfold val_main_v81 rh0
  by_cases h7 : k.val < 7
  · rw [dif_pos (show k.val < 21 by omega)]
    refine (concatenate_apply_piece _ _ _ (ix3 p k (0 : Fin 1)) 0 (by show (0 : ℕ) < 4; decide) S4096x7x1 (val_main_v80 (F := Ideal) x0 x1 x4) rfl rfl 0 rfl
      (ix3 p (⟨k.val, h7⟩ : Fin 7) (0 : Fin 1)) (fun b hb => ?_) (by show 0 + k.val = k.val; omega)).trans ?_
    · match b with
      | ⟨0, _⟩ => rfl
      | ⟨1, _⟩ => exact absurd rfl hb
      | ⟨2, _⟩ => rfl
    · have er : roles x2 x3 x4 ⟨k.val / 7, by omega⟩ = x4 := by
        have e0 : (⟨k.val / 7, by omega⟩ : Fin 3) = 0 := Fin.ext (by show k.val / 7 = 0; omega)
        rw [e0]; rfl
      have ef : (⟨k.val % 7, by omega⟩ : Fin 7) = ⟨k.val, h7⟩ := Fin.ext (by show k.val % 7 = k.val; omega)
      rw [Leaders.block x0 x1 x4 h4 p ⟨k.val, h7⟩, er, ef]
  by_cases h14 : k.val < 14
  · rw [dif_pos (show k.val < 21 by omega)]
    refine (concatenate_apply_piece _ _ _ (ix3 p k (0 : Fin 1)) 1 (by show (1 : ℕ) < 4; decide) S4096x7x1 (val_main_v53 (F := Ideal) x0 x1 x3) rfl rfl 7 rfl
      (ix3 p (⟨k.val - 7, by omega⟩ : Fin 7) (0 : Fin 1)) (fun b hb => ?_) (by show 7 + (k.val - 7) = k.val; omega)).trans ?_
    · match b with
      | ⟨0, _⟩ => rfl
      | ⟨1, _⟩ => exact absurd rfl hb
      | ⟨2, _⟩ => rfl
    · have er : roles x2 x3 x4 ⟨k.val / 7, by omega⟩ = x3 := by
        have e0 : (⟨k.val / 7, by omega⟩ : Fin 3) = 1 := Fin.ext (by show k.val / 7 = 1; omega)
        rw [e0]; rfl
      have ef : (⟨k.val % 7, by omega⟩ : Fin 7) = ⟨k.val - 7, by omega⟩ := Fin.ext (by show k.val % 7 = k.val - 7; omega)
      rw [Nonmembers.block x0 x1 x3 h3 p ⟨k.val - 7, by omega⟩, er, ef]
  by_cases h21 : k.val < 21
  · rw [dif_pos h21]
    refine (concatenate_apply_piece _ _ _ (ix3 p k (0 : Fin 1)) 2 (by show (2 : ℕ) < 4; decide) S4096x7x1 (val_main_v26 (F := Ideal) x0 x1 x2) rfl rfl 14 rfl
      (ix3 p (⟨k.val - 14, by omega⟩ : Fin 7) (0 : Fin 1)) (fun b hb => ?_) (by show 14 + (k.val - 14) = k.val; omega)).trans ?_
    · match b with
      | ⟨0, _⟩ => rfl
      | ⟨1, _⟩ => exact absurd rfl hb
      | ⟨2, _⟩ => rfl
    · have er : roles x2 x3 x4 ⟨k.val / 7, by omega⟩ = x2 := by
        have e0 : (⟨k.val / 7, by omega⟩ : Fin 3) = 2 := Fin.ext (by show k.val / 7 = 2; omega)
        rw [e0]; rfl
      have ef : (⟨k.val % 7, by omega⟩ : Fin 7) = ⟨k.val - 14, by omega⟩ := Fin.ext (by show k.val % 7 = k.val - 14; omega)
      rw [Members.block x0 x1 x2 h2 p ⟨k.val - 14, by omega⟩, er, ef]
  · rw [dif_neg h21]
    exact concatenate_apply_piece _ _ _ (ix3 p k (0 : Fin 1)) 3 (by show (3 : ℕ) < 4; decide) S4096x7x1 x0 rfl rfl 21 rfl
      (ix3 p (⟨k.val - 21, by omega⟩ : Fin 7) (0 : Fin 1)) (fun b hb => by
        match b with
        | ⟨0, _⟩ => rfl
        | ⟨1, _⟩ => exact absurd rfl hb
        | ⟨2, _⟩ => rfl) (by show 21 + (k.val - 21) = k.val; omega)

/-- The result array: the rows times `weight[0, o]` plus `bias[o]`. -/
theorem ref_val (h2 : InRange x2) (h3 : InRange x3) (h4 : InRange x4) :
    val_main_v85 (F := Ideal) x0 x1 x2 x3 x4 x5 x6 = RSpec x0 x1 x2 x3 x4 x5 x6 := by
  funext i
  obtain ⟨p, k, o, rfl⟩ : ∃ (p : Fin 4096) (k : Fin 28) (o : Fin 64), i = ix3 p k o := ⟨i 0, i 1, i 2, eq_ix3 i⟩
  have el : lidx_main_v82 (ix3 p k o) (0 : Fin 1) = ix3 p k (0 : Fin 1) :=
    funext fun a => Fin.ext (by match a with | ⟨0, _⟩ => rfl | ⟨1, _⟩ => rfl | ⟨2, _⟩ => rfl)
  have er : ridx_main_v82 (ix3 p k o) (0 : Fin 1) = ix2 (0 : Fin 1) o :=
    funext fun a => Fin.ext (by match a with | ⟨0, _⟩ => rfl | ⟨1, _⟩ => rfl)
  have eb : idx_main_v83 (idx_main_v84 (ix3 p k o)) = ix1 o :=
    funext fun a => Fin.ext (by match a with | ⟨0, _⟩ => rfl)
  rw [RSpec_apply, val_main_v85_apply, val_main_v82_apply, val_main_v84_apply, val_main_v83_apply, Fin.sum_univ_one, el, er, eb,
    rows x0 x1 x2 x3 x4 h2 h3 h4 p k, Ideal.addf_def]
  rfl

end Stages

/-- The reference's result buffer is `RSpec` of the seven argument buffers. -/
theorem ref_eq (m : (ℓ : Loc Cert.ReferenceIdeal.nD Cert.ReferenceIdeal.τ Cert.ReferenceIdeal.sig) → Buf (Elt Ideal) ℓ) (c : Dev Cert.ReferenceIdeal.nD)
    (hm : Cert.Spec.InRange (m ((c.tc : Thread Cert.ReferenceIdeal.nD Cert.ReferenceIdeal.τ).loc Cert.ReferenceIdeal.main_arg2)))
    (hn : Cert.Spec.InRange (m ((c.tc : Thread Cert.ReferenceIdeal.nD Cert.ReferenceIdeal.τ).loc Cert.ReferenceIdeal.main_arg3)))
    (hl : Cert.Spec.InRange (m ((c.tc : Thread Cert.ReferenceIdeal.nD Cert.ReferenceIdeal.τ).loc Cert.ReferenceIdeal.main_arg4))) :
    Cert.ReferenceIdeal.Value.res_main_v85 (F := Ideal) m c
      = Cert.Spec.RSpec (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [val_main_v85_eq]
  exact ref_val _ _ _ _ _ _ _ hm hn hl

end Cert.Proof.RefValue

end
-- ==== Proof.RefFrame.lean ====
import proofs.«201762_g83623013253620_cont_9to1_m_623_34_alg».proof.Defs
import proofs.«201762_g83623013253620_cont_9to1_m_623_34_alg».proof.Proof.Gen.ReferenceIdeal
import proofs.«201762_g83623013253620_cont_9to1_m_623_34_alg».proof.Proof.Gen.Pre_input_domain
import proofs.«201762_g83623013253620_cont_9to1_m_623_34_alg».proof.Proof.Gen.ReferenceIdeal.Read

/-!
The reference is a straight line of host operations: it runs to the end from any memory and writes only
its own intermediate buffers, so its seven argument arrays end as they began.  This is the reference's
run (each result named as the composed term of the arguments) with the result's value dropped.
-/

noncomputable section

namespace Cert.Proof.RefFrame

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Assemble.lean ====
import proofs.«201762_g83623013253620_cont_9to1_m_623_34_alg».proof.Defs
import proofs.«201762_g83623013253620_cont_9to1_m_623_34_alg».proof.Proof.Gen.Kernel
import proofs.«201762_g83623013253620_cont_9to1_m_623_34_alg».proof.Proof.Gen.KernelIdeal
import proofs.«201762_g83623013253620_cont_9to1_m_623_34_alg».proof.Proof.Gen.ReferenceIdeal
import proofs.«201762_g83623013253620_cont_9to1_m_623_34_alg».proof.Proof.Gen.Pre_input_domain
import proofs.«201762_g83623013253620_cont_9to1_m_623_34_alg».proof.Proof.Gen.ReferenceIdeal.Run
import proofs.«201762_g83623013253620_cont_9to1_m_623_34_alg».proof.Proof.PreAt
import proofs.«201762_g83623013253620_cont_9to1_m_623_34_alg».proof.Proof.HistVal
import proofs.«201762_g83623013253620_cont_9to1_m_623_34_alg».proof.Proof.CommonP
import proofs.«201762_g83623013253620_cont_9to1_m_623_34_alg».proof.Proof.KernelVal
import proofs.«201762_g83623013253620_cont_9to1_m_623_34_alg».proof.Proof.Law
import proofs.«201762_g83623013253620_cont_9to1_m_623_34_alg».proof.Proof.RefValue
import proofs.«201762_g83623013253620_cont_9to1_m_623_34_alg».proof.Proof.RefFrame

/-!
# The claim from its pieces

Given the two kernel programs' runs (every fair execution ends, the seven argument arrays unchanged, and at the
extended reals the result array holding the closed form of the arguments and of the three histograms), the five
conjuncts follow.  The value chain on each device: the kernel's result is the closed form `KSpec` of the seven
arguments (the histogram rows are the counts of the three index lists, which are in range); `KSpec = RSpec` for
real features and a real symmetric adjacency; and `RSpec` of the same arguments is the reference's result.
-/

noncomputable section

namespace Cert.Proof.Assemble

open Idealize.ShloMosaic Idealize.SL.Sem Idealize.ShloMosaic.ValueIdx

/-- An initial memory of the kernel at the extended reals, at the bit-exact instance, and of the reference. -/
abbrev MemI : Type := (ℓ : Loc Cert.KernelIdeal.nD Cert.KernelIdeal.τ Cert.KernelIdeal.sig) → Buf (Elt Ideal) ℓ
abbrev MemB : Type := (ℓ : Loc Cert.Kernel.nD Cert.Kernel.τ Cert.Kernel.sig) → Buf (Elt Bits) ℓ
abbrev MemR : Type := (ℓ : Loc Cert.ReferenceIdeal.nD Cert.ReferenceIdeal.τ Cert.ReferenceIdeal.sig) → Buf (Elt Ideal) ℓ

/-- A buffer of device `c`'s TensorCore, in each of the three programs. -/
abbrev locI (c : Dev Cert.KernelIdeal.nD) (b : Ref Cert.KernelIdeal.sig .tc) :
    Loc Cert.KernelIdeal.nD Cert.KernelIdeal.τ Cert.KernelIdeal.sig :=
  (c.tc : Thread Cert.KernelIdeal.nD Cert.KernelIdeal.τ).loc b
abbrev locB (c : Dev Cert.Kernel.nD) (b : Ref Cert.Kernel.sig .tc) : Loc Cert.Kernel.nD Cert.Kernel.τ Cert.Kernel.sig :=
  (c.tc : Thread Cert.Kernel.nD Cert.Kernel.τ).loc b
abbrev locR (c : Dev Cert.ReferenceIdeal.nD) (b : Ref Cert.ReferenceIdeal.sig .tc) :
    Loc Cert.ReferenceIdeal.nD Cert.ReferenceIdeal.τ Cert.ReferenceIdeal.sig :=
  (c.tc : Thread Cert.ReferenceIdeal.nD Cert.ReferenceIdeal.τ).loc b

/-- The three index lists name rows, on every device (at the extended reals). -/
def PreOK' (m : MemI) : Prop :=
  ∀ d : Dev Cert.KernelIdeal.nD, Cert.Spec.InRange (m (Cert.Proof.KI.leadLoc d)) ∧ Cert.Spec.InRange (m (Cert.Proof.KI.nonmLoc d))
    ∧ Cert.Spec.InRange (m (Cert.Proof.KI.memLoc d))

/-- The three index lists name rows, on every device (at the bit-exact instance). -/
def PreOKB' (m : MemB) : Prop :=
  ∀ d : Dev Cert.Kernel.nD, Cert.Spec.InRange (m ((SparseCore.T d).loc Cert.Kernel.main_arg4))
    ∧ Cert.Spec.InRange (m ((SparseCore.T d).loc Cert.Kernel.main_arg3))
    ∧ Cert.Spec.InRange (m ((SparseCore.T d).loc Cert.Kernel.main_arg2))

/-- The kernel's result on device `c` as the closed form of the arguments and the three histograms. -/
abbrev kres (m : MemI) (c : Dev Cert.KernelIdeal.nD) : Buf (Elt Ideal) (locI c Cert.KernelIdeal.main_v18) :=
  Cert.Proof.HostVal.outOf (Cert.Proof.KernelVal.KArr (m (locI c Cert.KernelIdeal.main_arg0)) (m (locI c Cert.KernelIdeal.main_arg1))
    (Cert.Proof.KI.CNT (F := Ideal) m c) (m (locI c Cert.KernelIdeal.main_arg5)) (m (locI c Cert.KernelIdeal.main_arg6)))

/-- The kernel's run at the extended reals: it ends, the result is `kres`, the arguments are unchanged. -/
abbrev RunI (ok : MemI → Prop) : Prop :=
  ∀ (m : MemI) (ρ : Dev Cert.KernelIdeal.nD → PrngReg), ok m →
    θ_run (Cert.KernelIdeal.defs (F := Ideal)) (Cert.KernelIdeal.threads (F := Ideal)) ⟨m, fun _ => 0, ρ⟩
      (fun r => ∀ c : Dev Cert.KernelIdeal.nD,
        r.2.mem (locI c Cert.KernelIdeal.main_v18) = kres m c
        ∧ r.2.mem (locI c Cert.KernelIdeal.main_arg0) = m (locI c Cert.KernelIdeal.main_arg0)
        ∧ r.2.mem (locI c Cert.KernelIdeal.main_arg1) = m (locI c Cert.KernelIdeal.main_arg1)
        ∧ r.2.mem (locI c Cert.KernelIdeal.main_arg2) = m (locI c Cert.KernelIdeal.main_arg2)
        ∧ r.2.mem (locI c Cert.KernelIdeal.main_arg3) = m (locI c Cert.KernelIdeal.main_arg3)
        ∧ r.2.mem (locI c Cert.KernelIdeal.main_arg4) = m (locI c Cert.KernelIdeal.main_arg4)
        ∧ r.2.mem (locI c Cert.KernelIdeal.main_arg5) = m (locI c Cert.KernelIdeal.main_arg5)
        ∧ r.2.mem (locI c Cert.KernelIdeal.main_arg6) = m (locI c Cert.KernelIdeal.main_arg6))

/-- The kernel's run at the bit-exact instance: it ends, the arguments are unchanged. -/
abbrev RunB (ok : MemB → Prop) : Prop :=
  ∀ (m : MemB) (ρ : Dev Cert.Kernel.nD → PrngReg), ok m →
    θ_run (Cert.Kernel.defs (F := Bits)) (Cert.Kernel.threads (F := Bits)) ⟨m, fun _ => 0, ρ⟩
      (fun r => ∀ c : Dev Cert.Kernel.nD,
        r.2.mem (locB c Cert.Kernel.main_arg0) = m (locB c Cert.Kernel.main_arg0)
        ∧ r.2.mem (locB c Cert.Kernel.main_arg1) = m (locB c Cert.Kernel.main_arg1)
        ∧ r.2.mem (locB c Cert.Kernel.main_arg2) = m (locB c Cert.Kernel.main_arg2)
        ∧ r.2.mem (locB c Cert.Kernel.main_arg3) = m (locB c Cert.Kernel.main_arg3)
        ∧ r.2.mem (locB c Cert.Kernel.main_arg4) = m (locB c Cert.Kernel.main_arg4)
        ∧ r.2.mem (locB c Cert.Kernel.main_arg5) = m (locB c Cert.Kernel.main_arg5)
        ∧ r.2.mem (locB c Cert.Kernel.main_arg6) = m (locB c Cert.Kernel.main_arg6))

/-! ## The precondition gives the runs' hypothesis -/

theorem preOK_of_pre (m : MemI) (h : Cert.Pre_KernelIdeal m) : PreOK' m := fun d =>
  have p := Cert.Proof.PreAt.pre_ideal m h d
  ⟨p.2.2.1, p.2.1, p.1⟩

theorem preOKB_of_pre (m : MemB) (h : Cert.Pre_Kernel m) : PreOKB' m := fun d =>
  have p := Cert.Proof.PreAt.pre_bits m h d
  ⟨p.2.2, p.2.1, p.1⟩

/-! ## The value chain -/

/-- The three histogram rows are the counts of the three lists (leaders, nonmembers, members), the lists in range. -/
theorem cnt_rows (m : MemI) (c : Dev Cert.KernelIdeal.nD)
    (hm : Cert.Spec.InRange (m (locI c Cert.KernelIdeal.main_arg2)))
    (hn : Cert.Spec.InRange (m (locI c Cert.KernelIdeal.main_arg3)))
    (hl : Cert.Spec.InRange (m (locI c Cert.KernelIdeal.main_arg4)))
    (r : Fin 3) (mm : Fin 4096) :
    (Cert.Proof.KI.CNT (F := Ideal) m c : Vec Ideal Cert.KernelIdeal.S3x4096 .f32) (ix2 r mm)
      = (((Cert.Spec.cnt (Cert.Spec.roles (m (locI c Cert.KernelIdeal.main_arg2)) (m (locI c Cert.KernelIdeal.main_arg3))
          (m (locI c Cert.KernelIdeal.main_arg4)) r) mm : ℕ) : ℝ) : EReal) := by
  have key : ∀ y : Cert.KernelIdeal.S3x4096.Idx,
      (Cert.Proof.KI.CNT (F := Ideal) m c : Vec Ideal Cert.KernelIdeal.S3x4096 .f32) y
        = if (y 0).val = 0 then Cert.Proof.KI.hist (F := Ideal) (m (Cert.Proof.KI.leadLoc c)) (ix1 (y 1))
          else if (y 0).val = 1 then Cert.Proof.KI.hist (F := Ideal) (m (Cert.Proof.KI.nonmLoc c)) (ix1 (y 1))
          else Cert.Proof.KI.hist (F := Ideal) (m (Cert.Proof.KI.memLoc c)) (ix1 (y 1)) := fun _ => rfl
  rw [key]
  match r with
  | ⟨0, _⟩ => exact (if_pos rfl).trans (Cert.Proof.HistVal.hist_eq_cnt _ hl mm)
  | ⟨1, _⟩ =>
    exact (if_neg (by omega : ¬(1 : ℕ) = 0)).trans ((if_pos rfl).trans (Cert.Proof.HistVal.hist_eq_cnt _ hn mm))
  | ⟨2, _⟩ =>
    exact (if_neg (by omega : ¬(2 : ℕ) = 0)).trans
      ((if_neg (by omega : ¬(2 : ℕ) = 1)).trans (Cert.Proof.HistVal.hist_eq_cnt _ hm mm))

/-- On each device the kernel's closed form is the reference's result, from memories agreeing on the arguments. -/
theorem value_eq (m : MemI) (m' : MemR) (hpre : Cert.Pre_KernelIdeal m) (c : Dev Cert.KernelIdeal.nD)
    (a0 : m' (locR c Cert.ReferenceIdeal.main_arg0) = m (locI c Cert.KernelIdeal.main_arg0))
    (a1 : m' (locR c Cert.ReferenceIdeal.main_arg1) = m (locI c Cert.KernelIdeal.main_arg1))
    (a2 : m' (locR c Cert.ReferenceIdeal.main_arg2) = m (locI c Cert.KernelIdeal.main_arg2))
    (a3 : m' (locR c Cert.ReferenceIdeal.main_arg3) = m (locI c Cert.KernelIdeal.main_arg3))
    (a4 : m' (locR c Cert.ReferenceIdeal.main_arg4) = m (locI c Cert.KernelIdeal.main_arg4))
    (a5 : m' (locR c Cert.ReferenceIdeal.main_arg5) = m (locI c Cert.KernelIdeal.main_arg5))
    (a6 : m' (locR c Cert.ReferenceIdeal.main_arg6) = m (locI c Cert.KernelIdeal.main_arg6)) :
    Cert.ReferenceIdeal.Value.res_main_v85 (F := Ideal) m' c = kres m c := by
  obtain ⟨hm, hn, hl, hf, ha, hs⟩ := Cert.Proof.PreAt.pre_ideal m hpre c
  have hm' : Cert.Spec.InRange (m' (locR c Cert.ReferenceIdeal.main_arg2)) := by rw [a2]; exact hm
  have hn' : Cert.Spec.InRange (m' (locR c Cert.ReferenceIdeal.main_arg3)) := by rw [a3]; exact hn
  have hl' : Cert.Spec.InRange (m' (locR c Cert.ReferenceIdeal.main_arg4)) := by rw [a4]; exact hl
  rw [Cert.Proof.RefValue.ref_eq m' c hm' hn' hl', a0, a1, a2, a3, a4, a5, a6]
  rw [← Cert.Proof.Law.law _ _ _ _ _ _ _ hf ha hs hm hn hl]
  exact (Cert.Proof.KernelVal.kval_eq _ _ _ _ _ _ _ _ (cnt_rows m c hm hn hl)).symm

/-! ## The conjuncts -/

section Claims

variable (hrunI : RunI PreOK') (hrunB : RunB PreOKB')

include hrunB in
theorem frame_k : Cert.frame_Kernel := fun m ρ hpre => hrunB m ρ (preOKB_of_pre m hpre)

include hrunI in
theorem frame_ki : Cert.frame_KernelIdeal := fun m ρ hpre =>
  (θ_run (Cert.KernelIdeal.defs (F := Ideal)) _ _).mono (fun _ h c => (h c).2) (hrunI m ρ (preOK_of_pre m hpre))

include hrunI in
theorem algebraic : Cert.algebraic_KernelIdeal_ReferenceIdeal := by
  intro m ρ m' ρ' hpre hagree
  refine ⟨fun c => kres m c, hrunI m ρ (preOK_of_pre m hpre), ?_⟩
  refine (θ_run (Cert.ReferenceIdeal.defs (F := Ideal)) _ _).mono (fun _ h c => ⟨(h c).1.trans ?_, (h c).2⟩)
    (Cert.ReferenceIdeal.Value.run (F := Ideal) m' ρ')
  exact value_eq m m' hpre c (hagree c).1 (hagree c).2.1 (hagree c).2.2.1 (hagree c).2.2.2.1 (hagree c).2.2.2.2.1
    (hagree c).2.2.2.2.2.1 (hagree c).2.2.2.2.2.2

include hrunI hrunB in
theorem claim_of : Cert.Claim :=
  ⟨Cert.Kernel.Gen.facts, Cert.KernelIdeal.Gen.facts, Cert.ReferenceIdeal.Gen.facts, Cert.Pre_input_domain.Gen.facts,
    frame_k hrunB, frame_ki hrunI, Cert.Proof.RefFrame.frame_ri, trivial, algebraic hrunI⟩

end Claims

end Cert.Proof.Assemble
-- ==== Proof.LaunchTc.lean ====
import proofs.«201762_g83623013253620_cont_9to1_m_623_34_alg».proof.Proof.Common
import proofs.«201762_g83623013253620_cont_9to1_m_623_34_alg».proof.Proof.Gen.KernelIdeal.Launch
import proofs.«201762_g83623013253620_cont_9to1_m_623_34_alg».proof.Proof.Gen.KernelIdeal.Points
import Idealize.ShloMosaic.Lib.Pipeline.FrameBody
import Idealize.ShloMosaic.Lib.Pipeline.Regions

/-!
The TensorCore pipeline of the program as a region of @main: the embedding of the pipeline's rounds
into the ghost state, the proof data of the six windows and of the scratch table the body carries
from point to point, and the statement of the body's obligation.
-/

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type}

/-! ## The pipeline's rounds inside the ghost state: the middle factor -/

/-- The pipeline's copy of the rounds algebra: the left factor of the right factor. -/
def ER : Emb UR (MT nD τ sig (HIx 1) (Elt F) ℕ UU ℕ) :=
  (Emb.inl : Emb UR (UR × Counters)).trans (embR (A := UH) (B := UR × Counters))

instance ER_landsIn : (ER (F := F)).LandsIn (upEmb : UEmb _ (MT nD τ sig (HIx 1) (Elt F) ℕ UU ℕ)) := by
  unfold ER embR; infer_instance

variable [FloatOps F]

/-- The pipeline prefetches no table: its one admissible table contents. -/
abbrev adm : (p : Fin 1) → (pcfgs (F := F) p).Adm := fun q => (cfgs q).toPCfg_adm

/-! ## The proof data of the pipeline

`A w` is what window `w`'s array holds when the region is entered.  Windows 0–4 are inputs the body
only reads: each holds its block at every point.  The scratch holds anything before the first point and,
after it, the table the first point stores (the three scaled histograms times the transposed features,
rounded); the output's staging buffer holds at each point the block the body stores. -/

section Data

variable [∀ e, Nonempty (Elt F e)]
variable (d : Dev nD) (A : (w : Fin cfg1.W) → Buf (Elt F) ((cfg1.win w).arr.view.loc (d.tc : Thread nD τ)))

/-- Window `w`'s block at point `t`, read off its array. -/
def iblk (w : Fin cfg1.W) (t : Fin cfg1.N) : ((cfg1.win w).xblock (cfg1.grid.coords t)).Idx → Elt F (cfg1.win w).elt :=
  ((cfg1.win w).blk t).view.read (Elt F) (A w)

/-- The whole rectangles the body loads and stores through. -/
abbrev R3 : Rect S3x4096 := Rect.unit (s := S3x4096) ![0, 0] S3x4096.size Facts₀.inb_S3x4096_S3x4096_0_0
abbrev R7 : Rect S7x4096 := Rect.unit (s := S7x4096) ![0, 0] S7x4096.size Facts₀.inb_S7x4096_S7x4096_0_0
abbrev R21 : Rect S21x4096 := Rect.unit (s := S21x4096) ![0, 0] S21x4096.size Facts₀.inb_S21x4096_S21x4096_0_0
abbrev RA : Rect S4096x512 := Rect.unit (s := S4096x512) ![0, 0] S4096x512.size Facts₀.inb_S4096x512_S4096x512_0_0
abbrev RW : Rect S1792x28 := Rect.unit (s := S1792x28) ![0, 0] S1792x28.size Facts₀.inb_S1792x28_S1792x28_0_0
abbrev RB : Rect S1792x1 := Rect.unit (s := S1792x1) ![0, 0] S1792x1.size Facts₀.inb_S1792x1_S1792x1_0_0
abbrev RO : Rect S1792x512 := Rect.unit (s := S1792x512) ![0, 0] S1792x512.size Facts₀.inb_S1792x512_S1792x512_0_0
/-- The diagonal block of the adjacency's column block, the table's columns of the point, the features' columns of the point. -/
abbrev RD (i : grid1.Coords) : Rect S4096x512 := Rect.unit (s := S4096x512) (k1_off1 i) S512x512.size (Facts₀.k1_off1_inb i)
abbrev RG (i : grid1.Coords) : Rect S21x4096 := Rect.unit (s := S21x4096) (k1_off2 i) S21x512.size (Facts₀.k1_off2_inb i)
abbrev RF (i : grid1.Coords) : Rect S7x4096 := Rect.unit (s := S7x4096) (k1_off3 i) S7x512.size (Facts₀.k1_off3_inb i)

/-- What the first point stores into the scratch: the table, from the histograms' and the features' blocks there. -/
def gtPay : FVec F S21x4096 .bf16 :=
  k1_pay1 (View.ld (iblk d A 1 t1_0) R3) (View.ld (iblk d A 2 t1_0) R7)

/-- What the scratch reads after the first point. -/
def scrX : S21x4096.Idx → Elt F .bf16 := View.canon [⟨R21, gtPay d A⟩]

/-- What the body stores into the output's staging buffer at point `t`. -/
def outPay (t : Fin cfg1.N) : FVec F S1792x512 .f32 :=
  k1_pay2 (View.ld (iblk d A 0 t) RA) (View.ld (scrX d A) R21) (View.ld (iblk d A 0 t) (RD (grid1.coords t)))
    (View.ld (scrX d A) (RG (grid1.coords t))) (View.ld (iblk d A 2 t) (RF (grid1.coords t)))
    (View.ld (iblk d A 3 t) RW) (View.ld (iblk d A 4 t) RB)

/-- What the output's staging buffer reads after the body at point `t`. -/
def outX (t : Fin cfg1.N) : S1792x512.Idx → Elt F .f32 := View.canon [⟨RO, outPay d A t⟩]

end Data

section Data2

variable [∀ e, Nonempty (Elt F e)]
variable (d : Dev nD) (A : (w : Fin cfg1.W) → Buf (Elt F) ((cfg1.win w).arr.view.loc (d.tc : Thread nD τ)))

/-- What each window's current staging buffer reads after the body at a point: an input's block (the body
    only reads it), the output's stored block. -/
def after1 : (w : Fin 6) → Fin cfg1.N → (cfg1.win w).block.Idx → Elt F (cfg1.win w).elt
  | 0, t => iblk d A 0 t
  | 1, t => iblk d A 1 t
  | 2, t => iblk d A 2 t
  | 3, t => iblk d A 3 t
  | 4, t => iblk d A 4 t
  | 5, t => outX d A t
  | ⟨_ + 6, h⟩, _ => absurd h (Nat.not_lt.2 (Nat.le_add_left _ _))

/-- The scratch between points: anything before the first point, the table after it. -/
def Φ1 (t : Fin (cfg1.N + 1)) : sProp (MT nD τ sig (HIx 1) (Elt F) ℕ UU ℕ) :=
  if t.val = 0 then Pipeline.scopedRest (Ix := HIx 1) (Name := ℕ) (U := UU) (Lvl := ℕ) (Val := Elt F) spec1 d
  else ownsTc d (Memref.whole cc1_scratch0) fullShare (scrX d A)

/-- The proof data of the pipeline on device `d`. The core owes nothing during the region; the pairs its waits
    have recorded stay at or below the level reached after the one SparseCore call. -/
def dat1 : Dat τ (Elt F) (HIx 1) ℕ UU ℕ cfg1 d where
  A := A
  after := after1 d A
  Φ := Φ1 d A
  q := fun _ => fullShare
  owed := fun _ => 0
  recorded := fun _ => {p | (K (F := F)).lev (T d, p.1) p.2 ≤ 8}

end Data2

/-- The proof data as the region rule takes it: per pipeline (there is one) and device. -/
def pdats [∀ e, Nonempty (Elt F e)]
    (A : (d : Dev nD) → (w : Fin cfg1.W) → Buf (Elt F) ((cfg1.win w).arr.view.loc (d.tc : Thread nD τ))) :
    (p : Fin 1) → (d : Dev nD) → Dat τ (Elt F) (HIx 1) ℕ UU ℕ (Pipeline.pin (pcfgs (F := F)) adm p) d :=
  fun _ d => dat1 d (A d)

/-- THE BODY'S OBLIGATION: at every point, from the scratch invariant, what the core owes and the six current
    staging buffers at what the pipeline leaves in them, the kernel's body runs to the next point's. -/
def TcBody [∀ e, Nonempty (Elt F e)] : Prop :=
  ∀ (d : Dev nD) (A : (w : Fin cfg1.W) → Buf (Elt F) ((cfg1.win w).arr.view.loc (d.tc : Thread nD τ))),
    BodyObligationLoose (dat1 d A) (defs₀ (F := F)) 𝒱₀ (none : HIx 1) Set.univ

/-! ## What the body finds in each staging buffer, and the invariant at each point -/

section Before

variable [∀ e, Nonempty (Elt F e)]
variable (d : Dev nD) (A : (w : Fin cfg1.W) → Buf (Elt F) ((cfg1.win w).arr.view.loc (d.tc : Thread nD τ)))

theorem before1_0 (t : Fin cfg1.N) (dd) : (dat1 d A).before 0 t dd = iblk d A 0 t :=
  ((dat1 d A).before_in_eq_fetched 0 rfl (fun _ => rfl) (fun _ _ _ => rfl) (fun t => by unfold Dat.blockOf; rfl) t dd).trans
    (by unfold Dat.fetched Dat.blockOf iblk; rfl)
theorem before1_1 (t : Fin cfg1.N) (dd) : (dat1 d A).before 1 t dd = iblk d A 1 t :=
  ((dat1 d A).before_in_eq_fetched 1 rfl (fun _ => rfl) (fun _ _ _ => rfl) (fun t => by unfold Dat.blockOf; rfl) t dd).trans
    (by unfold Dat.fetched Dat.blockOf iblk; rfl)
theorem before1_2 (t : Fin cfg1.N) (dd) : (dat1 d A).before 2 t dd = iblk d A 2 t :=
  ((dat1 d A).before_in_eq_fetched 2 rfl (fun _ => rfl) (fun _ _ _ => rfl) (fun t => by unfold Dat.blockOf; rfl) t dd).trans
    (by unfold Dat.fetched Dat.blockOf iblk; rfl)
theorem before1_3 (t : Fin cfg1.N) (dd) : (dat1 d A).before 3 t dd = iblk d A 3 t :=
  ((dat1 d A).before_in_eq_fetched 3 rfl (fun _ => rfl) (fun _ _ _ => rfl) (fun t => by unfold Dat.blockOf; rfl) t dd).trans
    (by unfold Dat.fetched Dat.blockOf iblk; rfl)
theorem before1_4 (t : Fin cfg1.N) (dd) : (dat1 d A).before 4 t dd = iblk d A 4 t :=
  ((dat1 d A).before_in_eq_fetched 4 rfl (fun _ => rfl) (fun _ _ _ => rfl) (fun t => by unfold Dat.blockOf; rfl) t dd).trans
    (by unfold Dat.fetched Dat.blockOf iblk; rfl)
/-- The output's staging buffer is fresh at every point (the block is written back at every point). -/
theorem before1_5 (t : Fin cfg1.N) (dd) : (dat1 d A).before 5 t dd = dd :=
  (dat1 d A).before_out_reset 5 rfl t (by
    by_cases h : t.val = 0
    · exact .inl h
    · exact .inr ⟨h, flush1_5 _⟩) dd

theorem Φ1_zero : (dat1 d A).Φ 0 = Pipeline.scopedRest (Ix := HIx 1) (Name := ℕ) (U := UU) (Lvl := ℕ) (Val := Elt F) spec1 d := by
  show Φ1 d A 0 = _
  unfold Φ1; exact if_pos rfl
theorem Φ1_succ (t : Fin cfg1.N) : (dat1 d A).Φ t.succ = ownsTc d (Memref.whole cc1_scratch0) fullShare (scrX d A) := by
  show Φ1 d A t.succ = _
  unfold Φ1; exact if_neg (by rw [Fin.val_succ]; exact Nat.succ_ne_zero _)
theorem Φ1_pos (t : Fin (cfg1.N + 1)) (h : t.val ≠ 0) : (dat1 d A).Φ t = ownsTc d (Memref.whole cc1_scratch0) fullShare (scrX d A) := by
  show Φ1 d A t = _
  unfold Φ1; exact if_neg h

theorem after1_5 (t : Fin cfg1.N) : (dat1 d A).after 5 t = outX d A t := by
  simp only [dat1, after1]
theorem after1_in (w : Fin 6) (t : Fin cfg1.N) : (dat1 d A).after w t = after1 d A w t := rfl

end Before

end Cert.Proof.KI

end
-- ==== Proof.LaunchReg.lean ====
import proofs.«201762_g83623013253620_cont_9to1_m_623_34_alg».proof.Proof.LaunchTc

/-!
The TensorCore pipeline as one segment of @main: entered from the TensorCore's unscoped buffers and its
debt state after the SparseCore call, left with the result array at what the write-backs leave.
-/

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

/-! ## The region as a segment of @main -/

section Region

variable [∀ e, Nonempty (Elt F e)]

/-- What the six windows' arrays hold, read off the TensorCore's unscoped buffers at `V`. -/
abbrev Aof (d : Dev nD) (V : (b : Ref sig .tc) → Buf (Elt F) ((d.tc : Thread nD τ).loc b)) :
    (w : Fin cfg1.W) → Buf (Elt F) ((cfg1.win w).arr.view.loc (d.tc : Thread nD τ)) :=
  fun w => V (Pipeline.arrRef spec1 w)

variable (V : (d : Dev nD) → (b : Ref sig .tc) → Buf (Elt F) ((d.tc : Thread nD τ).loc b))

/-- The TensorCore's debt state around the region: it owes nothing, and the pairs its waits have recorded sit
    at or below the level reached after the one SparseCore call. -/
def OW (d : Dev nD) : sProp (MT nD τ sig (HIx 1) (Elt F) ℕ UU ℕ) :=
  iprop(∃ W, ⌜(K (F := F)).WBelow (T d) W 8⌝ ∗ owes (T d) (0 : CellTallies nD τ sig (HIx 1)) W)

/-- The unscoped buffers after the region: the result array at what the write-backs leave, the rest unchanged. -/
def Vpost (d : Dev nD) : (b : Ref sig .tc) → Buf (Elt F) ((d.tc : Thread nD τ).loc b) :=
  Function.update (V d) main_v16 ((dat1 d (Aof d (V d))).arrAt 5 cfg1.N)

theorem Vpost_out (d : Dev nD) : Vpost V d main_v16 = (dat1 d (Aof d (V d))).arrAt 5 cfg1.N := Function.update_self ..
theorem Vpost_ne (d : Dev nD) (b : Ref sig .tc) (h : b ≠ main_v16) : Vpost V d b = V d b := Function.update_of_ne h ..

/-- The arrays after the region are the unscoped buffers' new contents: the inputs unchanged, the result written. -/
theorem arrAt_Vpost (d : Dev nD) : ∀ w : Fin 6, (dat1 d (Aof d (V d))).arrAt w cfg1.N = Vpost V d (Pipeline.arrRef spec1 w)
  | 0 => ((dat1 d (Aof d (V d))).arrAt_in 0 rfl _).trans (Vpost_ne V d main_arg1 (by decide)).symm
  | 1 => ((dat1 d (Aof d (V d))).arrAt_in 1 rfl _).trans (Vpost_ne V d main_v2 (by decide)).symm
  | 2 => ((dat1 d (Aof d (V d))).arrAt_in 2 rfl _).trans (Vpost_ne V d main_v1 (by decide)).symm
  | 3 => ((dat1 d (Aof d (V d))).arrAt_in 3 rfl _).trans (Vpost_ne V d main_v11 (by decide)).symm
  | 4 => ((dat1 d (Aof d (V d))).arrAt_in 4 rfl _).trans (Vpost_ne V d main_v15 (by decide)).symm
  | 5 => (Vpost_out V d).symm
  | ⟨_ + 6, h⟩ => absurd h (Nat.not_lt.2 (Nat.le_add_left _ _))

/-- So the six arrays as the region leaves them are the six buffers at the new contents. -/
theorem arrays_Vpost (d : Dev nD) :
    (bigSep Finset.univ fun w : Fin 6 => (((d.tc : Thread nD τ).loc (Pipeline.arrRef spec1 w)) ↦{fullShare} (dat1 d (Aof d (V d))).arrAt w cfg1.N : sProp (MT nD τ sig (HIx 1) (Elt F) ℕ UU ℕ)))
      = bigSep Finset.univ fun w : Fin 6 => (((d.tc : Thread nD τ).loc (Pipeline.arrRef spec1 w)) ↦{fullShare} Vpost V d (Pipeline.arrRef spec1 w)) :=
  bigSep_congr fun w _ => by rw [arrAt_Vpost V d w]

/-- The buffers no window stages are untouched by the region. -/
theorem unscopedRest_Vpost (d : Dev nD) :
    (Pipeline.unscopedRest (Ix := HIx 1) (Name := ℕ) (U := UU) (Lvl := ℕ) spec1 d (Vpost V d) : sProp (MT nD τ sig (HIx 1) (Elt F) ℕ UU ℕ))
      = Pipeline.unscopedRest (Ix := HIx 1) (Name := ℕ) (U := UU) (Lvl := ℕ) spec1 d (V d) := by
  unfold Pipeline.unscopedRest
  refine bigSep_congr fun b hb => ?_
  rw [Vpost_ne V d b]
  rintro rfl
  exact (Finset.mem_sdiff.mp hb).2 (Finset.mem_image.mpr ⟨5, Finset.mem_univ _, rfl⟩)

/-- The levels and level sets of the launch, as the region takes them. -/
abbrev Lk : GSem nD τ sig → Finset (HIx 1) := (K (F := F)).L
abbrev lvk : GSem nD τ sig → HIx 1 → ℕ := (K (F := F)).lev

def reg1 (hbody : TcBody (F := F)) :
    Pipeline.RegionSeg (pcfgs (F := F)) adm (pdats (fun d => Aof d (V d))) (none : HIx 1) defs₀ 𝒱₀ (Lk (F := F)) (lvk (F := F)) 0 where
  win := launch1.win.to₀
  block_pos := launch1.block_pos
  stage_whole := launch1.stage_whole
  K := PEmpty
  osem k := k.elim
  ho := Pipeline.OwnSemFacts.none _
  hbody c := hbody c (Aof c (V c))
  hwaits c := Pipeline.hwaits_of_owed_zero (pcfgs (F := F)) adm (pdats (fun d => Aof d (V d))) (none : HIx 1) (Lk (F := F)) (lvk (F := F)) 0 (fun _ _ => rfl) c
  pre c := iprop(unscopedBufs c (V c) ∗ OW c)
  post c := iprop(unscopedBufs c (Vpost V c) ∗ OW c)
  X _ := iprop(emp)
  Y _ := iprop(emp)
  Z c := Pipeline.unscopedRest (Ix := HIx 1) (Name := ℕ) (U := UU) (Lvl := ℕ) spec1 c (V c)
  hentry c := by
    rw [Pipeline.ownSems0_none]
    have hsplit := Pipeline.arrays_of_unscopedBufs (pcfgs (F := F)) adm (pdats (fun d => Aof d (V d))) (p := 0) launch1.win launch1.arr_whole c
      ((pdats (fun d => Aof d (V d)) 0 c).share_full fun _ => rfl) (V c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold OW Pipeline.Dat.owesAt Pipeline.owesWithin
      icases HO with ⟨%W, %hW, HO⟩
      iexists W; isplitr
      · ipureintro; exact fun p hp => Or.inl (hW p (Finset.mem_coe.mp hp))
      · iexact HO
    isplitr; · iempintro
    iexact Hr
  hin c := by
    show _ ⊢ (dat1 c (Aof c (V c))).Φ 0
    rw [Φ1_zero]
    iintro ⟨-, -, H⟩; iexact H
  hout c := by
    show (dat1 c (Aof c (V c))).Φ (Fin.last cfg1.N) ⊢ _
    rw [Φ1_pos _ _ _ (by rw [Fin.val_last]; show grid1.N ≠ 0; rw [N_1]; decide), Pipeline.ownSems0_none, scopedRest1_eq]
    unfold ownsTc
    rw [owns_whole]
    iintro H
    isplitr; · iempintro
    isplitr; · iempintro
    iexists _; iexact H
  hexit c := by
    rw [Pipeline.arrays_eq (Pipeline.pin (pcfgs (F := F)) adm) (pdats (fun d => Aof d (V d))) 0 c launch1.arr_whole
        ((pdats (fun d => Aof d (V d)) 0 c).share_full fun _ => rfl),
      Pipeline.unscopedBufs_split (Pipeline.pin (pcfgs (F := F)) adm) 0 launch1.win.arr_unscoped launch1.win.arr_inj c (Vpost V c),
      unscopedRest_Vpost V c]
    iintro ⟨Ha, HO, -, Hr⟩
    imodintro
    isplitl [Ha Hr]
    · isplitl [Ha]
      · iapply (Entails.of_eq (arrays_Vpost V c))
        iexact Ha
      · iexact Hr
    · unfold OW Pipeline.Dat.owesAt Pipeline.owesWithin
      icases HO with ⟨%W, %hW, HO⟩
      iexists W; isplitr
      · ipureintro
        intro p hp
        rcases hW (Finset.mem_coe.mpr hp) with h | ⟨w, s, rfl⟩
        · exact h
        · exact Nat.zero_le _
      · iexact HO

end Region

end Cert.Proof.KI

end
-- ==== Proof.LaunchDefs.lean ====
import proofs.«201762_g83623013253620_cont_9to1_m_623_34_alg».proof.Proof.LaunchReg
import proofs.«201762_g83623013253620_cont_9to1_m_623_34_alg».proof.Proof.CommonP

/-!
@main on the TensorCore as a chain of items — a stretch of host operations, the SparseCore call, host
operations (with the block-diagonal weight built by a module-local function), the TensorCore pipeline's
region, two closing host operations — with the launch element of the ghost state and the contents of the
TensorCore's buffers along the chain. Definitions and the chain equation only.
-/

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held wp_seq wp_hlo_within)

variable {F : FTy → Type} [FloatOps F]

/-! ## @main as a chain of items -/

/-- The host operations of @main, stretch by stretch, in order. -/
abbrev ops01 : List (HloOp τ sig (Elt F)) := [
    StableHlo.reshape main_arg0 main_v0 rfl shapeCasts_S4096x7x1_S4096x7,
    StableHlo.unary main_v0 main_v1 ((transpose S7x4096 [1, 0] · transposes_S4096x7_S7x4096_1_0) : (⟨S4096x7, .f32⟩ : BufTy).Contents (Elt F) → (⟨S7x4096, .f32⟩ : BufTy).Contents (Elt F)) ]
abbrev ops3_9 : List (HloOp τ sig (Elt F)) := [
    StableHlo.nullary main_v3 (iotaInDim S28x28 32 0),
    StableHlo.nullary main_v4 (iotaInDim S28x28 32 1),
    StableHlo.nullary main_c (constantI S_ 32 0#32),
    StableHlo.unary main_c main_v5 (broadcastInDim S28x28 ![] bcast_S_S28x28 : (⟨S_, .i32⟩ : BufTy).Contents (Elt F) → (⟨S28x28, .i32⟩ : BufTy).Contents (Elt F)),
    StableHlo.binary main_v3 main_v5 main_v6 (addi : (⟨S28x28, .i32⟩ : BufTy).Contents (Elt F) → (⟨S28x28, .i32⟩ : BufTy).Contents (Elt F) → (⟨S28x28, .i32⟩ : BufTy).Contents (Elt F)),
    StableHlo.binary main_v6 main_v4 main_v7 (cmpi .eq : (⟨S28x28, .i32⟩ : BufTy).Contents (Elt F) → (⟨S28x28, .i32⟩ : BufTy).Contents (Elt F) → (⟨S28x28, .i1⟩ : BufTy).Contents (Elt F)),
    StableHlo.unary main_v7 main_v8 (uitofp .f32 : (⟨S28x28, .i1⟩ : BufTy).Contents (Elt F) → (⟨S28x28, .f32⟩ : BufTy).Contents (Elt F)) ]
/-- The module-local function's operations, at the buffers of its one call. -/
abbrev opsK : List (HloOp τ sig (Elt F)) := [
    StableHlo.TRef.unary (.of main_v8 : StableHlo.TRef sig ⟨S28x28, .f32⟩) main_call0.v0 (broadcastInDim S28x1x28x1 ![0, 2] bcast_S28x28_S28x1x28x1_0_2),
    StableHlo.TRef.unary (.of main_arg5 : StableHlo.TRef sig ⟨S1x64, .f32⟩) main_call0.v1 (broadcastInDim S1x1x1x64 ![1, 3] bcast_S1x64_S1x1x1x64_1_3),
    StableHlo.TRef.unary main_call0.v0 main_call0.v2 (broadcastInDim S28x1x28x64 ![0, 1, 2, 3] bcast_S28x1x28x1_S28x1x28x64_0_1_2_3),
    StableHlo.TRef.unary main_call0.v1 main_call0.v3 (broadcastInDim S28x1x28x64 ![0, 1, 2, 3] bcast_S1x1x1x64_S28x1x28x64_0_1_2_3),
    StableHlo.TRef.binary main_call0.v2 main_call0.v3 main_call0.v4 mulf,
    StableHlo.TRef.reshape main_call0.v4 main_call0.v5 rfl shapeCasts_S28x1x28x64_S28x1792 ]
abbrev ops11_16 : List (HloOp τ sig (Elt F)) := [
    StableHlo.unary main_v9 main_v10 ((transpose S1792x28 [1, 0] · transposes_S28x1792_S1792x28_1_0) : (⟨S28x1792, .f32⟩ : BufTy).Contents (Elt F) → (⟨S1792x28, .f32⟩ : BufTy).Contents (Elt F)),
    StableHlo.unary main_v10 main_v11 ((truncf .bf16 · bitsLt_bf16_f32) : (⟨S1792x28, .f32⟩ : BufTy).Contents (Elt F) → (⟨S1792x28, .bf16⟩ : BufTy).Contents (Elt F)),
    StableHlo.reshape main_arg6 main_v12 rfl shapeCasts_S64_S1x64,
    StableHlo.unary main_v12 main_v13 (broadcastInDim S28x64 ![0, 1] bcast_S1x64_S28x64_0_1 : (⟨S1x64, .f32⟩ : BufTy).Contents (Elt F) → (⟨S28x64, .f32⟩ : BufTy).Contents (Elt F)),
    StableHlo.reshape main_v13 main_v14 rfl shapeCasts_S28x64_S1792,
    StableHlo.reshape main_v14 main_v15 rfl shapeCasts_S1792_S1792x1 ]
abbrev ops18_19 : List (HloOp τ sig (Elt F)) := [
    StableHlo.reshape main_v16 main_v17 rfl shapeCasts_S1792x4096_S28x64x4096,
    StableHlo.unary main_v17 main_v18 ((transpose S4096x28x64 [2, 0, 1] · transposes_S28x64x4096_S4096x28x64_2_0_1) : (⟨S28x64x4096, .f32⟩ : BufTy).Contents (Elt F) → (⟨S4096x28x64, .f32⟩ : BufTy).Contents (Elt F)) ]

/-- The module-local function's body at its one call is the line of its operations. -/
theorem kron_seq : (fn_kron.body (F := F) (.of main_v8) (.of main_arg5) main_call0) = StableHlo.seq (opsK (F := F)) := by
  chain_rfl

/-- @main is the chain of its items. -/
theorem main_chain (d : Dev nD) : main (F := F) d = (Pipeline.chain
    [ StableHlo.seq ops01,
      (K (F := F)).run d 0,
      StableHlo.seq ops3_9,
      fn_kron.body (F := F) (.of main_v8) (.of main_arg5) main_call0,
      StableHlo.seq ops11_16,
      Prog.lift (.customCall (SparseCore.inner (Pipeline.entry 0)) ()),
      StableHlo.seq ops18_19 ] : Prog (TpuEff nD τ sig (Elt F) (SparseCore.Sig (ΛP (F := F)) 1) .tc) PUnit) := by
  chain_rfl

/-! ## The launch element and what it deals each device -/

/-- The program's staging cells are pairwise distinct (decided on the printed windows). -/
abbrev hinj1 : Function.Injective (Pipeline.cellOf (nD := nD) (τ := τ) (Pipeline.pin (pcfgs (F := F)) adm)) := cellOf_inj

/-- The launch element of the ghost state: the handshakes' rounds, the pipeline's rounds, the counters. -/
def u₀ : UU :=
  (initOf (K (F := F)).hsCells (K (F := F)).hsToks,
    (initOf (Pipeline.cells (Pipeline.pin (pcfgs (F := F)) adm) hinj1) (Pipeline.launchToks (Pipeline.pin (pcfgs (F := F)) adm) hinj1), 1))

/-- What the launch deals device `d` for the pipeline: its cells' ghost state and the duty tokens of its transfers. -/
def Gd (d : Dev nD) : sProp (MT nD τ sig (HIx 1) (Elt F) ℕ UU ℕ) :=
  iprop(Pipeline.cellsGhost (Pipeline.pin (pcfgs (F := F)) adm) ER 0 d ∗ Pipeline.toksInit (Pipeline.pin (pcfgs (F := F)) adm) ER 0 d)

/-! ## The TensorCore's buffers along @main -/

section Vals

variable [∀ e, Nonempty (Elt F e)]
variable (m : (ℓ : Loc nD τ sig) → Buf (Elt F) ℓ)

abbrev x2 : DevRef τ sig := Proc.devRef .tc (main_v2 : Ref sig .tc)
abbrev x16 : DevRef τ sig := Proc.devRef .tc (main_v16 : Ref sig .tc)

/-- After the two opening operations; -/
def W1 (d : Dev nD) : Valuation τ sig (Elt F) := StableHlo.after ops01 (StableHlo.launchContents m d)
/-- after the SparseCore call: the counts array at the histograms; -/
def W2 (d : Dev nD) : Valuation τ sig (Elt F) := Function.update (W1 m d) x2 (CNT m d)
/-- after the host operations up to the region; -/
def W3 (d : Dev nD) : Valuation τ sig (Elt F) :=
  StableHlo.after ops11_16 (StableHlo.after opsK (StableHlo.after ops3_9 (W2 m d)))
/-- the same as the region takes them; -/
def Vent (d : Dev nD) : (b : Ref sig .tc) → Buf (Elt F) ((d.tc : Thread nD τ).loc b) := fun b => W3 m d b
/-- after the region: the result array at what the write-backs leave; -/
def W4 (d : Dev nD) : Valuation τ sig (Elt F) :=
  Function.update (W3 m d) x16 ((dat1 d (Aof d (Vent m d))).arrAt 5 cfg1.N)
/-- after the two closing operations. -/
def W5 (d : Dev nD) : Valuation τ sig (Elt F) := StableHlo.after ops18_19 (W4 m d)

/-- What @main leaves the claim on device `d`: every unscoped buffer of the TensorCore at its final contents. -/
def FIN (d : Dev nD) : sProp (MT nD τ sig (HIx 1) (Elt F) ℕ UU ℕ) :=
  held (T d) (Pipeline.ucRefs τ sig) (W5 m d)

/-- What a final state says of device `d`: each unscoped buffer holds its final contents. -/
def fq (d : Dev nD) (s' : Phys nD τ sig (Elt F)) : Prop :=
  ∀ b : Ref sig .tc, b.isScoped = false → s'.mem.mem ((d.tc : Thread nD τ).loc b) = W5 m d (Proc.devRef .tc b)

end Vals

end Cert.Proof.KI

end
-- ==== Proof.RunIdealVals.lean ====
import proofs.«201762_g83623013253620_cont_9to1_m_623_34_alg».proof.Proof.LaunchDefs
import proofs.«201762_g83623013253620_cont_9to1_m_623_34_alg».proof.Proof.HostVal

/-!
# The TensorCore's buffers along the entry function, as the named stages

The entry function's host operations come in five stretches: before the SparseCore call (the feature
array reshaped and transposed), between the call and the module-local Kronecker function (the 28 × 28
identity), that function's six operations, the stretch up to the TensorCore call (the transposed and
narrowed Kronecker matrix; the bias laid out as a column), and the two closing operations (the split and
transposition of the result).  From any buffer contents, each stretch leaves in its result buffer the
corresponding stage function of what it read.  Along the whole function, at the extended reals: the five
arrays the TensorCore call reads are the adjacency, the three histograms, the transposed features, the
transposed Kronecker matrix of the weight and the bias column; the result is the split and transposition
of what that call writes; the seven arguments end as they began.
-/

set_option maxRecDepth 16384

noncomputable section

namespace Cert.Proof.RunIdeal

open Cert.KernelIdeal Cert.KernelIdeal.Gen
open Idealize.ShloMosaic Idealize.ShloMosaic.TcCoe Idealize.ShloMosaic.StableHlo Idealize.SL.Sem
open Cert.Proof.KI Cert.Proof.HostVal

/-! ## What each stretch computes, from any contents -/

section Stretch

variable (W : Valuation τ sig (Elt Ideal))

/-- Before the SparseCore call: the transposed features. -/
theorem ops01_v1 : (StableHlo.after (ops01 (F := Ideal)) W (Proc.devRef .tc main_v1) : FVec Ideal S7x4096 .f32) = ftOf (W (Proc.devRef .tc main_arg0)) := by
  after_results <;> rfl

/-- After it: the identity matrix. -/
theorem ops3_9_v8 : (StableHlo.after (ops3_9 (F := Ideal)) W (Proc.devRef .tc main_v8) : FVec Ideal S28x28 .f32) = eyeOf := by
  after_results <;> rfl

/-- The module-local function: the Kronecker product of its two arguments. -/
theorem opsK_v9 : (StableHlo.after (opsK (F := Ideal)) W (Proc.devRef .tc main_v9) : FVec Ideal S28x1792 .f32)
    = kronOf (W (Proc.devRef .tc main_v8)) (W (Proc.devRef .tc main_arg5)) := by
  after_results <;> rfl

/-- Up to the TensorCore call: the Kronecker matrix transposed and narrowed … -/
theorem ops11_16_v11 : (StableHlo.after (ops11_16 (F := Ideal)) W (Proc.devRef .tc main_v11) : FVec Ideal S1792x28 .bf16)
    = truncf (F := Ideal) .bf16 (transpose S1792x28 [1, 0] (W (Proc.devRef .tc main_v9) : FVec Ideal S28x1792 .f32) transposes_S28x1792_S1792x28_1_0) bitsLt_bf16_f32 := by
  after_results <;> rfl

/-- … and the bias column. -/
theorem ops11_16_v15 : (StableHlo.after (ops11_16 (F := Ideal)) W (Proc.devRef .tc main_v15) : FVec Ideal S1792x1 .f32) = btOf (W (Proc.devRef .tc main_arg6)) := by
  after_results <;> rfl

/-- The two closing operations: the result array split and transposed. -/
theorem ops18_19_v18 : (StableHlo.after (ops18_19 (F := Ideal)) W (Proc.devRef .tc main_v18) : FVec Ideal S4096x28x64 .f32) = outOf (W (Proc.devRef .tc main_v16)) := by
  after_results <;> rfl

end Stretch

/-! ## The contents along the entry function -/

section Along

variable (m : (ℓ : Loc nD τ sig) → Buf (Elt Ideal) ℓ) (d : Dev nD)

/-- Walks a buffer back through the stretches and the two calls' writes to where it was last written. -/
local macro "walk" : tactic =>
  `(tactic| (simp only [StableHlo.after_cons, StableHlo.after_nil]
             repeat (first
               | rw [StableHlo.nullary_result] | rw [StableHlo.unary_result] | rw [StableHlo.binary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [Function.update_of_ne]; rotate_left; exact fun e => absurd (Proc.devRef_injective _ e) (by decide))
               | rw [Function.update_self])))

/-- An argument of the entry function is never written. -/
theorem arg_W5 (r : Ref sig .tc) (hr : r ∈ [main_arg0, main_arg1, main_arg2, main_arg3, main_arg4, main_arg5, main_arg6]) :
    W5 m d (Proc.devRef .tc r) = m ((d.tc : Thread nD τ).loc r) := by
  unfold W5 W4 W3 W2 W1
  simp only [List.mem_cons, List.mem_nil_iff, or_false] at hr
  rcases hr with rfl | rfl | rfl | rfl | rfl | rfl | rfl <;> (walk <;> rfl)

/-- Entering the TensorCore call: the adjacency is the argument. -/
theorem ent_adj : Vent m d main_arg1 = m ((d.tc : Thread nD τ).loc main_arg1) := by
  unfold Vent W3 W2 W1
  walk <;> rfl

/-- The counts array is what the SparseCore call left. -/
theorem ent_cnt : Vent m d main_v2 = CNT m d := by
  unfold Vent W3 W2
  walk <;> rfl

/-- The transposed features. -/
theorem ent_ft : (Vent m d main_v1 : FVec Ideal S7x4096 .f32) = ftOf (m ((d.tc : Thread nD τ).loc main_arg0)) := by
  unfold Vent W3 W2 W1
  walk <;> rfl

/-- The transposed, narrowed Kronecker matrix of the weight. -/
theorem ent_w2t : (Vent m d main_v11 : FVec Ideal S1792x28 .bf16) = w2tOf (m ((d.tc : Thread nD τ).loc main_arg5)) := by
  unfold Vent W3 W2 W1
  walk <;> rfl

/-- The bias column. -/
theorem ent_bt : (Vent m d main_v15 : FVec Ideal S1792x1 .f32) = btOf (m ((d.tc : Thread nD τ).loc main_arg6)) := by
  unfold Vent W3 W2 W1
  walk <;> rfl

/-- The result: the split and transposition of what the TensorCore call wrote. -/
theorem out_W5 : (W5 m d (Proc.devRef .tc main_v18) : FVec Ideal S4096x28x64 .f32)
    = outOf ((dat1 d (Aof d (Vent m d))).arrAt 5 cfg1.N) := by
  unfold W5 W4
  walk <;> rfl

end Along

end Cert.Proof.RunIdeal

end
-- ==== Proof.ArrVal.lean ====
/-
  From the blocks the second kernel's eight grid points write back to the whole 1792 × 4096 output array,
  at the ideal values.

  Point t reads column block t of `adj` (with its 512 × 512 diagonal block), the count rows, the transposed
  features (and their column block t), the transposed Kronecker matrix and the bias column, and the scratch
  table the first point stored; what it writes back is block t — columns 512·t … 512·t + 511 — of one
  whole-array function, `KArr`.  The eight blocks tile the array (the point covering column p is p / 512),
  so after the last write-back the array is `KArr`.
-/
import proofs.«201762_g83623013253620_cont_9to1_m_623_34_alg».proof.Proof.LaunchTc
import proofs.«201762_g83623013253620_cont_9to1_m_623_34_alg».proof.Proof.KernelVal
import Idealize.ShloMosaic.Lib.Pipeline.Value

set_option maxRecDepth 16384

noncomputable section

namespace Cert.Proof.ArrVal

open Cert.KernelIdeal Cert.KernelIdeal.Gen
open Idealize.ShloMosaic Idealize.ShloMosaic.TcCoe Idealize.SL.Sem
open Idealize.ShloMosaic.Pipeline (Dat)
open Idealize.ShloMosaic.ValueIdx
open Cert.Proof.KI Cert.Proof.HostVal Cert.Proof.KernelVal

/-! ## The printed index maps, decided once over the grid -/

theorem hz : (![0, 0] : Fin 2 → Nat) = fun _ => 0 := funext fun a => by fin_cases a <;> rfl

/-- Windows 0 and 5 move along the columns with the point; windows 1 to 4 stay; the point's grid coordinate is
    its number. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val
    ∧ (grid1.coords t 0).val = t.val :=
  (by decide +kernel : ∀ t : Fin grid1.N, _)

/-- The point's number as a column-block number. -/
def pt (t : Fin cfg1.N) : Fin 8 := ⟨t.val, by have h : t.val < grid1.N := t.isLt; have := N_1; omega⟩

/-! ## The input blocks a point reads, as restrictions of the arrays -/

section Blocks

variable [∀ e, Nonempty (Elt Ideal e)]
variable (d : Dev nD) (A : (w : Fin cfg1.W) → Buf (Elt Ideal) ((cfg1.win w).arr.view.loc (d.tc : Thread nD τ)))

/-- Window 0's block at point t is column block t of the array. -/
theorem blk0_eq (adj : Vec Ideal S4096x4096 .f32) (h0 : (A 0 : Vec Ideal S4096x4096 .f32) = adj) (t : Fin cfg1.N) :
    (iblk d A 0 t : Vec Ideal S4096x512 .f32) = colBlock adj (pt t) := by
  obtain ⟨e00, e01, -⟩ := idx_facts t
  funext y
  show (A 0 : Vec Ideal S4096x4096 .f32) (((cfg1.win 0).blk t).view.emb y) = adj (ix2 (y 0) (col (pt t) (y 1)))
  refine (congrFun h0 _).trans (congrArg adj ?_)
  funext a; apply Fin.ext
  match a with
  | ⟨0, _⟩ => show win1_0.index t (0 : Fin 2) * 4096 + 1 * (y 0).val = (y 0).val; rw [e00]; omega
  | ⟨1, _⟩ => show win1_0.index t (1 : Fin 2) * 512 + 1 * (y 1).val = 512 * t.val + (y 1).val; rw [e01]; omega

/-- Windows 1 to 4 hold their whole array at every point. -/
theorem blk1_eq (cntv : Vec Ideal S3x4096 .f32) (h1 : (A 1 : Vec Ideal S3x4096 .f32) = cntv) (t : Fin cfg1.N) :
    (iblk d A 1 t : Vec Ideal S3x4096 .f32) = cntv := by
  obtain ⟨-, -, e10, e11, -⟩ := idx_facts t
  funext y
  show (A 1 : Vec Ideal S3x4096 .f32) (((cfg1.win 1).blk t).view.emb y) = cntv y
  refine (congrFun h1 _).trans (congrArg cntv ?_)
  funext a; apply Fin.ext
  match a with
  | ⟨0, _⟩ => show win1_1.index t (0 : Fin 2) * 3 + 1 * (y 0).val = (y 0).val; rw [e10]; omega
  | ⟨1, _⟩ => show win1_1.index t (1 : Fin 2) * 4096 + 1 * (y 1).val = (y 1).val; rw [e11]; omega

theorem blk2_eq (ft : Vec Ideal S7x4096 .f32) (h2 : (A 2 : Vec Ideal S7x4096 .f32) = ft) (t : Fin cfg1.N) :
    (iblk d A 2 t : Vec Ideal S7x4096 .f32) = ft := by
  obtain ⟨-, -, -, -, e20, e21, -⟩ := idx_facts t
  funext y
  show (A 2 : Vec Ideal S7x4096 .f32) (((cfg1.win 2).blk t).view.emb y) = ft y
  refine (congrFun h2 _).trans (congrArg ft ?_)
  funext a; apply Fin.ext
  match a with
  | ⟨0, _⟩ => show win1_2.index t (0 : Fin 2) * 7 + 1 * (y 0).val = (y 0).val; rw [e20]; omega
  | ⟨1, _⟩ => show win1_2.index t (1 : Fin 2) * 4096 + 1 * (y 1).val = (y 1).val; rw [e21]; omega

theorem blk3_eq (w2t : Vec Ideal S1792x28 .bf16) (h3 : (A 3 : Vec Ideal S1792x28 .bf16) = w2t) (t : Fin cfg1.N) :
    (iblk d A 3 t : Vec Ideal S1792x28 .bf16) = w2t := by
  obtain ⟨-, -, -, -, -, -, e30, e31, -⟩ := idx_facts t
  funext y
  show (A 3 : Vec Ideal S1792x28 .bf16) (((cfg1.win 3).blk t).view.emb y) = w2t y
  refine (congrFun h3 _).trans (congrArg w2t ?_)
  funext a; apply Fin.ext
  match a with
  | ⟨0, _⟩ => show win1_3.index t (0 : Fin 2) * 1792 + 1 * (y 0).val = (y 0).val; rw [e30]; omega
  | ⟨1, _⟩ => show win1_3.index t (1 : Fin 2) * 28 + 1 * (y 1).val = (y 1).val; rw [e31]; omega

theorem blk4_eq (bt : Vec Ideal S1792x1 .f32) (h4 : (A 4 : Vec Ideal S1792x1 .f32) = bt) (t : Fin cfg1.N) :
    (iblk d A 4 t : Vec Ideal S1792x1 .f32) = bt := by
  obtain ⟨-, -, -, -, -, -, -, -, e40, e41, -⟩ := idx_facts t
  funext y
  show (A 4 : Vec Ideal S1792x1 .f32) (((cfg1.win 4).blk t).view.emb y) = bt y
  refine (congrFun h4 _).trans (congrArg bt ?_)
  funext a; apply Fin.ext
  match a with
  | ⟨0, _⟩ => show win1_4.index t (0 : Fin 2) * 1792 + 1 * (y 0).val = (y 0).val; rw [e40]; omega
  | ⟨1, _⟩ => show win1_4.index t (1 : Fin 2) * 1 + 1 * (y 1).val = (y 1).val; rw [e41]; omega

/-! ## The body's partial loads, as blocks of the arrays -/

/-- The offsets of the body's three partial loads at point t. -/
theorem off_facts (t : Fin cfg1.N) :
    k1_off1 (grid1.coords t) (0 : Fin 2) = 512 * t.val ∧ k1_off1 (grid1.coords t) (1 : Fin 2) = 0
    ∧ k1_off2 (grid1.coords t) (0 : Fin 2) = 0 ∧ k1_off2 (grid1.coords t) (1 : Fin 2) = 512 * t.val
    ∧ k1_off3 (grid1.coords t) (0 : Fin 2) = 0 ∧ k1_off3 (grid1.coords t) (1 : Fin 2) = 512 * t.val := by
  have hc : (grid1.coords t 0).val = t.val := (idx_facts t).2.2.2.2.2.2.2.2.2.2.2.2
  have a0 : k1_off1 (grid1.coords t) (0 : Fin 2) = 512 * (grid1.coords t 0).val := congrFun (k1_off1_eq (grid1.coords t)) 0
  have a1 : k1_off1 (grid1.coords t) (1 : Fin 2) = 0 := congrFun (k1_off1_eq (grid1.coords t)) 1
  have b0 : k1_off2 (grid1.coords t) (0 : Fin 2) = 0 := congrFun (k1_off2_eq (grid1.coords t)) 0
  have b1 : k1_off2 (grid1.coords t) (1 : Fin 2) = 512 * (grid1.coords t 0).val := congrFun (k1_off2_eq (grid1.coords t)) 1
  have c0 : k1_off3 (grid1.coords t) (0 : Fin 2) = 0 := congrFun (k1_off3_eq (grid1.coords t)) 0
  have c1 : k1_off3 (grid1.coords t) (1 : Fin 2) = 512 * (grid1.coords t 0).val := congrFun (k1_off3_eq (grid1.coords t)) 1
  rw [hc] at a0 b1 c1
  exact ⟨a0, a1, b0, b1, c0, c1⟩

/-- The 512 × 512 block the body loads from the staged column block is the diagonal block. -/
theorem ldD_eq (adj : Vec Ideal S4096x4096 .f32) (t : Fin cfg1.N) :
    View.ld (colBlock adj (pt t)) (RD (grid1.coords t)) = diagBlock adj (pt t) := by
  obtain ⟨a0, a1, -⟩ := off_facts t
  funext y
  show adj (ix2 (((RD (grid1.coords t)).idx y) 0) (col (pt t) (((RD (grid1.coords t)).idx y) 1)))
    = adj (ix2 (col (pt t) (y 0)) (col (pt t) (y 1)))
  refine congrArg adj ?_
  funext a; apply Fin.ext
  match a with
  | ⟨0, _⟩ => show k1_off1 (grid1.coords t) (0 : Fin 2) + 1 * (y 0).val = 512 * t.val + (y 0).val; rw [a0]; omega
  | ⟨1, _⟩ => show 512 * t.val + (k1_off1 (grid1.coords t) (1 : Fin 2) + 1 * (y 1).val) = 512 * t.val + (y 1).val; rw [a1]; omega

/-- The columns of the scratch table the body loads are its column block. -/
theorem ldG_eq (gt : Vec Ideal S21x4096 .bf16) (t : Fin cfg1.N) :
    View.ld gt (RG (grid1.coords t)) = gtBlock gt (pt t) := by
  obtain ⟨-, -, b0, b1, -⟩ := off_facts t
  funext y
  show gt ((RG (grid1.coords t)).idx y) = gt (ix2 (y 0) (col (pt t) (y 1)))
  refine congrArg gt ?_
  funext a; apply Fin.ext
  match a with
  | ⟨0, _⟩ => show k1_off2 (grid1.coords t) (0 : Fin 2) + 1 * (y 0).val = (y 0).val; rw [b0]; omega
  | ⟨1, _⟩ => show k1_off2 (grid1.coords t) (1 : Fin 2) + 1 * (y 1).val = 512 * t.val + (y 1).val; rw [b1]; omega

/-- The columns of the transposed features the body loads are their column block. -/
theorem ldF_eq (ft : Vec Ideal S7x4096 .f32) (t : Fin cfg1.N) :
    View.ld ft (RF (grid1.coords t)) = ftBlock ft (pt t) := by
  obtain ⟨-, -, -, -, c0, c1⟩ := off_facts t
  funext y
  show ft ((RF (grid1.coords t)).idx y) = ft (ix2 (y 0) (col (pt t) (y 1)))
  refine congrArg ft ?_
  funext a; apply Fin.ext
  match a with
  | ⟨0, _⟩ => show k1_off3 (grid1.coords t) (0 : Fin 2) + 1 * (y 0).val = (y 0).val; rw [c0]; omega
  | ⟨1, _⟩ => show k1_off3 (grid1.coords t) (1 : Fin 2) + 1 * (y 1).val = 512 * t.val + (y 1).val; rw [c1]; omega

end Blocks

/-! ## What a point writes back, and the whole array -/

section Point

variable [∀ e, Nonempty (Elt Ideal e)]
variable (d : Dev nD) (A : (w : Fin cfg1.W) → Buf (Elt Ideal) ((cfg1.win w).arr.view.loc (d.tc : Thread nD τ)))
variable (feat : Vec Ideal S4096x7x1 .f32) (adj : Vec Ideal S4096x4096 .f32) (cntv : Vec Ideal S3x4096 .f32)
  (w : Vec Ideal S1x64 .f32) (b : Vec Ideal S64 .f32)
variable (h0 : (A 0 : Vec Ideal S4096x4096 .f32) = adj) (h1 : (A 1 : Vec Ideal S3x4096 .f32) = cntv)
  (h2 : (A 2 : Vec Ideal S7x4096 .f32) = ftOf feat) (h3 : (A 3 : Vec Ideal S1792x28 .bf16) = w2tOf w)
  (h4 : (A 4 : Vec Ideal S1792x1 .f32) = btOf b)
include h0 h1 h2 h3 h4

/-- The scratch after the first point: the counts times the transposed features, scaled. -/
theorem scrX_eq : scrX d A = k1_pay1 (F := Ideal) cntv (ftOf feat) := by
  unfold scrX gtPay
  rw [View.canon_unit_zero hz, View.ld_unit_zero (S := S3x4096) hz, View.ld_unit_zero (S := S7x4096) hz,
    blk1_eq d A cntv h1, blk2_eq d A (ftOf feat) h2]

/-- What point t stores into the output's staging buffer is the block `blockVal` of column block t. -/
theorem outPay_eq (t : Fin cfg1.N) : outPay d A t = blockVal feat adj cntv w b (pt t) := by
  unfold outPay blockVal
  rw [scrX_eq d A feat adj cntv w b h0 h1 h2 h3 h4]
  rw [View.ld_unit_zero (S := S4096x512) hz, View.ld_unit_zero (S := S21x4096) hz, View.ld_unit_zero (S := S1792x28) hz,
    View.ld_unit_zero (S := S1792x1) hz]
  rw [blk0_eq d A adj h0, blk2_eq d A (ftOf feat) h2, blk3_eq d A (w2tOf w) h3, blk4_eq d A (btOf b) h4,
    ldD_eq, ldG_eq, ldF_eq]

omit h0 h1 h2 h3 h4 in
/-- What the output's staging buffer reads after the body at point t. -/
theorem after5 (t : Fin cfg1.N) : (dat1 d A).after 5 t = outX d A t := by dsimp only [dat1, after1]

omit h0 h1 h2 h3 h4 in
/-- The assembled array at an index whose row is Y's row and whose column is column Y's column of column block i. -/
theorem KArr_of_coords (I : S1792x4096.Idx) (Y : S1792x512.Idx) (i : Fin 8)
    (e0 : (I 0).val = (Y 0).val) (e1 : (I 1).val = 512 * i.val + (Y 1).val) :
    KArr feat adj cntv w b I = blockVal feat adj cntv w b i Y := by
  have hY : (Y 1).val < 512 := idx2_lt1 Y
  have hi : (⟨(I 1).val / 512, by have := idx2_lt1 I; omega⟩ : Fin 8) = i :=
    Fin.ext (by show (I 1).val / 512 = i.val; omega)
  have hy : (ix2 (I 0) (⟨(I 1).val % 512, Nat.mod_lt _ (by decide)⟩ : Fin 512) : S1792x512.Idx) = Y := by
    funext a
    match a with
    | ⟨0, _⟩ => exact Fin.ext e0
    | ⟨1, _⟩ => exact Fin.ext (by show (I 1).val % 512 = (Y 1).val; omega)
  show blockVal feat adj cntv w b (⟨(I 1).val / 512, _⟩ : Fin 8)
    (ix2 (I 0) (⟨(I 1).val % 512, _⟩ : Fin 512)) = _
  rw [hi, hy]

/-- WHAT POINT t WRITES BACK is block t of the assembled array. -/
theorem flushed_eq (t : Fin cfg1.N) :
    (dat1 d A).flushed 5 t = ((cfg1.win 5).blk t).view.read (Elt Ideal) (KArr feat adj cntv w b) := by
  obtain ⟨-, -, -, -, -, -, -, -, -, -, e50, e51, -⟩ := idx_facts t
  show (cfg1.win 5).cut (grid1.coords t) ((dat1 d A).after 5 t) = _
  rw [after5 d A t]
  unfold outX
  rw [View.canon_unit_zero hz, outPay_eq d A feat adj cntv w b h0 h1 h2 h3 h4 t]
  funext j
  show blockVal feat adj cntv w b (pt t) ((cfg1.win 5).xinj (grid1.coords t) j)
    = KArr feat adj cntv w b (((cfg1.win 5).blk t).view.emb j)
  refine (KArr_of_coords feat adj cntv w b _ _ (pt t) ?_ ?_).symm
  · show win1_5.index t (0 : Fin 2) * 1792 + 1 * (j 0).val = (j 0).val; rw [e50]; omega
  · show win1_5.index t (1 : Fin 2) * 512 + 1 * (j 1).val = 512 * t.val + (j 1).val; rw [e51]; omega

end Point

/-! ## The blocks tile the array -/

/-- An index of the array is in point t's block iff each coordinate is in the block's range on its axis. -/
theorem mem_blk (t : Fin cfg1.N) (i : S1792x4096.Idx) :
    i ∈ ((cfg1.win 5).blk t).view.set ↔ ∀ a : Fin 2, win1_5.index t a * S1792x512.size a ≤ (i a).val
      ∧ (i a).val < win1_5.index t a * S1792x512.size a + S1792x512.size a := by
  show i ∈ ((View.whole main_v16).slice (win1_5.rect t)).set ↔ _
  rw [View.set_slice_whole, Rect.mem_set_unit]
  exact Iff.rfl

/-- Every index is in the block of the point its column falls in. -/
theorem cover (i : S1792x4096.Idx) :
    ∃ t : Fin cfg1.N, (cfg1.win 5).flush t = true ∧ i ∈ ((cfg1.win 5).blk t).view.set := by
  have hi0 : (i 0).val < 1792 := idx2_lt0 i
  have hi1 : (i 1).val < 4096 := idx2_lt1 i
  let t : Fin cfg1.N := ⟨(i 1).val / 512, by show (i 1).val / 512 < grid1.N; rw [N_1]; omega⟩
  have ht : t.val = (i 1).val / 512 := rfl
  obtain ⟨-, -, -, -, -, -, -, -, -, -, e50, e51, -⟩ := idx_facts t
  refine ⟨t, flush1_5 t, ?_⟩
  rw [mem_blk]
  intro a
  match a with
  | ⟨0, _⟩ =>
    show win1_5.index t (0 : Fin 2) * 1792 ≤ (i 0).val ∧ (i 0).val < win1_5.index t (0 : Fin 2) * 1792 + 1792
    rw [e50]; omega
  | ⟨1, _⟩ =>
    show win1_5.index t (1 : Fin 2) * 512 ≤ (i 1).val ∧ (i 1).val < win1_5.index t (1 : Fin 2) * 512 + 512
    rw [e51, ht]; omega

/-! ## The array after the region -/

section Final

variable [∀ e, Nonempty (Elt Ideal e)]

/-- THE OUTPUT ARRAY after the eight write-backs is the assembled array. -/
theorem arr_eq (d : Dev nD) (A : (w : Fin cfg1.W) → Buf (Elt Ideal) ((cfg1.win w).arr.view.loc (d.tc : Thread nD τ)))
    (feat : Vec Ideal S4096x7x1 .f32) (adj : Vec Ideal S4096x4096 .f32) (cntv : Vec Ideal S3x4096 .f32)
    (w : Vec Ideal S1x64 .f32) (b : Vec Ideal S64 .f32)
    (h0 : (A 0 : Vec Ideal S4096x4096 .f32) = adj) (h1 : (A 1 : Vec Ideal S3x4096 .f32) = cntv)
    (h2 : (A 2 : Vec Ideal S7x4096 .f32) = ftOf feat) (h3 : (A 3 : Vec Ideal S1792x28 .bf16) = w2tOf w)
    (h4 : (A 4 : Vec Ideal S1792x1 .f32) = btOf b) :
    ((dat1 d A).arrAt 5 cfg1.N : Vec Ideal S1792x4096 .f32) = KArr feat adj cntv w b :=
  (dat1 d A).arrAt_eq_of_cover 5 (KArr feat adj cntv w b)
    (fun t _ => flushed_eq d A feat adj cntv w b h0 h1 h2 h3 h4 t) cover

end Final

end Cert.Proof.ArrVal

end
-- ==== Proof.TileRes.lean ====
import proofs.«201762_g83623013253620_cont_9to1_m_623_34_alg».proof.Proof.CommonP
import proofs.«201762_g83623013253620_cont_9to1_m_623_34_alg».proof.Proof.Spec
/-!
# A tile's share of the launch, spelt both ways

The launch hands a vector subcore its own semaphores at zero and its own buffers at some contents; the
kernel's body names four of those semaphores (one per copy) and two of those buffers (the index scratch
and the accumulator).  Here they are named apart from the rest, the whole arrays the body is called with
are identified with the launch's locations of them, and the kernel's label on a tile is the body at the
tile's coordinates.
-/

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "leadW" => (Memref.whole Cert.KernelIdeal.main_arg4_scv : Memref Cert.KernelIdeal.sig Kind.scVector Space.hbm Cert.KernelIdeal.S1024 EltTy.i32)
local notation "nonmW" => (Memref.whole Cert.KernelIdeal.main_arg3_scv : Memref Cert.KernelIdeal.sig Kind.scVector Space.hbm Cert.KernelIdeal.S1024 EltTy.i32)
local notation "memW" => (Memref.whole Cert.KernelIdeal.main_arg2_scv : Memref Cert.KernelIdeal.sig Kind.scVector Space.hbm Cert.KernelIdeal.S1024 EltTy.i32)
local notation "cntW" => (Memref.whole Cert.KernelIdeal.main_v2_scv : Memref Cert.KernelIdeal.sig Kind.scVector Space.hbm Cert.KernelIdeal.S3x4096 EltTy.f32)
local notation "idxS" => (Memref.whole Cert.KernelIdeal.cc0_scratch0 : Memref Cert.KernelIdeal.sig Kind.scVector Space.vmem Cert.KernelIdeal.S1024 EltTy.i32)
local notation "accS" => (Memref.whole Cert.KernelIdeal.cc0_scratch1 : Memref Cert.KernelIdeal.sig Kind.scVector Space.vmem Cert.KernelIdeal.S4096 EltTy.f32)

/-- Every device's three index lists name rows: each word is below 4096. -/
def PreOK (m : (ℓ : Loc nD τ sig) → Buf (Elt F) ℓ) : Prop :=
  ∀ d : Dev nD, Cert.Spec.InRange (m (leadLoc d)) ∧ Cert.Spec.InRange (m (nonmLoc d)) ∧ Cert.Spec.InRange (m (memLoc d))

/-! ## A tile's own semaphores and buffers, the kernel's named apart -/

section Tile

variable (d : Dev nD) (c : Fin τ.nSC) (i : Fin τ.nSub)

omit [FloatOps F] in
/-- The four copy semaphores are among the tile's own cells: they are them, at zero, and the rest. -/
theorem ownSems0_V :
    (ownSems0 (V d c i) : sProp 𝕄)
      = iprop(semVal (V d c i, SemLoc.dma cc0_scoped0.sem) 0 ∗ semVal (V d c i, SemLoc.dma cc0_scoped1.sem) 0
          ∗ semVal (V d c i, SemLoc.dma cc0_scoped2.sem) 0 ∗ semVal (V d c i, SemLoc.dma cc0_scoped3.sem) 0
          ∗ bigSep (((((ownCells (V d c i)).erase (V d c i, SemLoc.dma cc0_scoped0.sem)).erase (V d c i, SemLoc.dma cc0_scoped1.sem)).erase
              (V d c i, SemLoc.dma cc0_scoped2.sem)).erase (V d c i, SemLoc.dma cc0_scoped3.sem))
              fun g => semVal g 0) := by
  have ne : ∀ (a b : SemLoc sig), a ≠ b → ((V d c i, a) : GSem nD τ sig) ≠ (V d c i, b) := fun a b h e => h (congrArg Prod.snd e)
  unfold SparseCore.Cfg.ownSems0
  rw [SparseCore.bigSep_erase' ((mem_ownCells (g := (V d c i, SemLoc.dma cc0_scoped0.sem))).mpr ⟨rfl, by
      show (SemLoc.dma cc0_scoped0.sem : SemLoc sig).isScoped .scVector = true; decide⟩),
    SparseCore.bigSep_erase' (Finset.mem_erase.mpr ⟨ne _ _ (by decide), (mem_ownCells (g := (V d c i, SemLoc.dma cc0_scoped1.sem))).mpr ⟨rfl, by
      show (SemLoc.dma cc0_scoped1.sem : SemLoc sig).isScoped .scVector = true; decide⟩⟩),
    SparseCore.bigSep_erase' (Finset.mem_erase.mpr ⟨ne _ _ (by decide), Finset.mem_erase.mpr ⟨ne _ _ (by decide),
      (mem_ownCells (g := (V d c i, SemLoc.dma cc0_scoped2.sem))).mpr ⟨rfl, by show (SemLoc.dma cc0_scoped2.sem : SemLoc sig).isScoped .scVector = true; decide⟩⟩⟩),
    SparseCore.bigSep_erase' (Finset.mem_erase.mpr ⟨ne _ _ (by decide), Finset.mem_erase.mpr ⟨ne _ _ (by decide), Finset.mem_erase.mpr ⟨ne _ _ (by decide),
      (mem_ownCells (g := (V d c i, SemLoc.dma cc0_scoped3.sem))).mpr ⟨rfl, by show (SemLoc.dma cc0_scoped3.sem : SemLoc sig).isScoped .scVector = true; decide⟩⟩⟩⟩)]

omit [FloatOps F] in
/-- The two scratch buffers are among the tile's own: they are them, at some contents, and the rest. -/
theorem ownBufs_V :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

/-! ## The arrays as the body names them and as the handshakes hold them -/

omit [FloatOps F] in
theorem pts_lead (f : Buf (Elt F) (leadLoc d)) :
    ((leadW).view.loc (V d c i) ↦{fullShare} f : sProp 𝕄) = leadLoc d ↦{fullShare} f := rfl
omit [FloatOps F] in
theorem pts_nonm (f : Buf (Elt F) (nonmLoc d)) :
    ((nonmW).view.loc (V d c i) ↦{fullShare} f : sProp 𝕄) = nonmLoc d ↦{fullShare} f := rfl
omit [FloatOps F] in
theorem pts_mem (f : Buf (Elt F) (memLoc d)) :
    ((memW).view.loc (V d c i) ↦{fullShare} f : sProp 𝕄) = memLoc d ↦{fullShare} f := rfl
omit [FloatOps F] in
theorem pts_idx (f : Buf (Elt F) ((V d c i).loc cc0_scratch0)) :
    ((idxS).view.loc (V d c i) ↦{fullShare} f : sProp 𝕄) = (V d c i).loc cc0_scratch0 ↦{fullShare} f := rfl
omit [FloatOps F] in
theorem pts_acc (f : Buf (Elt F) ((V d c i).loc cc0_scratch1)) :
    ((accS).view.loc (V d c i) ↦{fullShare} f : sProp 𝕄) = (V d c i).loc cc0_scratch1 ↦{fullShare} f := rfl

end Tile

/-! ## The kernel's label on a tile -/

theorem defs₀_vector (c : Fin τ.nSC) (s : Fin τ.nSub) :
    defs₀ (F := F) (.scVector c s) 0 ()
      = SparseCore.onTile hcore0 hsub0 (fun c s => cc0__sc_counts_body (coordsV c s)
          leadW (Memref.isWhole_whole _) nonmW (Memref.isWhole_whole _) memW (Memref.isWhole_whole _) cntW (Memref.isWhole_whole _)
          idxS (Memref.isWhole_whole _) accS (Memref.isWhole_whole _) cc0_scoped0 cc0_scoped1 cc0_scoped2 cc0_scoped3) ⟨⟩ c s := rfl

end Cert.Proof.KI

end
-- ==== Proof.RunIdeal.lean ====
import proofs.«201762_g83623013253620_cont_9to1_m_623_34_alg».proof.Proof.RunIdealVals
import proofs.«201762_g83623013253620_cont_9to1_m_623_34_alg».proof.Proof.ArrVal
import proofs.«201762_g83623013253620_cont_9to1_m_623_34_alg».proof.Proof.Assemble
import proofs.«201762_g83623013253620_cont_9to1_m_623_34_alg».proof.Proof.TileRes

/-!
# From the launch's run to the run the claim is assembled from

The launch's run says of every final state: each unscoped buffer of each device's TensorCore holds the
contents the entry function's chain leaves there.  Read at the result buffer this is the split and
transposition of the array the TensorCore call's eight write-backs assemble, which is the closed form
of the arguments and the three histograms; read at an argument it is the argument.
-/

noncomputable section

namespace Cert.Proof.RunIdeal

open Cert.KernelIdeal Cert.KernelIdeal.Gen
open Idealize.ShloMosaic Idealize.ShloMosaic.TcCoe Idealize.SL.Sem
open Cert.Proof.KI Cert.Proof.HostVal Cert.Proof.Assemble

/-- What the launch's run says of a final state: every unscoped buffer of every device's TensorCore at the
    contents the chain leaves. -/
abbrev QW (m : MemI) : PUnit × MemSt nD τ sig (Elt Ideal) → Prop :=
  fun r => ∀ c : Dev nD, ∀ b : Ref sig .tc, b.isScoped = false → r.2.mem ((c.tc : Thread nD τ).loc b) = W5 m c (Proc.devRef .tc b)

/-- The array the TensorCore call leaves is the closed form of the arguments and the histograms. -/
theorem arr_kres (m : MemI) (c : Dev nD) :
    ((dat1 c (Aof c (Vent m c))).arrAt 5 cfg1.N : Vec Ideal S1792x4096 .f32)
      = Cert.Proof.KernelVal.KArr (m (locI c main_arg0)) (m (locI c main_arg1)) (CNT (F := Ideal) m c) (m (locI c main_arg5)) (m (locI c main_arg6)) :=
  Cert.Proof.ArrVal.arr_eq c (Aof c (Vent m c)) _ _ _ _ _ (ent_adj m c) (ent_cnt m c) (ent_ft m c) (ent_w2t m c) (ent_bt m c)

/-- A final state of the launch's run holds the result and the unchanged arguments. -/
theorem post_of (m : MemI) (r : PUnit × MemSt nD τ sig (Elt Ideal)) (h : QW m r) (c : Dev nD) :
    r.2.mem (locI c main_v18) = kres m c
      ∧ r.2.mem (locI c main_arg0) = m (locI c main_arg0)
      ∧ r.2.mem (locI c main_arg1) = m (locI c main_arg1)
      ∧ r.2.mem (locI c main_arg2) = m (locI c main_arg2)
      ∧ r.2.mem (locI c main_arg3) = m (locI c main_arg3)
      ∧ r.2.mem (locI c main_arg4) = m (locI c main_arg4)
      ∧ r.2.mem (locI c main_arg5) = m (locI c main_arg5)
      ∧ r.2.mem (locI c main_arg6) = m (locI c main_arg6) :=
  ⟨(h c main_v18 rfl).trans ((out_W5 m c).trans (congrArg outOf (arr_kres m c))),
    (h c main_arg0 rfl).trans (arg_W5 m c main_arg0 (by simp)),
    (h c main_arg1 rfl).trans (arg_W5 m c main_arg1 (by simp)),
    (h c main_arg2 rfl).trans (arg_W5 m c main_arg2 (by simp)),
    (h c main_arg3 rfl).trans (arg_W5 m c main_arg3 (by simp)),
    (h c main_arg4 rfl).trans (arg_W5 m c main_arg4 (by simp)),
    (h c main_arg5 rfl).trans (arg_W5 m c main_arg5 (by simp)),
    (h c main_arg6 rfl).trans (arg_W5 m c main_arg6 (by simp))⟩

/-- THE BRIDGE: the launch's run, for memories whose index lists are in range, is the run the claim takes. -/
theorem runI_of (ok : MemI → Prop)
    (hrun : ∀ (m : MemI) (ρ : Dev nD → PrngReg), ok m →
      θ_run (Cert.KernelIdeal.defs (F := Ideal)) (Cert.KernelIdeal.threads (F := Ideal)) ⟨m, fun _ => 0, ρ⟩ (QW m)) :
    RunI ok := fun m ρ hok =>
  (θ_run (Cert.KernelIdeal.defs (F := Ideal)) _ _).mono (fun r h c => post_of m r h c) (hrun m ρ hok)

/-- The two spellings of "the three index lists are in range on every device" are one proposition. -/
theorem preOK_iff (m : MemI) : PreOK' m ↔ KI.PreOK (F := Ideal) m := Iff.rfl

end Cert.Proof.RunIdeal

end
-- ==== Proof.SplitP.lean ====
import proofs.«201762_g83623013253620_cont_9to1_m_623_34_alg».proof.Proof.CommonP
import Idealize.ShloMosaic.Rules.PointsTo

/-!
# The call's payloads: what goes to the tiles and what comes back

The counts array's index set is the disjoint union of its three rows, so the array held whole is the three rows held
apart.  A SparseCore's share is the separating conjunction of its sixteen tiles' shares: all but the role tiles'
(tile number 2·subcore + core below 3) are empty.  Hence the sequencer's split to its tiles and back is the identity,
and the two cores' shares together are the three lists and the whole counts array.
-/

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (m : (ℓ : Loc nD τ sig) → Buf (Elt F) ℓ)

/-! ## The three rows partition the counts array -/

theorem rows_cover : (Finset.univ : Finset S3x4096.Idx) = rowSet 0 ∪ (rowSet 1 ∪ rowSet 2) := by
  ext y
  simp only [rowSet, Finset.mem_univ, Finset.mem_union, Finset.mem_filter, true_and, true_iff]
  have h : (y 0).val < 3 := (y 0).isLt
  omega

theorem rows_disj12 : Disjoint (rowSet 1) (rowSet 2) := by
  rw [Finset.disjoint_left]; intro y h1 h2
  simp only [rowSet, Finset.mem_filter, Finset.mem_univ, true_and] at h1 h2
  omega

theorem rows_disj0 : Disjoint (rowSet 0) (rowSet 1 ∪ rowSet 2) := by
  rw [Finset.disjoint_left]; intro y h0 h12
  simp only [rowSet, Finset.mem_union, Finset.mem_filter, Finset.mem_univ, true_and] at h0 h12
  omega

/-- The counts array held whole is its three rows held apart. -/
theorem cnt_rows (d : Dev nD) (f : Buf (Elt F) (cntLoc d)) :
    (cntLoc d ↦{fullShare} f : sProp 𝕄) = iprop(rowPts d 0 f ∗ rowPts d 1 f ∗ rowPts d 2 f) := by
  show (cntLoc d ↦[(Finset.univ : Finset S3x4096.Idx)]{fullShare} f : sProp 𝕄) = _
  have h0 : (cntLoc d ↦[rowSet 0 ∪ (rowSet 1 ∪ rowSet 2)]{fullShare} f : sProp 𝕄)
      ⊣⊢ iprop((cntLoc d ↦[rowSet 0]{fullShare} f) ∗ cntLoc d ↦[rowSet 1 ∪ rowSet 2]{fullShare} f) := pointsTo_union rows_disj0
  have h12 : (cntLoc d ↦[rowSet 1 ∪ rowSet 2]{fullShare} f : sProp 𝕄)
      ⊣⊢ iprop((cntLoc d ↦[rowSet 1]{fullShare} f) ∗ cntLoc d ↦[rowSet 2]{fullShare} f) := pointsTo_union rows_disj12
  rw [rows_cover, BI.equiv_iff.mp ⟨h0.1, h0.2⟩, BI.equiv_iff.mp ⟨h12.1, h12.2⟩]

/-! ## A tile with number at least 3 is handed nothing -/

theorem tileRes_idle (d : Dev nD) (w : ℕ) (hw : 3 ≤ w) (f : Buf (Elt F) (cntLoc d)) : tileRes m d w f = iprop(emp) := by
  unfold tileRes
  rw [if_neg (by omega), if_neg (by omega), if_neg (by omega)]

theorem bigSep_emp16 (s : Finset (Fin 16)) : bigSep s (fun _ => (iprop(emp) : sProp 𝕄)) = iprop(emp) := bigSep_emp_const s
theorem sep_emp_eq (X : sProp 𝕄) : iprop(X ∗ emp) = X := BI.equiv_iff.mp sep_emp

/-- A core's share is its sixteen tiles' shares. -/
theorem tiles_eq (d : Dev nD) (c : Fin 2) (f : Buf (Elt F) (cntLoc d)) :
    (bigSep (Finset.univ : Finset (Fin 16)) fun i => tileRes m d (2 * i.val + c.val) f) = coreRes m d c.val f := by
  match c with
  | ⟨0, _⟩ =>
    rw [SparseCore.bigSep_erase' (Finset.mem_univ (0 : Fin 16)),
      SparseCore.bigSep_erase' (show (1 : Fin 16) ∈ Finset.univ.erase 0 by decide),
      bigSep_congr (Ψ := fun _ => iprop(emp)) (fun i hi => by
        rw [Finset.mem_erase, Finset.mem_erase] at hi
        have h1 : i.val ≠ 1 := fun h => hi.1 (Fin.ext h)
        have h0 : i.val ≠ 0 := fun h => hi.2.1 (Fin.ext h)
        exact tileRes_idle m d _ (by omega) f),
      bigSep_emp16, sep_emp_eq]
    rfl
  | ⟨1, _⟩ =>
    rw [SparseCore.bigSep_erase' (Finset.mem_univ (0 : Fin 16)),
      bigSep_congr (Ψ := fun _ => iprop(emp)) (fun i hi => by
        rw [Finset.mem_erase] at hi
        have h0 : i.val ≠ 0 := fun h => hi.1 (Fin.ext h)
        exact tileRes_idle m d _ (by show 3 ≤ 2 * i.val + 1; omega) f),
      bigSep_emp16, sep_emp_eq]
    rfl

/-! ## The three obligations about the payloads -/

/-- The sequencer hands each tile its share and takes the shares back: both ways the identity. -/
theorem vecSplit : (K (F := F)).VecSplit' (P m) 0 := by
  intro d c
  show coreRes m d c.val (m (cntLoc d)) ⊢ |={Set.univ}=> iprop(
      (bigSep (Finset.univ : Finset (Fin 16)) fun i => tileRes m d (2 * i.val + c.val) (m (cntLoc d)))
      ∗ ((bigSep (Finset.univ : Finset (Fin 16)) fun i => tileRes m d (2 * i.val + c.val) (CNT m d)) -∗ coreRes m d c.val (CNT m d)))
  rw [tiles_eq m d c, tiles_eq m d c]
  iintro H
  imodintro
  isplitl [H]; · iexact H
  iintro H2; iexact H2

/-- The two cores' shares as one conjunction. -/
theorem cores_eq (d : Dev nD) (f : Buf (Elt F) (cntLoc d)) :
    (bigSep (Finset.univ : Finset (Fin 2)) fun c => coreRes m d c.val f)
      = iprop(((leadPts m d ∗ rowPts d 0 f) ∗ (memPts m d ∗ rowPts d 2 f)) ∗ (nonmPts m d ∗ rowPts d 1 f)) := by
  rw [bigSep_fin_two]; rfl

/-- At the launch: the three lists and the counts array are the two cores' shares. -/
theorem st_intro (d : Dev nD) :
    iprop(leadPts m d ∗ nonmPts m d ∗ memPts m d ∗ cntLoc d ↦{fullShare} m (cntLoc d))
      ⊢ bigSep Finset.univ fun c : Fin ((K (F := F)).nCore 0) => (P m).st 0 d c := by
  show _ ⊢ bigSep (Finset.univ : Finset (Fin 2)) fun c => coreRes m d c.val (m (cntLoc d))
  rw [cores_eq, cnt_rows]
  iintro ⟨Hl, Hn, Hm, H0, H1, H2⟩
  isplitl [Hl H0 Hm H2]
  · isplitl [Hl H0]
    · isplitl [Hl]; · iexact Hl
      iexact H0
    · isplitl [Hm]; · iexact Hm
      iexact H2
  · isplitl [Hn]; · iexact Hn
    iexact H1

/-- After the call: the two cores' shares are the three lists unchanged and the counts array at the histograms. -/
theorem dn_elim (d : Dev nD) :
    (bigSep Finset.univ fun c : Fin ((K (F := F)).nCore 0) => (P m).dn 0 d c)
      ⊢ iprop(leadPts m d ∗ nonmPts m d ∗ memPts m d ∗ cntLoc d ↦{fullShare} CNT m d) := by
  show (bigSep (Finset.univ : Finset (Fin 2)) fun c => coreRes m d c.val (CNT m d)) ⊢ _
  rw [cores_eq, cnt_rows]
  iintro ⟨⟨⟨Hl, H0⟩, Hm, H2⟩, Hn, H1⟩
  isplitl [Hl]; · iexact Hl
  isplitl [Hn]; · iexact Hn
  isplitl [Hm]; · iexact Hm
  isplitl [H0]; · iexact H0
  isplitl [H1]; · iexact H1
  iexact H2

end Cert.Proof.KI

end
-- ==== Proof.LaunchSteps.lean ====
import proofs.«201762_g83623013253620_cont_9to1_m_623_34_alg».proof.Proof.LaunchDefs
import proofs.«201762_g83623013253620_cont_9to1_m_623_34_alg».proof.Proof.SplitP

/-!
@main on the TensorCore from its two non-host steps: the SparseCore call and the pipeline's region are
stated as steps; the host stretches between them run by the straight-line rule.
-/

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held wp_seq wp_hlo_within)

variable {F : FTy → Type} [FloatOps F]

local notation "𝕄" => MT nD τ sig (HIx 1) (Elt F) ℕ UU ℕ

/-! ## The host stretches' side conditions -/

theorem sub01 : ∀ op ∈ (ops01 : List (HloOp τ sig (Elt F))), op.bufs ⊆ Pipeline.ucRefs τ sig := by
  intro op h
  simp only [ops01, List.mem_cons, List.mem_nil_iff, or_false] at h
  rcases h with rfl | rfl <;> exact Pipeline.sub_ucRefs _ (by simp)
theorem fresh01 : ∀ op ∈ (ops01 : List (HloOp τ sig (Elt F))), op.fresh = ∅ := by
  intro _ h; (repeat (cases h with | head => rfl | tail _ h => ?_)); exact nomatch h
theorem sub3_9 : ∀ op ∈ (ops3_9 : List (HloOp τ sig (Elt F))), op.bufs ⊆ Pipeline.ucRefs τ sig := by
  intro op h
  simp only [ops3_9, List.mem_cons, List.mem_nil_iff, or_false] at h
  rcases h with rfl | rfl | rfl | rfl | rfl | rfl | rfl <;> exact Pipeline.sub_ucRefs _ (by simp)
theorem fresh3_9 : ∀ op ∈ (ops3_9 : List (HloOp τ sig (Elt F))), op.fresh = ∅ := by
  intro _ h; (repeat (cases h with | head => rfl | tail _ h => ?_)); exact nomatch h
theorem subK : ∀ op ∈ (opsK : List (HloOp τ sig (Elt F))), op.bufs ⊆ Pipeline.ucRefs τ sig := by
  intro op h
  simp only [opsK, List.mem_cons, List.mem_nil_iff, or_false] at h
  rcases h with rfl | rfl | rfl | rfl | rfl | rfl <;> exact Pipeline.sub_ucRefs _ (by simp)
theorem freshK : ∀ op ∈ (opsK : List (HloOp τ sig (Elt F))), op.fresh = ∅ := by
  intro _ h; (repeat (cases h with | head => rfl | tail _ h => ?_)); exact nomatch h
theorem sub11_16 : ∀ op ∈ (ops11_16 : List (HloOp τ sig (Elt F))), op.bufs ⊆ Pipeline.ucRefs τ sig := by
  intro op h
  simp only [ops11_16, List.mem_cons, List.mem_nil_iff, or_false] at h
  rcases h with rfl | rfl | rfl | rfl | rfl | rfl <;> exact Pipeline.sub_ucRefs _ (by simp)
theorem fresh11_16 : ∀ op ∈ (ops11_16 : List (HloOp τ sig (Elt F))), op.fresh = ∅ := by
  intro _ h; (repeat (cases h with | head => rfl | tail _ h => ?_)); exact nomatch h
theorem sub18_19 : ∀ op ∈ (ops18_19 : List (HloOp τ sig (Elt F))), op.bufs ⊆ Pipeline.ucRefs τ sig := by
  intro op h
  simp only [ops18_19, List.mem_cons, List.mem_nil_iff, or_false] at h
  rcases h with rfl | rfl <;> exact Pipeline.sub_ucRefs _ (by simp)
theorem fresh18_19 : ∀ op ∈ (ops18_19 : List (HloOp τ sig (Elt F))), op.fresh = ∅ := by
  intro _ h; (repeat (cases h with | head => rfl | tail _ h => ?_)); exact nomatch h

/-- The region's line of @main is the pipeline-signature line, lifted to the extended body table. -/
theorem region_line :
    (Prog.lift (.customCall (SparseCore.inner (Pipeline.entry 0)) ()) : Prog (TpuEff nD τ sig (Elt F) (SparseCore.Sig (ΛP (F := F)) 1) .tc) PUnit)
      = SparseCore.liftProg (Q := 1) ((.op (.customCall (Pipeline.entry 0) ()) fun u => .ret u) : Prog (TpuEff nD τ sig (Elt F) (ΛP (F := F)) .tc) PUnit) := rfl

/-! ## @main, item by item -/

section Main

variable [∀ e, Nonempty (Elt F e)]
variable (m : (ℓ : Loc nD τ sig) → Buf (Elt F) ℓ) (ρ : Dev nD → PrngReg)

/-- The launch's unscoped buffers, as the set the host operations run within. -/
theorem unscoped_held0 (d : Dev nD) :
    (unscopedBufs d (fun b => m ((SparseCore.T d).loc b)) : sProp 𝕄) = held (SparseCore.T d) (Pipeline.ucRefs τ sig) (StableHlo.launchContents m d) :=
  Pipeline.unscopedBufs_held d (StableHlo.launchContents m d)

/-- The SparseCore call as a step of @main: the counts array goes from its launch contents to the histograms. -/
def RunStep (κ : GSem nD τ sig → ℕ) (d : Dev nD) : Prop :=
  ∀ (Φ : PUnit → sProp 𝕄),
    iprop((K (F := F)).ctx EH (P m) κ ∗ (K (F := F)).tcSt EH d 0 ∗ held (T d) (Pipeline.ucRefs τ sig) (W1 m d)
        ∗ (((K (F := F)).tcSt EH d 1 ∗ held (T d) (Pipeline.ucRefs τ sig) (W2 m d)) -∗ Φ ⟨⟩))
      ⊢ wp frame (wpE ((K (F := F)).defs (D (F := F))) 𝒱 (T d) none) Set.univ ((K (F := F)).run d 0) Φ

/-- The pipeline's region as a step of @main: the result array goes to what the write-backs leave. -/
def RegStep (κ : GSem nD τ sig → ℕ) (d : Dev nD) : Prop :=
  ∀ (Φ : PUnit → sProp 𝕄),
    iprop((K (F := F)).ctx EH (P m) κ ∗ (K (F := F)).tcSt EH d 1 ∗ boundary (T d) ∗ held (T d) (Pipeline.ucRefs τ sig) (W3 m d) ∗ Gd d
        ∗ (((K (F := F)).tcSt EH d 1 ∗ boundary (T d) ∗ held (T d) (Pipeline.ucRefs τ sig) (W4 m d)) -∗ Φ ⟨⟩))
      ⊢ wp frame (wpE ((K (F := F)).defs (D (F := F))) 𝒱 (T d) none) Set.univ
          (Prog.lift (.customCall (SparseCore.inner (Pipeline.entry 0)) ())) Φ

/-- @main on device `d`'s TensorCore, from the two steps. -/
theorem hmain_of (κ : GSem nD τ sig → ℕ) (d : Dev nD) (hrun : RunStep m κ d) (hreg : RegStep m κ d) :
    iprop((K (F := F)).ctx EH (P m) κ ∗ (K (F := F)).tcSt EH d 0 ∗ (K (F := F)).tcRes m ρ d ∗ Gd d)
      ⊢ wp frame (wpE ((K (F := F)).defs (D (F := F))) 𝒱 (T d) none) Set.univ (main d)
          fun _ => iprop((K (F := F)).tcSt EH d 1 ∗ FIN m d) := by
  rw [main_chain]
  simp only [Pipeline.chain_cons, Pipeline.chain_nil]
  unfold SparseCore.Cfg.tcRes
  rw [unscoped_held0]
  iintro ⟨#Hctx, Hst, ⟨Hb, Hheld, -, -⟩, HG⟩
  -- the two opening operations
  iapply (wp_seq 𝒱 none Set.univ d (Pipeline.ucRefs τ sig) _ ops01 sub01 fresh01 (StableHlo.launchContents m d)) $$ [Hb Hheld]
  · isplitl [Hb]; · iexact Hb
    iexact Hheld
  iintro ⟨Hb, Hheld⟩
  -- the SparseCore call
  rw [wp_bind]
  iapply (hrun _) $$ [Hst Hheld Hb HG]
  isplitr; · iexact Hctx
  isplitl [Hst]; · iexact Hst
  isplitl [Hheld]; · iexact Hheld
  iintro ⟨Hst, Hheld⟩
  -- the host operations up to the region
  iapply (wp_seq 𝒱 none Set.univ d (Pipeline.ucRefs τ sig) _ ops3_9 sub3_9 fresh3_9 (W2 m d)) $$ [Hb Hheld]
  · isplitl [Hb]; · iexact Hb
    iexact Hheld
  iintro ⟨Hb, Hheld⟩
  rw [kron_seq]
  iapply (wp_seq 𝒱 none Set.univ d (Pipeline.ucRefs τ sig) _ opsK subK freshK _) $$ [Hb Hheld]
  · isplitl [Hb]; · iexact Hb
    iexact Hheld
  iintro ⟨Hb, Hheld⟩
  iapply (wp_seq 𝒱 none Set.univ d (Pipeline.ucRefs τ sig) _ ops11_16 sub11_16 fresh11_16 _) $$ [Hb Hheld]
  · isplitl [Hb]; · iexact Hb
    iexact Hheld
  iintro ⟨Hb, Hheld⟩
  -- the region
  rw [wp_bind]
  iapply (hreg _) $$ [Hst Hb Hheld HG]
  isplitr; · iexact Hctx
  isplitl [Hst]; · iexact Hst
  isplitl [Hb]; · iexact Hb
  isplitl [Hheld]; · iexact Hheld
  isplitl [HG]; · iexact HG
  iintro ⟨Hst, Hb, Hheld⟩
  -- the two closing operations
  iapply (wp_seq 𝒱 none Set.univ d (Pipeline.ucRefs τ sig) _ ops18_19 sub18_19 fresh18_19 (W4 m d)) $$ [Hb Hheld]
  · isplitl [Hb]; · iexact Hb
    iexact Hheld
  iintro ⟨Hb, Hheld⟩
  rw [wp_pure]; imodintro
  isplitl [Hst]; · iexact Hst
  unfold FIN W5
  iexact Hheld

end Main

end Cert.Proof.KI

end
-- ==== Proof.LaunchRegStep.lean ====
import proofs.«201762_g83623013253620_cont_9to1_m_623_34_alg».proof.Proof.LaunchSteps

/-!
The pipeline's region as a step of @main: the region rule of the pipeline's own body table, lifted to the
extended body table of the SparseCore launch, entered from the TensorCore's state after the SparseCore call.
-/

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held wp_seq wp_hlo_within)

variable {F : FTy → Type} [FloatOps F]

local notation "𝕄" => MT nD τ sig (HIx 1) (Elt F) ℕ UU ℕ

/-! ## The region step -/

section RegStep

variable [∀ e, Nonempty (Elt F e)]
variable (m : (ℓ : Loc nD τ sig) → Buf (Elt F) ℓ)

/-- The buffers after the region, over references, are the region's account of them. -/
theorem W4_eq (d : Dev nD) : (fun b : Ref sig .tc => W4 m d b) = Vpost (Vent m) d := by
  funext b
  unfold W4 Vpost
  by_cases h : b = main_v16
  · subst h; rw [Function.update_self, Function.update_self]
  · rw [Function.update_of_ne h, Function.update_of_ne (StableHlo.devRef_ne_of_ne h)]; rfl

theorem reg1_pre (V : (d : Dev nD) → (b : Ref sig .tc) → Buf (Elt F) ((d.tc : Thread nD τ).loc b)) (hbody : TcBody (F := F)) (d : Dev nD) :
    (reg1 V hbody).pre d = iprop(unscopedBufs d (V d) ∗ OW d) := rfl
theorem reg1_post (V : (d : Dev nD) → (b : Ref sig .tc) → Buf (Elt F) ((d.tc : Thread nD τ).loc b)) (hbody : TcBody (F := F)) (d : Dev nD) :
    (reg1 V hbody).post d = iprop(unscopedBufs d (Vpost V d) ∗ OW d) := rfl

theorem regStep (hbody : TcBody (F := F)) (κ : GSem nD τ sig → ℕ) (d : Dev nD) : RegStep m κ d := by
  intro Φ
  rw [region_line]
  refine BIBase.Entails.trans ?_ ((K (F := F)).wp_liftProg (D (F := F)) 𝒱 (SparseCore.T d) Set.univ none _ Φ)
  unfold SparseCore.Cfg.tcSt Gd
  rw [(K (F := F)).Otc_end d (le_refl 1), ← Pipeline.unscopedBufs_held d (W3 m d), ← Pipeline.unscopedBufs_held d (W4 m d), W4_eq]
  have hreg := Pipeline.RegionSeg.wp (pcfgs (F := F)) adm (pdats (fun d => Aof d (Vent m d))) (none : HIx 1) hinj1 ER defs₀ 𝒱₀
    (Lk (F := F)) (lvk (F := F)) (reg1 (Vent m) hbody) d none (by simp) (fun u => .ret u) Φ
  rw [reg1_pre, reg1_post] at hreg
  unfold OW at hreg
  iintro ⟨#Hctx, ⟨HO, Hrest⟩, Hb, Hub, ⟨Hg, Ht⟩, Hk⟩
  ihave #Hlev := (SparseCore.Cfg.ctx_levAts κ) $$ Hctx
  iapply hreg
  isplitl [Hk Hrest]
  · iintro ⟨Hb, Hub, HO⟩
    rw [wp_ret]; imodintro
    iapply Hk
    isplitl [HO Hrest]
    · isplitl [HO]; · iexact HO
      iexact Hrest
    isplitl [Hb]; · iexact Hb
    iexact Hub
  isplitl [Hb]; · iexact Hb
  isplitl [Hub HO]
  · isplitl [Hub]; · iexact Hub
    iexact HO
  isplitr; · iexact Hlev
  isplitl [Hg]; · iexact Hg
  iexact Ht

end RegStep

end Cert.Proof.KI

end
-- ==== Proof.LaunchHu0.lean ====
import proofs.«201762_g83623013253620_cont_9to1_m_623_34_alg».proof.Proof.LaunchDefs

/-!
The launch element of the ghost state: the handshakes' rounds are handed over as they are; the pipeline's
rounds fund, device by device, the ghost state of the one pipeline's staging cells and the duty tokens of its
transfers; the counters are not needed, and no thread is dealt anything of the kernels' own.
-/

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ)

omit [FloatOps F] [∀ e, Nonempty (Elt F e)] in
/-- A conjunction over the one pipeline is its one conjunct. -/
theorem hu0_bigSep_one (Φ : Fin 1 → sProp 𝕄) : bigSep Finset.univ Φ = Φ 0 := by
  rw [show (Finset.univ : Finset (Fin 1)) = {0} from by decide, bigSep_singleton]

omit [FloatOps F] [∀ e, Nonempty (Elt F e)] in
/-- A conjunction of empty assertions is empty. -/
theorem hu0_bigSep_emp {I : Type} (s : Finset I) : (bigSep s fun _ => iprop(emp)) = (iprop(emp) : sProp 𝕄) := bigSep_emp_const s

/-- The launch element splits into the handshakes' part and, after funding, each device's share for the pipeline. -/
theorem hu₀ : (ownU (u₀ (F := F)) : sProp 𝕄)
    ⊢ |={Set.univ}=> iprop(BI.own ((EH (F := F)) (initOf (K (F := F)).hsCells (K (F := F)).hsToks))
        ∗ (bigSep Finset.univ fun d : Dev nD => Gd (F := F) d)
        ∗ bigSep Finset.univ fun thr : Thread nD τ => bigSep Finset.univ fun q : Fin 1 => (P m).x q thr) := by
  have hfund := Pipeline.fund_ghost (Pipeline.pin (pcfgs (F := F)) adm) (ER (F := F)) hinj1
  unfold Gd
  unfold ER at hfund ⊢
  unfold u₀
  iintro Hu
  ihave H := (ownU_pair _ _) $$ Hu
  icases H with ⟨HH, HR⟩
  ihave H2 := (own_pair_emb embR _ _) $$ HR
  icases H2 with ⟨HRr, -⟩
  imod hfund $$ HRr with ⟨Hg, Ht⟩
  imodintro
  isplitl [HH]; · iexact HH
  isplitl [Hg Ht]
  · rw [bigSep_sep']
    simp only [hu0_bigSep_one]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => hu0_bigSep_emp _, hu0_bigSep_emp]]
  iempintro

end Cert.Proof.KI
end
-- ==== Proof.LaunchFin.lean ====
import proofs.«201762_g83623013253620_cont_9to1_m_623_34_alg».proof.Proof.LaunchDefs

/-!
What @main leaves on a device reads the claim: under the state interpretation, holding every unscoped
TensorCore buffer whole at its final contents pins the physical memory of each of them.
-/

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ)

/-- Each unscoped TensorCore buffer of the final state holds its final contents. -/
theorem hfin (d : Dev nD) (s' : Phys nD τ sig (Elt F)) : iprop(FIN m d ∗ SI s') ⊢ (⌜fq m d s'⌝ : sProp 𝕄) := by
  unfold FIN held fq
  iintro ⟨Hh, HSI⟩
  ihave %h := (SI_pointsTo_bufs_agree (st := s') (c := d) (qs := fun _ => fullShare) (F := W5 m d) (Pipeline.ucRefs τ sig)) $$ [HSI Hh]
  · isplitl [HSI] <;> iassumption
  ipureintro
  intro b hb
  exact h (Proc.devRef .tc b) (Finset.mem_filter.mpr ⟨StableHlo.devRef_mem_tcRefs b, by
    rw [show (Proc.devRef (τ := τ) .tc b).isScoped = b.isScoped from rfl, hb]; exact Bool.false_ne_true⟩)

end Cert.Proof.KI
end
-- ==== Proof.LaunchRun.lean ====
import proofs.«201762_g83623013253620_cont_9to1_m_623_34_alg».proof.Proof.LaunchSteps

/-!
The SparseCore call as a step of @main on the TensorCore.  Of the unscoped buffers the TensorCore holds, the
call concerns four: the three index lists and the counts array.  They are handed to the two SparseCores'
sequencers as the call's payload and come back with the lists unchanged and the counts array at the three
histograms; every other buffer is untouched, and the two opening host operations before the call write
none of the four.
-/

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held)
open Idealize.ShloMosaic.SparseCore.Cfg (tileRest ownBufs ownSems0 ownCells ownRefs mem_ownCells mem_ownRefs)

variable {F : FTy → Type} [FloatOps F] [∀ e, Nonempty (Elt F e)]

local notation "𝕄" => MT nD τ sig (HIx 1) (Elt F) ℕ UU ℕ

variable (m : (ℓ : Loc nD τ sig) → Buf (Elt F) ℓ)

abbrev a4 : DevRef τ sig := Proc.devRef .tc (main_arg4 : Ref sig .tc)
abbrev a3 : DevRef τ sig := Proc.devRef .tc (main_arg3 : Ref sig .tc)
abbrev a2 : DevRef τ sig := Proc.devRef .tc (main_arg2 : Ref sig .tc)

/-- The call's four buffers: the leaders', nonmembers' and members' lists and the counts array. -/
abbrev T4 : Finset (DevRef τ sig) := {a4, a3, a2, x2}

omit [FloatOps F] [∀ e, Nonempty (Elt F e)] in
/-- They are unscoped buffers of the TensorCore. -/
theorem T4_sub : T4 ⊆ Pipeline.ucRefs τ sig := by decide

omit [FloatOps F] [∀ e, Nonempty (Elt F e)] in
/-- The four held together are the four points-to assertions. -/
theorem held_T4 (d : Dev nD) (W : Valuation τ sig (Elt F)) :
    (held (SparseCore.T d) T4 W : sProp 𝕄)
      = iprop((leadLoc d ↦{fullShare} W a4) ∗ (nonmLoc d ↦{fullShare} W a3) ∗ (memLoc d ↦{fullShare} W a2) ∗ (cntLoc d ↦{fullShare} W x2)) := by
  unfold held T4
  rw [SparseCore.bigSep_insert' (by decide), SparseCore.bigSep_insert' (by decide), SparseCore.bigSep_insert' (by decide), bigSep_singleton]

/-- The two opening operations write only their own results: any other buffer keeps its launch contents. -/
theorem W1_keep (d : Dev nD) (r : Ref sig .tc) (hr : r ∉ [main_v0, main_v1]) :
    W1 m d (Proc.devRef .tc r) = m (d, Proc.devRef .tc r) := by
  unfold W1
  exact StableHlo.after_of_writes_sub (W := [main_v0, main_v1]) ops01 _ (by simp [ops01, List.Forall]) hr

/-- The four buffers' contents before and after the call. -/
theorem W1_a4 (d : Dev nD) : W1 m d a4 = m (leadLoc d) := W1_keep m d main_arg4 (by decide)
theorem W1_a3 (d : Dev nD) : W1 m d a3 = m (nonmLoc d) := W1_keep m d main_arg3 (by decide)
theorem W1_a2 (d : Dev nD) : W1 m d a2 = m (memLoc d) := W1_keep m d main_arg2 (by decide)
theorem W1_x2 (d : Dev nD) : W1 m d x2 = m (cntLoc d) := W1_keep m d main_v2 (by decide)
theorem W2_a4 (d : Dev nD) : W2 m d a4 = m (leadLoc d) := (Function.update_of_ne (show a4 ≠ x2 by decide) _ _).trans (W1_a4 m d)
theorem W2_a3 (d : Dev nD) : W2 m d a3 = m (nonmLoc d) := (Function.update_of_ne (show a3 ≠ x2 by decide) _ _).trans (W1_a3 m d)
theorem W2_a2 (d : Dev nD) : W2 m d a2 = m (memLoc d) := (Function.update_of_ne (show a2 ≠ x2 by decide) _ _).trans (W1_a2 m d)
theorem W2_x2 (d : Dev nD) : W2 m d x2 = CNT m d := Function.update_self _ _ _

/-- Off the four, the call changes nothing. -/
theorem held_rest (d : Dev nD) :
    (held (SparseCore.T d) (Pipeline.ucRefs τ sig \ T4) (W2 m d) : sProp 𝕄) = held (SparseCore.T d) (Pipeline.ucRefs τ sig \ T4) (W1 m d) :=
  StableHlo.held_congr (SparseCore.T d) fun b hb => Function.update_of_ne (fun h => (Finset.mem_sdiff.mp hb).2 (by rw [h]; decide)) _ _

/-- THE SPARSECORE CALL, as a step of @main. -/
theorem runStep (κ : GSem nD τ sig → ℕ) (d : Dev nD) : RunStep m κ d := by
  intro Φ
  rw [StableHlo.held_sub_split (SparseCore.T d) T4_sub (W1 m d), StableHlo.held_sub_split (SparseCore.T d) T4_sub (W2 m d), held_T4, held_T4,
    held_rest, W1_a4, W1_a3, W1_a2, W1_x2, W2_a4, W2_a3, W2_a2, W2_x2]
  iintro ⟨#Hctx, Hst, ⟨⟨Hl, Hn, Hm, Hc⟩, Hrest⟩, Hk⟩
  iapply ((K (F := F)).wp_run (D (F := F)) 𝒱 (EH := EH) (P := P m) κ d 0) $$ [Hst Hl Hn Hm Hc Hrest Hk]
  isplitr; · iexact Hctx
  isplitl [Hst]; · iexact Hst
  isplitl [Hl Hn Hm Hc]
  · iapply (st_intro m d)
    isplitl [Hl]; · iexact Hl
    isplitl [Hn]; · iexact Hn
    isplitl [Hm]; · iexact Hm
    iexact Hc
  iintro ⟨Hst, Hdn⟩
  ihave Hdn' := (dn_elim m d) $$ Hdn
  icases Hdn' with ⟨Hl, Hn, Hm, Hc⟩
  iapply Hk
  isplitl [Hst]; · iexact Hst
  isplitl [Hl Hn Hm Hc]
  · isplitl [Hl]; · iexact Hl
    isplitl [Hn]; · iexact Hn
    isplitl [Hm]; · iexact Hm
    iexact Hc
  iexact Hrest

end Cert.Proof.KI
end
-- ==== Proof.TcBodyRun.lean ====
import proofs.«201762_g83623013253620_cont_9to1_m_623_34_alg».proof.Proof.LaunchTc
import Idealize.ShloMosaic.Lib.Tactic
import Idealize.ShloMosaic.Lib.Ring

/-!
The TensorCore kernel's body run on any whole staging memrefs, in its two cases: at the first point of the
grid the body stores the table (the three scaled histograms times the transposed features, rounded) into the
scratch and then reads it; at every later point it only reads it.  Either way it loads the adjacency's column
block, the table, the block's diagonal square, the table's and the features' columns of the point, the weights
and the bias, and stores the point's block of the result.  What each buffer holds afterwards is stated as the
canonical contents of the one whole-rectangle store over the values loaded.
-/

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [∀ e, Nonempty (Elt F e)]

local notation "𝕄" => MT nD τ sig (HIx 1) (Elt F) ℕ UU ℕ

/-- The condition of the body's one branch, from the grid coordinates: the point is the first along the grid's axis. -/
abbrev cond1 (i : grid1.Coords) : Prop :=
  Scalar.cmpi .ne (Scalar.extui (Scalar.cmpi .eq (BitVec.ofNat 32 (i 0).val) 0#32)) 0#32 = 1#1

/-- The table the first point stores into the scratch, from what the histograms' buffer (`x2`) and the transposed
    features' buffer (`x3`) read: the one whole-rectangle store of the scaled products. -/
def tableOf (x2 : Vec F S3x4096 .f32) (x3 : Vec F S7x4096 .f32) : S21x4096.Idx → Elt F .bf16 :=
  View.canon [⟨R21, k1_pay1 (View.ld x2 R3) (View.ld x3 R7)⟩]

/-- The block a point stores into the output's buffer, from what the adjacency's column block (`x1`), the scratch
    table (`s`), the features (`x3`), the weights (`x4`) and the bias (`x5`) read: the one whole-rectangle store. -/
def outOf (i : grid1.Coords) (x1 : Vec F S4096x512 .f32) (s : S21x4096.Idx → Elt F .bf16) (x3 : Vec F S7x4096 .f32)
    (x4 : Vec F S1792x28 .bf16) (x5 : Vec F S1792x1 .f32) : S1792x512.Idx → Elt F .f32 :=
  View.canon [⟨RO, k1_pay2 (View.ld x1 RA) (View.ld s R21) (View.ld x1 (RD i)) (View.ld s (RG i)) (View.ld x3 (RF i))
    (View.ld x4 RW) (View.ld x5 RB)⟩]

/-- The body at the first point, on any whole staging memrefs: the branch is taken, the table is stored into the
    scratch (whatever it held) and read back whole and by the point's columns; the inputs' buffers are left as they
    were, the output's holds the point's block, the scratch the table. -/
theorem run_first (d : Dev nD) (i : grid1.Coords)
    (arg1 : Memref sig .tc .vmem S4096x512 .f32) (harg1 : arg1.IsWhole) (arg2 : Memref sig .tc .vmem S3x4096 .f32) (harg2 : arg2.IsWhole)
    (arg3 : Memref sig .tc .vmem S7x4096 .f32) (harg3 : arg3.IsWhole) (arg4 : Memref sig .tc .vmem S1792x28 .bf16) (harg4 : arg4.IsWhole)
    (arg5 : Memref sig .tc .vmem S1792x1 .f32) (harg5 : arg5.IsWhole) (arg6 : Memref sig .tc .vmem S1792x512 .f32) (harg6 : arg6.IsWhole)
    (arg7 : Memref sig .tc .vmem S21x4096 .bf16) (harg7 : arg7.IsWhole) (hc : cond1 i)
    (x1 : Vec F S4096x512 .f32) (x2 : Vec F S3x4096 .f32) (x3 : Vec F S7x4096 .f32) (x4 : Vec F S1792x28 .bf16) (x5 : Vec F S1792x1 .f32)
    (K : PUnit → sProp 𝕄) :
    iprop(owns (d : Thread nD τ) arg1 fullShare x1 ∗ owns (d : Thread nD τ) arg2 fullShare x2 ∗ owns (d : Thread nD τ) arg3 fullShare x3
        ∗ owns (d : Thread nD τ) arg4 fullShare x4 ∗ owns (d : Thread nD τ) arg5 fullShare x5
        ∗ (∃ dd, owns (d : Thread nD τ) arg6 fullShare dd) ∗ (∃ f, owns (d : Thread nD τ) arg7 fullShare f)
        ∗ (iprop(owns (d : Thread nD τ) arg1 fullShare x1 ∗ owns (d : Thread nD τ) arg2 fullShare x2 ∗ owns (d : Thread nD τ) arg3 fullShare x3
            ∗ owns (d : Thread nD τ) arg4 fullShare x4 ∗ owns (d : Thread nD τ) arg5 fullShare x5
            ∗ owns (d : Thread nD τ) arg6 fullShare (outOf i x1 (tableOf x2 x3) x3 x4 x5)
            ∗ owns (d : Thread nD τ) arg7 fullShare (tableOf x2 x3)) -∗ K ⟨⟩))
      ⊢ wp frame (wpE (defs₀ (F := F)) 𝒱₀ d none) Set.univ
          (cc1__tc_body i arg1 harg1 arg2 harg2 arg3 harg3 arg4 harg4 arg5 harg5 arg6 harg6 arg7 harg7) K := by
  rw [cc1__tc_body_eq_skeleton]; unfold cc1__tc_body_skel
  rw [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => View.cover_of_tiledL _ S1792x512.size (by sl_kernel_rfl) y)]
    unfold outOf tableOf
    sl_unfold_run_names
    simp only [View.readAt_eq_ld, harg1.read_unread, harg2.read_unread, harg3.read_unread, harg4.read_unread, harg5.read_unread,
      View.readCov_eq_canon', View.readAt_writes_junk_eq_canon]
  · iexists _; isplitr
    swap; · iexact H7
    ipureintro
    rw [View.read_writes_junk_eq_canon]
    unfold tableOf
    sl_unfold_run_names
    simp only [View.readAt_eq_ld, harg2.read_unread, harg3.read_unread]

/-- The body at a later point: the branch is not taken, the scratch holds `xs` throughout; the output's buffer
    holds the point's block computed from it. -/
theorem run_rest (d : Dev nD) (i : grid1.Coords)
    (arg1 : Memref sig .tc .vmem S4096x512 .f32) (harg1 : arg1.IsWhole) (arg2 : Memref sig .tc .vmem S3x4096 .f32) (harg2 : arg2.IsWhole)
    (arg3 : Memref sig .tc .vmem S7x4096 .f32) (harg3 : arg3.IsWhole) (arg4 : Memref sig .tc .vmem S1792x28 .bf16) (harg4 : arg4.IsWhole)
    (arg5 : Memref sig .tc .vmem S1792x1 .f32) (harg5 : arg5.IsWhole) (arg6 : Memref sig .tc .vmem S1792x512 .f32) (harg6 : arg6.IsWhole)
    (arg7 : Memref sig .tc .vmem S21x4096 .bf16) (harg7 : arg7.IsWhole) (hc : ¬cond1 i)
    (x1 : Vec F S4096x512 .f32) (x2 : Vec F S3x4096 .f32) (x3 : Vec F S7x4096 .f32) (x4 : Vec F S1792x28 .bf16) (x5 : Vec F S1792x1 .f32)
    (xs : S21x4096.Idx → Elt F .bf16) (K : PUnit → sProp 𝕄) :
    iprop(owns (d : Thread nD τ) arg1 fullShare x1 ∗ owns (d : Thread nD τ) arg2 fullShare x2 ∗ owns (d : Thread nD τ) arg3 fullShare x3
        ∗ owns (d : Thread nD τ) arg4 fullShare x4 ∗ owns (d : Thread nD τ) arg5 fullShare x5
        ∗ (∃ dd, owns (d : Thread nD τ) arg6 fullShare dd) ∗ owns (d : Thread nD τ) arg7 fullShare xs
        ∗ (iprop(owns (d : Thread nD τ) arg1 fullShare x1 ∗ owns (d : Thread nD τ) arg2 fullShare x2 ∗ owns (d : Thread nD τ) arg3 fullShare x3
            ∗ owns (d : Thread nD τ) arg4 fullShare x4 ∗ owns (d : Thread nD τ) arg5 fullShare x5
            ∗ owns (d : Thread nD τ) arg6 fullShare (outOf i x1 xs x3 x4 x5)
            ∗ owns (d : Thread nD τ) arg7 fullShare xs) -∗ K ⟨⟩))
      ⊢ wp frame (wpE (defs₀ (F := F)) 𝒱₀ d none) Set.univ
          (cc1__tc_body i arg1 harg1 arg2 harg2 arg3 harg3 arg4 harg4 arg5 harg5 arg6 harg6 arg7 harg7) K := by
  rw [cc1__tc_body_eq_skeleton]; unfold cc1__tc_body_skel
  rw [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => View.cover_of_tiledL _ S1792x512.size (by sl_kernel_rfl) y)]
    unfold outOf
    simp only [View.readAt_eq_ld, harg1.read_unread, harg3.read_unread, harg4.read_unread, harg5.read_unread, harg7.read_unread]
  · iexists _; isplitr; · ipureintro; exact harg7.read_unread _
    iexact H7

end Cert.Proof.KI
end
-- ==== Proof.TcBody.lean ====
import proofs.«201762_g83623013253620_cont_9to1_m_623_34_alg».proof.Proof.TcBodyRun
import Idealize.ShloMosaic.Lib.Tactic
import Idealize.ShloMosaic.Lib.Ring

/-!
The TensorCore pipeline's body obligation.  At the first point of the grid the scratch holds anything and the
body's branch is taken: it stores the table and the invariant afterwards names it; at every later point the
scratch holds the table and the branch is not taken.  At every point the five input windows' current staging
buffers hold their blocks (fetched there or kept from the point before), the output's holds anything before
the body and the point's block after it; the core owes nothing throughout.
-/

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [∀ e, Nonempty (Elt F e)]

local notation "𝕄" => MT nD τ sig (HIx 1) (Elt F) ℕ UU ℕ

variable (d : Dev nD) (A : (w : Fin cfg1.W) → Buf (Elt F) ((cfg1.win w).arr.view.loc (d.tc : Thread nD τ)))

/-- The branch is taken at the first point only — decided over the grid's eight points. -/
theorem hcond1 : ∀ t : Fin cfg1.N, cond1 (grid1.coords t) ↔ t.val = 0 :=
  (by decide +kernel : ∀ t : Fin grid1.N, cond1 (grid1.coords t) ↔ t.val = 0)

/-- Each window's current staging memref at point `t`, as the pipeline passes it to the body. -/
abbrev ms1_0 (t : Fin cfg1.N) : Memref sig .tc .vmem S4096x512 .f32 := win1_0.stage (cfg1.slots t 0)
abbrev ms1_1 (t : Fin cfg1.N) : Memref sig .tc .vmem S3x4096 .f32 := win1_1.stage (cfg1.slots t 1)
abbrev ms1_2 (t : Fin cfg1.N) : Memref sig .tc .vmem S7x4096 .f32 := win1_2.stage (cfg1.slots t 2)
abbrev ms1_3 (t : Fin cfg1.N) : Memref sig .tc .vmem S1792x28 .bf16 := win1_3.stage (cfg1.slots t 3)
abbrev ms1_4 (t : Fin cfg1.N) : Memref sig .tc .vmem S1792x1 .f32 := win1_4.stage (cfg1.slots t 4)
abbrev ms1_5 (t : Fin cfg1.N) : Memref sig .tc .vmem S1792x512 .f32 := win1_5.stage (cfg1.slots t 5)

/-- The scratch's contents after the first point are the table of the first point's histogram and feature blocks. -/
theorem scrX_eq : scrX d A = tableOf (iblk d A 1 t1_0) (iblk d A 2 t1_0) := by
  unfold scrX gtPay tableOf; rfl

/-- The output's block at a point is the body's store there, over the point's input blocks and the table. -/
theorem outX_eq (t : Fin cfg1.N) :
    outX d A t = outOf (grid1.coords t) (iblk d A 0 t) (scrX d A) (iblk d A 2 t) (iblk d A 3 t) (iblk d A 4 t) := by
  unfold outX outPay outOf; rfl

/-- Before the first point the scratch holds anything. -/
theorem Φ1_first (t : Fin cfg1.N) (hz : t.val = 0) :
    (dat1 d A).Φ t.castSucc = Pipeline.scopedRest (Ix := HIx 1) (Name := ℕ) (U := UU) (Lvl := ℕ) (Val := Elt F) spec1 d := by
  show Φ1 d A t.castSucc = _
  unfold Φ1; exact if_pos hz

/-- What the body is called with at point `t`: the scratch invariant, what the core owes, the six current staging
    buffers at what the pipeline left in them. -/
def bodyPre (t : Fin cfg1.N) : sProp 𝕄 :=
  iprop((dat1 d A).Φ t.castSucc ∗ (dat1 d A).owesAt (none : HIx 1) t.castSucc
    ∗ (∃ dd, owns (d : Thread nD τ) (ms1_0 t) fullShare ((dat1 d A).before 0 t dd))
    ∗ (∃ dd, owns (d : Thread nD τ) (ms1_1 t) fullShare ((dat1 d A).before 1 t dd))
    ∗ (∃ dd, owns (d : Thread nD τ) (ms1_2 t) fullShare ((dat1 d A).before 2 t dd))
    ∗ (∃ dd, owns (d : Thread nD τ) (ms1_3 t) fullShare ((dat1 d A).before 3 t dd))
    ∗ (∃ dd, owns (d : Thread nD τ) (ms1_4 t) fullShare ((dat1 d A).before 4 t dd))
    ∗ (∃ dd, owns (d : Thread nD τ) (ms1_5 t) fullShare ((dat1 d A).before 5 t dd)))

/-- And what it returns: the invariant of the next point, what the core owes, the buffers at what the body leaves. -/
def bodyPost (t : Fin cfg1.N) : sProp 𝕄 :=
  iprop((dat1 d A).Φ t.succ ∗ (dat1 d A).owesAt (none : HIx 1) t.succ
    ∗ owns (d : Thread nD τ) (ms1_0 t) fullShare ((dat1 d A).after 0 t)
    ∗ owns (d : Thread nD τ) (ms1_1 t) fullShare ((dat1 d A).after 1 t)
    ∗ owns (d : Thread nD τ) (ms1_2 t) fullShare ((dat1 d A).after 2 t)
    ∗ owns (d : Thread nD τ) (ms1_3 t) fullShare ((dat1 d A).after 3 t)
    ∗ owns (d : Thread nD τ) (ms1_4 t) fullShare ((dat1 d A).after 4 t)
    ∗ owns (d : Thread nD τ) (ms1_5 t) fullShare ((dat1 d A).after 5 t))

/-- The body at any point, by the point's case. -/
theorem sound_body (t : Fin cfg1.N) :
    bodyPre d A t ⊢ wp frame (wpE (defs₀ (F := F)) 𝒱₀ d none) Set.univ (bodyAt1 t) (fun _ => bodyPost d A t) := by
  unfold bodyPre bodyPost
  simp only [before1_0, before1_1, before1_2, before1_3, before1_4]
  rw [show (dat1 d A).owesAt (none : HIx 1) t.succ = (dat1 d A).owesAt (none : HIx 1) t.castSucc from rfl]
  rw [Φ1_succ, after1_5, outX_eq]
  simp only [after1_in, after1]
  by_cases hz : t.val = 0
  · obtain rfl : t = t1_0 := Fin.ext hz
    rw [Φ1_first d A t1_0 rfl, scopedRest1_eq, scrX_eq]
    iintro ⟨⟨%fs, HS⟩, Ho, ⟨%d0, H0⟩, ⟨%d1, H1⟩, ⟨%d2, H2⟩, ⟨%d3, H3⟩, ⟨%d4, H4⟩, ⟨%d5, H5⟩⟩
    iapply (run_first d (grid1.coords t1_0) _ _ _ _ _ _ _ _ _ _ _ _ _ _ ((hcond1 t1_0).mpr rfl)
      (iblk d A 0 t1_0) (iblk d A 1 t1_0) (iblk d A 2 t1_0) (iblk d A 3 t1_0) (iblk d A 4 t1_0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists fs; rw [owns_whole]; iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [Φ1_pos d A t.castSucc hz]
    iintro ⟨HS, Ho, ⟨%d0, H0⟩, ⟨%d1, H1⟩, ⟨%d2, H2⟩, ⟨%d3, H3⟩, ⟨%d4, H4⟩, ⟨%d5, H5⟩⟩
    iapply (run_rest d (grid1.coords t) _ _ _ _ _ _ _ _ _ _ _ _ _ _ (fun h => hz ((hcond1 t).mp h))
      (iblk d A 0 t) (iblk d A 1 t) (iblk d A 2 t) (iblk d A 3 t) (iblk d A 4 t) (scrX d A) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- THE BODY'S OBLIGATION, at every point. -/
theorem tcBody : TcBody (F := F) := fun d A t => by
  rw [bigSep_W1, bigSep_W1]
  exact sound_body d A t

end Cert.Proof.KI
end
-- ==== Proof.TileLemmas.lean ====
import proofs.«201762_g83623013253620_cont_9to1_m_623_34_alg».proof.Proof.Hist
import proofs.«201762_g83623013253620_cont_9to1_m_623_34_alg».proof.Proof.Gen.KernelIdeal
import proofs.«201762_g83623013253620_cont_9to1_m_623_34_alg».proof.Proof.Gen.KernelIdeal.Skeleton
import Idealize.ShloMosaic.Lib.Writes
import Idealize.ShloMosaic.Lib.ValueIdx

/-!
Pure facts about the views a role tile reads and writes, for any float instance.

* The zeroing loop: trip `k` stores the zero vector on the eight 16-element strips `128k + 16r`, `r < 8`;
  if the elements below `128k` were zero before, the elements below `128(k+1)` are zero after.  After the
  32 trips the accumulator is zero everywhere.
* The counting loop: trip `k` reads the 16 list words `16k … 16k+15`.
* Landing a whole list in the whole scratch replaces the scratch's contents by the list.
* Landing the accumulator in row `r` of the three-row result: element `(r, m)` then holds element `m`.
-/

noncomputable section

namespace Cert.Proof.KI

open Cert.KernelIdeal Cert.KernelIdeal.Gen Idealize.ShloMosaic Idealize.ShloMosaic.ValueIdx

variable {F : FTy → Type} [FloatOps F]

local notation "aS" => (Memref.whole Cert.KernelIdeal.cc0_scratch1 : Memref Cert.KernelIdeal.sig Kind.scVector Space.vmem Cert.KernelIdeal.S4096 EltTy.f32)
local notation "iS" => (Memref.whole Cert.KernelIdeal.cc0_scratch0 : Memref Cert.KernelIdeal.sig Kind.scVector Space.vmem Cert.KernelIdeal.S1024 EltTy.i32)

/-! ## The zeroing loop -/

/-- The elements below `n` are zero. -/
def ZeroUpTo (n : ℕ) (f : Vec F S4096 .f32) : Prop :=
  ∀ y : S4096.Idx, (y 0).val < n → f y = Scalar.ofBits (F := F) .f32 0x00000000#32

/-- An element lies in a 16-element strip exactly when its coordinate lies between the strip's ends. -/
theorem mem_strip (k : Fin k0_t1_loop.trips) (c : BitVec 32)
    (h : ∀ a, (k0_off1 k c) a + S16.size a ≤ S4096.size a) (y : S4096.Idx) :
    y ∈ (Rect.unit (s := S4096) (k0_off1 k c) S16.size h).set
      ↔ (k0_off1 k c) 0 ≤ (y 0).val ∧ (y 0).val < (k0_off1 k c) 0 + 16 := by
  rw [Rect.mem_set_unit]
  exact Fin.forall_fin_one

theorem trips1 : k0_t1_loop.trips = 32 := by decide
theorem trips2 : k0_t2_loop.trips = 64 := by decide

/-- After all 32 trips the accumulator is zero. -/
theorem zero_full (f : Vec F S4096 .f32) (hz : ZeroUpTo (128 * k0_t1_loop.trips) f) : f = zeros4096 := by
  funext y
  refine hz y ?_
  rw [trips1]
  exact (y 0).isLt

/-- The zero vector the zeroing loop stores. -/
theorem pay1_zero : (k0_pay1 : FVec F S16 .f32) = fun _ => Scalar.ofBits (F := F) .f32 0x00000000#32 := rfl

/-- Stores of zeros on pieces that lie at or above `n` and cover everything from `n` up to `n'` extend the zero
    prefix from `n` to `n'`. -/
theorem zeroUpTo_writes (n n' : ℕ) (f : Vec F S4096 .f32) (L : List (View.Piece (Elt F) S4096 .f32))
    (hz : ZeroUpTo n f)
    (hnc : ∀ p ∈ L, ∀ y ∈ p.1.set, n ≤ (y 0).val)
    (hpay : ∀ p ∈ L, ∀ x, p.2 x = Scalar.ofBits (F := F) .f32 0x00000000#32)
    (hcov : ∀ y : S4096.Idx, n ≤ (y 0).val → (y 0).val < n' → ∃ p ∈ L, y ∈ p.1.set) :
    ZeroUpTo n' ((aS).view.writes (Elt F) f L) := by
  intro y hy
  by_cases hlt : (y 0).val < n
  · have h1 := View.read_writes_apply_of_forall_not_mem (aS).view f y L
      (fun p hp hm => absurd (hnc p hp y hm) (by omega))
    exact h1.trans (hz y hlt)
  · exact View.read_writes_apply_of_pieces (aS).view f (fun _ => Scalar.ofBits (F := F) .f32 0x00000000#32) L
      (fun p hp x => hpay p hp x) y (hcov y (by omega) hy)

/-- One trip of the zeroing loop: eight strips of sixteen zeros from `128k` on. -/
theorem zero_trip (k : Fin k0_t1_loop.trips) (f : Vec F S4096 .f32)
    (h0 : ∀ a, (k0_off1 k 0#32) a + S16.size a ≤ S4096.size a)
    (h1 : ∀ a, (k0_off1 k 16#32) a + S16.size a ≤ S4096.size a)
    (h2 : ∀ a, (k0_off1 k 32#32) a + S16.size a ≤ S4096.size a)
    (h3 : ∀ a, (k0_off1 k 48#32) a + S16.size a ≤ S4096.size a)
    (h4 : ∀ a, (k0_off1 k 64#32) a + S16.size a ≤ S4096.size a)
    (h5 : ∀ a, (k0_off1 k 80#32) a + S16.size a ≤ S4096.size a)
    (h6 : ∀ a, (k0_off1 k 96#32) a + S16.size a ≤ S4096.size a)
    (h7 : ∀ a, (k0_off1 k 112#32) a + S16.size a ≤ S4096.size a)
    (hz : ZeroUpTo (128 * k.val) f) :
    ZeroUpTo (128 * (k.val + 1)) ((aS).view.writes (Elt F) f
      [⟨Rect.unit (s := S4096) (k0_off1 k 112#32) S16.size h7, k0_pay1⟩,
       ⟨Rect.unit (s := S4096) (k0_off1 k 96#32) S16.size h6, k0_pay1⟩,
       ⟨Rect.unit (s := S4096) (k0_off1 k 80#32) S16.size h5, k0_pay1⟩,
       ⟨Rect.unit (s := S4096) (k0_off1 k 64#32) S16.size h4, k0_pay1⟩,
       ⟨Rect.unit (s := S4096) (k0_off1 k 48#32) S16.size h3, k0_pay1⟩,
       ⟨Rect.unit (s := S4096) (k0_off1 k 32#32) S16.size h2, k0_pay1⟩,
       ⟨Rect.unit (s := S4096) (k0_off1 k 16#32) S16.size h1, k0_pay1⟩,
       ⟨Rect.unit (s := S4096) (k0_off1 k 0#32) S16.size h0, k0_pay1⟩]) := by
  have e0 : (k0_off1 k 0#32) 0 = 128 * k.val + 0 := congrFun (k0_off1_eq k ⟨0, by decide⟩) 0
  have e1 : (k0_off1 k 16#32) 0 = 128 * k.val + 16 := congrFun (k0_off1_eq k ⟨1, by decide⟩) 0
  have e2 : (k0_off1 k 32#32) 0 = 128 * k.val + 32 := congrFun (k0_off1_eq k ⟨2, by decide⟩) 0
  have e3 : (k0_off1 k 48#32) 0 = 128 * k.val + 48 := congrFun (k0_off1_eq k ⟨3, by decide⟩) 0
  have e4 : (k0_off1 k 64#32) 0 = 128 * k.val + 64 := congrFun (k0_off1_eq k ⟨4, by decide⟩) 0
  have e5 : (k0_off1 k 80#32) 0 = 128 * k.val + 80 := congrFun (k0_off1_eq k ⟨5, by decide⟩) 0
  have e6 : (k0_off1 k 96#32) 0 = 128 * k.val + 96 := congrFun (k0_off1_eq k ⟨6, by decide⟩) 0
  have e7 : (k0_off1 k 112#32) 0 = 128 * k.val + 112 := congrFun (k0_off1_eq k ⟨7, by decide⟩) 0
  refine zeroUpTo_writes (128 * k.val) _ f _ hz ?_ ?_ ?_
  · -- every strip lies at or above `128k`
    intro p hp y hm
    simp only [List.mem_cons, List.not_mem_nil, or_false] at hp
    rcases hp with rfl | rfl | rfl | rfl | rfl | rfl | rfl | rfl
    · have := (mem_strip k _ h7 y).mp hm; omega
    · have := (mem_strip k _ h6 y).mp hm; omega
    · have := (mem_strip k _ h5 y).mp hm; omega
    · have := (mem_strip k _ h4 y).mp hm; omega
    · have := (mem_strip k _ h3 y).mp hm; omega
    · have := (mem_strip k _ h2 y).mp hm; omega
    · have := (mem_strip k _ h1 y).mp hm; omega
    · have := (mem_strip k _ h0 y).mp hm; omega
  · -- every strip stores zeros
    intro p hp
    simp only [List.mem_cons, List.not_mem_nil, or_false] at hp
    rcases hp with rfl | rfl | rfl | rfl | rfl | rfl | rfl | rfl <;> (intro x; rfl)
  · -- the eight strips cover `128k … 128k+127`
    intro y hge hy
    · have hc : (y 0).val < 128 * k.val + 16 ∨ (128 * k.val + 16 ≤ (y 0).val ∧ (y 0).val < 128 * k.val + 32)
          ∨ (128 * k.val + 32 ≤ (y 0).val ∧ (y 0).val < 128 * k.val + 48) ∨ (128 * k.val + 48 ≤ (y 0).val ∧ (y 0).val < 128 * k.val + 64)
          ∨ (128 * k.val + 64 ≤ (y 0).val ∧ (y 0).val < 128 * k.val + 80) ∨ (128 * k.val + 80 ≤ (y 0).val ∧ (y 0).val < 128 * k.val + 96)
          ∨ (128 * k.val + 96 ≤ (y 0).val ∧ (y 0).val < 128 * k.val + 112) ∨ (128 * k.val + 112 ≤ (y 0).val) := by omega
      rcases hc with c | c | c | c | c | c | c | c
      · exact ⟨_, List.mem_cons_of_mem _ (List.mem_cons_of_mem _ (List.mem_cons_of_mem _ (List.mem_cons_of_mem _ (List.mem_cons_of_mem _
          (List.mem_cons_of_mem _ (List.mem_cons_of_mem _ List.mem_cons_self)))))), (mem_strip k _ h0 y).mpr ⟨by omega, by omega⟩⟩
      · exact ⟨_, List.mem_cons_of_mem _ (List.mem_cons_of_mem _ (List.mem_cons_of_mem _ (List.mem_cons_of_mem _ (List.mem_cons_of_mem _
          (List.mem_cons_of_mem _ List.mem_cons_self))))), (mem_strip k _ h1 y).mpr ⟨by omega, by omega⟩⟩
      · exact ⟨_, List.mem_cons_of_mem _ (List.mem_cons_of_mem _ (List.mem_cons_of_mem _ (List.mem_cons_of_mem _ (List.mem_cons_of_mem _
          List.mem_cons_self)))), (mem_strip k _ h2 y).mpr ⟨by omega, by omega⟩⟩
      · exact ⟨_, List.mem_cons_of_mem _ (List.mem_cons_of_mem _ (List.mem_cons_of_mem _ (List.mem_cons_of_mem _ List.mem_cons_self))),
          (mem_strip k _ h3 y).mpr ⟨by omega, by omega⟩⟩
      · exact ⟨_, List.mem_cons_of_mem _ (List.mem_cons_of_mem _ (List.mem_cons_of_mem _ List.mem_cons_self)),
          (mem_strip k _ h4 y).mpr ⟨by omega, by omega⟩⟩
      · exact ⟨_, List.mem_cons_of_mem _ (List.mem_cons_of_mem _ List.mem_cons_self), (mem_strip k _ h5 y).mpr ⟨by omega, by omega⟩⟩
      · exact ⟨_, List.mem_cons_of_mem _ List.mem_cons_self, (mem_strip k _ h6 y).mpr ⟨by omega, by omega⟩⟩
      · exact ⟨_, List.mem_cons_self, (mem_strip k _ h7 y).mpr ⟨by omega, by omega⟩⟩

/-! ## The counting loop's read -/

/-- Trip `k` of the counting loop reads the words `16k … 16k+15` of the list. -/
theorem chunk_readAt (k : Fin k0_t2_loop.trips) (h : ∀ a, (k0_off2 k) a + S16.size a ≤ S1024.size a) (s : IVec S1024 32) :
    (iS).view.readAt (Elt F) (Rect.unit (s := S1024) (k0_off2 k) S16.size h).toLoadRect s = chunk s k.val := by
  funext x
  rw [View.readAt_apply]
  simp only [Memref.view_whole, View.read_whole]
  unfold chunk
  have hk : k.val < 64 := lt_of_lt_of_eq k.isLt trips2
  have hx : (x 0).val < 16 := (x 0).isLt
  have e : (k0_off2 k) 0 = 16 * k.val := congrFun (k0_off2_eq k) 0
  have key : ∀ j : S1024.Idx, (j 0).val = (16 * k.val + (x 0).val) % 1024 →
      j = ix1 ⟨(16 * k.val + (x 0).val) % 1024, Nat.mod_lt _ (by decide)⟩ :=
    fun j hj => (eq_ix1 j).trans (congrArg ix1 (Fin.ext hj))
  refine congrArg s (key _ ?_)
  show (k0_off2 k) 0 + 1 * (x 0).val = (16 * k.val + (x 0).val) % 1024
  rw [e, Nat.mod_eq_of_lt (by omega)]; omega

/-! ## Landing a list in the scratch -/

theorem land_list4 (fs lst : IVec S1024 32) :
    View.write (Elt F) (iS).view fs ((Memref.whole main_arg4_scv : Memref sig .scVector .hbm S1024 .i32).view.read (Elt F) lst) Finset.univ = lst := by
  simp only [Memref.view_whole, View.read_whole, View.write_whole_univ]

theorem land_list3 (fs lst : IVec S1024 32) :
    View.write (Elt F) (iS).view fs ((Memref.whole main_arg3_scv : Memref sig .scVector .hbm S1024 .i32).view.read (Elt F) lst) Finset.univ = lst := by
  simp only [Memref.view_whole, View.read_whole, View.write_whole_univ]

theorem land_list2 (fs lst : IVec S1024 32) :
    View.write (Elt F) (iS).view fs ((Memref.whole main_arg2_scv : Memref sig .scVector .hbm S1024 .i32).view.read (Elt F) lst) Finset.univ = lst := by
  simp only [Memref.view_whole, View.read_whole, View.write_whole_univ]

/-! ## Landing the accumulator in the role's row of the result -/

/-- On a tile that runs the body the role's row number is below 3. -/
theorem row_lt (L : grid0.Coords) (h : k0_cond4 L = 1#1) : 2 * (L 1).val + (L 0).val < 3 := by
  have h0 : (2 * (L 1).val + (L 0).val) + 1 ≤ 3 := by
    have := k0_off3_inb L h 0
    rw [k0_off3_eq] at this
    exact this
  omega

/-- Row `2·(L 1) + (L 0)` of the three-row result, as a 4096-element memref. -/
abbrev rowM (L : grid0.Coords) (h : k0_cond4 L = 1#1) : Memref sig .scVector .hbm S4096 .f32 :=
  ((Memref.whole main_v2_scv : Memref sig .scVector .hbm S3x4096 .f32).slice
    (Rect.unit (s := S3x4096) (k0_off3 L) S1x4096.size (k0_off3_inb L h)) (fun _ => rfl)).squeeze S4096 squeezes_S1x4096_S4096

/-- Element `m` of the row sits at `(row, m)` of the result. -/
theorem rowM_emb (L : grid0.Coords) (h : k0_cond4 L = 1#1) (mm : Fin 4096) :
    ((rowM L h).view.emb (ix1 mm) : S3x4096.Idx) = ix2 ⟨2 * (L 1).val + (L 0).val, row_lt L h⟩ mm := by
  funext a
  apply Fin.ext
  show ((Rect.unit (s := S3x4096) (k0_off3 L) S1x4096.size (k0_off3_inb L h)).emb
    (Shape.reshapeEquiv squeezes_S1x4096_S4096.numel_eq (ix1 mm)) a : ℕ) = _
  rw [Rect.emb_apply, Shape.reshapeEquiv_cons_one]
  have e0 : k0_off3 L 0 = 2 * (L 1).val + (L 0).val := congrFun (k0_off3_eq L) 0
  have e1 : k0_off3 L 1 = 0 := congrFun (k0_off3_eq L) 1
  match a with
  | 0 => show k0_off3 L 0 + 1 * 0 = 2 * (L 1).val + (L 0).val; omega
  | 1 => show k0_off3 L 1 + 1 * mm.val = mm.val; omega

/-- The row's elements are the result's elements with that first coordinate. -/
theorem rowM_set (L : grid0.Coords) (h : k0_cond4 L = 1#1) :
    (rowM L h).view.set = Finset.univ.filter fun j : S3x4096.Idx => (j 0).val = 2 * (L 1).val + (L 0).val := by
  show (((View.whole main_v2_scv).slice (Rect.unit (s := S3x4096) (k0_off3 L) S1x4096.size (k0_off3_inb L h))).reshape S4096
    squeezes_S1x4096_S4096.numel_eq).set = _
  rw [View.set_reshape, View.set_slice_whole]
  ext j
  rw [Rect.mem_set_unit, Finset.mem_filter, k0_off3_eq]
  constructor
  · intro hj
    have h0 := hj 0
    refine ⟨Finset.mem_univ _, ?_⟩
    have h0' : 2 * (L 1).val + (L 0).val ≤ (j 0).val ∧ (j 0).val < 2 * (L 1).val + (L 0).val + 1 := h0
    omega
  · rintro ⟨_, hj⟩ a
    match a with
    | 0 => show 2 * (L 1).val + (L 0).val ≤ (j 0).val ∧ (j 0).val < 2 * (L 1).val + (L 0).val + 1; omega
    | 1 => show 0 ≤ (j 1).val ∧ (j 1).val < 0 + 4096; exact ⟨Nat.zero_le _, by have hj1 : (j 1).val < 4096 := (j 1).isLt; omega⟩

/-- Landing the accumulator in the row: element `(row, m)` of the result then holds element `m`. -/
theorem land_row (L : grid0.Coords) (h : k0_cond4 L = 1#1) (fc : Vec F S3x4096 .f32) (fa : Vec F S4096 .f32) (mm : Fin 4096) :
    View.write (Elt F) (rowM L h).view fc ((aS).view.read (Elt F) fa) Finset.univ (ix2 ⟨2 * (L 1).val + (L 0).val, row_lt L h⟩ mm)
      = fa (ix1 mm) := by
  rw [← rowM_emb L h mm, View.write_emb_of_mem _ _ (Finset.mem_univ _)]
  rfl

/-- Off the row the landing changes nothing. -/
theorem land_row_off (L : grid0.Coords) (h : k0_cond4 L = 1#1) (fc : Vec F S3x4096 .f32) (w : Vec F S4096 .f32) (j : S3x4096.Idx)
    (hj : (j 0).val ≠ 2 * (L 1).val + (L 0).val) :
    View.write (Elt F) (rowM L h).view fc w Finset.univ j = fc j := by
  refine View.write_of_not_mem _ _ _ ?_
  rw [View.setOn_univ, rowM_set, Finset.mem_filter]
  exact fun hh => hj hh.2

end Cert.Proof.KI

end
-- ==== Proof.TileLemmasPts.lean ====
import proofs.«201762_g83623013253620_cont_9to1_m_623_34_alg».proof.Proof.CommonP
import proofs.«201762_g83623013253620_cont_9to1_m_623_34_alg».proof.Proof.TileLemmas
import proofs.«201762_g83623013253620_cont_9to1_m_623_34_alg».proof.Proof.Spec

/-!
The accumulator held whole, respelled between its two views (the memref's own view, and the access through the
whole rectangle that an indexed store goes through), and one trip of the counting loop read as a histogram step.
-/

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

local notation "aS" => (Memref.whole Cert.KernelIdeal.cc0_scratch1 : Memref Cert.KernelIdeal.sig Kind.scVector Space.vmem Cert.KernelIdeal.S4096 EltTy.f32)
local notation "iS" => (Memref.whole Cert.KernelIdeal.cc0_scratch0 : Memref Cert.KernelIdeal.sig Kind.scVector Space.vmem Cert.KernelIdeal.S1024 EltTy.i32)

variable (d : Dev nD) (c : Fin τ.nSC) (i : Fin τ.nSub)

/-- Reading the accumulator through its whole rectangle reads it. -/
theorem read_acc_whole (f : Vec F S4096 .f32) : View.read (Elt F) ((aS).access (Rect.whole S4096)) f = f := by
  funext y
  show _root_.cast _ (f ((Rect.whole S4096).emb y)) = f y
  rw [Rect.emb_whole_apply]; rfl

/-- Writing the accumulator through its whole rectangle, unmasked, replaces it. -/
theorem write_acc_whole (f w : Vec F S4096 .f32) : View.write (Elt F) ((aS).access (Rect.whole S4096)) f w Finset.univ = w := by
  funext y
  have e : ((aS).access (Rect.whole S4096)).emb y = y := by
    show (Rect.whole S4096).emb y = y
    exact Rect.emb_whole_apply _ _
  have h := View.write_emb_of_mem (v := (aS).access (Rect.whole S4096)) (Val := Elt F) f w (Finset.mem_univ y)
  rw [e] at h
  exact h

/-- The accumulator held whole, through either view. -/
theorem acc_pts (f : Vec F S4096 .f32) :
    ((aS).view.loc (V d c i) ↦{fullShare} f : sProp 𝕄)
      = (((aS).access (Rect.whole S4096)).loc (V d c i) ↦[((aS).access (Rect.whole S4096)).set]{fullShare} f) := by
  have e : ((aS).access (Rect.whole S4096)).set = Finset.univ := Memref.set_access_whole cc0_scratch1
  rw [e]

/-- The words trip `k` reads name elements of the accumulator when the list is in range. -/
theorem chunk_inRange' (s : IVec S1024 32) (hs : Cert.Spec.InRange s) (K : ℕ) :
    ∀ a x, ((![chunk s K] : Fin 1 → IVec S16 32) a x).toNat < S4096.size a := by
  intro a x
  have ha : a = 0 := Fin.eq_zero a
  subst ha
  exact hs _

/-- The side condition of trip `k` of the counting loop holds for a list in range. -/
theorem chk_of_range (L : grid0.Coords) (k : Fin k0_t2_loop.trips) (hoff : ∀ a, (k0_off2 k) a + S16.size a ≤ S1024.size a)
    (s : IVec S1024 32) (hs : Cert.Spec.InRange s) :
    k0_chk1 L ((iS).view.readAt (Elt F) (Rect.unit (s := S1024) (k0_off2 k) S16.size hoff).toLoadRect s) := by
  intro _
  rw [chunk_readAt (F := F) k hoff s]
  exact chunk_inRange' s hs k.val

/-- One trip of the counting loop, read back as a histogram step on the accumulator held whole. -/
theorem step_pts (k : Fin k0_t2_loop.trips) (s : IVec S1024 32) (f : Vec F S4096 .f32)
    (hoff : ∀ a, (k0_off2 k) a + S16.size a ≤ S1024.size a)
    (hin : ∀ a x, ((![chunk s k.val] : Fin 1 → IVec S16 32) a x).toNat < S4096.size a)
    (hin' : ∀ a x, ((![(iS).view.readAt (Elt F) (Rect.unit (s := S1024) (k0_off2 k) S16.size hoff).toLoadRect s] : Fin 1 → IVec S16 32) a x).toNat < S4096.size a) :
    (((aS).access (Rect.whole S4096)).loc (V d c i) ↦[((aS).access (Rect.whole S4096)).set]{fullShare}
        View.write (Elt F) ((aS).access (Rect.whole S4096)) f
          (storeIdx (View.read (Elt F) ((aS).access (Rect.whole S4096)) f)
            ![(iS).view.readAt (Elt F) (Rect.unit (s := S1024) (k0_off2 k) S16.size hoff).toLoadRect s] (k0_pay2 (F := F)) (fun _ => 1#1) true hin')
          Finset.univ : sProp 𝕄)
      = ((aS).view.loc (V d c i) ↦{fullShare} histStep f (chunk s k.val)) := by
  rw [write_acc_whole, read_acc_whole, ← acc_pts]
  congr 1
  unfold histStep
  rw [dif_pos hin]
  revert hin'
  rw [chunk_readAt (F := F) k hoff s]
  intro hin'
  rfl

/-! ## The role's row of the result -/

/-- The row's elements, as the row set. -/
theorem rowM_set_rowSet (L : grid0.Coords) (h : k0_cond4 L = 1#1) :
    (rowM L h).view.set = rowSet (2 * (L 1).val + (L 0).val) := rowM_set L h

/-- The row held, through the row memref's view or as the row set of the result's location. -/
theorem pts_row (L : grid0.Coords) (h : k0_cond4 L = 1#1) (f : Buf (Elt F) (cntLoc d)) :
    ((rowM L h).view.loc (V d c i) ↦[(rowM L h).view.set]{fullShare} f : sProp 𝕄)
      = cntLoc d ↦[rowSet (2 * (L 1).val + (L 0).val)]{fullShare} f := by
  rw [rowM_set_rowSet]

/-- Landing the accumulator in the row by one whole-rectangle write: an element of the row then holds the
    accumulator's element with its second coordinate. -/
theorem land_row_writes (L : grid0.Coords) (h : k0_cond4 L = 1#1) (fc : Vec F S3x4096 .f32) (fa : Vec F S4096 .f32)
    (y : S3x4096.Idx) (hy : y ∈ rowSet (2 * (L 1).val + (L 0).val)) :
    (rowM L h).view.writes (Elt F) fc [⟨Rect.whole S4096, (aS).view.read (Elt F) fa⟩] y = fa (ix1 (y 1)) := by
  have hy0 : (y 0).val = 2 * (L 1).val + (L 0).val := (Finset.mem_filter.mp hy).2
  have e2 : y = ix2 (⟨2 * (L 1).val + (L 0).val, row_lt L h⟩ : Fin 3) (y 1) := by
    have e := eq_ix2 y
    have e0 : y 0 = ⟨2 * (L 1).val + (L 0).val, row_lt L h⟩ := Fin.ext hy0
    rw [e0] at e
    exact e
  have key : ∀ mm : Fin 4096, y = ix2 (⟨2 * (L 1).val + (L 0).val, row_lt L h⟩ : Fin 3) mm →
      (rowM L h).view.writes (Elt F) fc [⟨Rect.whole S4096, (aS).view.read (Elt F) fa⟩] y = fa (ix1 mm) := by
    intro mm e
    have ey : ((rowM L h).view.slice (Rect.whole S4096)).emb (ix1 mm) = y := by
      show (rowM L h).view.emb ((Rect.whole S4096).emb (ix1 mm)) = y
      rw [Rect.emb_whole_apply, rowM_emb]
      exact e.symm
    have hw := View.write_emb_of_mem (v := (rowM L h).view.slice (Rect.whole S4096)) (Val := Elt F) fc
      ((aS).view.read (Elt F) fa) (Finset.mem_univ (ix1 mm))
    rw [ey] at hw
    rw [View.writes_singleton]
    exact hw
  exact key (y 1) e2

/-- Off the row that write changes nothing. -/
theorem land_row_writes_off (L : grid0.Coords) (h : k0_cond4 L = 1#1) (fc : Vec F S3x4096 .f32) (w : Vec F S4096 .f32)
    (y : S3x4096.Idx) (hy : y ∉ rowSet (2 * (L 1).val + (L 0).val)) :
    (rowM L h).view.writes (Elt F) fc [⟨Rect.whole S4096, w⟩] y = fc y := by
  rw [View.writes_singleton]
  refine View.write_of_not_mem _ _ _ ?_
  rw [View.setOn_univ]
  intro hm
  exact hy (rowM_set_rowSet L h ▸ View.set_slice_subset _ _ hm)

end Cert.Proof.KI

end
-- ==== Proof.TileIdle.lean ====
import proofs.«201762_g83623013253620_cont_9to1_m_623_34_alg».proof.Proof.CommonP

/-!
# The tiles that have no list to count

Tile number w = 2 · subcore + core.  Tiles 0, 1, 2 count one index list each; for w ≥ 3 every one of the body's four
guards (w = 0, w = 1, w = 2, w < 3) is false, so the body performs no memory operation and returns at once:
whatever the tile holds before, it holds after.
-/

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "leadW" => (Memref.whole Cert.KernelIdeal.main_arg4_scv : Memref Cert.KernelIdeal.sig Kind.scVector Space.hbm Cert.KernelIdeal.S1024 EltTy.i32)
local notation "nonmW" => (Memref.whole Cert.KernelIdeal.main_arg3_scv : Memref Cert.KernelIdeal.sig Kind.scVector Space.hbm Cert.KernelIdeal.S1024 EltTy.i32)
local notation "memW" => (Memref.whole Cert.KernelIdeal.main_arg2_scv : Memref Cert.KernelIdeal.sig Kind.scVector Space.hbm Cert.KernelIdeal.S1024 EltTy.i32)
local notation "cntW" => (Memref.whole Cert.KernelIdeal.main_v2_scv : Memref Cert.KernelIdeal.sig Kind.scVector Space.hbm Cert.KernelIdeal.S3x4096 EltTy.f32)
local notation "idxS" => (Memref.whole Cert.KernelIdeal.cc0_scratch0 : Memref Cert.KernelIdeal.sig Kind.scVector Space.vmem Cert.KernelIdeal.S1024 EltTy.i32)
local notation "accS" => (Memref.whole Cert.KernelIdeal.cc0_scratch1 : Memref Cert.KernelIdeal.sig Kind.scVector Space.vmem Cert.KernelIdeal.S4096 EltTy.f32)

/-- For tile number at least 3 none of the body's four guards holds. -/
theorem guards_idle (c : Fin (grid0.bound 0)) (s : Fin (grid0.bound 1)) (hw : 3 ≤ 2 * s.val + c.val) :
    (¬ Scalar.cmpi .ne (Scalar.extui (Scalar.cmpi .eq (Scalar.addi (Scalar.muli (BitVec.ofNat 32 (coordsV c s 1).val) 2#32) (BitVec.ofNat 32 (coordsV c s 0).val)) 0#32)) 0#32 = 1#1)
    ∧ (¬ Scalar.cmpi .ne (Scalar.extui (Scalar.cmpi .eq (Scalar.addi (Scalar.muli (BitVec.ofNat 32 (coordsV c s 1).val) 2#32) (BitVec.ofNat 32 (coordsV c s 0).val)) 1#32)) 0#32 = 1#1)
    ∧ (¬ Scalar.cmpi .ne (Scalar.extui (Scalar.cmpi .eq (Scalar.addi (Scalar.muli (BitVec.ofNat 32 (coordsV c s 1).val) 2#32) (BitVec.ofNat 32 (coordsV c s 0).val)) 2#32)) 0#32 = 1#1)
    ∧ ¬ k0_cond4 (coordsV c s) = 1#1 := by
  revert c s; decide

theorem tile_idle (d : Dev nD) (c : Fin (grid0.bound 0)) (s : Fin (grid0.bound 1)) (hw : 3 ≤ 2 * s.val + c.val) (R : sProp 𝕄) :
    R ⊢ wp frame (wpE (defs₀ (F := F)) 𝒱₀ (V d (cV (coordsV c s)) (jV (coordsV c s))) none) Set.univ
      (cc0__sc_counts_body (coordsV c s) leadW (Memref.isWhole_whole _) nonmW (Memref.isWhole_whole _) memW (Memref.isWhole_whole _) cntW (Memref.isWhole_whole _)
        idxS (Memref.isWhole_whole _) accS (Memref.isWhole_whole _) cc0_scoped0 cc0_scoped1 cc0_scoped2 cc0_scoped3)
      (fun _ => R) := by
  obtain ⟨h1, h2, h3, h4⟩ := guards_idle c s hw
  rw [cc0__sc_counts_body_eq_skeleton]; unfold cc0__sc_counts_body_skel
  dsimp only
  rw [dif_neg h1, dif_neg h2, dif_neg h3, dif_neg h4]
  rw [wp_pure]
  exact fupd_intro

end Cert.Proof.KI

end
-- ==== Proof.TileObl.lean ====
import proofs.«201762_g83623013253620_cont_9to1_m_623_34_alg».proof.Proof.CommonP
import proofs.«201762_g83623013253620_cont_9to1_m_623_34_alg».proof.Proof.TileRes
import proofs.«201762_g83623013253620_cont_9to1_m_623_34_alg».proof.Proof.TileIdle
/-!
# The launch's obligation for the tiles

Each of the 2 × 16 vector subcores runs the kernel's body at its own coordinates.  The tile numbered
`w = 2 · subcore + core` counts a list when `w < 3` (leaders, nonmembers, members) and returns at once
otherwise.  The launch asks one statement of all 32: from what the tile is handed to what it hands back.
It follows from the three counting tiles' obligations and the fact that the other 29 do nothing.
-/

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "leadW" => (Memref.whole Cert.KernelIdeal.main_arg4_scv : Memref Cert.KernelIdeal.sig Kind.scVector Space.hbm Cert.KernelIdeal.S1024 EltTy.i32)
local notation "nonmW" => (Memref.whole Cert.KernelIdeal.main_arg3_scv : Memref Cert.KernelIdeal.sig Kind.scVector Space.hbm Cert.KernelIdeal.S1024 EltTy.i32)
local notation "memW" => (Memref.whole Cert.KernelIdeal.main_arg2_scv : Memref Cert.KernelIdeal.sig Kind.scVector Space.hbm Cert.KernelIdeal.S1024 EltTy.i32)
local notation "cntW" => (Memref.whole Cert.KernelIdeal.main_v2_scv : Memref Cert.KernelIdeal.sig Kind.scVector Space.hbm Cert.KernelIdeal.S3x4096 EltTy.f32)
local notation "idxS" => (Memref.whole Cert.KernelIdeal.cc0_scratch0 : Memref Cert.KernelIdeal.sig Kind.scVector Space.vmem Cert.KernelIdeal.S1024 EltTy.i32)
local notation "accS" => (Memref.whole Cert.KernelIdeal.cc0_scratch1 : Memref Cert.KernelIdeal.sig Kind.scVector Space.vmem Cert.KernelIdeal.S4096 EltTy.f32)

variable (m : (ℓ : Loc nD τ sig) → Buf (Elt F) ℓ)

omit [FloatOps F] in
/-- A tile numbered 3 or more is handed nothing. -/
theorem tileRes_none (d : Dev nD) {w : ℕ} (hw : 3 ≤ w) (f : Buf (Elt F) (cntLoc d)) : tileRes m d w f = iprop(emp) := by
  unfold tileRes
  rw [if_neg (by omega), if_neg (by omega), if_neg (by omega)]

omit [FloatOps F] in
/-- The launch's empty share for a protocol of the kernel's own drops out of a tile's premise. -/
theorem obl_pre {A B C D E : sProp 𝕄} : iprop(A ∗ emp ∗ B ∗ C ∗ D ∗ E) ⊢ iprop(A ∗ B ∗ C ∗ D ∗ E) := by
  iintro ⟨HA, -, HB, HC, HD, HE⟩
  isplitl [HA]; · iexact HA
  isplitl [HB]; · iexact HB
  isplitl [HC]; · iexact HC
  isplitl [HD]; · iexact HD
  iexact HE

omit [FloatOps F] in
/-- A body that records only waits at no call's index has recorded waits the launch admits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- An idle tile's premise is its conclusion: nothing handed, nothing changed, no wait recorded. -/
theorem obl_idle {thr : Thread nD τ} {A B C : sProp 𝕄} {O : CellTallies nD τ sig (HIx 1)} {W : Waits sig (HIx 1)} {q : Fin 1} :
    iprop(A ∗ emp ∗ emp ∗ B ∗ C ∗ owes thr O W)
      ⊢ iprop(emp ∗ B ∗ C ∗ ∃ W', ⌜∀ p ∈ W', p ∈ W ∨ p.2 = none ∨ p.2 = some q⌝ ∗ owes thr O W') := by
  iintro ⟨-, -, -, HB, HC, HO⟩
  isplitr; · iempintro
  isplitl [HB]; · iexact HB
  isplitl [HC]; · iexact HC
  iexists W; isplitr
  · ipureintro; exact fun p hp => .inl hp
  · iexact HO

/-- The three tiles that count a list. -/
abbrev L0 : grid0.Coords := coordsV ⟨0, by decide⟩ ⟨0, by decide⟩
abbrev L1 : grid0.Coords := coordsV ⟨1, by decide⟩ ⟨0, by decide⟩
abbrev L2 : grid0.Coords := coordsV ⟨0, by decide⟩ ⟨1, by decide⟩

/-- What a counting tile's body must do: from the tile's list and its row of the counts array at the launch
    contents, its own buffers and semaphores, to the list unchanged and the row at the histograms. -/
def RoleObl (r : ℕ) (L : grid0.Coords) : Prop :=
  ∀ (d : Dev nD) (O : CellTallies nD τ sig (HIx 1)) (W : Waits sig (HIx 1)), (∀ g, O g none = 0) →
    (iprop(levAts (K (F := F)).L (K (F := F)).lev ∗ tileRes m d r (m (cntLoc d)) ∗ scopedBufs (V d (cV L) (jV L)) ∗ scopedSems0 (V d (cV L) (jV L))
        ∗ owes (V d (cV L) (jV L)) O W) : sProp 𝕄)
      ⊢ wp frame (wpE (defs₀ (F := F)) 𝒱₀ (V d (cV L) (jV L)) none) Set.univ
          (cc0__sc_counts_body L leadW (Memref.isWhole_whole _) nonmW (Memref.isWhole_whole _) memW (Memref.isWhole_whole _) cntW (Memref.isWhole_whole _)
            idxS (Memref.isWhole_whole _) accS (Memref.isWhole_whole _) cc0_scoped0 cc0_scoped1 cc0_scoped2 cc0_scoped3)
          fun _ => iprop(tileRes m d r (CNT m d) ∗ scopedBufs (V d (cV L) (jV L)) ∗ scopedSems0 (V d (cV L) (jV L))
            ∗ ∃ W', ⌜∀ p ∈ W', p ∈ W ∨ p.2 = none⌝ ∗ owes (V d (cV L) (jV L)) O W')

/-- The launch's obligation for the vector-subcore kernel: each of the 32 tiles runs the body at its
    coordinates; tiles 0, 1, 2 by their counting obligations, the other 29 return at once. -/
theorem tileObl (h0 : RoleObl (F := F) m 0 L0) (h1 : RoleObl (F := F) m 1 L1) (h2 : RoleObl (F := F) m 2 L2) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ emp ∗ tileRes m d (2 * i.val + c.val) (m (cntLoc d)) ∗ _) ⊢ wp _ _ _ _ (fun _ => iprop(tileRes m d (2 * i.val + c.val) (CNT m d) ∗ _))
  by_cases hw : 3 ≤ 2 * i.val + c.val
  · rw [tileRes_none m d hw, tileRes_none m d hw]
    exact (tile_idle d ⟨_, hc.1⟩ ⟨_, hc.2⟩ hw _).trans (wp_mono frame _ _ fun _ => obl_idle)
  · obtain ⟨cv, hcv⟩ := c
    obtain ⟨iv, hiv⟩ := i
    have hcase : (cv = 0 ∧ iv = 0) ∨ (cv = 1 ∧ iv = 0) ∨ (cv = 0 ∧ iv = 1) := by
      have hlt : 2 * iv + cv < 3 := by simpa using hw
      have hcv2 : cv < 2 := hcv
      omega
    rcases hcase with ⟨rfl, rfl⟩ | ⟨rfl, rfl⟩ | ⟨rfl, rfl⟩
    · exact (obl_pre.trans (h0 d O W hO)).trans (wp_mono frame _ _ fun _ => obl_post)
    · exact (obl_pre.trans (h1 d O W hO)).trans (wp_mono frame _ _ fun _ => obl_post)
    · exact (obl_pre.trans (h2 d O W hO)).trans (wp_mono frame _ _ fun _ => obl_post)

end Cert.Proof.KI

end
-- ==== Proof.TileRow.lean ====
import proofs.«201762_g83623013253620_cont_9to1_m_623_34_alg».proof.Proof.CommonP
import proofs.«201762_g83623013253620_cont_9to1_m_623_34_alg».proof.Proof.TileLemmas
import proofs.«201762_g83623013253620_cont_9to1_m_623_34_alg».proof.Proof.TileLemmasPts
import proofs.«201762_g83623013253620_cont_9to1_m_623_34_alg».proof.Proof.TileObl

/-!
What the three role tiles leave in their rows of the result: the tile of role `r` lands its accumulator, which
after the 64 counting trips is the histogram of the role's list, in row `r`; element `(r, m)` then holds the
histogram's element `m`, which is what the closed form of the result says of that row.
-/

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

local notation "aS" => (Memref.whole Cert.KernelIdeal.cc0_scratch1 : Memref Cert.KernelIdeal.sig Kind.scVector Space.vmem Cert.KernelIdeal.S4096 EltTy.f32)

variable (m : (ℓ : Loc nD τ sig) → Buf (Elt F) ℓ)

/-- Row 0 after the leaders' tile has landed its accumulator. -/
theorem row_final0 (d : Dev nD) (h : k0_cond4 L0 = 1#1) (fc : Buf (Elt F) (cntLoc d)) :
    ∀ y ∈ rowSet 0, (rowM L0 h).view.writes (Elt F) fc
        [⟨Rect.whole S4096, (aS).view.read (Elt F) (histN (F := F) (m (leadLoc d)) k0_t2_loop.trips)⟩] y = CNT m d y := by
  intro y hy
  have hy0 : (y 0).val = 0 := (Finset.mem_filter.mp hy).2
  rw [land_row_writes L0 h fc _ y hy]
  unfold CNT hist
  rw [if_pos hy0, trips2]

/-- Row 1 after the nonmembers' tile has landed its accumulator. -/
theorem row_final1 (d : Dev nD) (h : k0_cond4 L1 = 1#1) (fc : Buf (Elt F) (cntLoc d)) :
    ∀ y ∈ rowSet 1, (rowM L1 h).view.writes (Elt F) fc
        [⟨Rect.whole S4096, (aS).view.read (Elt F) (histN (F := F) (m (nonmLoc d)) k0_t2_loop.trips)⟩] y = CNT m d y := by
  intro y hy
  have hy0 : (y 0).val = 1 := (Finset.mem_filter.mp hy).2
  rw [land_row_writes L1 h fc _ y hy]
  unfold CNT hist
  rw [if_neg (by omega), if_pos hy0, trips2]

/-- Row 2 after the members' tile has landed its accumulator. -/
theorem row_final2 (d : Dev nD) (h : k0_cond4 L2 = 1#1) (fc : Buf (Elt F) (cntLoc d)) :
    ∀ y ∈ rowSet 2, (rowM L2 h).view.writes (Elt F) fc
        [⟨Rect.whole S4096, (aS).view.read (Elt F) (histN (F := F) (m (memLoc d)) k0_t2_loop.trips)⟩] y = CNT m d y := by
  intro y hy
  have hy0 : (y 0).val = 2 := (Finset.mem_filter.mp hy).2
  rw [land_row_writes L2 h fc _ y hy]
  unfold CNT hist
  rw [if_neg (by omega), if_neg (by omega), trips2]

/-- The rows held with those contents are the rows of the closed form. -/
theorem row_pts_final0 (d : Dev nD) (h : k0_cond4 L0 = 1#1) (fc : Buf (Elt F) (cntLoc d)) :
    (cntLoc d ↦[rowSet 0]{fullShare} (rowM L0 h).view.writes (Elt F) fc
        [⟨Rect.whole S4096, (aS).view.read (Elt F) (histN (F := F) (m (leadLoc d)) k0_t2_loop.trips)⟩] : sProp 𝕄)
      = rowPts d 0 (CNT m d) :=
  pointsTo_congr (row_final0 m d h fc)

theorem row_pts_final1 (d : Dev nD) (h : k0_cond4 L1 = 1#1) (fc : Buf (Elt F) (cntLoc d)) :
    (cntLoc d ↦[rowSet 1]{fullShare} (rowM L1 h).view.writes (Elt F) fc
        [⟨Rect.whole S4096, (aS).view.read (Elt F) (histN (F := F) (m (nonmLoc d)) k0_t2_loop.trips)⟩] : sProp 𝕄)
      = rowPts d 1 (CNT m d) :=
  pointsTo_congr (row_final1 m d h fc)

theorem row_pts_final2 (d : Dev nD) (h : k0_cond4 L2 = 1#1) (fc : Buf (Elt F) (cntLoc d)) :
    (cntLoc d ↦[rowSet 2]{fullShare} (rowM L2 h).view.writes (Elt F) fc
        [⟨Rect.whole S4096, (aS).view.read (Elt F) (histN (F := F) (m (memLoc d)) k0_t2_loop.trips)⟩] : sProp 𝕄)
      = rowPts d 2 (CNT m d) :=
  pointsTo_congr (row_final2 m d h fc)

end Cert.Proof.KI

end
-- ==== Proof.TileStep.lean ====
import proofs.«201762_g83623013253620_cont_9to1_m_623_34_alg».proof.Proof.CommonP
import proofs.«201762_g83623013253620_cont_9to1_m_623_34_alg».proof.Proof.TileLemmas
import proofs.«201762_g83623013253620_cont_9to1_m_623_34_alg».proof.Proof.TileLemmasPts

/-!
One trip of the counting loop as a rule: holding the accumulator whole at contents `f`, the indexed store with
accumulation of the ones vector at the words trip `k` reads leaves it holding the histogram step of `f`.
-/

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

local notation "aS" => (Memref.whole Cert.KernelIdeal.cc0_scratch1 : Memref Cert.KernelIdeal.sig Kind.scVector Space.vmem Cert.KernelIdeal.S4096 EltTy.f32)
local notation "iS" => (Memref.whole Cert.KernelIdeal.cc0_scratch0 : Memref Cert.KernelIdeal.sig Kind.scVector Space.vmem Cert.KernelIdeal.S1024 EltTy.i32)

/-- The contents the indexed store of trip `k` leaves are the histogram step. -/
theorem step_eq (k : Fin k0_t2_loop.trips) (s : IVec S1024 32) (f : Vec F S4096 .f32)
    (hoff : ∀ a, (k0_off2 k) a + S16.size a ≤ S1024.size a)
    (hin : ∀ a x, ((![chunk s k.val] : Fin 1 → IVec S16 32) a x).toNat < S4096.size a)
    (hin' : ∀ a x, ((![(iS).view.readAt (Elt F) (Rect.unit (s := S1024) (k0_off2 k) S16.size hoff).toLoadRect s] : Fin 1 → IVec S16 32) a x).toNat < S4096.size a) :
    View.write (Elt F) ((aS).access (Rect.whole S4096)) f
        (storeIdx (View.read (Elt F) ((aS).access (Rect.whole S4096)) f)
          ![(iS).view.readAt (Elt F) (Rect.unit (s := S1024) (k0_off2 k) S16.size hoff).toLoadRect s] (k0_pay2 (F := F)) (fun _ => 1#1) true hin')
        Finset.univ
      = histStep f (chunk s k.val) := by
  rw [write_acc_whole, read_acc_whole]
  unfold histStep
  rw [dif_pos hin]
  revert hin'
  rw [chunk_readAt (F := F) k hoff s]
  intro hin'
  rfl

variable (d : Dev nD) (c : Fin τ.nSC) (i : Fin τ.nSub)

/-- Trip `k`'s indexed store at the head of a program. -/
theorem wp_hist_step {α : Type} (k : Fin k0_t2_loop.trips) (s : IVec S1024 32) (f : Vec F S4096 .f32)
    (hoff : ∀ a, (k0_off2 k) a + S16.size a ≤ S1024.size a)
    (hin : ∀ a x, ((![chunk s k.val] : Fin 1 → IVec S16 32) a x).toNat < S4096.size a)
    (hin' : ∀ a x, ((![(iS).view.readAt (Elt F) (Rect.unit (s := S1024) (k0_off2 k) S16.size hoff).toLoadRect s] : Fin 1 → IVec S16 32) a x).toNat < S4096.size a)
    (hs : ((aS).access (Rect.whole S4096)).Stores Finset.univ)
    (kont : PUnit → Prog (TpuEff nD τ sig (Elt F) Λ₀ (V d c i).2) α) (Q : α → sProp 𝕄) :
    ((aS).view.loc (V d c i) ↦{fullShare} f : sProp 𝕄)
      ⊢ iprop((((aS).view.loc (V d c i) ↦{fullShare} histStep f (chunk s k.val))
            -∗ wp frame (wpE (defs₀ (F := F)) 𝒱₀ (V d c i) none) Set.univ (kont ⟨⟩) Q)
          -∗ wp frame (wpE (defs₀ (F := F)) 𝒱₀ (V d c i) none) Set.univ
              (SparseCore.vectorStoreIdx aS ![(iS).view.readAt (Elt F) (Rect.unit (s := S1024) (k0_off2 k) S16.size hoff).toLoadRect s]
                (k0_pay2 (F := F)) (fun _ => 1#1) true hin' hs >>= kont) Q) := by
  iintro Ha Hk
  ihave Ha' := (Entails.of_eq (acc_pts (F := F) d c i f)) $$ Ha
  iapply (SparseCore.wp_vectorStoreIdx (defs := defs₀ (F := F)) 𝒱₀ (V d c i) none Set.univ (s := S4096) (e := .f32) (base := aS)
    (idxs := ![(iS).view.readAt (Elt F) (Rect.unit (s := S1024) (k0_off2 k) S16.size hoff).toLoadRect s])
    (v := k0_pay2 (F := F)) (mask := fun _ => 1#1) (add := true) (h := hin') (hs := hs) (k := kont) (Q := Q)) $$ Ha'
  iintro Ha'
  iapply Hk
  iapply (Entails.of_eq (step_pts (F := F) d c i k s f hoff hin hin'))
  iexact Ha'

end Cert.Proof.KI

end
-- ==== Proof.Tile.lean ====
import proofs.«201762_g83623013253620_cont_9to1_m_623_34_alg».proof.Proof.CommonP
import proofs.«201762_g83623013253620_cont_9to1_m_623_34_alg».proof.Proof.Hist
import proofs.«201762_g83623013253620_cont_9to1_m_623_34_alg».proof.Proof.Spec
import proofs.«201762_g83623013253620_cont_9to1_m_623_34_alg».proof.Proof.TileRes
import proofs.«201762_g83623013253620_cont_9to1_m_623_34_alg».proof.Proof.TileLemmas
import proofs.«201762_g83623013253620_cont_9to1_m_623_34_alg».proof.Proof.TileLemmasPts
import proofs.«201762_g83623013253620_cont_9to1_m_623_34_alg».proof.Proof.TileObl
import proofs.«201762_g83623013253620_cont_9to1_m_623_34_alg».proof.Proof.TileRow
import proofs.«201762_g83623013253620_cont_9to1_m_623_34_alg».proof.Proof.TileStep

noncomputable section
namespace Cert.Proof.KI
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "leadW" => (Memref.whole Cert.KernelIdeal.main_arg4_scv : Memref Cert.KernelIdeal.sig Kind.scVector Space.hbm Cert.KernelIdeal.S1024 EltTy.i32)
local notation "nonmW" => (Memref.whole Cert.KernelIdeal.main_arg3_scv : Memref Cert.KernelIdeal.sig Kind.scVector Space.hbm Cert.KernelIdeal.S1024 EltTy.i32)
local notation "memW" => (Memref.whole Cert.KernelIdeal.main_arg2_scv : Memref Cert.KernelIdeal.sig Kind.scVector Space.hbm Cert.KernelIdeal.S1024 EltTy.i32)
local notation "cntW" => (Memref.whole Cert.KernelIdeal.main_v2_scv : Memref Cert.KernelIdeal.sig Kind.scVector Space.hbm Cert.KernelIdeal.S3x4096 EltTy.f32)
local notation "idxS" => (Memref.whole Cert.KernelIdeal.cc0_scratch0 : Memref Cert.KernelIdeal.sig Kind.scVector Space.vmem Cert.KernelIdeal.S1024 EltTy.i32)
local notation "accS" => (Memref.whole Cert.KernelIdeal.cc0_scratch1 : Memref Cert.KernelIdeal.sig Kind.scVector Space.vmem Cert.KernelIdeal.S4096 EltTy.f32)

/-!
A role tile's task: copy its role's index list into its own memory; zero the 4096-entry accumulator
(32 trips of 128 entries); 64 trips, each adding one at the entries the next 16 list words name
(every word names an entry, by the range precondition); copy the accumulator to the role's row of
the counts array.  Before trip `k` of the first loop the accumulator is zero below `128 k`;
before trip `k` of the second it is the partial histogram `histN list k`.
-/

variable (m : (ℓ : Loc nD τ sig) → Buf (Elt F) ℓ)

def inv1 (d : Dev nD) (c : Fin τ.nSC) (i : Fin τ.nSub) (k : Nat) (_ : PUnit) : sProp 𝕄 :=
  iprop(∃ f, ((accS).view.loc (V d c i) ↦{fullShare} f) ∗ ⌜ZeroUpTo (128 * k) f⌝)

def inv2 (d : Dev nD) (c : Fin τ.nSC) (i : Fin τ.nSub) (s1 : IVec S1024 32) (k : Nat) (_ : PUnit) : sProp 𝕄 :=
  iprop(((idxS).view.loc (V d c i) ↦{fullShare} s1) ∗ (accS).view.loc (V d c i) ↦{fullShare} histN (F := F) s1 k)

variable (d : Dev nD) (O : CellTallies nD τ sig (HIx 1)) (W : Waits sig (HIx 1)) (hO : ∀ g, O g none = 0)
include hO

theorem role0 (hpre : Cert.Spec.InRange (m (leadLoc d))) : (iprop(levAts (K (F := F)).L (K (F := F)).lev ∗ tileRes m d 0 (m (cntLoc d)) ∗ scopedBufs (V d (cV L0) (jV L0)) ∗ scopedSems0 (V d (cV L0) (jV L0)) ∗ owes (V d (cV L0) (jV L0)) O W) : sProp 𝕄)
      ⊢ wp frame (wpE (defs₀ (F := F)) 𝒱₀ (V d (cV L0) (jV L0)) none) Set.univ
          (cc0__sc_counts_body L0 leadW (Memref.isWhole_whole _) nonmW (Memref.isWhole_whole _) memW (Memref.isWhole_whole _) cntW (Memref.isWhole_whole _)
            idxS (Memref.isWhole_whole _) accS (Memref.isWhole_whole _) cc0_scoped0 cc0_scoped1 cc0_scoped2 cc0_scoped3)
          fun _ => iprop(tileRes m d 0 (CNT m d) ∗ scopedBufs (V d (cV L0) (jV L0)) ∗ scopedSems0 (V d (cV L0) (jV L0))
            ∗ ∃ W', ⌜∀ p ∈ W', p ∈ W ∨ p.2 = none⌝ ∗ owes (V d (cV L0) (jV L0)) O W') := by
  have k0_h4 : k0_cond4 L0 = 1#1 := by decide
  rw [cc0__sc_counts_body_eq_skeleton]; unfold cc0__sc_counts_body_skel
  rw [(K (F := F)).scopedBufs_V facts d (cV L0) (jV L0), SparseCore.Cfg.scopedSems0_V (Val := Elt F) d (cV L0) (jV L0), ownSems0_V, ownBufs_V]
  unfold tileRes; simp only [show (0 : ℕ) = 0 ↔ True from by decide, show (0 : ℕ) = 1 ↔ False from by decide, show (0 : ℕ) = 2 ↔ False from by decide, if_true, if_false]
  iintro ⟨#Hlv, ⟨Hlist, Hrow⟩, ⟨⟨%fs, Hs⟩, ⟨%fa, Ha⟩, Hbufs⟩, ⟨Hsem0, Hsem1, Hsem2, Hsem3, Hsems⟩, HO⟩
  ihave Hmw := ((K (F := F)).mayWaits_none (thr := V d (cV L0) (jV L0)) hO) $$ Hlv
  ihave Hlist := (Entails.of_eq (pts_lead (F := F) d (cV L0) (jV L0) _).symm) $$ Hlist
  ihave Hrow := (Entails.of_eq (show (rowPts d 0 (m (cntLoc d)) : sProp 𝕄) = _ from (pts_row (F := F) d (cV L0) (jV L0) L0 k0_h4 (m (cntLoc d))).symm)) $$ Hrow
  ihave Hs := (Entails.of_eq (pts_idx (F := F) d (cV L0) (jV L0) _).symm) $$ Hs
  ihave Ha := (Entails.of_eq (pts_acc (F := F) d (cV L0) (jV L0) _).symm) $$ Ha
  sl_exec (disch := decide)
  unfold role0.sl.dma0
  ihave Hs := (Entails.of_eq (congrArg (fun g => ((idxS).view.loc (V d (cV L0) (jV L0)) ↦{fullShare} g : sProp 𝕄)) (land_list4 (F := F) fs (m (leadLoc d))))) $$ Hs
  -- the accumulator is zeroed, 128 entries a trip
  sl_for (inv1 (F := F) d (cV L0) (jV L0)) $$ [Ha]
  case region =>
    intro k _
    unfold inv1
    iintro ⟨%f, Ha, %hz⟩
    sl_exec
    sl_step
    iexists _; isplitl [Ha]
    · iexact Ha
    · ipureintro; exact zero_trip k f _ _ _ _ _ _ _ _ hz
  · unfold inv1; iexists fa; isplitl [Ha]
    · iexact Ha
    · ipureintro; intro y hy; exact absurd hy (by omega)
  iintro %_ HI
  unfold inv1
  icases HI with ⟨%f1, Ha, %hz1⟩
  obtain rfl : f1 = zeros4096 := zero_full f1 hz1
  -- one histogram step a trip
  sl_for (inv2 (F := F) d (cV L0) (jV L0) (m (leadLoc d))) $$ [Hs Ha]
  case region =>
    intro k _
    unfold inv2
    iintro ⟨Hs, Ha⟩
    sl_exec
    rw [wp_assume_of _ _ _ _ (chk_of_range (F := F) L0 k _ (m (leadLoc d)) hpre)]
    ihave Ha' := (Entails.of_eq (acc_pts (F := F) d (cV L0) (jV L0) _)) $$ Ha
    iapply (SparseCore.wp_vectorStoreIdx (defs := defs₀ (F := F)) 𝒱₀ (V d (cV L0) (jV L0)) none Set.univ (s := S4096) (e := .f32) (base := accS)) $$ Ha'
    iintro Ha'
    have hin' : ∀ a x, ((![(idxS).view.readAt (Elt F) (Rect.unit (s := S1024) (k0_off2 k) S16.size (Cert.KernelIdeal.Gen.k0_off2_inb L0 k k0_h4)).toLoadRect (m (leadLoc d))] : Fin 1 → IVec S16 32) a x).toNat < S4096.size a := by
      rw [chunk_readAt]; exact chunk_inRange' (m (leadLoc d)) hpre k.val
    generalize hX : View.write (Elt F) ((accS).access (Rect.whole S4096)) _ _ Finset.univ = X
    have hX' : X = histStep (histN (F := F) (m (leadLoc d)) k.val) (chunk (m (leadLoc d)) k.val) := by
      rw [← hX]; exact step_eq k (m (leadLoc d)) _ _ (chunk_inRange' (m (leadLoc d)) hpre k.val) hin'
    subst hX'
    sl_step
    isplitl [Hs]; · iexact Hs
    rw [histN_succ, acc_pts (F := F) d (cV L0) (jV L0)]
    iexact Ha'
  · unfold inv2
    isplitl [Hs]; · iexact Hs
    iexact Ha
  iintro %_ HI
  unfold inv2
  icases HI with ⟨Hs, Ha⟩
  sl_exec
  unfold role0.sl.dma0_1
  sl_step
  isplitl [Hlist Hrow]
  · isplitl [Hlist]
    · iapply (Entails.of_eq (pts_lead (F := F) d (cV L0) (jV L0) _)); iexact Hlist
    · ihave Hrow := (Entails.of_eq (pts_row (F := F) d (cV L0) (jV L0) L0 k0_h4 _)) $$ Hrow
      iapply (Entails.of_eq (row_pts_final0 (F := F) m d k0_h4 _))
      iexact Hrow
  isplitl [Hs Ha Hbufs]
  · isplitl [Hs]
    · iexists _; iapply (Entails.of_eq (pts_idx (F := F) d (cV L0) (jV L0) _)); iexact Hs
    isplitl [Ha]
    · iexists _; iapply (Entails.of_eq (pts_acc (F := F) d (cV L0) (jV L0) _)); iexact Ha
    · iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

theorem role1 (hpre : Cert.Spec.InRange (m (nonmLoc d))) : (iprop(levAts (K (F := F)).L (K (F := F)).lev ∗ tileRes m d 1 (m (cntLoc d)) ∗ scopedBufs (V d (cV L1) (jV L1)) ∗ scopedSems0 (V d (cV L1) (jV L1)) ∗ owes (V d (cV L1) (jV L1)) O W) : sProp 𝕄)
      ⊢ wp frame (wpE (defs₀ (F := F)) 𝒱₀ (V d (cV L1) (jV L1)) none) Set.univ
          (cc0__sc_counts_body L1 leadW (Memref.isWhole_whole _) nonmW (Memref.isWhole_whole _) memW (Memref.isWhole_whole _) cntW (Memref.isWhole_whole _)
            idxS (Memref.isWhole_whole _) accS (Memref.isWhole_whole _) cc0_scoped0 cc0_scoped1 cc0_scoped2 cc0_scoped3)
          fun _ => iprop(tileRes m d 1 (CNT m d) ∗ scopedBufs (V d (cV L1) (jV L1)) ∗ scopedSems0 (V d (cV L1) (jV L1))
            ∗ ∃ W', ⌜∀ p ∈ W', p ∈ W ∨ p.2 = none⌝ ∗ owes (V d (cV L1) (jV L1)) O W') := by
  have k0_h4 : k0_cond4 L1 = 1#1 := by decide
  rw [cc0__sc_counts_body_eq_skeleton]; unfold cc0__sc_counts_body_skel
  rw [(K (F := F)).scopedBufs_V facts d (cV L1) (jV L1), SparseCore.Cfg.scopedSems0_V (Val := Elt F) d (cV L1) (jV L1), ownSems0_V, ownBufs_V]
  unfold tileRes; simp only [show (1 : ℕ) = 0 ↔ False from by decide, show (1 : ℕ) = 1 ↔ True from by decide, show (1 : ℕ) = 2 ↔ False from by decide, if_true, if_false]
  iintro ⟨#Hlv, ⟨Hlist, Hrow⟩, ⟨⟨%fs, Hs⟩, ⟨%fa, Ha⟩, Hbufs⟩, ⟨Hsem0, Hsem1, Hsem2, Hsem3, Hsems⟩, HO⟩
  ihave Hmw := ((K (F := F)).mayWaits_none (thr := V d (cV L1) (jV L1)) hO) $$ Hlv
  ihave Hlist := (Entails.of_eq (pts_nonm (F := F) d (cV L1) (jV L1) _).symm) $$ Hlist
  ihave Hrow := (Entails.of_eq (show (rowPts d 1 (m (cntLoc d)) : sProp 𝕄) = _ from (pts_row (F := F) d (cV L1) (jV L1) L1 k0_h4 (m (cntLoc d))).symm)) $$ Hrow
  ihave Hs := (Entails.of_eq (pts_idx (F := F) d (cV L1) (jV L1) _).symm) $$ Hs
  ihave Ha := (Entails.of_eq (pts_acc (F := F) d (cV L1) (jV L1) _).symm) $$ Ha
  sl_exec (disch := decide)
  unfold role1.sl.dma0
  ihave Hs := (Entails.of_eq (congrArg (fun g => ((idxS).view.loc (V d (cV L1) (jV L1)) ↦{fullShare} g : sProp 𝕄)) (land_list3 (F := F) fs (m (nonmLoc d))))) $$ Hs
  -- the accumulator is zeroed, 128 entries a trip
  sl_for (inv1 (F := F) d (cV L1) (jV L1)) $$ [Ha]
  case region =>
    intro k _
    unfold inv1
    iintro ⟨%f, Ha, %hz⟩
    sl_exec
    sl_step
    iexists _; isplitl [Ha]
    · iexact Ha
    · ipureintro; exact zero_trip k f _ _ _ _ _ _ _ _ hz
  · unfold inv1; iexists fa; isplitl [Ha]
    · iexact Ha
    · ipureintro; intro y hy; exact absurd hy (by omega)
  iintro %_ HI
  unfold inv1
  icases HI with ⟨%f1, Ha, %hz1⟩
  obtain rfl : f1 = zeros4096 := zero_full f1 hz1
  -- one histogram step a trip
  sl_for (inv2 (F := F) d (cV L1) (jV L1) (m (nonmLoc d))) $$ [Hs Ha]
  case region =>
    intro k _
    unfold inv2
    iintro ⟨Hs, Ha⟩
    sl_exec
    rw [wp_assume_of _ _ _ _ (chk_of_range (F := F) L1 k _ (m (nonmLoc d)) hpre)]
    ihave Ha' := (Entails.of_eq (acc_pts (F := F) d (cV L1) (jV L1) _)) $$ Ha
    iapply (SparseCore.wp_vectorStoreIdx (defs := defs₀ (F := F)) 𝒱₀ (V d (cV L1) (jV L1)) none Set.univ (s := S4096) (e := .f32) (base := accS)) $$ Ha'
    iintro Ha'
    have hin' : ∀ a x, ((![(idxS).view.readAt (Elt F) (Rect.unit (s := S1024) (k0_off2 k) S16.size (Cert.KernelIdeal.Gen.k0_off2_inb L1 k k0_h4)).toLoadRect (m (nonmLoc d))] : Fin 1 → IVec S16 32) a x).toNat < S4096.size a := by
      rw [chunk_readAt]; exact chunk_inRange' (m (nonmLoc d)) hpre k.val
    generalize hX : View.write (Elt F) ((accS).access (Rect.whole S4096)) _ _ Finset.univ = X
    have hX' : X = histStep (histN (F := F) (m (nonmLoc d)) k.val) (chunk (m (nonmLoc d)) k.val) := by
      rw [← hX]; exact step_eq k (m (nonmLoc d)) _ _ (chunk_inRange' (m (nonmLoc d)) hpre k.val) hin'
    subst hX'
    sl_step
    isplitl [Hs]; · iexact Hs
    rw [histN_succ, acc_pts (F := F) d (cV L1) (jV L1)]
    iexact Ha'
  · unfold inv2
    isplitl [Hs]; · iexact Hs
    iexact Ha
  iintro %_ HI
  unfold inv2
  icases HI with ⟨Hs, Ha⟩
  sl_exec
  unfold role1.sl.dma0_1
  sl_step
  isplitl [Hlist Hrow]
  · isplitl [Hlist]
    · iapply (Entails.of_eq (pts_nonm (F := F) d (cV L1) (jV L1) _)); iexact Hlist
    · ihave Hrow := (Entails.of_eq (pts_row (F := F) d (cV L1) (jV L1) L1 k0_h4 _)) $$ Hrow
      iapply (Entails.of_eq (row_pts_final1 (F := F) m d k0_h4 _))
      iexact Hrow
  isplitl [Hs Ha Hbufs]
  · isplitl [Hs]
    · iexists _; iapply (Entails.of_eq (pts_idx (F := F) d (cV L1) (jV L1) _)); iexact Hs
    isplitl [Ha]
    · iexists _; iapply (Entails.of_eq (pts_acc (F := F) d (cV L1) (jV L1) _)); iexact Ha
    · iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, (default : HIx 1)) (insert (SemLoc.dma cc0_scoped1.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

theorem role2 (hpre : Cert.Spec.InRange (m (memLoc d))) : (iprop(levAts (K (F := F)).L (K (F := F)).lev ∗ tileRes m d 2 (m (cntLoc d)) ∗ scopedBufs (V d (cV L2) (jV L2)) ∗ scopedSems0 (V d (cV L2) (jV L2)) ∗ owes (V d (cV L2) (jV L2)) O W) : sProp 𝕄)
      ⊢ wp frame (wpE (defs₀ (F := F)) 𝒱₀ (V d (cV L2) (jV L2)) none) Set.univ
          (cc0__sc_counts_body L2 leadW (Memref.isWhole_whole _) nonmW (Memref.isWhole_whole _) memW (Memref.isWhole_whole _) cntW (Memref.isWhole_whole _)
            idxS (Memref.isWhole_whole _) accS (Memref.isWhole_whole _) cc0_scoped0 cc0_scoped1 cc0_scoped2 cc0_scoped3)
          fun _ => iprop(tileRes m d 2 (CNT m d) ∗ scopedBufs (V d (cV L2) (jV L2)) ∗ scopedSems0 (V d (cV L2) (jV L2))
            ∗ ∃ W', ⌜∀ p ∈ W', p ∈ W ∨ p.2 = none⌝ ∗ owes (V d (cV L2) (jV L2)) O W') := by
  have k0_h4 : k0_cond4 L2 = 1#1 := by decide
  rw [cc0__sc_counts_body_eq_skeleton]; unfold cc0__sc_counts_body_skel
  rw [(K (F := F)).scopedBufs_V facts d (cV L2) (jV L2), SparseCore.Cfg.scopedSems0_V (Val := Elt F) d (cV L2) (jV L2), ownSems0_V, ownBufs_V]
  unfold tileRes; simp only [show (2 : ℕ) = 0 ↔ False from by decide, show (2 : ℕ) = 1 ↔ False from by decide, show (2 : ℕ) = 2 ↔ True from by decide, if_true, if_false]
  iintro ⟨#Hlv, ⟨Hlist, Hrow⟩, ⟨⟨%fs, Hs⟩, ⟨%fa, Ha⟩, Hbufs⟩, ⟨Hsem0, Hsem1, Hsem2, Hsem3, Hsems⟩, HO⟩
  ihave Hmw := ((K (F := F)).mayWaits_none (thr := V d (cV L2) (jV L2)) hO) $$ Hlv
  ihave Hlist := (Entails.of_eq (pts_mem (F := F) d (cV L2) (jV L2) _).symm) $$ Hlist
  ihave Hrow := (Entails.of_eq (show (rowPts d 2 (m (cntLoc d)) : sProp 𝕄) = _ from (pts_row (F := F) d (cV L2) (jV L2) L2 k0_h4 (m (cntLoc d))).symm)) $$ Hrow
  ihave Hs := (Entails.of_eq (pts_idx (F := F) d (cV L2) (jV L2) _).symm) $$ Hs
  ihave Ha := (Entails.of_eq (pts_acc (F := F) d (cV L2) (jV L2) _).symm) $$ Ha
  sl_exec (disch := decide)
  unfold role2.sl.dma0
  ihave Hs := (Entails.of_eq (congrArg (fun g => ((idxS).view.loc (V d (cV L2) (jV L2)) ↦{fullShare} g : sProp 𝕄)) (land_list2 (F := F) fs (m (memLoc d))))) $$ Hs
  -- the accumulator is zeroed, 128 entries a trip
  sl_for (inv1 (F := F) d (cV L2) (jV L2)) $$ [Ha]
  case region =>
    intro k _
    unfold inv1
    iintro ⟨%f, Ha, %hz⟩
    sl_exec
    sl_step
    iexists _; isplitl [Ha]
    · iexact Ha
    · ipureintro; exact zero_trip k f _ _ _ _ _ _ _ _ hz
  · unfold inv1; iexists fa; isplitl [Ha]
    · iexact Ha
    · ipureintro; intro y hy; exact absurd hy (by omega)
  iintro %_ HI
  unfold inv1
  icases HI with ⟨%f1, Ha, %hz1⟩
  obtain rfl : f1 = zeros4096 := zero_full f1 hz1
  -- one histogram step a trip
  sl_for (inv2 (F := F) d (cV L2) (jV L2) (m (memLoc d))) $$ [Hs Ha]
  case region =>
    intro k _
    unfold inv2
    iintro ⟨Hs, Ha⟩
    sl_exec
    rw [wp_assume_of _ _ _ _ (chk_of_range (F := F) L2 k _ (m (memLoc d)) hpre)]
    ihave Ha' := (Entails.of_eq (acc_pts (F := F) d (cV L2) (jV L2) _)) $$ Ha
    iapply (SparseCore.wp_vectorStoreIdx (defs := defs₀ (F := F)) 𝒱₀ (V d (cV L2) (jV L2)) none Set.univ (s := S4096) (e := .f32) (base := accS)) $$ Ha'
    iintro Ha'
    have hin' : ∀ a x, ((![(idxS).view.readAt (Elt F) (Rect.unit (s := S1024) (k0_off2 k) S16.size (Cert.KernelIdeal.Gen.k0_off2_inb L2 k k0_h4)).toLoadRect (m (memLoc d))] : Fin 1 → IVec S16 32) a x).toNat < S4096.size a := by
      rw [chunk_readAt]; exact chunk_inRange' (m (memLoc d)) hpre k.val
    generalize hX : View.write (Elt F) ((accS).access (Rect.whole S4096)) _ _ Finset.univ = X
    have hX' : X = histStep (histN (F := F) (m (memLoc d)) k.val) (chunk (m (memLoc d)) k.val) := by
      rw [← hX]; exact step_eq k (m (memLoc d)) _ _ (chunk_inRange' (m (memLoc d)) hpre k.val) hin'
    subst hX'
    sl_step
    isplitl [Hs]; · iexact Hs
    rw [histN_succ, acc_pts (F := F) d (cV L2) (jV L2)]
    iexact Ha'
  · unfold inv2
    isplitl [Hs]; · iexact Hs
    iexact Ha
  iintro %_ HI
  unfold inv2
  icases HI with ⟨Hs, Ha⟩
  sl_exec
  unfold role2.sl.dma0_1
  sl_step
  isplitl [Hlist Hrow]
  · isplitl [Hlist]
    · iapply (Entails.of_eq (pts_mem (F := F) d (cV L2) (jV L2) _)); iexact Hlist
    · ihave Hrow := (Entails.of_eq (pts_row (F := F) d (cV L2) (jV L2) L2 k0_h4 _)) $$ Hrow
      iapply (Entails.of_eq (row_pts_final2 (F := F) m d k0_h4 _))
      iexact Hrow
  isplitl [Hs Ha Hbufs]
  · isplitl [Hs]
    · iexists _; iapply (Entails.of_eq (pts_idx (F := F) d (cV L2) (jV L2) _)); iexact Hs
    isplitl [Ha]
    · iexists _; iapply (Entails.of_eq (pts_acc (F := F) d (cV L2) (jV L2) _)); iexact Ha
    · iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, (default : HIx 1)) (insert (SemLoc.dma cc0_scoped2.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

omit hO in
/-- The three role tiles' obligations from the range precondition, and with them the call's tile obligation. -/
theorem tileObl_of (hpre : PreOK m) : (K (F := F)).TileObl (D (F := F)) 𝒱 (P m) v₀ 0 :=
  tileObl m (fun d O W hO => role0 m d O W hO (hpre d).1) (fun d O W hO => role1 m d O W hO (hpre d).2.1) (fun d O W hO => role2 m d O W hO (hpre d).2.2)

end Cert.Proof.KI
end
-- ==== Proof.LaunchMain.lean ====
import proofs.«201762_g83623013253620_cont_9to1_m_623_34_alg».proof.Proof.LaunchRegStep
import proofs.«201762_g83623013253620_cont_9to1_m_623_34_alg».proof.Proof.LaunchHu0
import proofs.«201762_g83623013253620_cont_9to1_m_623_34_alg».proof.Proof.LaunchFin
import proofs.«201762_g83623013253620_cont_9to1_m_623_34_alg».proof.Proof.LaunchRun
import proofs.«201762_g83623013253620_cont_9to1_m_623_34_alg».proof.Proof.TcBody
import proofs.«201762_g83623013253620_cont_9to1_m_623_34_alg».proof.Proof.Tile

/-!
The program's run: every weakly fair execution of the 35 threads from a memory with all counters zero ends,
and every final state has each unscoped buffer of the TensorCore at its final contents.
-/

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Run

variable [∀ e, Nonempty (Elt F e)]
variable (m : (ℓ : Loc nD τ sig) → Buf (Elt F) ℓ) (ρ : Dev nD → PrngReg)

/-- What the run establishes of a final memory: on every device, every unscoped buffer of the TensorCore —
    the result and the seven arguments among them — holds its final contents. -/
def QC : PUnit × MemSt nD τ sig (Elt F) → Prop :=
  fun r => ∀ (c : Dev nD) (b : Ref sig .tc), b.isScoped = false → r.2.mem ((c.tc : Thread nD τ).loc b) = W5 m c (Proc.devRef .tc b)

/-- The run, from the tile's obligation, the split of the call's operands among the tiles, the TensorCore
    body's obligation, and the SparseCore call as a step of @main. -/
theorem run_main_of
    (htile : (K (F := F)).TileObl (D (F := F)) 𝒱 (P m) v₀ 0)
    (hvec : (K (F := F)).VecSplit' (P m) 0)
    (hbody : TcBody (F := F))
    (hrun : ∀ κ d, RunStep m κ d) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (fun d => Gd d) (FIN m) (u₀ (F := F)) (sep_elim_left.trans (hu₀ m))
    (fun κ d => hmain_of m ρ κ d (hrun κ d) (regStep m hbody κ d)) (fq m) (hfin m) (QC m) (fun _ h c b hb => h c b hb)

/-- The run from the tile's obligation alone: the split of the operands, the TensorCore body's obligation
    and the SparseCore call's step are the proved ones. -/
theorem run_main_tile (htile : (K (F := F)).TileObl (D (F := F)) 𝒱 (P m) v₀ 0) :
    θ_run (Cert.KernelIdeal.defs (F := F)) (Cert.KernelIdeal.threads (F := F)) ⟨m, fun _ => 0, ρ⟩ (QC m) :=
  run_main_of m ρ htile (vecSplit m) tcBody (fun κ d => runStep m κ d)

/-- THE RUN: from a memory whose three index lists are in range and all of whose counters are zero, every weakly
    fair execution of the 35 threads ends, and every final state has each unscoped buffer of every
    TensorCore at its final contents. -/
theorem run_main (hpre : PreOK m) :
    θ_run (Cert.KernelIdeal.defs (F := F)) (Cert.KernelIdeal.threads (F := F)) ⟨m, fun _ => 0, ρ⟩ (QC m) :=
  run_main_tile m ρ (tileObl_of m hpre)

end Run

end Cert.Proof.KI

end
-- ==== Proof.RunIdealFinal.lean ====
import proofs.«201762_g83623013253620_cont_9to1_m_623_34_alg».proof.Proof.RunIdeal
import proofs.«201762_g83623013253620_cont_9to1_m_623_34_alg».proof.Proof.LaunchMain

/-!
# The kernel's run at the extended reals, as the claim takes it

The launch's run, for a memory whose three index lists are in range, read through the bridge: every
weakly fair execution ends, the result array is the closed form of the arguments and the three
histograms, and the seven arguments are unchanged.
-/

noncomputable section

namespace Cert.Proof.RunIdeal

open Idealize.ShloMosaic

theorem runI : Cert.Proof.Assemble.RunI Cert.Proof.Assemble.PreOK' :=
  runI_of _ (fun m ρ h => Cert.Proof.KI.run_main (F := Ideal) m ρ h)

end Cert.Proof.RunIdeal

end
-- ==== Proof.B.Common.lean ====
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«201762_g83623013253620_cont_9to1_m_623_34_alg».proof.Proof.Gen.Kernel
import proofs.«201762_g83623013253620_cont_9to1_m_623_34_alg».proof.Proof.Gen.Kernel.Skeleton

/-!
The program as the launch of its 35 threads sees it, for any float instance: one SparseCore call
(a vector-subcore kernel on 2 × 16 tiles) and one TensorCore pipeline.  The ghost state is a product:
the handshakes' rounds, the pipeline's cells' rounds, and the counters of the tiles' own copies
(each copy is waited for at once, so no schedule is needed for them).
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UR : Type := URounds (GSem nD τ sig) Unit
abbrev UU : Type := UH × (UR × Counters)

abbrev EH : Emb UH (MT nD τ sig (HIx 1) (Elt F) ℕ UU ℕ) := embL

end Cert.Proof.KB

end
-- ==== Proof.B.LaunchTc.lean ====
import proofs.«201762_g83623013253620_cont_9to1_m_623_34_alg».proof.Proof.B.Common
import proofs.«201762_g83623013253620_cont_9to1_m_623_34_alg».proof.Proof.Gen.Kernel.Launch
import proofs.«201762_g83623013253620_cont_9to1_m_623_34_alg».proof.Proof.Gen.Kernel.Points
import Idealize.ShloMosaic.Lib.Pipeline.FrameBody
import Idealize.ShloMosaic.Lib.Pipeline.Regions

/-!
The TensorCore pipeline of the program as a region of @main: the embedding of the pipeline's rounds
into the ghost state, the proof data of the six windows and of the scratch table the body carries
from point to point, and the statement of the body's obligation.
-/

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type}

/-! ## The pipeline's rounds inside the ghost state: the middle factor -/

/-- The pipeline's copy of the rounds algebra: the left factor of the right factor. -/
def ER : Emb UR (MT nD τ sig (HIx 1) (Elt F) ℕ UU ℕ) :=
  (Emb.inl : Emb UR (UR × Counters)).trans (embR (A := UH) (B := UR × Counters))

instance ER_landsIn : (ER (F := F)).LandsIn (upEmb : UEmb _ (MT nD τ sig (HIx 1) (Elt F) ℕ UU ℕ)) := by
  unfold ER embR; infer_instance

variable [FloatOps F]

/-- The pipeline prefetches no table: its one admissible table contents. -/
abbrev adm : (p : Fin 1) → (pcfgs (F := F) p).Adm := fun q => (cfgs q).toPCfg_adm

/-! ## The proof data of the pipeline

`A w` is what window `w`'s array holds when the region is entered.  Windows 0–4 are inputs the body
only reads: each holds its block at every point.  The scratch holds anything before the first point and,
after it, the table the first point stores (the three scaled histograms times the transposed features,
rounded); the output's staging buffer holds at each point the block the body stores. -/

section Data

variable [∀ e, Nonempty (Elt F e)]
variable (d : Dev nD) (A : (w : Fin cfg1.W) → Buf (Elt F) ((cfg1.win w).arr.view.loc (d.tc : Thread nD τ)))

/-- Window `w`'s block at point `t`, read off its array. -/
def iblk (w : Fin cfg1.W) (t : Fin cfg1.N) : ((cfg1.win w).xblock (cfg1.grid.coords t)).Idx → Elt F (cfg1.win w).elt :=
  ((cfg1.win w).blk t).view.read (Elt F) (A w)

/-- The whole rectangles the body loads and stores through. -/
abbrev R3 : Rect S3x4096 := Rect.unit (s := S3x4096) ![0, 0] S3x4096.size Facts₀.inb_S3x4096_S3x4096_0_0
abbrev R7 : Rect S7x4096 := Rect.unit (s := S7x4096) ![0, 0] S7x4096.size Facts₀.inb_S7x4096_S7x4096_0_0
abbrev R21 : Rect S21x4096 := Rect.unit (s := S21x4096) ![0, 0] S21x4096.size Facts₀.inb_S21x4096_S21x4096_0_0
abbrev RA : Rect S4096x512 := Rect.unit (s := S4096x512) ![0, 0] S4096x512.size Facts₀.inb_S4096x512_S4096x512_0_0
abbrev RW : Rect S1792x28 := Rect.unit (s := S1792x28) ![0, 0] S1792x28.size Facts₀.inb_S1792x28_S1792x28_0_0
abbrev RB : Rect S1792x1 := Rect.unit (s := S1792x1) ![0, 0] S1792x1.size Facts₀.inb_S1792x1_S1792x1_0_0
abbrev RO : Rect S1792x512 := Rect.unit (s := S1792x512) ![0, 0] S1792x512.size Facts₀.inb_S1792x512_S1792x512_0_0
/-- The diagonal block of the adjacency's column block, the table's columns of the point, the features' columns of the point. -/
abbrev RD (i : grid1.Coords) : Rect S4096x512 := Rect.unit (s := S4096x512) (k1_off1 i) S512x512.size (Facts₀.k1_off1_inb i)
abbrev RG (i : grid1.Coords) : Rect S21x4096 := Rect.unit (s := S21x4096) (k1_off2 i) S21x512.size (Facts₀.k1_off2_inb i)
abbrev RF (i : grid1.Coords) : Rect S7x4096 := Rect.unit (s := S7x4096) (k1_off3 i) S7x512.size (Facts₀.k1_off3_inb i)

/-- What the first point stores into the scratch: the table, from the histograms' and the features' blocks there. -/
def gtPay : FVec F S21x4096 .bf16 :=
  k1_pay1 (View.ld (iblk d A 1 t1_0) R3) (View.ld (iblk d A 2 t1_0) R7)

/-- What the scratch reads after the first point. -/
def scrX : S21x4096.Idx → Elt F .bf16 := View.canon [⟨R21, gtPay d A⟩]

/-- What the body stores into the output's staging buffer at point `t`. -/
def outPay (t : Fin cfg1.N) : FVec F S1792x512 .f32 :=
  k1_pay2 (View.ld (iblk d A 0 t) RA) (View.ld (scrX d A) R21) (View.ld (iblk d A 0 t) (RD (grid1.coords t)))
    (View.ld (scrX d A) (RG (grid1.coords t))) (View.ld (iblk d A 2 t) (RF (grid1.coords t)))
    (View.ld (iblk d A 3 t) RW) (View.ld (iblk d A 4 t) RB)

/-- What the output's staging buffer reads after the body at point `t`. -/
def outX (t : Fin cfg1.N) : S1792x512.Idx → Elt F .f32 := View.canon [⟨RO, outPay d A t⟩]

end Data

section Data2

variable [∀ e, Nonempty (Elt F e)]
variable (d : Dev nD) (A : (w : Fin cfg1.W) → Buf (Elt F) ((cfg1.win w).arr.view.loc (d.tc : Thread nD τ)))

/-- What each window's current staging buffer reads after the body at a point: an input's block (the body
    only reads it), the output's stored block. -/
def after1 : (w : Fin 6) → Fin cfg1.N → (cfg1.win w).block.Idx → Elt F (cfg1.win w).elt
  | 0, t => iblk d A 0 t
  | 1, t => iblk d A 1 t
  | 2, t => iblk d A 2 t
  | 3, t => iblk d A 3 t
  | 4, t => iblk d A 4 t
  | 5, t => outX d A t
  | ⟨_ + 6, h⟩, _ => absurd h (Nat.not_lt.2 (Nat.le_add_left _ _))

/-- The scratch between points: anything before the first point, the table after it. -/
def Φ1 (t : Fin (cfg1.N + 1)) : sProp (MT nD τ sig (HIx 1) (Elt F) ℕ UU ℕ) :=
  if t.val = 0 then Pipeline.scopedRest (Ix := HIx 1) (Name := ℕ) (U := UU) (Lvl := ℕ) (Val := Elt F) spec1 d
  else ownsTc d (Memref.whole cc1_scratch0) fullShare (scrX d A)

/-- The proof data of the pipeline on device `d`. The core owes nothing during the region; the pairs its waits
    have recorded stay at or below the level reached after the one SparseCore call. -/
def dat1 : Dat τ (Elt F) (HIx 1) ℕ UU ℕ cfg1 d where
  A := A
  after := after1 d A
  Φ := Φ1 d A
  q := fun _ => fullShare
  owed := fun _ => 0
  recorded := fun _ => {p | (K (F := F)).lev (T d, p.1) p.2 ≤ 8}

end Data2

/-- The proof data as the region rule takes it: per pipeline (there is one) and device. -/
def pdats [∀ e, Nonempty (Elt F e)]
    (A : (d : Dev nD) → (w : Fin cfg1.W) → Buf (Elt F) ((cfg1.win w).arr.view.loc (d.tc : Thread nD τ))) :
    (p : Fin 1) → (d : Dev nD) → Dat τ (Elt F) (HIx 1) ℕ UU ℕ (Pipeline.pin (pcfgs (F := F)) adm p) d :=
  fun _ d => dat1 d (A d)

/-- THE BODY'S OBLIGATION: at every point, from the scratch invariant, what the core owes and the six current
    staging buffers at what the pipeline leaves in them, the kernel's body runs to the next point's. -/
def TcBody [∀ e, Nonempty (Elt F e)] : Prop :=
  ∀ (d : Dev nD) (A : (w : Fin cfg1.W) → Buf (Elt F) ((cfg1.win w).arr.view.loc (d.tc : Thread nD τ))),
    BodyObligationLoose (dat1 d A) (defs₀ (F := F)) 𝒱₀ (none : HIx 1) Set.univ

/-! ## What the body finds in each staging buffer, and the invariant at each point -/

section Before

variable [∀ e, Nonempty (Elt F e)]
variable (d : Dev nD) (A : (w : Fin cfg1.W) → Buf (Elt F) ((cfg1.win w).arr.view.loc (d.tc : Thread nD τ)))

theorem before1_0 (t : Fin cfg1.N) (dd) : (dat1 d A).before 0 t dd = iblk d A 0 t :=
  ((dat1 d A).before_in_eq_fetched 0 rfl (fun _ => rfl) (fun _ _ _ => rfl) (fun t => by unfold Dat.blockOf; rfl) t dd).trans
    (by unfold Dat.fetched Dat.blockOf iblk; rfl)
theorem before1_1 (t : Fin cfg1.N) (dd) : (dat1 d A).before 1 t dd = iblk d A 1 t :=
  ((dat1 d A).before_in_eq_fetched 1 rfl (fun _ => rfl) (fun _ _ _ => rfl) (fun t => by unfold Dat.blockOf; rfl) t dd).trans
    (by unfold Dat.fetched Dat.blockOf iblk; rfl)
theorem before1_2 (t : Fin cfg1.N) (dd) : (dat1 d A).before 2 t dd = iblk d A 2 t :=
  ((dat1 d A).before_in_eq_fetched 2 rfl (fun _ => rfl) (fun _ _ _ => rfl) (fun t => by unfold Dat.blockOf; rfl) t dd).trans
    (by unfold Dat.fetched Dat.blockOf iblk; rfl)
theorem before1_3 (t : Fin cfg1.N) (dd) : (dat1 d A).before 3 t dd = iblk d A 3 t :=
  ((dat1 d A).before_in_eq_fetched 3 rfl (fun _ => rfl) (fun _ _ _ => rfl) (fun t => by unfold Dat.blockOf; rfl) t dd).trans
    (by unfold Dat.fetched Dat.blockOf iblk; rfl)
theorem before1_4 (t : Fin cfg1.N) (dd) : (dat1 d A).before 4 t dd = iblk d A 4 t :=
  ((dat1 d A).before_in_eq_fetched 4 rfl (fun _ => rfl) (fun _ _ _ => rfl) (fun t => by unfold Dat.blockOf; rfl) t dd).trans
    (by unfold Dat.fetched Dat.blockOf iblk; rfl)
/-- The output's staging buffer is fresh at every point (the block is written back at every point). -/
theorem before1_5 (t : Fin cfg1.N) (dd) : (dat1 d A).before 5 t dd = dd :=
  (dat1 d A).before_out_reset 5 rfl t (by
    by_cases h : t.val = 0
    · exact .inl h
    · exact .inr ⟨h, flush1_5 _⟩) dd

theorem Φ1_zero : (dat1 d A).Φ 0 = Pipeline.scopedRest (Ix := HIx 1) (Name := ℕ) (U := UU) (Lvl := ℕ) (Val := Elt F) spec1 d := by
  show Φ1 d A 0 = _
  unfold Φ1; exact if_pos rfl
theorem Φ1_succ (t : Fin cfg1.N) : (dat1 d A).Φ t.succ = ownsTc d (Memref.whole cc1_scratch0) fullShare (scrX d A) := by
  show Φ1 d A t.succ = _
  unfold Φ1; exact if_neg (by rw [Fin.val_succ]; exact Nat.succ_ne_zero _)
theorem Φ1_pos (t : Fin (cfg1.N + 1)) (h : t.val ≠ 0) : (dat1 d A).Φ t = ownsTc d (Memref.whole cc1_scratch0) fullShare (scrX d A) := by
  show Φ1 d A t = _
  unfold Φ1; exact if_neg h

theorem after1_5 (t : Fin cfg1.N) : (dat1 d A).after 5 t = outX d A t := by
  simp only [dat1, after1]
theorem after1_in (w : Fin 6) (t : Fin cfg1.N) : (dat1 d A).after w t = after1 d A w t := rfl

end Before

end Cert.Proof.KB

end
-- ==== Proof.B.LaunchReg.lean ====
import proofs.«201762_g83623013253620_cont_9to1_m_623_34_alg».proof.Proof.B.LaunchTc

/-!
The TensorCore pipeline as one segment of @main: entered from the TensorCore's unscoped buffers and its
debt state after the SparseCore call, left with the result array at what the write-backs leave.
-/

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

/-! ## The region as a segment of @main -/

section Region

variable [∀ e, Nonempty (Elt F e)]

/-- What the six windows' arrays hold, read off the TensorCore's unscoped buffers at `V`. -/
abbrev Aof (d : Dev nD) (V : (b : Ref sig .tc) → Buf (Elt F) ((d.tc : Thread nD τ).loc b)) :
    (w : Fin cfg1.W) → Buf (Elt F) ((cfg1.win w).arr.view.loc (d.tc : Thread nD τ)) :=
  fun w => V (Pipeline.arrRef spec1 w)

variable (V : (d : Dev nD) → (b : Ref sig .tc) → Buf (Elt F) ((d.tc : Thread nD τ).loc b))

/-- The TensorCore's debt state around the region: it owes nothing, and the pairs its waits have recorded sit
    at or below the level reached after the one SparseCore call. -/
def OW (d : Dev nD) : sProp (MT nD τ sig (HIx 1) (Elt F) ℕ UU ℕ) :=
  iprop(∃ W, ⌜(K (F := F)).WBelow (T d) W 8⌝ ∗ owes (T d) (0 : CellTallies nD τ sig (HIx 1)) W)

/-- The unscoped buffers after the region: the result array at what the write-backs leave, the rest unchanged. -/
def Vpost (d : Dev nD) : (b : Ref sig .tc) → Buf (Elt F) ((d.tc : Thread nD τ).loc b) :=
  Function.update (V d) main_v16 ((dat1 d (Aof d (V d))).arrAt 5 cfg1.N)

theorem Vpost_out (d : Dev nD) : Vpost V d main_v16 = (dat1 d (Aof d (V d))).arrAt 5 cfg1.N := Function.update_self ..
theorem Vpost_ne (d : Dev nD) (b : Ref sig .tc) (h : b ≠ main_v16) : Vpost V d b = V d b := Function.update_of_ne h ..

/-- The arrays after the region are the unscoped buffers' new contents: the inputs unchanged, the result written. -/
theorem arrAt_Vpost (d : Dev nD) : ∀ w : Fin 6, (dat1 d (Aof d (V d))).arrAt w cfg1.N = Vpost V d (Pipeline.arrRef spec1 w)
  | 0 => ((dat1 d (Aof d (V d))).arrAt_in 0 rfl _).trans (Vpost_ne V d main_arg1 (by decide)).symm
  | 1 => ((dat1 d (Aof d (V d))).arrAt_in 1 rfl _).trans (Vpost_ne V d main_v2 (by decide)).symm
  | 2 => ((dat1 d (Aof d (V d))).arrAt_in 2 rfl _).trans (Vpost_ne V d main_v1 (by decide)).symm
  | 3 => ((dat1 d (Aof d (V d))).arrAt_in 3 rfl _).trans (Vpost_ne V d main_v11 (by decide)).symm
  | 4 => ((dat1 d (Aof d (V d))).arrAt_in 4 rfl _).trans (Vpost_ne V d main_v15 (by decide)).symm
  | 5 => (Vpost_out V d).symm
  | ⟨_ + 6, h⟩ => absurd h (Nat.not_lt.2 (Nat.le_add_left _ _))

/-- So the six arrays as the region leaves them are the six buffers at the new contents. -/
theorem arrays_Vpost (d : Dev nD) :
    (bigSep Finset.univ fun w : Fin 6 => (((d.tc : Thread nD τ).loc (Pipeline.arrRef spec1 w)) ↦{fullShare} (dat1 d (Aof d (V d))).arrAt w cfg1.N : sProp (MT nD τ sig (HIx 1) (Elt F) ℕ UU ℕ)))
      = bigSep Finset.univ fun w : Fin 6 => (((d.tc : Thread nD τ).loc (Pipeline.arrRef spec1 w)) ↦{fullShare} Vpost V d (Pipeline.arrRef spec1 w)) :=
  bigSep_congr fun w _ => by rw [arrAt_Vpost V d w]

/-- The buffers no window stages are untouched by the region. -/
theorem unscopedRest_Vpost (d : Dev nD) :
    (Pipeline.unscopedRest (Ix := HIx 1) (Name := ℕ) (U := UU) (Lvl := ℕ) spec1 d (Vpost V d) : sProp (MT nD τ sig (HIx 1) (Elt F) ℕ UU ℕ))
      = Pipeline.unscopedRest (Ix := HIx 1) (Name := ℕ) (U := UU) (Lvl := ℕ) spec1 d (V d) := by
  unfold Pipeline.unscopedRest
  refine bigSep_congr fun b hb => ?_
  rw [Vpost_ne V d b]
  rintro rfl
  exact (Finset.mem_sdiff.mp hb).2 (Finset.mem_image.mpr ⟨5, Finset.mem_univ _, rfl⟩)

/-- The levels and level sets of the launch, as the region takes them. -/
abbrev Lk : GSem nD τ sig → Finset (HIx 1) := (K (F := F)).L
abbrev lvk : GSem nD τ sig → HIx 1 → ℕ := (K (F := F)).lev

def reg1 (hbody : TcBody (F := F)) :
    Pipeline.RegionSeg (pcfgs (F := F)) adm (pdats (fun d => Aof d (V d))) (none : HIx 1) defs₀ 𝒱₀ (Lk (F := F)) (lvk (F := F)) 0 where
  win := launch1.win.to₀
  block_pos := launch1.block_pos
  stage_whole := launch1.stage_whole
  K := PEmpty
  osem k := k.elim
  ho := Pipeline.OwnSemFacts.none _
  hbody c := hbody c (Aof c (V c))
  hwaits c := Pipeline.hwaits_of_owed_zero (pcfgs (F := F)) adm (pdats (fun d => Aof d (V d))) (none : HIx 1) (Lk (F := F)) (lvk (F := F)) 0 (fun _ _ => rfl) c
  pre c := iprop(unscopedBufs c (V c) ∗ OW c)
  post c := iprop(unscopedBufs c (Vpost V c) ∗ OW c)
  X _ := iprop(emp)
  Y _ := iprop(emp)
  Z c := Pipeline.unscopedRest (Ix := HIx 1) (Name := ℕ) (U := UU) (Lvl := ℕ) spec1 c (V c)
  hentry c := by
    rw [Pipeline.ownSems0_none]
    have hsplit := Pipeline.arrays_of_unscopedBufs (pcfgs (F := F)) adm (pdats (fun d => Aof d (V d))) (p := 0) launch1.win launch1.arr_whole c
      ((pdats (fun d => Aof d (V d)) 0 c).share_full fun _ => rfl) (V c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold OW Pipeline.Dat.owesAt Pipeline.owesWithin
      icases HO with ⟨%W, %hW, HO⟩
      iexists W; isplitr
      · ipureintro; exact fun p hp => Or.inl (hW p (Finset.mem_coe.mp hp))
      · iexact HO
    isplitr; · iempintro
    iexact Hr
  hin c := by
    show _ ⊢ (dat1 c (Aof c (V c))).Φ 0
    rw [Φ1_zero]
    iintro ⟨-, -, H⟩; iexact H
  hout c := by
    show (dat1 c (Aof c (V c))).Φ (Fin.last cfg1.N) ⊢ _
    rw [Φ1_pos _ _ _ (by rw [Fin.val_last]; show grid1.N ≠ 0; rw [N_1]; decide), Pipeline.ownSems0_none, scopedRest1_eq]
    unfold ownsTc
    rw [owns_whole]
    iintro H
    isplitr; · iempintro
    isplitr; · iempintro
    iexists _; iexact H
  hexit c := by
    rw [Pipeline.arrays_eq (Pipeline.pin (pcfgs (F := F)) adm) (pdats (fun d => Aof d (V d))) 0 c launch1.arr_whole
        ((pdats (fun d => Aof d (V d)) 0 c).share_full fun _ => rfl),
      Pipeline.unscopedBufs_split (Pipeline.pin (pcfgs (F := F)) adm) 0 launch1.win.arr_unscoped launch1.win.arr_inj c (Vpost V c),
      unscopedRest_Vpost V c]
    iintro ⟨Ha, HO, -, Hr⟩
    imodintro
    isplitl [Ha Hr]
    · isplitl [Ha]
      · iapply (Entails.of_eq (arrays_Vpost V c))
        iexact Ha
      · iexact Hr
    · unfold OW Pipeline.Dat.owesAt Pipeline.owesWithin
      icases HO with ⟨%W, %hW, HO⟩
      iexists W; isplitr
      · ipureintro
        intro p hp
        rcases hW (Finset.mem_coe.mpr hp) with h | ⟨w, s, rfl⟩
        · exact h
        · exact Nat.zero_le _
      · iexact HO

end Region

end Cert.Proof.KB

end
-- ==== Proof.B.Hist.lean ====
import proofs.«201762_g83623013253620_cont_9to1_m_623_34_alg».proof.Kernel
import Idealize.ShloMosaic.Lib.ValueIdx

/-!
The histogram a role tile builds, for any float instance: starting from the all-zero accumulator,
64 steps; step `k` takes the 16 list words `16k … 16k+15` and adds one at the element each word names
(an indexed store with accumulation).  A step whose words do not all name an element is the identity
(the precondition excludes it; the program has no step there).
-/

noncomputable section

namespace Cert.Proof.KB

open Cert.Kernel Idealize.ShloMosaic Idealize.ShloMosaic.ValueIdx

variable {F : FTy → Type} [FloatOps F]

/-- The 16 words of the list read at trip `k`. -/
def chunk (idx : IVec S1024 32) (k : ℕ) : IVec S16 32 :=
  fun x => idx (ix1 ⟨(16 * k + (x 0).val) % 1024, Nat.mod_lt _ (by decide)⟩)

/-- The vector of ones the tile adds. -/
def ones16 : FVec F S16 .f32 := broadcast S16 (Scalar.ofBits (F := F) .f32 0x3F800000#32)

/-- The all-zero accumulator. -/
def zeros4096 : Vec F S4096 .f32 := fun _ => Scalar.ofBits (F := F) .f32 0x00000000#32

/-- One trip: add one at every element the 16 words name. -/
def histStep (acc : Vec F S4096 .f32) (iv : IVec S16 32) : Vec F S4096 .f32 :=
  if h : ∀ a x, ((![iv] : Fin 1 → IVec S16 32) a x).toNat < S4096.size a then
    storeIdx acc ![iv] (ones16 (F := F)) (fun _ => 1#1) true h
  else acc

/-- The accumulator before trip `k`. -/
def histN (idx : IVec S1024 32) : ℕ → Vec F S4096 .f32
  | 0 => zeros4096
  | k + 1 => histStep (histN idx k) (chunk idx k)

/-- The histogram of a 1024-entry list. -/
def hist (idx : IVec S1024 32) : Vec F S4096 .f32 := histN idx 64

theorem histN_succ (idx : IVec S1024 32) (k : ℕ) : histN (F := F) idx (k + 1) = histStep (histN idx k) (chunk idx k) := rfl

end Cert.Proof.KB

end
-- ==== Proof.B.CommonP.lean ====
import proofs.«201762_g83623013253620_cont_9to1_m_623_34_alg».proof.Proof.B.Common
import proofs.«201762_g83623013253620_cont_9to1_m_623_34_alg».proof.Proof.B.Hist

/-!
What the SparseCore call's handshakes carry.  Role tile `r ∈ {0, 1, 2}` is the tile with
`2·subcore + core = r`: (core, subcore) = (0,0), (1,0), (0,1).  It is handed its role's index list
(leaders, nonmembers, members) whole and row `r` of the 3 × 4096 counts array, and hands back the
list unchanged and the row holding the list's histogram.  The other 29 tiles are handed nothing.
-/

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A tile's grid coordinates from its core and subcore. -/
def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0

variable (m : (ℓ : Loc nD τ sig) → Buf (Elt F) ℓ)

abbrev leadLoc (d : Dev nD) : Loc nD τ sig := (SparseCore.T d).loc main_arg4
abbrev nonmLoc (d : Dev nD) : Loc nD τ sig := (SparseCore.T d).loc main_arg3
abbrev memLoc (d : Dev nD) : Loc nD τ sig := (SparseCore.T d).loc main_arg2
abbrev cntLoc (d : Dev nD) : Loc nD τ sig := (SparseCore.T d).loc main_v2

/-- Row `r` of the counts array: the indices whose first coordinate is `r`. -/
def rowSet (r : ℕ) : Finset S3x4096.Idx := Finset.univ.filter fun y => (y 0).val = r

variable [FloatOps F]

/-- The counts array after the call: row 0 the leaders' histogram, row 1 the nonmembers', row 2 the members'. -/
def CNT (d : Dev nD) : Buf (Elt F) (cntLoc d) :=
  fun (y : S3x4096.Idx) =>
    if (y 0).val = 0 then hist (F := F) (m (leadLoc d)) (ix1 (y 1))
    else if (y 0).val = 1 then hist (F := F) (m (nonmLoc d)) (ix1 (y 1))
    else hist (F := F) (m (memLoc d)) (ix1 (y 1))

abbrev leadPts (d : Dev nD) : sProp 𝕄 := leadLoc d ↦{fullShare} m (leadLoc d)
abbrev nonmPts (d : Dev nD) : sProp 𝕄 := nonmLoc d ↦{fullShare} m (nonmLoc d)
abbrev memPts (d : Dev nD) : sProp 𝕄 := memLoc d ↦{fullShare} m (memLoc d)
abbrev rowPts (d : Dev nD) (r : ℕ) (f : Buf (Elt F) (cntLoc d)) : sProp 𝕄 := cntLoc d ↦[rowSet r]{fullShare} f

/-- What the tile with number `w = 2·subcore + core` is handed (`f` the counts array's contents then). -/
def tileRes (d : Dev nD) (w : ℕ) (f : Buf (Elt F) (cntLoc d)) : sProp 𝕄 :=
  if w = 0 then iprop(leadPts m d ∗ rowPts d 0 f)
  else if w = 1 then iprop(nonmPts m d ∗ rowPts d 1 f)
  else if w = 2 then iprop(memPts m d ∗ rowPts d 2 f)
  else iprop(emp)

/-- What SparseCore `c` is handed: its tiles' shares (core 0 runs roles 0 and 2, core 1 role 1). -/
def coreRes (d : Dev nD) (c : ℕ) (f : Buf (Elt F) (cntLoc d)) : sProp 𝕄 :=
  if c = 0 then iprop((leadPts m d ∗ rowPts d 0 f) ∗ (memPts m d ∗ rowPts d 2 f))
  else iprop(nonmPts m d ∗ rowPts d 1 f)

instance tileRes_storable (d : Dev nD) (w : ℕ) (f : Buf (Elt F) (cntLoc d)) : BI.Storable (upEmb : UEmb _ 𝕄) (tileRes m d w f) := by
  unfold tileRes; split
  · infer_instance
  · split
    · infer_instance
    · split <;> infer_instance
instance coreRes_storable (d : Dev nD) (c : ℕ) (f : Buf (Elt F) (cntLoc d)) : BI.Storable (upEmb : UEmb _ 𝕄) (coreRes m d c f) := by
  unfold coreRes; split <;> infer_instance

/-- The one call's payloads: in, the counts array at its launch contents; out, at the histograms. -/
def P : (K (F := F)).Pay (nD := nD) (Val := Elt F) (Name := ℕ) (U := UU) where
  st := fun _ d c => coreRes m d c.val (m (cntLoc d))
  dn := fun _ d c => coreRes m d c.val (CNT m d)
  go := fun _ d c i => tileRes m d (2 * i.val + c.val) (m (cntLoc d))
  td := fun _ d c i => tileRes m d (2 * i.val + c.val) (CNT m d)
  x := fun _ _ => iprop(emp)

instance P_storable : (P (F := F) m).IsStorable where
  st _ d c := by unfold P; infer_instance
  dn _ d c := by unfold P; infer_instance
  go _ d c i := by unfold P; infer_instance
  td _ d c i := by unfold P; infer_instance

end Cert.Proof.KB

end
-- ==== Proof.B.LaunchDefs.lean ====
import proofs.«201762_g83623013253620_cont_9to1_m_623_34_alg».proof.Proof.B.LaunchReg
import proofs.«201762_g83623013253620_cont_9to1_m_623_34_alg».proof.Proof.B.CommonP

/-!
@main on the TensorCore as a chain of items — a stretch of host operations, the SparseCore call, host
operations (with the block-diagonal weight built by a module-local function), the TensorCore pipeline's
region, two closing host operations — with the launch element of the ghost state and the contents of the
TensorCore's buffers along the chain. Definitions and the chain equation only.
-/

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held wp_seq wp_hlo_within)

variable {F : FTy → Type} [FloatOps F]

/-! ## @main as a chain of items -/

/-- The host operations of @main, stretch by stretch, in order. -/
abbrev ops01 : List (HloOp τ sig (Elt F)) := [
    StableHlo.reshape main_arg0 main_v0 rfl shapeCasts_S4096x7x1_S4096x7,
    StableHlo.unary main_v0 main_v1 ((transpose S7x4096 [1, 0] · transposes_S4096x7_S7x4096_1_0) : (⟨S4096x7, .f32⟩ : BufTy).Contents (Elt F) → (⟨S7x4096, .f32⟩ : BufTy).Contents (Elt F)) ]
abbrev ops3_9 : List (HloOp τ sig (Elt F)) := [
    StableHlo.nullary main_v3 (iotaInDim S28x28 32 0),
    StableHlo.nullary main_v4 (iotaInDim S28x28 32 1),
    StableHlo.nullary main_c (constantI S_ 32 0#32),
    StableHlo.unary main_c main_v5 (broadcastInDim S28x28 ![] bcast_S_S28x28 : (⟨S_, .i32⟩ : BufTy).Contents (Elt F) → (⟨S28x28, .i32⟩ : BufTy).Contents (Elt F)),
    StableHlo.binary main_v3 main_v5 main_v6 (addi : (⟨S28x28, .i32⟩ : BufTy).Contents (Elt F) → (⟨S28x28, .i32⟩ : BufTy).Contents (Elt F) → (⟨S28x28, .i32⟩ : BufTy).Contents (Elt F)),
    StableHlo.binary main_v6 main_v4 main_v7 (cmpi .eq : (⟨S28x28, .i32⟩ : BufTy).Contents (Elt F) → (⟨S28x28, .i32⟩ : BufTy).Contents (Elt F) → (⟨S28x28, .i1⟩ : BufTy).Contents (Elt F)),
    StableHlo.unary main_v7 main_v8 (uitofp .f32 : (⟨S28x28, .i1⟩ : BufTy).Contents (Elt F) → (⟨S28x28, .f32⟩ : BufTy).Contents (Elt F)) ]
/-- The module-local function's operations, at the buffers of its one call. -/
abbrev opsK : List (HloOp τ sig (Elt F)) := [
    StableHlo.TRef.unary (.of main_v8 : StableHlo.TRef sig ⟨S28x28, .f32⟩) main_call0.v0 (broadcastInDim S28x1x28x1 ![0, 2] bcast_S28x28_S28x1x28x1_0_2),
    StableHlo.TRef.unary (.of main_arg5 : StableHlo.TRef sig ⟨S1x64, .f32⟩) main_call0.v1 (broadcastInDim S1x1x1x64 ![1, 3] bcast_S1x64_S1x1x1x64_1_3),
    StableHlo.TRef.unary main_call0.v0 main_call0.v2 (broadcastInDim S28x1x28x64 ![0, 1, 2, 3] bcast_S28x1x28x1_S28x1x28x64_0_1_2_3),
    StableHlo.TRef.unary main_call0.v1 main_call0.v3 (broadcastInDim S28x1x28x64 ![0, 1, 2, 3] bcast_S1x1x1x64_S28x1x28x64_0_1_2_3),
    StableHlo.TRef.binary main_call0.v2 main_call0.v3 main_call0.v4 mulf,
    StableHlo.TRef.reshape main_call0.v4 main_call0.v5 rfl shapeCasts_S28x1x28x64_S28x1792 ]
abbrev ops11_16 : List (HloOp τ sig (Elt F)) := [
    StableHlo.unary main_v9 main_v10 ((transpose S1792x28 [1, 0] · transposes_S28x1792_S1792x28_1_0) : (⟨S28x1792, .f32⟩ : BufTy).Contents (Elt F) → (⟨S1792x28, .f32⟩ : BufTy).Contents (Elt F)),
    StableHlo.unary main_v10 main_v11 ((truncf .bf16 · bitsLt_bf16_f32) : (⟨S1792x28, .f32⟩ : BufTy).Contents (Elt F) → (⟨S1792x28, .bf16⟩ : BufTy).Contents (Elt F)),
    StableHlo.reshape main_arg6 main_v12 rfl shapeCasts_S64_S1x64,
    StableHlo.unary main_v12 main_v13 (broadcastInDim S28x64 ![0, 1] bcast_S1x64_S28x64_0_1 : (⟨S1x64, .f32⟩ : BufTy).Contents (Elt F) → (⟨S28x64, .f32⟩ : BufTy).Contents (Elt F)),
    StableHlo.reshape main_v13 main_v14 rfl shapeCasts_S28x64_S1792,
    StableHlo.reshape main_v14 main_v15 rfl shapeCasts_S1792_S1792x1 ]
abbrev ops18_19 : List (HloOp τ sig (Elt F)) := [
    StableHlo.reshape main_v16 main_v17 rfl shapeCasts_S1792x4096_S28x64x4096,
    StableHlo.unary main_v17 main_v18 ((transpose S4096x28x64 [2, 0, 1] · transposes_S28x64x4096_S4096x28x64_2_0_1) : (⟨S28x64x4096, .f32⟩ : BufTy).Contents (Elt F) → (⟨S4096x28x64, .f32⟩ : BufTy).Contents (Elt F)) ]

/-- The module-local function's body at its one call is the line of its operations. -/
theorem kron_seq : (fn_kron.body (F := F) (.of main_v8) (.of main_arg5) main_call0) = StableHlo.seq (opsK (F := F)) := by
  chain_rfl

/-- @main is the chain of its items. -/
theorem main_chain (d : Dev nD) : main (F := F) d = (Pipeline.chain
    [ StableHlo.seq ops01,
      (K (F := F)).run d 0,
      StableHlo.seq ops3_9,
      fn_kron.body (F := F) (.of main_v8) (.of main_arg5) main_call0,
      StableHlo.seq ops11_16,
      Prog.lift (.customCall (SparseCore.inner (Pipeline.entry 0)) ()),
      StableHlo.seq ops18_19 ] : Prog (TpuEff nD τ sig (Elt F) (SparseCore.Sig (ΛP (F := F)) 1) .tc) PUnit) := by
  chain_rfl

/-! ## The launch element and what it deals each device -/

/-- The program's staging cells are pairwise distinct (decided on the printed windows). -/
abbrev hinj1 : Function.Injective (Pipeline.cellOf (nD := nD) (τ := τ) (Pipeline.pin (pcfgs (F := F)) adm)) := cellOf_inj

/-- The launch element of the ghost state: the handshakes' rounds, the pipeline's rounds, the counters. -/
def u₀ : UU :=
  (initOf (K (F := F)).hsCells (K (F := F)).hsToks,
    (initOf (Pipeline.cells (Pipeline.pin (pcfgs (F := F)) adm) hinj1) (Pipeline.launchToks (Pipeline.pin (pcfgs (F := F)) adm) hinj1), 1))

/-- What the launch deals device `d` for the pipeline: its cells' ghost state and the duty tokens of its transfers. -/
def Gd (d : Dev nD) : sProp (MT nD τ sig (HIx 1) (Elt F) ℕ UU ℕ) :=
  iprop(Pipeline.cellsGhost (Pipeline.pin (pcfgs (F := F)) adm) ER 0 d ∗ Pipeline.toksInit (Pipeline.pin (pcfgs (F := F)) adm) ER 0 d)

/-! ## The TensorCore's buffers along @main -/

section Vals

variable [∀ e, Nonempty (Elt F e)]
variable (m : (ℓ : Loc nD τ sig) → Buf (Elt F) ℓ)

abbrev x2 : DevRef τ sig := Proc.devRef .tc (main_v2 : Ref sig .tc)
abbrev x16 : DevRef τ sig := Proc.devRef .tc (main_v16 : Ref sig .tc)

/-- After the two opening operations; -/
def W1 (d : Dev nD) : Valuation τ sig (Elt F) := StableHlo.after ops01 (StableHlo.launchContents m d)
/-- after the SparseCore call: the counts array at the histograms; -/
def W2 (d : Dev nD) : Valuation τ sig (Elt F) := Function.update (W1 m d) x2 (CNT m d)
/-- after the host operations up to the region; -/
def W3 (d : Dev nD) : Valuation τ sig (Elt F) :=
  StableHlo.after ops11_16 (StableHlo.after opsK (StableHlo.after ops3_9 (W2 m d)))
/-- the same as the region takes them; -/
def Vent (d : Dev nD) : (b : Ref sig .tc) → Buf (Elt F) ((d.tc : Thread nD τ).loc b) := fun b => W3 m d b
/-- after the region: the result array at what the write-backs leave; -/
def W4 (d : Dev nD) : Valuation τ sig (Elt F) :=
  Function.update (W3 m d) x16 ((dat1 d (Aof d (Vent m d))).arrAt 5 cfg1.N)
/-- after the two closing operations. -/
def W5 (d : Dev nD) : Valuation τ sig (Elt F) := StableHlo.after ops18_19 (W4 m d)

/-- What @main leaves the claim on device `d`: every unscoped buffer of the TensorCore at its final contents. -/
def FIN (d : Dev nD) : sProp (MT nD τ sig (HIx 1) (Elt F) ℕ UU ℕ) :=
  held (T d) (Pipeline.ucRefs τ sig) (W5 m d)

/-- What a final state says of device `d`: each unscoped buffer holds its final contents. -/
def fq (d : Dev nD) (s' : Phys nD τ sig (Elt F)) : Prop :=
  ∀ b : Ref sig .tc, b.isScoped = false → s'.mem.mem ((d.tc : Thread nD τ).loc b) = W5 m d (Proc.devRef .tc b)

end Vals

end Cert.Proof.KB

end
-- ==== Proof.B.RunArgs.lean ====
import proofs.«201762_g83623013253620_cont_9to1_m_623_34_alg».proof.Proof.B.LaunchDefs

/-!
# The entry function's arguments end as they began

None of the entry function's host operations writes an argument buffer, the SparseCore call writes the
counts array only and the TensorCore call its result array only.  So along the chain of contents each of
the seven argument buffers keeps the launch contents, for any float instance; and a final state in which
every unscoped buffer holds the chain's last contents holds the seven arguments unchanged.
-/

set_option maxRecDepth 16384

noncomputable section

namespace Cert.Proof.KB

open Cert.Kernel Cert.Kernel.Gen
open Idealize.ShloMosaic Idealize.ShloMosaic.TcCoe Idealize.ShloMosaic.StableHlo Idealize.SL.Sem

variable {F : FTy → Type} [FloatOps F] [∀ e, Nonempty (Elt F e)]
variable (m : (ℓ : Loc nD τ sig) → Buf (Elt F) ℓ)

/-- Walks a buffer back through the stretches and the two calls' writes to where it was last written. -/
local macro "walk" : tactic =>
  `(tactic| (simp only [StableHlo.after_cons, StableHlo.after_nil]
             repeat (first
               | rw [StableHlo.nullary_result] | rw [StableHlo.unary_result] | rw [StableHlo.binary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [Function.update_of_ne]; rotate_left; exact fun e => absurd (Proc.devRef_injective _ e) (by decide))
               | rw [Function.update_self])))

/-- An argument of the entry function is never written: at the end of the chain it holds the launch contents. -/
theorem arg_W5 (d : Dev nD) (r : Ref sig .tc) (hr : r ∈ [main_arg0, main_arg1, main_arg2, main_arg3, main_arg4, main_arg5, main_arg6]) :
    W5 m d (Proc.devRef .tc r) = m ((d.tc : Thread nD τ).loc r) := by
  unfold W5 W4 W3 W2 W1
  simp only [List.mem_cons, List.mem_nil_iff, or_false] at hr
  rcases hr with rfl | rfl | rfl | rfl | rfl | rfl | rfl <;> (walk <;> rfl)

/-- A final state that holds every unscoped buffer at the chain's last contents holds the seven arguments unchanged. -/
theorem post_args (r : PUnit × MemSt nD τ sig (Elt F))
    (h : ∀ c : Dev nD, ∀ b : Ref sig .tc, b.isScoped = false → r.2.mem ((c.tc : Thread nD τ).loc b) = W5 m c (Proc.devRef .tc b))
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c main_arg0 rfl).trans (arg_W5 m c main_arg0 (by simp)),
    (h c main_arg1 rfl).trans (arg_W5 m c main_arg1 (by simp)),
    (h c main_arg2 rfl).trans (arg_W5 m c main_arg2 (by simp)),
    (h c main_arg3 rfl).trans (arg_W5 m c main_arg3 (by simp)),
    (h c main_arg4 rfl).trans (arg_W5 m c main_arg4 (by simp)),
    (h c main_arg5 rfl).trans (arg_W5 m c main_arg5 (by simp)),
    (h c main_arg6 rfl).trans (arg_W5 m c main_arg6 (by simp))⟩

end Cert.Proof.KB

end
-- ==== Proof.B.TileRes.lean ====
import proofs.«201762_g83623013253620_cont_9to1_m_623_34_alg».proof.Proof.B.CommonP
import proofs.«201762_g83623013253620_cont_9to1_m_623_34_alg».proof.Proof.Spec
/-!
# A tile's share of the launch, spelt both ways

The launch hands a vector subcore its own semaphores at zero and its own buffers at some contents; the
kernel's body names four of those semaphores (one per copy) and two of those buffers (the index scratch
and the accumulator).  Here they are named apart from the rest, the whole arrays the body is called with
are identified with the launch's locations of them, and the kernel's label on a tile is the body at the
tile's coordinates.
-/

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "leadW" => (Memref.whole Cert.Kernel.main_arg4_scv : Memref Cert.Kernel.sig Kind.scVector Space.hbm Cert.Kernel.S1024 EltTy.i32)
local notation "nonmW" => (Memref.whole Cert.Kernel.main_arg3_scv : Memref Cert.Kernel.sig Kind.scVector Space.hbm Cert.Kernel.S1024 EltTy.i32)
local notation "memW" => (Memref.whole Cert.Kernel.main_arg2_scv : Memref Cert.Kernel.sig Kind.scVector Space.hbm Cert.Kernel.S1024 EltTy.i32)
local notation "cntW" => (Memref.whole Cert.Kernel.main_v2_scv : Memref Cert.Kernel.sig Kind.scVector Space.hbm Cert.Kernel.S3x4096 EltTy.f32)
local notation "idxS" => (Memref.whole Cert.Kernel.cc0_scratch0 : Memref Cert.Kernel.sig Kind.scVector Space.vmem Cert.Kernel.S1024 EltTy.i32)
local notation "accS" => (Memref.whole Cert.Kernel.cc0_scratch1 : Memref Cert.Kernel.sig Kind.scVector Space.vmem Cert.Kernel.S4096 EltTy.f32)

/-- Every device's three index lists name rows: each word is below 4096. -/
def PreOK (m : (ℓ : Loc nD τ sig) → Buf (Elt F) ℓ) : Prop :=
  ∀ d : Dev nD, Cert.Spec.InRange (m (leadLoc d)) ∧ Cert.Spec.InRange (m (nonmLoc d)) ∧ Cert.Spec.InRange (m (memLoc d))

/-! ## A tile's own semaphores and buffers, the kernel's named apart -/

section Tile

variable (d : Dev nD) (c : Fin τ.nSC) (i : Fin τ.nSub)

omit [FloatOps F] in
/-- The four copy semaphores are among the tile's own cells: they are them, at zero, and the rest. -/
theorem ownSems0_V :
    (ownSems0 (V d c i) : sProp 𝕄)
      = iprop(semVal (V d c i, SemLoc.dma cc0_scoped0.sem) 0 ∗ semVal (V d c i, SemLoc.dma cc0_scoped1.sem) 0
          ∗ semVal (V d c i, SemLoc.dma cc0_scoped2.sem) 0 ∗ semVal (V d c i, SemLoc.dma cc0_scoped3.sem) 0
          ∗ bigSep (((((ownCells (V d c i)).erase (V d c i, SemLoc.dma cc0_scoped0.sem)).erase (V d c i, SemLoc.dma cc0_scoped1.sem)).erase
              (V d c i, SemLoc.dma cc0_scoped2.sem)).erase (V d c i, SemLoc.dma cc0_scoped3.sem))
              fun g => semVal g 0) := by
  have ne : ∀ (a b : SemLoc sig), a ≠ b → ((V d c i, a) : GSem nD τ sig) ≠ (V d c i, b) := fun a b h e => h (congrArg Prod.snd e)
  unfold SparseCore.Cfg.ownSems0
  rw [SparseCore.bigSep_erase' ((mem_ownCells (g := (V d c i, SemLoc.dma cc0_scoped0.sem))).mpr ⟨rfl, by
      show (SemLoc.dma cc0_scoped0.sem : SemLoc sig).isScoped .scVector = true; decide⟩),
    SparseCore.bigSep_erase' (Finset.mem_erase.mpr ⟨ne _ _ (by decide), (mem_ownCells (g := (V d c i, SemLoc.dma cc0_scoped1.sem))).mpr ⟨rfl, by
      show (SemLoc.dma cc0_scoped1.sem : SemLoc sig).isScoped .scVector = true; decide⟩⟩),
    SparseCore.bigSep_erase' (Finset.mem_erase.mpr ⟨ne _ _ (by decide), Finset.mem_erase.mpr ⟨ne _ _ (by decide),
      (mem_ownCells (g := (V d c i, SemLoc.dma cc0_scoped2.sem))).mpr ⟨rfl, by show (SemLoc.dma cc0_scoped2.sem : SemLoc sig).isScoped .scVector = true; decide⟩⟩⟩),
    SparseCore.bigSep_erase' (Finset.mem_erase.mpr ⟨ne _ _ (by decide), Finset.mem_erase.mpr ⟨ne _ _ (by decide), Finset.mem_erase.mpr ⟨ne _ _ (by decide),
      (mem_ownCells (g := (V d c i, SemLoc.dma cc0_scoped3.sem))).mpr ⟨rfl, by show (SemLoc.dma cc0_scoped3.sem : SemLoc sig).isScoped .scVector = true; decide⟩⟩⟩⟩)]

omit [FloatOps F] in
/-- The two scratch buffers are among the tile's own: they are them, at some contents, and the rest. -/
theorem ownBufs_V :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

/-! ## The arrays as the body names them and as the handshakes hold them -/

omit [FloatOps F] in
theorem pts_lead (f : Buf (Elt F) (leadLoc d)) :
    ((leadW).view.loc (V d c i) ↦{fullShare} f : sProp 𝕄) = leadLoc d ↦{fullShare} f := rfl
omit [FloatOps F] in
theorem pts_nonm (f : Buf (Elt F) (nonmLoc d)) :
    ((nonmW).view.loc (V d c i) ↦{fullShare} f : sProp 𝕄) = nonmLoc d ↦{fullShare} f := rfl
omit [FloatOps F] in
theorem pts_mem (f : Buf (Elt F) (memLoc d)) :
    ((memW).view.loc (V d c i) ↦{fullShare} f : sProp 𝕄) = memLoc d ↦{fullShare} f := rfl
omit [FloatOps F] in
theorem pts_idx (f : Buf (Elt F) ((V d c i).loc cc0_scratch0)) :
    ((idxS).view.loc (V d c i) ↦{fullShare} f : sProp 𝕄) = (V d c i).loc cc0_scratch0 ↦{fullShare} f := rfl
omit [FloatOps F] in
theorem pts_acc (f : Buf (Elt F) ((V d c i).loc cc0_scratch1)) :
    ((accS).view.loc (V d c i) ↦{fullShare} f : sProp 𝕄) = (V d c i).loc cc0_scratch1 ↦{fullShare} f := rfl

end Tile

/-! ## The kernel's label on a tile -/

theorem defs₀_vector (c : Fin τ.nSC) (s : Fin τ.nSub) :
    defs₀ (F := F) (.scVector c s) 0 ()
      = SparseCore.onTile hcore0 hsub0 (fun c s => cc0__sc_counts_body (coordsV c s)
          leadW (Memref.isWhole_whole _) nonmW (Memref.isWhole_whole _) memW (Memref.isWhole_whole _) cntW (Memref.isWhole_whole _)
          idxS (Memref.isWhole_whole _) accS (Memref.isWhole_whole _) cc0_scoped0 cc0_scoped1 cc0_scoped2 cc0_scoped3) ⟨⟩ c s := rfl

end Cert.Proof.KB

end
-- ==== Proof.B.SplitP.lean ====
import proofs.«201762_g83623013253620_cont_9to1_m_623_34_alg».proof.Proof.B.CommonP
import Idealize.ShloMosaic.Rules.PointsTo

/-!
# The call's payloads: what goes to the tiles and what comes back

The counts array's index set is the disjoint union of its three rows, so the array held whole is the three rows held
apart.  A SparseCore's share is the separating conjunction of its sixteen tiles' shares: all but the role tiles'
(tile number 2·subcore + core below 3) are empty.  Hence the sequencer's split to its tiles and back is the identity,
and the two cores' shares together are the three lists and the whole counts array.
-/

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (m : (ℓ : Loc nD τ sig) → Buf (Elt F) ℓ)

/-! ## The three rows partition the counts array -/

theorem rows_cover : (Finset.univ : Finset S3x4096.Idx) = rowSet 0 ∪ (rowSet 1 ∪ rowSet 2) := by
  ext y
  simp only [rowSet, Finset.mem_univ, Finset.mem_union, Finset.mem_filter, true_and, true_iff]
  have h : (y 0).val < 3 := (y 0).isLt
  omega

theorem rows_disj12 : Disjoint (rowSet 1) (rowSet 2) := by
  rw [Finset.disjoint_left]; intro y h1 h2
  simp only [rowSet, Finset.mem_filter, Finset.mem_univ, true_and] at h1 h2
  omega

theorem rows_disj0 : Disjoint (rowSet 0) (rowSet 1 ∪ rowSet 2) := by
  rw [Finset.disjoint_left]; intro y h0 h12
  simp only [rowSet, Finset.mem_union, Finset.mem_filter, Finset.mem_univ, true_and] at h0 h12
  omega

/-- The counts array held whole is its three rows held apart. -/
theorem cnt_rows (d : Dev nD) (f : Buf (Elt F) (cntLoc d)) :
    (cntLoc d ↦{fullShare} f : sProp 𝕄) = iprop(rowPts d 0 f ∗ rowPts d 1 f ∗ rowPts d 2 f) := by
  show (cntLoc d ↦[(Finset.univ : Finset S3x4096.Idx)]{fullShare} f : sProp 𝕄) = _
  have h0 : (cntLoc d ↦[rowSet 0 ∪ (rowSet 1 ∪ rowSet 2)]{fullShare} f : sProp 𝕄)
      ⊣⊢ iprop((cntLoc d ↦[rowSet 0]{fullShare} f) ∗ cntLoc d ↦[rowSet 1 ∪ rowSet 2]{fullShare} f) := pointsTo_union rows_disj0
  have h12 : (cntLoc d ↦[rowSet 1 ∪ rowSet 2]{fullShare} f : sProp 𝕄)
      ⊣⊢ iprop((cntLoc d ↦[rowSet 1]{fullShare} f) ∗ cntLoc d ↦[rowSet 2]{fullShare} f) := pointsTo_union rows_disj12
  rw [rows_cover, BI.equiv_iff.mp ⟨h0.1, h0.2⟩, BI.equiv_iff.mp ⟨h12.1, h12.2⟩]

/-! ## A tile with number at least 3 is handed nothing -/

theorem tileRes_idle (d : Dev nD) (w : ℕ) (hw : 3 ≤ w) (f : Buf (Elt F) (cntLoc d)) : tileRes m d w f = iprop(emp) := by
  unfold tileRes
  rw [if_neg (by omega), if_neg (by omega), if_neg (by omega)]

theorem bigSep_emp16 (s : Finset (Fin 16)) : bigSep s (fun _ => (iprop(emp) : sProp 𝕄)) = iprop(emp) := bigSep_emp_const s
theorem sep_emp_eq (X : sProp 𝕄) : iprop(X ∗ emp) = X := BI.equiv_iff.mp sep_emp

/-- A core's share is its sixteen tiles' shares. -/
theorem tiles_eq (d : Dev nD) (c : Fin 2) (f : Buf (Elt F) (cntLoc d)) :
    (bigSep (Finset.univ : Finset (Fin 16)) fun i => tileRes m d (2 * i.val + c.val) f) = coreRes m d c.val f := by
  match c with
  | ⟨0, _⟩ =>
    rw [SparseCore.bigSep_erase' (Finset.mem_univ (0 : Fin 16)),
      SparseCore.bigSep_erase' (show (1 : Fin 16) ∈ Finset.univ.erase 0 by decide),
      bigSep_congr (Ψ := fun _ => iprop(emp)) (fun i hi => by
        rw [Finset.mem_erase, Finset.mem_erase] at hi
        have h1 : i.val ≠ 1 := fun h => hi.1 (Fin.ext h)
        have h0 : i.val ≠ 0 := fun h => hi.2.1 (Fin.ext h)
        exact tileRes_idle m d _ (by omega) f),
      bigSep_emp16, sep_emp_eq]
    rfl
  | ⟨1, _⟩ =>
    rw [SparseCore.bigSep_erase' (Finset.mem_univ (0 : Fin 16)),
      bigSep_congr (Ψ := fun _ => iprop(emp)) (fun i hi => by
        rw [Finset.mem_erase] at hi
        have h0 : i.val ≠ 0 := fun h => hi.1 (Fin.ext h)
        exact tileRes_idle m d _ (by show 3 ≤ 2 * i.val + 1; omega) f),
      bigSep_emp16, sep_emp_eq]
    rfl

/-! ## The three obligations about the payloads -/

/-- The sequencer hands each tile its share and takes the shares back: both ways the identity. -/
theorem vecSplit : (K (F := F)).VecSplit' (P m) 0 := by
  intro d c
  show coreRes m d c.val (m (cntLoc d)) ⊢ |={Set.univ}=> iprop(
      (bigSep (Finset.univ : Finset (Fin 16)) fun i => tileRes m d (2 * i.val + c.val) (m (cntLoc d)))
      ∗ ((bigSep (Finset.univ : Finset (Fin 16)) fun i => tileRes m d (2 * i.val + c.val) (CNT m d)) -∗ coreRes m d c.val (CNT m d)))
  rw [tiles_eq m d c, tiles_eq m d c]
  iintro H
  imodintro
  isplitl [H]; · iexact H
  iintro H2; iexact H2

/-- The two cores' shares as one conjunction. -/
theorem cores_eq (d : Dev nD) (f : Buf (Elt F) (cntLoc d)) :
    (bigSep (Finset.univ : Finset (Fin 2)) fun c => coreRes m d c.val f)
      = iprop(((leadPts m d ∗ rowPts d 0 f) ∗ (memPts m d ∗ rowPts d 2 f)) ∗ (nonmPts m d ∗ rowPts d 1 f)) := by
  rw [bigSep_fin_two]; rfl

/-- At the launch: the three lists and the counts array are the two cores' shares. -/
theorem st_intro (d : Dev nD) :
    iprop(leadPts m d ∗ nonmPts m d ∗ memPts m d ∗ cntLoc d ↦{fullShare} m (cntLoc d))
      ⊢ bigSep Finset.univ fun c : Fin ((K (F := F)).nCore 0) => (P m).st 0 d c := by
  show _ ⊢ bigSep (Finset.univ : Finset (Fin 2)) fun c => coreRes m d c.val (m (cntLoc d))
  rw [cores_eq, cnt_rows]
  iintro ⟨Hl, Hn, Hm, H0, H1, H2⟩
  isplitl [Hl H0 Hm H2]
  · isplitl [Hl H0]
    · isplitl [Hl]; · iexact Hl
      iexact H0
    · isplitl [Hm]; · iexact Hm
      iexact H2
  · isplitl [Hn]; · iexact Hn
    iexact H1

/-- After the call: the two cores' shares are the three lists unchanged and the counts array at the histograms. -/
theorem dn_elim (d : Dev nD) :
    (bigSep Finset.univ fun c : Fin ((K (F := F)).nCore 0) => (P m).dn 0 d c)
      ⊢ iprop(leadPts m d ∗ nonmPts m d ∗ memPts m d ∗ cntLoc d ↦{fullShare} CNT m d) := by
  show (bigSep (Finset.univ : Finset (Fin 2)) fun c => coreRes m d c.val (CNT m d)) ⊢ _
  rw [cores_eq, cnt_rows]
  iintro ⟨⟨⟨Hl, H0⟩, Hm, H2⟩, Hn, H1⟩
  isplitl [Hl]; · iexact Hl
  isplitl [Hn]; · iexact Hn
  isplitl [Hm]; · iexact Hm
  isplitl [H0]; · iexact H0
  isplitl [H1]; · iexact H1
  iexact H2

end Cert.Proof.KB

end
-- ==== Proof.B.LaunchSteps.lean ====
import proofs.«201762_g83623013253620_cont_9to1_m_623_34_alg».proof.Proof.B.LaunchDefs
import proofs.«201762_g83623013253620_cont_9to1_m_623_34_alg».proof.Proof.B.SplitP

/-!
@main on the TensorCore from its two non-host steps: the SparseCore call and the pipeline's region are
stated as steps; the host stretches between them run by the straight-line rule.
-/

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held wp_seq wp_hlo_within)

variable {F : FTy → Type} [FloatOps F]

local notation "𝕄" => MT nD τ sig (HIx 1) (Elt F) ℕ UU ℕ

/-! ## The host stretches' side conditions -/

theorem sub01 : ∀ op ∈ (ops01 : List (HloOp τ sig (Elt F))), op.bufs ⊆ Pipeline.ucRefs τ sig := by
  intro op h
  simp only [ops01, List.mem_cons, List.mem_nil_iff, or_false] at h
  rcases h with rfl | rfl <;> exact Pipeline.sub_ucRefs _ (by simp)
theorem fresh01 : ∀ op ∈ (ops01 : List (HloOp τ sig (Elt F))), op.fresh = ∅ := by
  intro _ h; (repeat (cases h with | head => rfl | tail _ h => ?_)); exact nomatch h
theorem sub3_9 : ∀ op ∈ (ops3_9 : List (HloOp τ sig (Elt F))), op.bufs ⊆ Pipeline.ucRefs τ sig := by
  intro op h
  simp only [ops3_9, List.mem_cons, List.mem_nil_iff, or_false] at h
  rcases h with rfl | rfl | rfl | rfl | rfl | rfl | rfl <;> exact Pipeline.sub_ucRefs _ (by simp)
theorem fresh3_9 : ∀ op ∈ (ops3_9 : List (HloOp τ sig (Elt F))), op.fresh = ∅ := by
  intro _ h; (repeat (cases h with | head => rfl | tail _ h => ?_)); exact nomatch h
theorem subK : ∀ op ∈ (opsK : List (HloOp τ sig (Elt F))), op.bufs ⊆ Pipeline.ucRefs τ sig := by
  intro op h
  simp only [opsK, List.mem_cons, List.mem_nil_iff, or_false] at h
  rcases h with rfl | rfl | rfl | rfl | rfl | rfl <;> exact Pipeline.sub_ucRefs _ (by simp)
theorem freshK : ∀ op ∈ (opsK : List (HloOp τ sig (Elt F))), op.fresh = ∅ := by
  intro _ h; (repeat (cases h with | head => rfl | tail _ h => ?_)); exact nomatch h
theorem sub11_16 : ∀ op ∈ (ops11_16 : List (HloOp τ sig (Elt F))), op.bufs ⊆ Pipeline.ucRefs τ sig := by
  intro op h
  simp only [ops11_16, List.mem_cons, List.mem_nil_iff, or_false] at h
  rcases h with rfl | rfl | rfl | rfl | rfl | rfl <;> exact Pipeline.sub_ucRefs _ (by simp)
theorem fresh11_16 : ∀ op ∈ (ops11_16 : List (HloOp τ sig (Elt F))), op.fresh = ∅ := by
  intro _ h; (repeat (cases h with | head => rfl | tail _ h => ?_)); exact nomatch h
theorem sub18_19 : ∀ op ∈ (ops18_19 : List (HloOp τ sig (Elt F))), op.bufs ⊆ Pipeline.ucRefs τ sig := by
  intro op h
  simp only [ops18_19, List.mem_cons, List.mem_nil_iff, or_false] at h
  rcases h with rfl | rfl <;> exact Pipeline.sub_ucRefs _ (by simp)
theorem fresh18_19 : ∀ op ∈ (ops18_19 : List (HloOp τ sig (Elt F))), op.fresh = ∅ := by
  intro _ h; (repeat (cases h with | head => rfl | tail _ h => ?_)); exact nomatch h

/-- The region's line of @main is the pipeline-signature line, lifted to the extended body table. -/
theorem region_line :
    (Prog.lift (.customCall (SparseCore.inner (Pipeline.entry 0)) ()) : Prog (TpuEff nD τ sig (Elt F) (SparseCore.Sig (ΛP (F := F)) 1) .tc) PUnit)
      = SparseCore.liftProg (Q := 1) ((.op (.customCall (Pipeline.entry 0) ()) fun u => .ret u) : Prog (TpuEff nD τ sig (Elt F) (ΛP (F := F)) .tc) PUnit) := rfl

/-! ## @main, item by item -/

section Main

variable [∀ e, Nonempty (Elt F e)]
variable (m : (ℓ : Loc nD τ sig) → Buf (Elt F) ℓ) (ρ : Dev nD → PrngReg)

/-- The launch's unscoped buffers, as the set the host operations run within. -/
theorem unscoped_held0 (d : Dev nD) :
    (unscopedBufs d (fun b => m ((SparseCore.T d).loc b)) : sProp 𝕄) = held (SparseCore.T d) (Pipeline.ucRefs τ sig) (StableHlo.launchContents m d) :=
  Pipeline.unscopedBufs_held d (StableHlo.launchContents m d)

/-- The SparseCore call as a step of @main: the counts array goes from its launch contents to the histograms. -/
def RunStep (κ : GSem nD τ sig → ℕ) (d : Dev nD) : Prop :=
  ∀ (Φ : PUnit → sProp 𝕄),
    iprop((K (F := F)).ctx EH (P m) κ ∗ (K (F := F)).tcSt EH d 0 ∗ held (T d) (Pipeline.ucRefs τ sig) (W1 m d)
        ∗ (((K (F := F)).tcSt EH d 1 ∗ held (T d) (Pipeline.ucRefs τ sig) (W2 m d)) -∗ Φ ⟨⟩))
      ⊢ wp frame (wpE ((K (F := F)).defs (D (F := F))) 𝒱 (T d) none) Set.univ ((K (F := F)).run d 0) Φ

/-- The pipeline's region as a step of @main: the result array goes to what the write-backs leave. -/
def RegStep (κ : GSem nD τ sig → ℕ) (d : Dev nD) : Prop :=
  ∀ (Φ : PUnit → sProp 𝕄),
    iprop((K (F := F)).ctx EH (P m) κ ∗ (K (F := F)).tcSt EH d 1 ∗ boundary (T d) ∗ held (T d) (Pipeline.ucRefs τ sig) (W3 m d) ∗ Gd d
        ∗ (((K (F := F)).tcSt EH d 1 ∗ boundary (T d) ∗ held (T d) (Pipeline.ucRefs τ sig) (W4 m d)) -∗ Φ ⟨⟩))
      ⊢ wp frame (wpE ((K (F := F)).defs (D (F := F))) 𝒱 (T d) none) Set.univ
          (Prog.lift (.customCall (SparseCore.inner (Pipeline.entry 0)) ())) Φ

/-- @main on device `d`'s TensorCore, from the two steps. -/
theorem hmain_of (κ : GSem nD τ sig → ℕ) (d : Dev nD) (hrun : RunStep m κ d) (hreg : RegStep m κ d) :
    iprop((K (F := F)).ctx EH (P m) κ ∗ (K (F := F)).tcSt EH d 0 ∗ (K (F := F)).tcRes m ρ d ∗ Gd d)
      ⊢ wp frame (wpE ((K (F := F)).defs (D (F := F))) 𝒱 (T d) none) Set.univ (main d)
          fun _ => iprop((K (F := F)).tcSt EH d 1 ∗ FIN m d) := by
  rw [main_chain]
  simp only [Pipeline.chain_cons, Pipeline.chain_nil]
  unfold SparseCore.Cfg.tcRes
  rw [unscoped_held0]
  iintro ⟨#Hctx, Hst, ⟨Hb, Hheld, -, -⟩, HG⟩
  -- the two opening operations
  iapply (wp_seq 𝒱 none Set.univ d (Pipeline.ucRefs τ sig) _ ops01 sub01 fresh01 (StableHlo.launchContents m d)) $$ [Hb Hheld]
  · isplitl [Hb]; · iexact Hb
    iexact Hheld
  iintro ⟨Hb, Hheld⟩
  -- the SparseCore call
  rw [wp_bind]
  iapply (hrun _) $$ [Hst Hheld Hb HG]
  isplitr; · iexact Hctx
  isplitl [Hst]; · iexact Hst
  isplitl [Hheld]; · iexact Hheld
  iintro ⟨Hst, Hheld⟩
  -- the host operations up to the region
  iapply (wp_seq 𝒱 none Set.univ d (Pipeline.ucRefs τ sig) _ ops3_9 sub3_9 fresh3_9 (W2 m d)) $$ [Hb Hheld]
  · isplitl [Hb]; · iexact Hb
    iexact Hheld
  iintro ⟨Hb, Hheld⟩
  rw [kron_seq]
  iapply (wp_seq 𝒱 none Set.univ d (Pipeline.ucRefs τ sig) _ opsK subK freshK _) $$ [Hb Hheld]
  · isplitl [Hb]; · iexact Hb
    iexact Hheld
  iintro ⟨Hb, Hheld⟩
  iapply (wp_seq 𝒱 none Set.univ d (Pipeline.ucRefs τ sig) _ ops11_16 sub11_16 fresh11_16 _) $$ [Hb Hheld]
  · isplitl [Hb]; · iexact Hb
    iexact Hheld
  iintro ⟨Hb, Hheld⟩
  -- the region
  rw [wp_bind]
  iapply (hreg _) $$ [Hst Hb Hheld HG]
  isplitr; · iexact Hctx
  isplitl [Hst]; · iexact Hst
  isplitl [Hb]; · iexact Hb
  isplitl [Hheld]; · iexact Hheld
  isplitl [HG]; · iexact HG
  iintro ⟨Hst, Hb, Hheld⟩
  -- the two closing operations
  iapply (wp_seq 𝒱 none Set.univ d (Pipeline.ucRefs τ sig) _ ops18_19 sub18_19 fresh18_19 (W4 m d)) $$ [Hb Hheld]
  · isplitl [Hb]; · iexact Hb
    iexact Hheld
  iintro ⟨Hb, Hheld⟩
  rw [wp_pure]; imodintro
  isplitl [Hst]; · iexact Hst
  unfold FIN W5
  iexact Hheld

end Main

end Cert.Proof.KB

end
-- ==== Proof.B.LaunchRegStep.lean ====
import proofs.«201762_g83623013253620_cont_9to1_m_623_34_alg».proof.Proof.B.LaunchSteps

/-!
The pipeline's region as a step of @main: the region rule of the pipeline's own body table, lifted to the
extended body table of the SparseCore launch, entered from the TensorCore's state after the SparseCore call.
-/

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held wp_seq wp_hlo_within)

variable {F : FTy → Type} [FloatOps F]

local notation "𝕄" => MT nD τ sig (HIx 1) (Elt F) ℕ UU ℕ

/-! ## The region step -/

section RegStep

variable [∀ e, Nonempty (Elt F e)]
variable (m : (ℓ : Loc nD τ sig) → Buf (Elt F) ℓ)

/-- The buffers after the region, over references, are the region's account of them. -/
theorem W4_eq (d : Dev nD) : (fun b : Ref sig .tc => W4 m d b) = Vpost (Vent m) d := by
  funext b
  unfold W4 Vpost
  by_cases h : b = main_v16
  · subst h; rw [Function.update_self, Function.update_self]
  · rw [Function.update_of_ne h, Function.update_of_ne (StableHlo.devRef_ne_of_ne h)]; rfl

theorem reg1_pre (V : (d : Dev nD) → (b : Ref sig .tc) → Buf (Elt F) ((d.tc : Thread nD τ).loc b)) (hbody : TcBody (F := F)) (d : Dev nD) :
    (reg1 V hbody).pre d = iprop(unscopedBufs d (V d) ∗ OW d) := rfl
theorem reg1_post (V : (d : Dev nD) → (b : Ref sig .tc) → Buf (Elt F) ((d.tc : Thread nD τ).loc b)) (hbody : TcBody (F := F)) (d : Dev nD) :
    (reg1 V hbody).post d = iprop(unscopedBufs d (Vpost V d) ∗ OW d) := rfl

theorem regStep (hbody : TcBody (F := F)) (κ : GSem nD τ sig → ℕ) (d : Dev nD) : RegStep m κ d := by
  intro Φ
  rw [region_line]
  refine BIBase.Entails.trans ?_ ((K (F := F)).wp_liftProg (D (F := F)) 𝒱 (SparseCore.T d) Set.univ none _ Φ)
  unfold SparseCore.Cfg.tcSt Gd
  rw [(K (F := F)).Otc_end d (le_refl 1), ← Pipeline.unscopedBufs_held d (W3 m d), ← Pipeline.unscopedBufs_held d (W4 m d), W4_eq]
  have hreg := Pipeline.RegionSeg.wp (pcfgs (F := F)) adm (pdats (fun d => Aof d (Vent m d))) (none : HIx 1) hinj1 ER defs₀ 𝒱₀
    (Lk (F := F)) (lvk (F := F)) (reg1 (Vent m) hbody) d none (by simp) (fun u => .ret u) Φ
  rw [reg1_pre, reg1_post] at hreg
  unfold OW at hreg
  iintro ⟨#Hctx, ⟨HO, Hrest⟩, Hb, Hub, ⟨Hg, Ht⟩, Hk⟩
  ihave #Hlev := (SparseCore.Cfg.ctx_levAts κ) $$ Hctx
  iapply hreg
  isplitl [Hk Hrest]
  · iintro ⟨Hb, Hub, HO⟩
    rw [wp_ret]; imodintro
    iapply Hk
    isplitl [HO Hrest]
    · isplitl [HO]; · iexact HO
      iexact Hrest
    isplitl [Hb]; · iexact Hb
    iexact Hub
  isplitl [Hb]; · iexact Hb
  isplitl [Hub HO]
  · isplitl [Hub]; · iexact Hub
    iexact HO
  isplitr; · iexact Hlev
  isplitl [Hg]; · iexact Hg
  iexact Ht

end RegStep

end Cert.Proof.KB

end
-- ==== Proof.B.LaunchHu0.lean ====
import proofs.«201762_g83623013253620_cont_9to1_m_623_34_alg».proof.Proof.B.LaunchDefs

/-!
The launch element of the ghost state: the handshakes' rounds are handed over as they are; the pipeline's
rounds fund, device by device, the ghost state of the one pipeline's staging cells and the duty tokens of its
transfers; the counters are not needed, and no thread is dealt anything of the kernels' own.
-/

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ)

omit [FloatOps F] [∀ e, Nonempty (Elt F e)] in
/-- A conjunction over the one pipeline is its one conjunct. -/
theorem hu0_bigSep_one (Φ : Fin 1 → sProp 𝕄) : bigSep Finset.univ Φ = Φ 0 := by
  rw [show (Finset.univ : Finset (Fin 1)) = {0} from by decide, bigSep_singleton]

omit [FloatOps F] [∀ e, Nonempty (Elt F e)] in
/-- A conjunction of empty assertions is empty. -/
theorem hu0_bigSep_emp {I : Type} (s : Finset I) : (bigSep s fun _ => iprop(emp)) = (iprop(emp) : sProp 𝕄) := bigSep_emp_const s

/-- The launch element splits into the handshakes' part and, after funding, each device's share for the pipeline. -/
theorem hu₀ : (ownU (u₀ (F := F)) : sProp 𝕄)
    ⊢ |={Set.univ}=> iprop(BI.own ((EH (F := F)) (initOf (K (F := F)).hsCells (K (F := F)).hsToks))
        ∗ (bigSep Finset.univ fun d : Dev nD => Gd (F := F) d)
        ∗ bigSep Finset.univ fun thr : Thread nD τ => bigSep Finset.univ fun q : Fin 1 => (P m).x q thr) := by
  have hfund := Pipeline.fund_ghost (Pipeline.pin (pcfgs (F := F)) adm) (ER (F := F)) hinj1
  unfold Gd
  unfold ER at hfund ⊢
  unfold u₀
  iintro Hu
  ihave H := (ownU_pair _ _) $$ Hu
  icases H with ⟨HH, HR⟩
  ihave H2 := (own_pair_emb embR _ _) $$ HR
  icases H2 with ⟨HRr, -⟩
  imod hfund $$ HRr with ⟨Hg, Ht⟩
  imodintro
  isplitl [HH]; · iexact HH
  isplitl [Hg Ht]
  · rw [bigSep_sep']
    simp only [hu0_bigSep_one]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => hu0_bigSep_emp _, hu0_bigSep_emp]]
  iempintro

end Cert.Proof.KB
end
-- ==== Proof.B.LaunchFin.lean ====
import proofs.«201762_g83623013253620_cont_9to1_m_623_34_alg».proof.Proof.B.LaunchDefs

/-!
What @main leaves on a device reads the claim: under the state interpretation, holding every unscoped
TensorCore buffer whole at its final contents pins the physical memory of each of them.
-/

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ)

/-- Each unscoped TensorCore buffer of the final state holds its final contents. -/
theorem hfin (d : Dev nD) (s' : Phys nD τ sig (Elt F)) : iprop(FIN m d ∗ SI s') ⊢ (⌜fq m d s'⌝ : sProp 𝕄) := by
  unfold FIN held fq
  iintro ⟨Hh, HSI⟩
  ihave %h := (SI_pointsTo_bufs_agree (st := s') (c := d) (qs := fun _ => fullShare) (F := W5 m d) (Pipeline.ucRefs τ sig)) $$ [HSI Hh]
  · isplitl [HSI] <;> iassumption
  ipureintro
  intro b hb
  exact h (Proc.devRef .tc b) (Finset.mem_filter.mpr ⟨StableHlo.devRef_mem_tcRefs b, by
    rw [show (Proc.devRef (τ := τ) .tc b).isScoped = b.isScoped from rfl, hb]; exact Bool.false_ne_true⟩)

end Cert.Proof.KB
end
-- ==== Proof.B.LaunchRun.lean ====
import proofs.«201762_g83623013253620_cont_9to1_m_623_34_alg».proof.Proof.B.LaunchSteps

/-!
The SparseCore call as a step of @main on the TensorCore.  Of the unscoped buffers the TensorCore holds, the
call concerns four: the three index lists and the counts array.  They are handed to the two SparseCores'
sequencers as the call's payload and come back with the lists unchanged and the counts array at the three
histograms; every other buffer is untouched, and the two opening host operations before the call write
none of the four.
-/

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Idealize.ShloMosaic.StableHlo (held)
open Idealize.ShloMosaic.SparseCore.Cfg (tileRest ownBufs ownSems0 ownCells ownRefs mem_ownCells mem_ownRefs)

variable {F : FTy → Type} [FloatOps F] [∀ e, Nonempty (Elt F e)]

local notation "𝕄" => MT nD τ sig (HIx 1) (Elt F) ℕ UU ℕ

variable (m : (ℓ : Loc nD τ sig) → Buf (Elt F) ℓ)

abbrev a4 : DevRef τ sig := Proc.devRef .tc (main_arg4 : Ref sig .tc)
abbrev a3 : DevRef τ sig := Proc.devRef .tc (main_arg3 : Ref sig .tc)
abbrev a2 : DevRef τ sig := Proc.devRef .tc (main_arg2 : Ref sig .tc)

/-- The call's four buffers: the leaders', nonmembers' and members' lists and the counts array. -/
abbrev T4 : Finset (DevRef τ sig) := {a4, a3, a2, x2}

omit [FloatOps F] [∀ e, Nonempty (Elt F e)] in
/-- They are unscoped buffers of the TensorCore. -/
theorem T4_sub : T4 ⊆ Pipeline.ucRefs τ sig := by decide

omit [FloatOps F] [∀ e, Nonempty (Elt F e)] in
/-- The four held together are the four points-to assertions. -/
theorem held_T4 (d : Dev nD) (W : Valuation τ sig (Elt F)) :
    (held (SparseCore.T d) T4 W : sProp 𝕄)
      = iprop((leadLoc d ↦{fullShare} W a4) ∗ (nonmLoc d ↦{fullShare} W a3) ∗ (memLoc d ↦{fullShare} W a2) ∗ (cntLoc d ↦{fullShare} W x2)) := by
  unfold held T4
  rw [SparseCore.bigSep_insert' (by decide), SparseCore.bigSep_insert' (by decide), SparseCore.bigSep_insert' (by decide), bigSep_singleton]

/-- The two opening operations write only their own results: any other buffer keeps its launch contents. -/
theorem W1_keep (d : Dev nD) (r : Ref sig .tc) (hr : r ∉ [main_v0, main_v1]) :
    W1 m d (Proc.devRef .tc r) = m (d, Proc.devRef .tc r) := by
  unfold W1
  exact StableHlo.after_of_writes_sub (W := [main_v0, main_v1]) ops01 _ (by simp [ops01, List.Forall]) hr

/-- The four buffers' contents before and after the call. -/
theorem W1_a4 (d : Dev nD) : W1 m d a4 = m (leadLoc d) := W1_keep m d main_arg4 (by decide)
theorem W1_a3 (d : Dev nD) : W1 m d a3 = m (nonmLoc d) := W1_keep m d main_arg3 (by decide)
theorem W1_a2 (d : Dev nD) : W1 m d a2 = m (memLoc d) := W1_keep m d main_arg2 (by decide)
theorem W1_x2 (d : Dev nD) : W1 m d x2 = m (cntLoc d) := W1_keep m d main_v2 (by decide)
theorem W2_a4 (d : Dev nD) : W2 m d a4 = m (leadLoc d) := (Function.update_of_ne (show a4 ≠ x2 by decide) _ _).trans (W1_a4 m d)
theorem W2_a3 (d : Dev nD) : W2 m d a3 = m (nonmLoc d) := (Function.update_of_ne (show a3 ≠ x2 by decide) _ _).trans (W1_a3 m d)
theorem W2_a2 (d : Dev nD) : W2 m d a2 = m (memLoc d) := (Function.update_of_ne (show a2 ≠ x2 by decide) _ _).trans (W1_a2 m d)
theorem W2_x2 (d : Dev nD) : W2 m d x2 = CNT m d := Function.update_self _ _ _

/-- Off the four, the call changes nothing. -/
theorem held_rest (d : Dev nD) :
    (held (SparseCore.T d) (Pipeline.ucRefs τ sig \ T4) (W2 m d) : sProp 𝕄) = held (SparseCore.T d) (Pipeline.ucRefs τ sig \ T4) (W1 m d) :=
  StableHlo.held_congr (SparseCore.T d) fun b hb => Function.update_of_ne (fun h => (Finset.mem_sdiff.mp hb).2 (by rw [h]; decide)) _ _

/-- THE SPARSECORE CALL, as a step of @main. -/
theorem runStep (κ : GSem nD τ sig → ℕ) (d : Dev nD) : RunStep m κ d := by
  intro Φ
  rw [StableHlo.held_sub_split (SparseCore.T d) T4_sub (W1 m d), StableHlo.held_sub_split (SparseCore.T d) T4_sub (W2 m d), held_T4, held_T4,
    held_rest, W1_a4, W1_a3, W1_a2, W1_x2, W2_a4, W2_a3, W2_a2, W2_x2]
  iintro ⟨#Hctx, Hst, ⟨⟨Hl, Hn, Hm, Hc⟩, Hrest⟩, Hk⟩
  iapply ((K (F := F)).wp_run (D (F := F)) 𝒱 (EH := EH) (P := P m) κ d 0) $$ [Hst Hl Hn Hm Hc Hrest Hk]
  isplitr; · iexact Hctx
  isplitl [Hst]; · iexact Hst
  isplitl [Hl Hn Hm Hc]
  · iapply (st_intro m d)
    isplitl [Hl]; · iexact Hl
    isplitl [Hn]; · iexact Hn
    isplitl [Hm]; · iexact Hm
    iexact Hc
  iintro ⟨Hst, Hdn⟩
  ihave Hdn' := (dn_elim m d) $$ Hdn
  icases Hdn' with ⟨Hl, Hn, Hm, Hc⟩
  iapply Hk
  isplitl [Hst]; · iexact Hst
  isplitl [Hl Hn Hm Hc]
  · isplitl [Hl]; · iexact Hl
    isplitl [Hn]; · iexact Hn
    isplitl [Hm]; · iexact Hm
    iexact Hc
  iexact Hrest

end Cert.Proof.KB
end
-- ==== Proof.B.TcBodyRun.lean ====
import proofs.«201762_g83623013253620_cont_9to1_m_623_34_alg».proof.Proof.B.LaunchTc
import Idealize.ShloMosaic.Lib.Tactic
import Idealize.ShloMosaic.Lib.Ring

/-!
The TensorCore kernel's body run on any whole staging memrefs, in its two cases: at the first point of the
grid the body stores the table (the three scaled histograms times the transposed features, rounded) into the
scratch and then reads it; at every later point it only reads it.  Either way it loads the adjacency's column
block, the table, the block's diagonal square, the table's and the features' columns of the point, the weights
and the bias, and stores the point's block of the result.  What each buffer holds afterwards is stated as the
canonical contents of the one whole-rectangle store over the values loaded.
-/

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [∀ e, Nonempty (Elt F e)]

local notation "𝕄" => MT nD τ sig (HIx 1) (Elt F) ℕ UU ℕ

/-- The condition of the body's one branch, from the grid coordinates: the point is the first along the grid's axis. -/
abbrev cond1 (i : grid1.Coords) : Prop :=
  Scalar.cmpi .ne (Scalar.extui (Scalar.cmpi .eq (BitVec.ofNat 32 (i 0).val) 0#32)) 0#32 = 1#1

/-- The table the first point stores into the scratch, from what the histograms' buffer (`x2`) and the transposed
    features' buffer (`x3`) read: the one whole-rectangle store of the scaled products. -/
def tableOf (x2 : Vec F S3x4096 .f32) (x3 : Vec F S7x4096 .f32) : S21x4096.Idx → Elt F .bf16 :=
  View.canon [⟨R21, k1_pay1 (View.ld x2 R3) (View.ld x3 R7)⟩]

/-- The block a point stores into the output's buffer, from what the adjacency's column block (`x1`), the scratch
    table (`s`), the features (`x3`), the weights (`x4`) and the bias (`x5`) read: the one whole-rectangle store. -/
def outOf (i : grid1.Coords) (x1 : Vec F S4096x512 .f32) (s : S21x4096.Idx → Elt F .bf16) (x3 : Vec F S7x4096 .f32)
    (x4 : Vec F S1792x28 .bf16) (x5 : Vec F S1792x1 .f32) : S1792x512.Idx → Elt F .f32 :=
  View.canon [⟨RO, k1_pay2 (View.ld x1 RA) (View.ld s R21) (View.ld x1 (RD i)) (View.ld s (RG i)) (View.ld x3 (RF i))
    (View.ld x4 RW) (View.ld x5 RB)⟩]

/-- The body at the first point, on any whole staging memrefs: the branch is taken, the table is stored into the
    scratch (whatever it held) and read back whole and by the point's columns; the inputs' buffers are left as they
    were, the output's holds the point's block, the scratch the table. -/
theorem run_first (d : Dev nD) (i : grid1.Coords)
    (arg1 : Memref sig .tc .vmem S4096x512 .f32) (harg1 : arg1.IsWhole) (arg2 : Memref sig .tc .vmem S3x4096 .f32) (harg2 : arg2.IsWhole)
    (arg3 : Memref sig .tc .vmem S7x4096 .f32) (harg3 : arg3.IsWhole) (arg4 : Memref sig .tc .vmem S1792x28 .bf16) (harg4 : arg4.IsWhole)
    (arg5 : Memref sig .tc .vmem S1792x1 .f32) (harg5 : arg5.IsWhole) (arg6 : Memref sig .tc .vmem S1792x512 .f32) (harg6 : arg6.IsWhole)
    (arg7 : Memref sig .tc .vmem S21x4096 .bf16) (harg7 : arg7.IsWhole) (hc : cond1 i)
    (x1 : Vec F S4096x512 .f32) (x2 : Vec F S3x4096 .f32) (x3 : Vec F S7x4096 .f32) (x4 : Vec F S1792x28 .bf16) (x5 : Vec F S1792x1 .f32)
    (K : PUnit → sProp 𝕄) :
    iprop(owns (d : Thread nD τ) arg1 fullShare x1 ∗ owns (d : Thread nD τ) arg2 fullShare x2 ∗ owns (d : Thread nD τ) arg3 fullShare x3
        ∗ owns (d : Thread nD τ) arg4 fullShare x4 ∗ owns (d : Thread nD τ) arg5 fullShare x5
        ∗ (∃ dd, owns (d : Thread nD τ) arg6 fullShare dd) ∗ (∃ f, owns (d : Thread nD τ) arg7 fullShare f)
        ∗ (iprop(owns (d : Thread nD τ) arg1 fullShare x1 ∗ owns (d : Thread nD τ) arg2 fullShare x2 ∗ owns (d : Thread nD τ) arg3 fullShare x3
            ∗ owns (d : Thread nD τ) arg4 fullShare x4 ∗ owns (d : Thread nD τ) arg5 fullShare x5
            ∗ owns (d : Thread nD τ) arg6 fullShare (outOf i x1 (tableOf x2 x3) x3 x4 x5)
            ∗ owns (d : Thread nD τ) arg7 fullShare (tableOf x2 x3)) -∗ K ⟨⟩))
      ⊢ wp frame (wpE (defs₀ (F := F)) 𝒱₀ d none) Set.univ
          (cc1__tc_body i arg1 harg1 arg2 harg2 arg3 harg3 arg4 harg4 arg5 harg5 arg6 harg6 arg7 harg7) K := by
  rw [cc1__tc_body_eq_skeleton]; unfold cc1__tc_body_skel
  rw [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => View.cover_of_tiledL _ S1792x512.size (by sl_kernel_rfl) y)]
    unfold outOf tableOf
    sl_unfold_run_names
    simp only [View.readAt_eq_ld, harg1.read_unread, harg2.read_unread, harg3.read_unread, harg4.read_unread, harg5.read_unread,
      View.readCov_eq_canon', View.readAt_writes_junk_eq_canon]
  · iexists _; isplitr
    swap; · iexact H7
    ipureintro
    rw [View.read_writes_junk_eq_canon]
    unfold tableOf
    sl_unfold_run_names
    simp only [View.readAt_eq_ld, harg2.read_unread, harg3.read_unread]

/-- The body at a later point: the branch is not taken, the scratch holds `xs` throughout; the output's buffer
    holds the point's block computed from it. -/
theorem run_rest (d : Dev nD) (i : grid1.Coords)
    (arg1 : Memref sig .tc .vmem S4096x512 .f32) (harg1 : arg1.IsWhole) (arg2 : Memref sig .tc .vmem S3x4096 .f32) (harg2 : arg2.IsWhole)
    (arg3 : Memref sig .tc .vmem S7x4096 .f32) (harg3 : arg3.IsWhole) (arg4 : Memref sig .tc .vmem S1792x28 .bf16) (harg4 : arg4.IsWhole)
    (arg5 : Memref sig .tc .vmem S1792x1 .f32) (harg5 : arg5.IsWhole) (arg6 : Memref sig .tc .vmem S1792x512 .f32) (harg6 : arg6.IsWhole)
    (arg7 : Memref sig .tc .vmem S21x4096 .bf16) (harg7 : arg7.IsWhole) (hc : ¬cond1 i)
    (x1 : Vec F S4096x512 .f32) (x2 : Vec F S3x4096 .f32) (x3 : Vec F S7x4096 .f32) (x4 : Vec F S1792x28 .bf16) (x5 : Vec F S1792x1 .f32)
    (xs : S21x4096.Idx → Elt F .bf16) (K : PUnit → sProp 𝕄) :
    iprop(owns (d : Thread nD τ) arg1 fullShare x1 ∗ owns (d : Thread nD τ) arg2 fullShare x2 ∗ owns (d : Thread nD τ) arg3 fullShare x3
        ∗ owns (d : Thread nD τ) arg4 fullShare x4 ∗ owns (d : Thread nD τ) arg5 fullShare x5
        ∗ (∃ dd, owns (d : Thread nD τ) arg6 fullShare dd) ∗ owns (d : Thread nD τ) arg7 fullShare xs
        ∗ (iprop(owns (d : Thread nD τ) arg1 fullShare x1 ∗ owns (d : Thread nD τ) arg2 fullShare x2 ∗ owns (d : Thread nD τ) arg3 fullShare x3
            ∗ owns (d : Thread nD τ) arg4 fullShare x4 ∗ owns (d : Thread nD τ) arg5 fullShare x5
            ∗ owns (d : Thread nD τ) arg6 fullShare (outOf i x1 xs x3 x4 x5)
            ∗ owns (d : Thread nD τ) arg7 fullShare xs) -∗ K ⟨⟩))
      ⊢ wp frame (wpE (defs₀ (F := F)) 𝒱₀ d none) Set.univ
          (cc1__tc_body i arg1 harg1 arg2 harg2 arg3 harg3 arg4 harg4 arg5 harg5 arg6 harg6 arg7 harg7) K := by
  rw [cc1__tc_body_eq_skeleton]; unfold cc1__tc_body_skel
  rw [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => View.cover_of_tiledL _ S1792x512.size (by sl_kernel_rfl) y)]
    unfold outOf
    simp only [View.readAt_eq_ld, harg1.read_unread, harg3.read_unread, harg4.read_unread, harg5.read_unread, harg7.read_unread]
  · iexists _; isplitr; · ipureintro; exact harg7.read_unread _
    iexact H7

end Cert.Proof.KB
end
-- ==== Proof.B.TcBody.lean ====
import proofs.«201762_g83623013253620_cont_9to1_m_623_34_alg».proof.Proof.B.TcBodyRun
import Idealize.ShloMosaic.Lib.Tactic
import Idealize.ShloMosaic.Lib.Ring

/-!
The TensorCore pipeline's body obligation.  At the first point of the grid the scratch holds anything and the
body's branch is taken: it stores the table and the invariant afterwards names it; at every later point the
scratch holds the table and the branch is not taken.  At every point the five input windows' current staging
buffers hold their blocks (fetched there or kept from the point before), the output's holds anything before
the body and the point's block after it; the core owes nothing throughout.
-/

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [∀ e, Nonempty (Elt F e)]

local notation "𝕄" => MT nD τ sig (HIx 1) (Elt F) ℕ UU ℕ

variable (d : Dev nD) (A : (w : Fin cfg1.W) → Buf (Elt F) ((cfg1.win w).arr.view.loc (d.tc : Thread nD τ)))

/-- The branch is taken at the first point only — decided over the grid's eight points. -/
theorem hcond1 : ∀ t : Fin cfg1.N, cond1 (grid1.coords t) ↔ t.val = 0 :=
  (by decide +kernel : ∀ t : Fin grid1.N, cond1 (grid1.coords t) ↔ t.val = 0)

/-- Each window's current staging memref at point `t`, as the pipeline passes it to the body. -/
abbrev ms1_0 (t : Fin cfg1.N) : Memref sig .tc .vmem S4096x512 .f32 := win1_0.stage (cfg1.slots t 0)
abbrev ms1_1 (t : Fin cfg1.N) : Memref sig .tc .vmem S3x4096 .f32 := win1_1.stage (cfg1.slots t 1)
abbrev ms1_2 (t : Fin cfg1.N) : Memref sig .tc .vmem S7x4096 .f32 := win1_2.stage (cfg1.slots t 2)
abbrev ms1_3 (t : Fin cfg1.N) : Memref sig .tc .vmem S1792x28 .bf16 := win1_3.stage (cfg1.slots t 3)
abbrev ms1_4 (t : Fin cfg1.N) : Memref sig .tc .vmem S1792x1 .f32 := win1_4.stage (cfg1.slots t 4)
abbrev ms1_5 (t : Fin cfg1.N) : Memref sig .tc .vmem S1792x512 .f32 := win1_5.stage (cfg1.slots t 5)

/-- The scratch's contents after the first point are the table of the first point's histogram and feature blocks. -/
theorem scrX_eq : scrX d A = tableOf (iblk d A 1 t1_0) (iblk d A 2 t1_0) := by
  unfold scrX gtPay tableOf; rfl

/-- The output's block at a point is the body's store there, over the point's input blocks and the table. -/
theorem outX_eq (t : Fin cfg1.N) :
    outX d A t = outOf (grid1.coords t) (iblk d A 0 t) (scrX d A) (iblk d A 2 t) (iblk d A 3 t) (iblk d A 4 t) := by
  unfold outX outPay outOf; rfl

/-- Before the first point the scratch holds anything. -/
theorem Φ1_first (t : Fin cfg1.N) (hz : t.val = 0) :
    (dat1 d A).Φ t.castSucc = Pipeline.scopedRest (Ix := HIx 1) (Name := ℕ) (U := UU) (Lvl := ℕ) (Val := Elt F) spec1 d := by
  show Φ1 d A t.castSucc = _
  unfold Φ1; exact if_pos hz

/-- What the body is called with at point `t`: the scratch invariant, what the core owes, the six current staging
    buffers at what the pipeline left in them. -/
def bodyPre (t : Fin cfg1.N) : sProp 𝕄 :=
  iprop((dat1 d A).Φ t.castSucc ∗ (dat1 d A).owesAt (none : HIx 1) t.castSucc
    ∗ (∃ dd, owns (d : Thread nD τ) (ms1_0 t) fullShare ((dat1 d A).before 0 t dd))
    ∗ (∃ dd, owns (d : Thread nD τ) (ms1_1 t) fullShare ((dat1 d A).before 1 t dd))
    ∗ (∃ dd, owns (d : Thread nD τ) (ms1_2 t) fullShare ((dat1 d A).before 2 t dd))
    ∗ (∃ dd, owns (d : Thread nD τ) (ms1_3 t) fullShare ((dat1 d A).before 3 t dd))
    ∗ (∃ dd, owns (d : Thread nD τ) (ms1_4 t) fullShare ((dat1 d A).before 4 t dd))
    ∗ (∃ dd, owns (d : Thread nD τ) (ms1_5 t) fullShare ((dat1 d A).before 5 t dd)))

/-- And what it returns: the invariant of the next point, what the core owes, the buffers at what the body leaves. -/
def bodyPost (t : Fin cfg1.N) : sProp 𝕄 :=
  iprop((dat1 d A).Φ t.succ ∗ (dat1 d A).owesAt (none : HIx 1) t.succ
    ∗ owns (d : Thread nD τ) (ms1_0 t) fullShare ((dat1 d A).after 0 t)
    ∗ owns (d : Thread nD τ) (ms1_1 t) fullShare ((dat1 d A).after 1 t)
    ∗ owns (d : Thread nD τ) (ms1_2 t) fullShare ((dat1 d A).after 2 t)
    ∗ owns (d : Thread nD τ) (ms1_3 t) fullShare ((dat1 d A).after 3 t)
    ∗ owns (d : Thread nD τ) (ms1_4 t) fullShare ((dat1 d A).after 4 t)
    ∗ owns (d : Thread nD τ) (ms1_5 t) fullShare ((dat1 d A).after 5 t))

/-- The body at any point, by the point's case. -/
theorem sound_body (t : Fin cfg1.N) :
    bodyPre d A t ⊢ wp frame (wpE (defs₀ (F := F)) 𝒱₀ d none) Set.univ (bodyAt1 t) (fun _ => bodyPost d A t) := by
  unfold bodyPre bodyPost
  simp only [before1_0, before1_1, before1_2, before1_3, before1_4]
  rw [show (dat1 d A).owesAt (none : HIx 1) t.succ = (dat1 d A).owesAt (none : HIx 1) t.castSucc from rfl]
  rw [Φ1_succ, after1_5, outX_eq]
  simp only [after1_in, after1]
  by_cases hz : t.val = 0
  · obtain rfl : t = t1_0 := Fin.ext hz
    rw [Φ1_first d A t1_0 rfl, scopedRest1_eq, scrX_eq]
    iintro ⟨⟨%fs, HS⟩, Ho, ⟨%d0, H0⟩, ⟨%d1, H1⟩, ⟨%d2, H2⟩, ⟨%d3, H3⟩, ⟨%d4, H4⟩, ⟨%d5, H5⟩⟩
    iapply (run_first d (grid1.coords t1_0) _ _ _ _ _ _ _ _ _ _ _ _ _ _ ((hcond1 t1_0).mpr rfl)
      (iblk d A 0 t1_0) (iblk d A 1 t1_0) (iblk d A 2 t1_0) (iblk d A 3 t1_0) (iblk d A 4 t1_0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists fs; rw [owns_whole]; iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [Φ1_pos d A t.castSucc hz]
    iintro ⟨HS, Ho, ⟨%d0, H0⟩, ⟨%d1, H1⟩, ⟨%d2, H2⟩, ⟨%d3, H3⟩, ⟨%d4, H4⟩, ⟨%d5, H5⟩⟩
    iapply (run_rest d (grid1.coords t) _ _ _ _ _ _ _ _ _ _ _ _ _ _ (fun h => hz ((hcond1 t).mp h))
      (iblk d A 0 t) (iblk d A 1 t) (iblk d A 2 t) (iblk d A 3 t) (iblk d A 4 t) (scrX d A) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- THE BODY'S OBLIGATION, at every point. -/
theorem tcBody : TcBody (F := F) := fun d A t => by
  rw [bigSep_W1, bigSep_W1]
  exact sound_body d A t

end Cert.Proof.KB
end
-- ==== Proof.B.TileLemmas.lean ====
import proofs.«201762_g83623013253620_cont_9to1_m_623_34_alg».proof.Proof.B.Hist
import proofs.«201762_g83623013253620_cont_9to1_m_623_34_alg».proof.Proof.Gen.Kernel
import proofs.«201762_g83623013253620_cont_9to1_m_623_34_alg».proof.Proof.Gen.Kernel.Skeleton
import Idealize.ShloMosaic.Lib.Writes
import Idealize.ShloMosaic.Lib.ValueIdx

/-!
Pure facts about the views a role tile reads and writes, for any float instance.

* The zeroing loop: trip `k` stores the zero vector on the eight 16-element strips `128k + 16r`, `r < 8`;
  if the elements below `128k` were zero before, the elements below `128(k+1)` are zero after.  After the
  32 trips the accumulator is zero everywhere.
* The counting loop: trip `k` reads the 16 list words `16k … 16k+15`.
* Landing a whole list in the whole scratch replaces the scratch's contents by the list.
* Landing the accumulator in row `r` of the three-row result: element `(r, m)` then holds element `m`.
-/

noncomputable section

namespace Cert.Proof.KB

open Cert.Kernel Cert.Kernel.Gen Idealize.ShloMosaic Idealize.ShloMosaic.ValueIdx

variable {F : FTy → Type} [FloatOps F]

local notation "aS" => (Memref.whole Cert.Kernel.cc0_scratch1 : Memref Cert.Kernel.sig Kind.scVector Space.vmem Cert.Kernel.S4096 EltTy.f32)
local notation "iS" => (Memref.whole Cert.Kernel.cc0_scratch0 : Memref Cert.Kernel.sig Kind.scVector Space.vmem Cert.Kernel.S1024 EltTy.i32)

/-! ## The zeroing loop -/

/-- The elements below `n` are zero. -/
def ZeroUpTo (n : ℕ) (f : Vec F S4096 .f32) : Prop :=
  ∀ y : S4096.Idx, (y 0).val < n → f y = Scalar.ofBits (F := F) .f32 0x00000000#32

/-- An element lies in a 16-element strip exactly when its coordinate lies between the strip's ends. -/
theorem mem_strip (k : Fin k0_t1_loop.trips) (c : BitVec 32)
    (h : ∀ a, (k0_off1 k c) a + S16.size a ≤ S4096.size a) (y : S4096.Idx) :
    y ∈ (Rect.unit (s := S4096) (k0_off1 k c) S16.size h).set
      ↔ (k0_off1 k c) 0 ≤ (y 0).val ∧ (y 0).val < (k0_off1 k c) 0 + 16 := by
  rw [Rect.mem_set_unit]
  exact Fin.forall_fin_one

theorem trips1 : k0_t1_loop.trips = 32 := by decide
theorem trips2 : k0_t2_loop.trips = 64 := by decide

/-- After all 32 trips the accumulator is zero. -/
theorem zero_full (f : Vec F S4096 .f32) (hz : ZeroUpTo (128 * k0_t1_loop.trips) f) : f = zeros4096 := by
  funext y
  refine hz y ?_
  rw [trips1]
  exact (y 0).isLt

/-- The zero vector the zeroing loop stores. -/
theorem pay1_zero : (k0_pay1 : FVec F S16 .f32) = fun _ => Scalar.ofBits (F := F) .f32 0x00000000#32 := rfl

/-- Stores of zeros on pieces that lie at or above `n` and cover everything from `n` up to `n'` extend the zero
    prefix from `n` to `n'`. -/
theorem zeroUpTo_writes (n n' : ℕ) (f : Vec F S4096 .f32) (L : List (View.Piece (Elt F) S4096 .f32))
    (hz : ZeroUpTo n f)
    (hnc : ∀ p ∈ L, ∀ y ∈ p.1.set, n ≤ (y 0).val)
    (hpay : ∀ p ∈ L, ∀ x, p.2 x = Scalar.ofBits (F := F) .f32 0x00000000#32)
    (hcov : ∀ y : S4096.Idx, n ≤ (y 0).val → (y 0).val < n' → ∃ p ∈ L, y ∈ p.1.set) :
    ZeroUpTo n' ((aS).view.writes (Elt F) f L) := by
  intro y hy
  by_cases hlt : (y 0).val < n
  · have h1 := View.read_writes_apply_of_forall_not_mem (aS).view f y L
      (fun p hp hm => absurd (hnc p hp y hm) (by omega))
    exact h1.trans (hz y hlt)
  · exact View.read_writes_apply_of_pieces (aS).view f (fun _ => Scalar.ofBits (F := F) .f32 0x00000000#32) L
      (fun p hp x => hpay p hp x) y (hcov y (by omega) hy)

/-- One trip of the zeroing loop: eight strips of sixteen zeros from `128k` on. -/
theorem zero_trip (k : Fin k0_t1_loop.trips) (f : Vec F S4096 .f32)
    (h0 : ∀ a, (k0_off1 k 0#32) a + S16.size a ≤ S4096.size a)
    (h1 : ∀ a, (k0_off1 k 16#32) a + S16.size a ≤ S4096.size a)
    (h2 : ∀ a, (k0_off1 k 32#32) a + S16.size a ≤ S4096.size a)
    (h3 : ∀ a, (k0_off1 k 48#32) a + S16.size a ≤ S4096.size a)
    (h4 : ∀ a, (k0_off1 k 64#32) a + S16.size a ≤ S4096.size a)
    (h5 : ∀ a, (k0_off1 k 80#32) a + S16.size a ≤ S4096.size a)
    (h6 : ∀ a, (k0_off1 k 96#32) a + S16.size a ≤ S4096.size a)
    (h7 : ∀ a, (k0_off1 k 112#32) a + S16.size a ≤ S4096.size a)
    (hz : ZeroUpTo (128 * k.val) f) :
    ZeroUpTo (128 * (k.val + 1)) ((aS).view.writes (Elt F) f
      [⟨Rect.unit (s := S4096) (k0_off1 k 112#32) S16.size h7, k0_pay1⟩,
       ⟨Rect.unit (s := S4096) (k0_off1 k 96#32) S16.size h6, k0_pay1⟩,
       ⟨Rect.unit (s := S4096) (k0_off1 k 80#32) S16.size h5, k0_pay1⟩,
       ⟨Rect.unit (s := S4096) (k0_off1 k 64#32) S16.size h4, k0_pay1⟩,
       ⟨Rect.unit (s := S4096) (k0_off1 k 48#32) S16.size h3, k0_pay1⟩,
       ⟨Rect.unit (s := S4096) (k0_off1 k 32#32) S16.size h2, k0_pay1⟩,
       ⟨Rect.unit (s := S4096) (k0_off1 k 16#32) S16.size h1, k0_pay1⟩,
       ⟨Rect.unit (s := S4096) (k0_off1 k 0#32) S16.size h0, k0_pay1⟩]) := by
  have e0 : (k0_off1 k 0#32) 0 = 128 * k.val + 0 := congrFun (k0_off1_eq k ⟨0, by decide⟩) 0
  have e1 : (k0_off1 k 16#32) 0 = 128 * k.val + 16 := congrFun (k0_off1_eq k ⟨1, by decide⟩) 0
  have e2 : (k0_off1 k 32#32) 0 = 128 * k.val + 32 := congrFun (k0_off1_eq k ⟨2, by decide⟩) 0
  have e3 : (k0_off1 k 48#32) 0 = 128 * k.val + 48 := congrFun (k0_off1_eq k ⟨3, by decide⟩) 0
  have e4 : (k0_off1 k 64#32) 0 = 128 * k.val + 64 := congrFun (k0_off1_eq k ⟨4, by decide⟩) 0
  have e5 : (k0_off1 k 80#32) 0 = 128 * k.val + 80 := congrFun (k0_off1_eq k ⟨5, by decide⟩) 0
  have e6 : (k0_off1 k 96#32) 0 = 128 * k.val + 96 := congrFun (k0_off1_eq k ⟨6, by decide⟩) 0
  have e7 : (k0_off1 k 112#32) 0 = 128 * k.val + 112 := congrFun (k0_off1_eq k ⟨7, by decide⟩) 0
  refine zeroUpTo_writes (128 * k.val) _ f _ hz ?_ ?_ ?_
  · -- every strip lies at or above `128k`
    intro p hp y hm
    simp only [List.mem_cons, List.not_mem_nil, or_false] at hp
    rcases hp with rfl | rfl | rfl | rfl | rfl | rfl | rfl | rfl
    · have := (mem_strip k _ h7 y).mp hm; omega
    · have := (mem_strip k _ h6 y).mp hm; omega
    · have := (mem_strip k _ h5 y).mp hm; omega
    · have := (mem_strip k _ h4 y).mp hm; omega
    · have := (mem_strip k _ h3 y).mp hm; omega
    · have := (mem_strip k _ h2 y).mp hm; omega
    · have := (mem_strip k _ h1 y).mp hm; omega
    · have := (mem_strip k _ h0 y).mp hm; omega
  · -- every strip stores zeros
    intro p hp
    simp only [List.mem_cons, List.not_mem_nil, or_false] at hp
    rcases hp with rfl | rfl | rfl | rfl | rfl | rfl | rfl | rfl <;> (intro x; rfl)
  · -- the eight strips cover `128k … 128k+127`
    intro y hge hy
    · have hc : (y 0).val < 128 * k.val + 16 ∨ (128 * k.val + 16 ≤ (y 0).val ∧ (y 0).val < 128 * k.val + 32)
          ∨ (128 * k.val + 32 ≤ (y 0).val ∧ (y 0).val < 128 * k.val + 48) ∨ (128 * k.val + 48 ≤ (y 0).val ∧ (y 0).val < 128 * k.val + 64)
          ∨ (128 * k.val + 64 ≤ (y 0).val ∧ (y 0).val < 128 * k.val + 80) ∨ (128 * k.val + 80 ≤ (y 0).val ∧ (y 0).val < 128 * k.val + 96)
          ∨ (128 * k.val + 96 ≤ (y 0).val ∧ (y 0).val < 128 * k.val + 112) ∨ (128 * k.val + 112 ≤ (y 0).val) := by omega
      rcases hc with c | c | c | c | c | c | c | c
      · exact ⟨_, List.mem_cons_of_mem _ (List.mem_cons_of_mem _ (List.mem_cons_of_mem _ (List.mem_cons_of_mem _ (List.mem_cons_of_mem _
          (List.mem_cons_of_mem _ (List.mem_cons_of_mem _ List.mem_cons_self)))))), (mem_strip k _ h0 y).mpr ⟨by omega, by omega⟩⟩
      · exact ⟨_, List.mem_cons_of_mem _ (List.mem_cons_of_mem _ (List.mem_cons_of_mem _ (List.mem_cons_of_mem _ (List.mem_cons_of_mem _
          (List.mem_cons_of_mem _ List.mem_cons_self))))), (mem_strip k _ h1 y).mpr ⟨by omega, by omega⟩⟩
      · exact ⟨_, List.mem_cons_of_mem _ (List.mem_cons_of_mem _ (List.mem_cons_of_mem _ (List.mem_cons_of_mem _ (List.mem_cons_of_mem _
          List.mem_cons_self)))), (mem_strip k _ h2 y).mpr ⟨by omega, by omega⟩⟩
      · exact ⟨_, List.mem_cons_of_mem _ (List.mem_cons_of_mem _ (List.mem_cons_of_mem _ (List.mem_cons_of_mem _ List.mem_cons_self))),
          (mem_strip k _ h3 y).mpr ⟨by omega, by omega⟩⟩
      · exact ⟨_, List.mem_cons_of_mem _ (List.mem_cons_of_mem _ (List.mem_cons_of_mem _ List.mem_cons_self)),
          (mem_strip k _ h4 y).mpr ⟨by omega, by omega⟩⟩
      · exact ⟨_, List.mem_cons_of_mem _ (List.mem_cons_of_mem _ List.mem_cons_self), (mem_strip k _ h5 y).mpr ⟨by omega, by omega⟩⟩
      · exact ⟨_, List.mem_cons_of_mem _ List.mem_cons_self, (mem_strip k _ h6 y).mpr ⟨by omega, by omega⟩⟩
      · exact ⟨_, List.mem_cons_self, (mem_strip k _ h7 y).mpr ⟨by omega, by omega⟩⟩

/-! ## The counting loop's read -/

/-- Trip `k` of the counting loop reads the words `16k … 16k+15` of the list. -/
theorem chunk_readAt (k : Fin k0_t2_loop.trips) (h : ∀ a, (k0_off2 k) a + S16.size a ≤ S1024.size a) (s : IVec S1024 32) :
    (iS).view.readAt (Elt F) (Rect.unit (s := S1024) (k0_off2 k) S16.size h).toLoadRect s = chunk s k.val := by
  funext x
  rw [View.readAt_apply]
  simp only [Memref.view_whole, View.read_whole]
  unfold chunk
  have hk : k.val < 64 := lt_of_lt_of_eq k.isLt trips2
  have hx : (x 0).val < 16 := (x 0).isLt
  have e : (k0_off2 k) 0 = 16 * k.val := congrFun (k0_off2_eq k) 0
  have key : ∀ j : S1024.Idx, (j 0).val = (16 * k.val + (x 0).val) % 1024 →
      j = ix1 ⟨(16 * k.val + (x 0).val) % 1024, Nat.mod_lt _ (by decide)⟩ :=
    fun j hj => (eq_ix1 j).trans (congrArg ix1 (Fin.ext hj))
  refine congrArg s (key _ ?_)
  show (k0_off2 k) 0 + 1 * (x 0).val = (16 * k.val + (x 0).val) % 1024
  rw [e, Nat.mod_eq_of_lt (by omega)]; omega

/-! ## Landing a list in the scratch -/

theorem land_list4 (fs lst : IVec S1024 32) :
    View.write (Elt F) (iS).view fs ((Memref.whole main_arg4_scv : Memref sig .scVector .hbm S1024 .i32).view.read (Elt F) lst) Finset.univ = lst := by
  simp only [Memref.view_whole, View.read_whole, View.write_whole_univ]

theorem land_list3 (fs lst : IVec S1024 32) :
    View.write (Elt F) (iS).view fs ((Memref.whole main_arg3_scv : Memref sig .scVector .hbm S1024 .i32).view.read (Elt F) lst) Finset.univ = lst := by
  simp only [Memref.view_whole, View.read_whole, View.write_whole_univ]

theorem land_list2 (fs lst : IVec S1024 32) :
    View.write (Elt F) (iS).view fs ((Memref.whole main_arg2_scv : Memref sig .scVector .hbm S1024 .i32).view.read (Elt F) lst) Finset.univ = lst := by
  simp only [Memref.view_whole, View.read_whole, View.write_whole_univ]

/-! ## Landing the accumulator in the role's row of the result -/

/-- On a tile that runs the body the role's row number is below 3. -/
theorem row_lt (L : grid0.Coords) (h : k0_cond4 L = 1#1) : 2 * (L 1).val + (L 0).val < 3 := by
  have h0 : (2 * (L 1).val + (L 0).val) + 1 ≤ 3 := by
    have := k0_off3_inb L h 0
    rw [k0_off3_eq] at this
    exact this
  omega

/-- Row `2·(L 1) + (L 0)` of the three-row result, as a 4096-element memref. -/
abbrev rowM (L : grid0.Coords) (h : k0_cond4 L = 1#1) : Memref sig .scVector .hbm S4096 .f32 :=
  ((Memref.whole main_v2_scv : Memref sig .scVector .hbm S3x4096 .f32).slice
    (Rect.unit (s := S3x4096) (k0_off3 L) S1x4096.size (k0_off3_inb L h)) (fun _ => rfl)).squeeze S4096 squeezes_S1x4096_S4096

/-- Element `m` of the row sits at `(row, m)` of the result. -/
theorem rowM_emb (L : grid0.Coords) (h : k0_cond4 L = 1#1) (mm : Fin 4096) :
    ((rowM L h).view.emb (ix1 mm) : S3x4096.Idx) = ix2 ⟨2 * (L 1).val + (L 0).val, row_lt L h⟩ mm := by
  funext a
  apply Fin.ext
  show ((Rect.unit (s := S3x4096) (k0_off3 L) S1x4096.size (k0_off3_inb L h)).emb
    (Shape.reshapeEquiv squeezes_S1x4096_S4096.numel_eq (ix1 mm)) a : ℕ) = _
  rw [Rect.emb_apply, Shape.reshapeEquiv_cons_one]
  have e0 : k0_off3 L 0 = 2 * (L 1).val + (L 0).val := congrFun (k0_off3_eq L) 0
  have e1 : k0_off3 L 1 = 0 := congrFun (k0_off3_eq L) 1
  match a with
  | 0 => show k0_off3 L 0 + 1 * 0 = 2 * (L 1).val + (L 0).val; omega
  | 1 => show k0_off3 L 1 + 1 * mm.val = mm.val; omega

/-- The row's elements are the result's elements with that first coordinate. -/
theorem rowM_set (L : grid0.Coords) (h : k0_cond4 L = 1#1) :
    (rowM L h).view.set = Finset.univ.filter fun j : S3x4096.Idx => (j 0).val = 2 * (L 1).val + (L 0).val := by
  show (((View.whole main_v2_scv).slice (Rect.unit (s := S3x4096) (k0_off3 L) S1x4096.size (k0_off3_inb L h))).reshape S4096
    squeezes_S1x4096_S4096.numel_eq).set = _
  rw [View.set_reshape, View.set_slice_whole]
  ext j
  rw [Rect.mem_set_unit, Finset.mem_filter, k0_off3_eq]
  constructor
  · intro hj
    have h0 := hj 0
    refine ⟨Finset.mem_univ _, ?_⟩
    have h0' : 2 * (L 1).val + (L 0).val ≤ (j 0).val ∧ (j 0).val < 2 * (L 1).val + (L 0).val + 1 := h0
    omega
  · rintro ⟨_, hj⟩ a
    match a with
    | 0 => show 2 * (L 1).val + (L 0).val ≤ (j 0).val ∧ (j 0).val < 2 * (L 1).val + (L 0).val + 1; omega
    | 1 => show 0 ≤ (j 1).val ∧ (j 1).val < 0 + 4096; exact ⟨Nat.zero_le _, by have hj1 : (j 1).val < 4096 := (j 1).isLt; omega⟩

/-- Landing the accumulator in the row: element `(row, m)` of the result then holds element `m`. -/
theorem land_row (L : grid0.Coords) (h : k0_cond4 L = 1#1) (fc : Vec F S3x4096 .f32) (fa : Vec F S4096 .f32) (mm : Fin 4096) :
    View.write (Elt F) (rowM L h).view fc ((aS).view.read (Elt F) fa) Finset.univ (ix2 ⟨2 * (L 1).val + (L 0).val, row_lt L h⟩ mm)
      = fa (ix1 mm) := by
  rw [← rowM_emb L h mm, View.write_emb_of_mem _ _ (Finset.mem_univ _)]
  rfl

/-- Off the row the landing changes nothing. -/
theorem land_row_off (L : grid0.Coords) (h : k0_cond4 L = 1#1) (fc : Vec F S3x4096 .f32) (w : Vec F S4096 .f32) (j : S3x4096.Idx)
    (hj : (j 0).val ≠ 2 * (L 1).val + (L 0).val) :
    View.write (Elt F) (rowM L h).view fc w Finset.univ j = fc j := by
  refine View.write_of_not_mem _ _ _ ?_
  rw [View.setOn_univ, rowM_set, Finset.mem_filter]
  exact fun hh => hj hh.2

end Cert.Proof.KB

end
-- ==== Proof.B.TileLemmasPts.lean ====
import proofs.«201762_g83623013253620_cont_9to1_m_623_34_alg».proof.Proof.B.CommonP
import proofs.«201762_g83623013253620_cont_9to1_m_623_34_alg».proof.Proof.B.TileLemmas
import proofs.«201762_g83623013253620_cont_9to1_m_623_34_alg».proof.Proof.Spec

/-!
The accumulator held whole, respelled between its two views (the memref's own view, and the access through the
whole rectangle that an indexed store goes through), and one trip of the counting loop read as a histogram step.
-/

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

local notation "aS" => (Memref.whole Cert.Kernel.cc0_scratch1 : Memref Cert.Kernel.sig Kind.scVector Space.vmem Cert.Kernel.S4096 EltTy.f32)
local notation "iS" => (Memref.whole Cert.Kernel.cc0_scratch0 : Memref Cert.Kernel.sig Kind.scVector Space.vmem Cert.Kernel.S1024 EltTy.i32)

variable (d : Dev nD) (c : Fin τ.nSC) (i : Fin τ.nSub)

/-- Reading the accumulator through its whole rectangle reads it. -/
theorem read_acc_whole (f : Vec F S4096 .f32) : View.read (Elt F) ((aS).access (Rect.whole S4096)) f = f := by
  funext y
  show _root_.cast _ (f ((Rect.whole S4096).emb y)) = f y
  rw [Rect.emb_whole_apply]; rfl

/-- Writing the accumulator through its whole rectangle, unmasked, replaces it. -/
theorem write_acc_whole (f w : Vec F S4096 .f32) : View.write (Elt F) ((aS).access (Rect.whole S4096)) f w Finset.univ = w := by
  funext y
  have e : ((aS).access (Rect.whole S4096)).emb y = y := by
    show (Rect.whole S4096).emb y = y
    exact Rect.emb_whole_apply _ _
  have h := View.write_emb_of_mem (v := (aS).access (Rect.whole S4096)) (Val := Elt F) f w (Finset.mem_univ y)
  rw [e] at h
  exact h

/-- The accumulator held whole, through either view. -/
theorem acc_pts (f : Vec F S4096 .f32) :
    ((aS).view.loc (V d c i) ↦{fullShare} f : sProp 𝕄)
      = (((aS).access (Rect.whole S4096)).loc (V d c i) ↦[((aS).access (Rect.whole S4096)).set]{fullShare} f) := by
  have e : ((aS).access (Rect.whole S4096)).set = Finset.univ := Memref.set_access_whole cc0_scratch1
  rw [e]

/-- The words trip `k` reads name elements of the accumulator when the list is in range. -/
theorem chunk_inRange' (s : IVec S1024 32) (hs : Cert.Spec.InRange s) (K : ℕ) :
    ∀ a x, ((![chunk s K] : Fin 1 → IVec S16 32) a x).toNat < S4096.size a := by
  intro a x
  have ha : a = 0 := Fin.eq_zero a
  subst ha
  exact hs _

/-- The side condition of trip `k` of the counting loop holds for a list in range. -/
theorem chk_of_range (L : grid0.Coords) (k : Fin k0_t2_loop.trips) (hoff : ∀ a, (k0_off2 k) a + S16.size a ≤ S1024.size a)
    (s : IVec S1024 32) (hs : Cert.Spec.InRange s) :
    k0_chk1 L ((iS).view.readAt (Elt F) (Rect.unit (s := S1024) (k0_off2 k) S16.size hoff).toLoadRect s) := by
  intro _
  rw [chunk_readAt (F := F) k hoff s]
  exact chunk_inRange' s hs k.val

/-- One trip of the counting loop, read back as a histogram step on the accumulator held whole. -/
theorem step_pts (k : Fin k0_t2_loop.trips) (s : IVec S1024 32) (f : Vec F S4096 .f32)
    (hoff : ∀ a, (k0_off2 k) a + S16.size a ≤ S1024.size a)
    (hin : ∀ a x, ((![chunk s k.val] : Fin 1 → IVec S16 32) a x).toNat < S4096.size a)
    (hin' : ∀ a x, ((![(iS).view.readAt (Elt F) (Rect.unit (s := S1024) (k0_off2 k) S16.size hoff).toLoadRect s] : Fin 1 → IVec S16 32) a x).toNat < S4096.size a) :
    (((aS).access (Rect.whole S4096)).loc (V d c i) ↦[((aS).access (Rect.whole S4096)).set]{fullShare}
        View.write (Elt F) ((aS).access (Rect.whole S4096)) f
          (storeIdx (View.read (Elt F) ((aS).access (Rect.whole S4096)) f)
            ![(iS).view.readAt (Elt F) (Rect.unit (s := S1024) (k0_off2 k) S16.size hoff).toLoadRect s] (k0_pay2 (F := F)) (fun _ => 1#1) true hin')
          Finset.univ : sProp 𝕄)
      = ((aS).view.loc (V d c i) ↦{fullShare} histStep f (chunk s k.val)) := by
  rw [write_acc_whole, read_acc_whole, ← acc_pts]
  congr 1
  unfold histStep
  rw [dif_pos hin]
  revert hin'
  rw [chunk_readAt (F := F) k hoff s]
  intro hin'
  rfl

/-! ## The role's row of the result -/

/-- The row's elements, as the row set. -/
theorem rowM_set_rowSet (L : grid0.Coords) (h : k0_cond4 L = 1#1) :
    (rowM L h).view.set = rowSet (2 * (L 1).val + (L 0).val) := rowM_set L h

/-- The row held, through the row memref's view or as the row set of the result's location. -/
theorem pts_row (L : grid0.Coords) (h : k0_cond4 L = 1#1) (f : Buf (Elt F) (cntLoc d)) :
    ((rowM L h).view.loc (V d c i) ↦[(rowM L h).view.set]{fullShare} f : sProp 𝕄)
      = cntLoc d ↦[rowSet (2 * (L 1).val + (L 0).val)]{fullShare} f := by
  rw [rowM_set_rowSet]

/-- Landing the accumulator in the row by one whole-rectangle write: an element of the row then holds the
    accumulator's element with its second coordinate. -/
theorem land_row_writes (L : grid0.Coords) (h : k0_cond4 L = 1#1) (fc : Vec F S3x4096 .f32) (fa : Vec F S4096 .f32)
    (y : S3x4096.Idx) (hy : y ∈ rowSet (2 * (L 1).val + (L 0).val)) :
    (rowM L h).view.writes (Elt F) fc [⟨Rect.whole S4096, (aS).view.read (Elt F) fa⟩] y = fa (ix1 (y 1)) := by
  have hy0 : (y 0).val = 2 * (L 1).val + (L 0).val := (Finset.mem_filter.mp hy).2
  have e2 : y = ix2 (⟨2 * (L 1).val + (L 0).val, row_lt L h⟩ : Fin 3) (y 1) := by
    have e := eq_ix2 y
    have e0 : y 0 = ⟨2 * (L 1).val + (L 0).val, row_lt L h⟩ := Fin.ext hy0
    rw [e0] at e
    exact e
  have key : ∀ mm : Fin 4096, y = ix2 (⟨2 * (L 1).val + (L 0).val, row_lt L h⟩ : Fin 3) mm →
      (rowM L h).view.writes (Elt F) fc [⟨Rect.whole S4096, (aS).view.read (Elt F) fa⟩] y = fa (ix1 mm) := by
    intro mm e
    have ey : ((rowM L h).view.slice (Rect.whole S4096)).emb (ix1 mm) = y := by
      show (rowM L h).view.emb ((Rect.whole S4096).emb (ix1 mm)) = y
      rw [Rect.emb_whole_apply, rowM_emb]
      exact e.symm
    have hw := View.write_emb_of_mem (v := (rowM L h).view.slice (Rect.whole S4096)) (Val := Elt F) fc
      ((aS).view.read (Elt F) fa) (Finset.mem_univ (ix1 mm))
    rw [ey] at hw
    rw [View.writes_singleton]
    exact hw
  exact key (y 1) e2

/-- Off the row that write changes nothing. -/
theorem land_row_writes_off (L : grid0.Coords) (h : k0_cond4 L = 1#1) (fc : Vec F S3x4096 .f32) (w : Vec F S4096 .f32)
    (y : S3x4096.Idx) (hy : y ∉ rowSet (2 * (L 1).val + (L 0).val)) :
    (rowM L h).view.writes (Elt F) fc [⟨Rect.whole S4096, w⟩] y = fc y := by
  rw [View.writes_singleton]
  refine View.write_of_not_mem _ _ _ ?_
  rw [View.setOn_univ]
  intro hm
  exact hy (rowM_set_rowSet L h ▸ View.set_slice_subset _ _ hm)

end Cert.Proof.KB

end
-- ==== Proof.B.TileIdle.lean ====
import proofs.«201762_g83623013253620_cont_9to1_m_623_34_alg».proof.Proof.B.CommonP

/-!
# The tiles that have no list to count

Tile number w = 2 · subcore + core.  Tiles 0, 1, 2 count one index list each; for w ≥ 3 every one of the body's four
guards (w = 0, w = 1, w = 2, w < 3) is false, so the body performs no memory operation and returns at once:
whatever the tile holds before, it holds after.
-/

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "leadW" => (Memref.whole Cert.Kernel.main_arg4_scv : Memref Cert.Kernel.sig Kind.scVector Space.hbm Cert.Kernel.S1024 EltTy.i32)
local notation "nonmW" => (Memref.whole Cert.Kernel.main_arg3_scv : Memref Cert.Kernel.sig Kind.scVector Space.hbm Cert.Kernel.S1024 EltTy.i32)
local notation "memW" => (Memref.whole Cert.Kernel.main_arg2_scv : Memref Cert.Kernel.sig Kind.scVector Space.hbm Cert.Kernel.S1024 EltTy.i32)
local notation "cntW" => (Memref.whole Cert.Kernel.main_v2_scv : Memref Cert.Kernel.sig Kind.scVector Space.hbm Cert.Kernel.S3x4096 EltTy.f32)
local notation "idxS" => (Memref.whole Cert.Kernel.cc0_scratch0 : Memref Cert.Kernel.sig Kind.scVector Space.vmem Cert.Kernel.S1024 EltTy.i32)
local notation "accS" => (Memref.whole Cert.Kernel.cc0_scratch1 : Memref Cert.Kernel.sig Kind.scVector Space.vmem Cert.Kernel.S4096 EltTy.f32)

/-- For tile number at least 3 none of the body's four guards holds. -/
theorem guards_idle (c : Fin (grid0.bound 0)) (s : Fin (grid0.bound 1)) (hw : 3 ≤ 2 * s.val + c.val) :
    (¬ Scalar.cmpi .ne (Scalar.extui (Scalar.cmpi .eq (Scalar.addi (Scalar.muli (BitVec.ofNat 32 (coordsV c s 1).val) 2#32) (BitVec.ofNat 32 (coordsV c s 0).val)) 0#32)) 0#32 = 1#1)
    ∧ (¬ Scalar.cmpi .ne (Scalar.extui (Scalar.cmpi .eq (Scalar.addi (Scalar.muli (BitVec.ofNat 32 (coordsV c s 1).val) 2#32) (BitVec.ofNat 32 (coordsV c s 0).val)) 1#32)) 0#32 = 1#1)
    ∧ (¬ Scalar.cmpi .ne (Scalar.extui (Scalar.cmpi .eq (Scalar.addi (Scalar.muli (BitVec.ofNat 32 (coordsV c s 1).val) 2#32) (BitVec.ofNat 32 (coordsV c s 0).val)) 2#32)) 0#32 = 1#1)
    ∧ ¬ k0_cond4 (coordsV c s) = 1#1 := by
  revert c s; decide

theorem tile_idle (d : Dev nD) (c : Fin (grid0.bound 0)) (s : Fin (grid0.bound 1)) (hw : 3 ≤ 2 * s.val + c.val) (R : sProp 𝕄) :
    R ⊢ wp frame (wpE (defs₀ (F := F)) 𝒱₀ (V d (cV (coordsV c s)) (jV (coordsV c s))) none) Set.univ
      (cc0__sc_counts_body (coordsV c s) leadW (Memref.isWhole_whole _) nonmW (Memref.isWhole_whole _) memW (Memref.isWhole_whole _) cntW (Memref.isWhole_whole _)
        idxS (Memref.isWhole_whole _) accS (Memref.isWhole_whole _) cc0_scoped0 cc0_scoped1 cc0_scoped2 cc0_scoped3)
      (fun _ => R) := by
  obtain ⟨h1, h2, h3, h4⟩ := guards_idle c s hw
  rw [cc0__sc_counts_body_eq_skeleton]; unfold cc0__sc_counts_body_skel
  dsimp only
  rw [dif_neg h1, dif_neg h2, dif_neg h3, dif_neg h4]
  rw [wp_pure]
  exact fupd_intro

end Cert.Proof.KB

end
-- ==== Proof.B.TileObl.lean ====
import proofs.«201762_g83623013253620_cont_9to1_m_623_34_alg».proof.Proof.B.CommonP
import proofs.«201762_g83623013253620_cont_9to1_m_623_34_alg».proof.Proof.B.TileRes
import proofs.«201762_g83623013253620_cont_9to1_m_623_34_alg».proof.Proof.B.TileIdle
/-!
# The launch's obligation for the tiles

Each of the 2 × 16 vector subcores runs the kernel's body at its own coordinates.  The tile numbered
`w = 2 · subcore + core` counts a list when `w < 3` (leaders, nonmembers, members) and returns at once
otherwise.  The launch asks one statement of all 32: from what the tile is handed to what it hands back.
It follows from the three counting tiles' obligations and the fact that the other 29 do nothing.
-/

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "leadW" => (Memref.whole Cert.Kernel.main_arg4_scv : Memref Cert.Kernel.sig Kind.scVector Space.hbm Cert.Kernel.S1024 EltTy.i32)
local notation "nonmW" => (Memref.whole Cert.Kernel.main_arg3_scv : Memref Cert.Kernel.sig Kind.scVector Space.hbm Cert.Kernel.S1024 EltTy.i32)
local notation "memW" => (Memref.whole Cert.Kernel.main_arg2_scv : Memref Cert.Kernel.sig Kind.scVector Space.hbm Cert.Kernel.S1024 EltTy.i32)
local notation "cntW" => (Memref.whole Cert.Kernel.main_v2_scv : Memref Cert.Kernel.sig Kind.scVector Space.hbm Cert.Kernel.S3x4096 EltTy.f32)
local notation "idxS" => (Memref.whole Cert.Kernel.cc0_scratch0 : Memref Cert.Kernel.sig Kind.scVector Space.vmem Cert.Kernel.S1024 EltTy.i32)
local notation "accS" => (Memref.whole Cert.Kernel.cc0_scratch1 : Memref Cert.Kernel.sig Kind.scVector Space.vmem Cert.Kernel.S4096 EltTy.f32)

variable (m : (ℓ : Loc nD τ sig) → Buf (Elt F) ℓ)

omit [FloatOps F] in
/-- A tile numbered 3 or more is handed nothing. -/
theorem tileRes_none (d : Dev nD) {w : ℕ} (hw : 3 ≤ w) (f : Buf (Elt F) (cntLoc d)) : tileRes m d w f = iprop(emp) := by
  unfold tileRes
  rw [if_neg (by omega), if_neg (by omega), if_neg (by omega)]

omit [FloatOps F] in
/-- The launch's empty share for a protocol of the kernel's own drops out of a tile's premise. -/
theorem obl_pre {A B C D E : sProp 𝕄} : iprop(A ∗ emp ∗ B ∗ C ∗ D ∗ E) ⊢ iprop(A ∗ B ∗ C ∗ D ∗ E) := by
  iintro ⟨HA, -, HB, HC, HD, HE⟩
  isplitl [HA]; · iexact HA
  isplitl [HB]; · iexact HB
  isplitl [HC]; · iexact HC
  isplitl [HD]; · iexact HD
  iexact HE

omit [FloatOps F] in
/-- A body that records only waits at no call's index has recorded waits the launch admits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- An idle tile's premise is its conclusion: nothing handed, nothing changed, no wait recorded. -/
theorem obl_idle {thr : Thread nD τ} {A B C : sProp 𝕄} {O : CellTallies nD τ sig (HIx 1)} {W : Waits sig (HIx 1)} {q : Fin 1} :
    iprop(A ∗ emp ∗ emp ∗ B ∗ C ∗ owes thr O W)
      ⊢ iprop(emp ∗ B ∗ C ∗ ∃ W', ⌜∀ p ∈ W', p ∈ W ∨ p.2 = none ∨ p.2 = some q⌝ ∗ owes thr O W') := by
  iintro ⟨-, -, -, HB, HC, HO⟩
  isplitr; · iempintro
  isplitl [HB]; · iexact HB
  isplitl [HC]; · iexact HC
  iexists W; isplitr
  · ipureintro; exact fun p hp => .inl hp
  · iexact HO

/-- The three tiles that count a list. -/
abbrev L0 : grid0.Coords := coordsV ⟨0, by decide⟩ ⟨0, by decide⟩
abbrev L1 : grid0.Coords := coordsV ⟨1, by decide⟩ ⟨0, by decide⟩
abbrev L2 : grid0.Coords := coordsV ⟨0, by decide⟩ ⟨1, by decide⟩

/-- What a counting tile's body must do: from the tile's list and its row of the counts array at the launch
    contents, its own buffers and semaphores, to the list unchanged and the row at the histograms. -/
def RoleObl (r : ℕ) (L : grid0.Coords) : Prop :=
  ∀ (d : Dev nD) (O : CellTallies nD τ sig (HIx 1)) (W : Waits sig (HIx 1)), (∀ g, O g none = 0) →
    (iprop(levAts (K (F := F)).L (K (F := F)).lev ∗ tileRes m d r (m (cntLoc d)) ∗ scopedBufs (V d (cV L) (jV L)) ∗ scopedSems0 (V d (cV L) (jV L))
        ∗ owes (V d (cV L) (jV L)) O W) : sProp 𝕄)
      ⊢ wp frame (wpE (defs₀ (F := F)) 𝒱₀ (V d (cV L) (jV L)) none) Set.univ
          (cc0__sc_counts_body L leadW (Memref.isWhole_whole _) nonmW (Memref.isWhole_whole _) memW (Memref.isWhole_whole _) cntW (Memref.isWhole_whole _)
            idxS (Memref.isWhole_whole _) accS (Memref.isWhole_whole _) cc0_scoped0 cc0_scoped1 cc0_scoped2 cc0_scoped3)
          fun _ => iprop(tileRes m d r (CNT m d) ∗ scopedBufs (V d (cV L) (jV L)) ∗ scopedSems0 (V d (cV L) (jV L))
            ∗ ∃ W', ⌜∀ p ∈ W', p ∈ W ∨ p.2 = none⌝ ∗ owes (V d (cV L) (jV L)) O W')

/-- The launch's obligation for the vector-subcore kernel: each of the 32 tiles runs the body at its
    coordinates; tiles 0, 1, 2 by their counting obligations, the other 29 return at once. -/
theorem tileObl (h0 : RoleObl (F := F) m 0 L0) (h1 : RoleObl (F := F) m 1 L1) (h2 : RoleObl (F := F) m 2 L2) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ emp ∗ tileRes m d (2 * i.val + c.val) (m (cntLoc d)) ∗ _) ⊢ wp _ _ _ _ (fun _ => iprop(tileRes m d (2 * i.val + c.val) (CNT m d) ∗ _))
  by_cases hw : 3 ≤ 2 * i.val + c.val
  · rw [tileRes_none m d hw, tileRes_none m d hw]
    exact (tile_idle d ⟨_, hc.1⟩ ⟨_, hc.2⟩ hw _).trans (wp_mono frame _ _ fun _ => obl_idle)
  · obtain ⟨cv, hcv⟩ := c
    obtain ⟨iv, hiv⟩ := i
    have hcase : (cv = 0 ∧ iv = 0) ∨ (cv = 1 ∧ iv = 0) ∨ (cv = 0 ∧ iv = 1) := by
      have hlt : 2 * iv + cv < 3 := by simpa using hw
      have hcv2 : cv < 2 := hcv
      omega
    rcases hcase with ⟨rfl, rfl⟩ | ⟨rfl, rfl⟩ | ⟨rfl, rfl⟩
    · exact (obl_pre.trans (h0 d O W hO)).trans (wp_mono frame _ _ fun _ => obl_post)
    · exact (obl_pre.trans (h1 d O W hO)).trans (wp_mono frame _ _ fun _ => obl_post)
    · exact (obl_pre.trans (h2 d O W hO)).trans (wp_mono frame _ _ fun _ => obl_post)

end Cert.Proof.KB

end
-- ==== Proof.B.TileRow.lean ====
import proofs.«201762_g83623013253620_cont_9to1_m_623_34_alg».proof.Proof.B.CommonP
import proofs.«201762_g83623013253620_cont_9to1_m_623_34_alg».proof.Proof.B.TileLemmas
import proofs.«201762_g83623013253620_cont_9to1_m_623_34_alg».proof.Proof.B.TileLemmasPts
import proofs.«201762_g83623013253620_cont_9to1_m_623_34_alg».proof.Proof.B.TileObl

/-!
What the three role tiles leave in their rows of the result: the tile of role `r` lands its accumulator, which
after the 64 counting trips is the histogram of the role's list, in row `r`; element `(r, m)` then holds the
histogram's element `m`, which is what the closed form of the result says of that row.
-/

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

local notation "aS" => (Memref.whole Cert.Kernel.cc0_scratch1 : Memref Cert.Kernel.sig Kind.scVector Space.vmem Cert.Kernel.S4096 EltTy.f32)

variable (m : (ℓ : Loc nD τ sig) → Buf (Elt F) ℓ)

/-- Row 0 after the leaders' tile has landed its accumulator. -/
theorem row_final0 (d : Dev nD) (h : k0_cond4 L0 = 1#1) (fc : Buf (Elt F) (cntLoc d)) :
    ∀ y ∈ rowSet 0, (rowM L0 h).view.writes (Elt F) fc
        [⟨Rect.whole S4096, (aS).view.read (Elt F) (histN (F := F) (m (leadLoc d)) k0_t2_loop.trips)⟩] y = CNT m d y := by
  intro y hy
  have hy0 : (y 0).val = 0 := (Finset.mem_filter.mp hy).2
  rw [land_row_writes L0 h fc _ y hy]
  unfold CNT hist
  rw [if_pos hy0, trips2]

/-- Row 1 after the nonmembers' tile has landed its accumulator. -/
theorem row_final1 (d : Dev nD) (h : k0_cond4 L1 = 1#1) (fc : Buf (Elt F) (cntLoc d)) :
    ∀ y ∈ rowSet 1, (rowM L1 h).view.writes (Elt F) fc
        [⟨Rect.whole S4096, (aS).view.read (Elt F) (histN (F := F) (m (nonmLoc d)) k0_t2_loop.trips)⟩] y = CNT m d y := by
  intro y hy
  have hy0 : (y 0).val = 1 := (Finset.mem_filter.mp hy).2
  rw [land_row_writes L1 h fc _ y hy]
  unfold CNT hist
  rw [if_neg (by omega), if_pos hy0, trips2]

/-- Row 2 after the members' tile has landed its accumulator. -/
theorem row_final2 (d : Dev nD) (h : k0_cond4 L2 = 1#1) (fc : Buf (Elt F) (cntLoc d)) :
    ∀ y ∈ rowSet 2, (rowM L2 h).view.writes (Elt F) fc
        [⟨Rect.whole S4096, (aS).view.read (Elt F) (histN (F := F) (m (memLoc d)) k0_t2_loop.trips)⟩] y = CNT m d y := by
  intro y hy
  have hy0 : (y 0).val = 2 := (Finset.mem_filter.mp hy).2
  rw [land_row_writes L2 h fc _ y hy]
  unfold CNT hist
  rw [if_neg (by omega), if_neg (by omega), trips2]

/-- The rows held with those contents are the rows of the closed form. -/
theorem row_pts_final0 (d : Dev nD) (h : k0_cond4 L0 = 1#1) (fc : Buf (Elt F) (cntLoc d)) :
    (cntLoc d ↦[rowSet 0]{fullShare} (rowM L0 h).view.writes (Elt F) fc
        [⟨Rect.whole S4096, (aS).view.read (Elt F) (histN (F := F) (m (leadLoc d)) k0_t2_loop.trips)⟩] : sProp 𝕄)
      = rowPts d 0 (CNT m d) :=
  pointsTo_congr (row_final0 m d h fc)

theorem row_pts_final1 (d : Dev nD) (h : k0_cond4 L1 = 1#1) (fc : Buf (Elt F) (cntLoc d)) :
    (cntLoc d ↦[rowSet 1]{fullShare} (rowM L1 h).view.writes (Elt F) fc
        [⟨Rect.whole S4096, (aS).view.read (Elt F) (histN (F := F) (m (nonmLoc d)) k0_t2_loop.trips)⟩] : sProp 𝕄)
      = rowPts d 1 (CNT m d) :=
  pointsTo_congr (row_final1 m d h fc)

theorem row_pts_final2 (d : Dev nD) (h : k0_cond4 L2 = 1#1) (fc : Buf (Elt F) (cntLoc d)) :
    (cntLoc d ↦[rowSet 2]{fullShare} (rowM L2 h).view.writes (Elt F) fc
        [⟨Rect.whole S4096, (aS).view.read (Elt F) (histN (F := F) (m (memLoc d)) k0_t2_loop.trips)⟩] : sProp 𝕄)
      = rowPts d 2 (CNT m d) :=
  pointsTo_congr (row_final2 m d h fc)

end Cert.Proof.KB

end
-- ==== Proof.B.TileStep.lean ====
import proofs.«201762_g83623013253620_cont_9to1_m_623_34_alg».proof.Proof.B.CommonP
import proofs.«201762_g83623013253620_cont_9to1_m_623_34_alg».proof.Proof.B.TileLemmas
import proofs.«201762_g83623013253620_cont_9to1_m_623_34_alg».proof.Proof.B.TileLemmasPts

/-!
One trip of the counting loop as a rule: holding the accumulator whole at contents `f`, the indexed store with
accumulation of the ones vector at the words trip `k` reads leaves it holding the histogram step of `f`.
-/

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 1) (Elt F) ℕ UU ℕ

local notation "aS" => (Memref.whole Cert.Kernel.cc0_scratch1 : Memref Cert.Kernel.sig Kind.scVector Space.vmem Cert.Kernel.S4096 EltTy.f32)
local notation "iS" => (Memref.whole Cert.Kernel.cc0_scratch0 : Memref Cert.Kernel.sig Kind.scVector Space.vmem Cert.Kernel.S1024 EltTy.i32)

/-- The contents the indexed store of trip `k` leaves are the histogram step. -/
theorem step_eq (k : Fin k0_t2_loop.trips) (s : IVec S1024 32) (f : Vec F S4096 .f32)
    (hoff : ∀ a, (k0_off2 k) a + S16.size a ≤ S1024.size a)
    (hin : ∀ a x, ((![chunk s k.val] : Fin 1 → IVec S16 32) a x).toNat < S4096.size a)
    (hin' : ∀ a x, ((![(iS).view.readAt (Elt F) (Rect.unit (s := S1024) (k0_off2 k) S16.size hoff).toLoadRect s] : Fin 1 → IVec S16 32) a x).toNat < S4096.size a) :
    View.write (Elt F) ((aS).access (Rect.whole S4096)) f
        (storeIdx (View.read (Elt F) ((aS).access (Rect.whole S4096)) f)
          ![(iS).view.readAt (Elt F) (Rect.unit (s := S1024) (k0_off2 k) S16.size hoff).toLoadRect s] (k0_pay2 (F := F)) (fun _ => 1#1) true hin')
        Finset.univ
      = histStep f (chunk s k.val) := by
  rw [write_acc_whole, read_acc_whole]
  unfold histStep
  rw [dif_pos hin]
  revert hin'
  rw [chunk_readAt (F := F) k hoff s]
  intro hin'
  rfl

variable (d : Dev nD) (c : Fin τ.nSC) (i : Fin τ.nSub)

/-- Trip `k`'s indexed store at the head of a program. -/
theorem wp_hist_step {α : Type} (k : Fin k0_t2_loop.trips) (s : IVec S1024 32) (f : Vec F S4096 .f32)
    (hoff : ∀ a, (k0_off2 k) a + S16.size a ≤ S1024.size a)
    (hin : ∀ a x, ((![chunk s k.val] : Fin 1 → IVec S16 32) a x).toNat < S4096.size a)
    (hin' : ∀ a x, ((![(iS).view.readAt (Elt F) (Rect.unit (s := S1024) (k0_off2 k) S16.size hoff).toLoadRect s] : Fin 1 → IVec S16 32) a x).toNat < S4096.size a)
    (hs : ((aS).access (Rect.whole S4096)).Stores Finset.univ)
    (kont : PUnit → Prog (TpuEff nD τ sig (Elt F) Λ₀ (V d c i).2) α) (Q : α → sProp 𝕄) :
    ((aS).view.loc (V d c i) ↦{fullShare} f : sProp 𝕄)
      ⊢ iprop((((aS).view.loc (V d c i) ↦{fullShare} histStep f (chunk s k.val))
            -∗ wp frame (wpE (defs₀ (F := F)) 𝒱₀ (V d c i) none) Set.univ (kont ⟨⟩) Q)
          -∗ wp frame (wpE (defs₀ (F := F)) 𝒱₀ (V d c i) none) Set.univ
              (SparseCore.vectorStoreIdx aS ![(iS).view.readAt (Elt F) (Rect.unit (s := S1024) (k0_off2 k) S16.size hoff).toLoadRect s]
                (k0_pay2 (F := F)) (fun _ => 1#1) true hin' hs >>= kont) Q) := by
  iintro Ha Hk
  ihave Ha' := (Entails.of_eq (acc_pts (F := F) d c i f)) $$ Ha
  iapply (SparseCore.wp_vectorStoreIdx (defs := defs₀ (F := F)) 𝒱₀ (V d c i) none Set.univ (s := S4096) (e := .f32) (base := aS)
    (idxs := ![(iS).view.readAt (Elt F) (Rect.unit (s := S1024) (k0_off2 k) S16.size hoff).toLoadRect s])
    (v := k0_pay2 (F := F)) (mask := fun _ => 1#1) (add := true) (h := hin') (hs := hs) (k := kont) (Q := Q)) $$ Ha'
  iintro Ha'
  iapply Hk
  iapply (Entails.of_eq (step_pts (F := F) d c i k s f hoff hin hin'))
  iexact Ha'

end Cert.Proof.KB

end
-- ==== Proof.B.Tile.lean ====
import proofs.«201762_g83623013253620_cont_9to1_m_623_34_alg».proof.Proof.B.CommonP
import proofs.«201762_g83623013253620_cont_9to1_m_623_34_alg».proof.Proof.B.Hist
import proofs.«201762_g83623013253620_cont_9to1_m_623_34_alg».proof.Proof.Spec
import proofs.«201762_g83623013253620_cont_9to1_m_623_34_alg».proof.Proof.B.TileRes
import proofs.«201762_g83623013253620_cont_9to1_m_623_34_alg».proof.Proof.B.TileLemmas
import proofs.«201762_g83623013253620_cont_9to1_m_623_34_alg».proof.Proof.B.TileLemmasPts
import proofs.«201762_g83623013253620_cont_9to1_m_623_34_alg».proof.Proof.B.TileObl
import proofs.«201762_g83623013253620_cont_9to1_m_623_34_alg».proof.Proof.B.TileRow
import proofs.«201762_g83623013253620_cont_9to1_m_623_34_alg».proof.Proof.B.TileStep

noncomputable section
namespace Cert.Proof.KB
open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "leadW" => (Memref.whole Cert.Kernel.main_arg4_scv : Memref Cert.Kernel.sig Kind.scVector Space.hbm Cert.Kernel.S1024 EltTy.i32)
local notation "nonmW" => (Memref.whole Cert.Kernel.main_arg3_scv : Memref Cert.Kernel.sig Kind.scVector Space.hbm Cert.Kernel.S1024 EltTy.i32)
local notation "memW" => (Memref.whole Cert.Kernel.main_arg2_scv : Memref Cert.Kernel.sig Kind.scVector Space.hbm Cert.Kernel.S1024 EltTy.i32)
local notation "cntW" => (Memref.whole Cert.Kernel.main_v2_scv : Memref Cert.Kernel.sig Kind.scVector Space.hbm Cert.Kernel.S3x4096 EltTy.f32)
local notation "idxS" => (Memref.whole Cert.Kernel.cc0_scratch0 : Memref Cert.Kernel.sig Kind.scVector Space.vmem Cert.Kernel.S1024 EltTy.i32)
local notation "accS" => (Memref.whole Cert.Kernel.cc0_scratch1 : Memref Cert.Kernel.sig Kind.scVector Space.vmem Cert.Kernel.S4096 EltTy.f32)

/-!
A role tile's task: copy its role's index list into its own memory; zero the 4096-entry accumulator
(32 trips of 128 entries); 64 trips, each adding one at the entries the next 16 list words name
(every word names an entry, by the range precondition); copy the accumulator to the role's row of
the counts array.  Before trip `k` of the first loop the accumulator is zero below `128 k`;
before trip `k` of the second it is the partial histogram `histN list k`.
-/

variable (m : (ℓ : Loc nD τ sig) → Buf (Elt F) ℓ)

def inv1 (d : Dev nD) (c : Fin τ.nSC) (i : Fin τ.nSub) (k : Nat) (_ : PUnit) : sProp 𝕄 :=
  iprop(∃ f, ((accS).view.loc (V d c i) ↦{fullShare} f) ∗ ⌜ZeroUpTo (128 * k) f⌝)

def inv2 (d : Dev nD) (c : Fin τ.nSC) (i : Fin τ.nSub) (s1 : IVec S1024 32) (k : Nat) (_ : PUnit) : sProp 𝕄 :=
  iprop(((idxS).view.loc (V d c i) ↦{fullShare} s1) ∗ (accS).view.loc (V d c i) ↦{fullShare} histN (F := F) s1 k)

variable (d : Dev nD) (O : CellTallies nD τ sig (HIx 1)) (W : Waits sig (HIx 1)) (hO : ∀ g, O g none = 0)
include hO

theorem role0 (hpre : Cert.Spec.InRange (m (leadLoc d))) : (iprop(levAts (K (F := F)).L (K (F := F)).lev ∗ tileRes m d 0 (m (cntLoc d)) ∗ scopedBufs (V d (cV L0) (jV L0)) ∗ scopedSems0 (V d (cV L0) (jV L0)) ∗ owes (V d (cV L0) (jV L0)) O W) : sProp 𝕄)
      ⊢ wp frame (wpE (defs₀ (F := F)) 𝒱₀ (V d (cV L0) (jV L0)) none) Set.univ
          (cc0__sc_counts_body L0 leadW (Memref.isWhole_whole _) nonmW (Memref.isWhole_whole _) memW (Memref.isWhole_whole _) cntW (Memref.isWhole_whole _)
            idxS (Memref.isWhole_whole _) accS (Memref.isWhole_whole _) cc0_scoped0 cc0_scoped1 cc0_scoped2 cc0_scoped3)
          fun _ => iprop(tileRes m d 0 (CNT m d) ∗ scopedBufs (V d (cV L0) (jV L0)) ∗ scopedSems0 (V d (cV L0) (jV L0))
            ∗ ∃ W', ⌜∀ p ∈ W', p ∈ W ∨ p.2 = none⌝ ∗ owes (V d (cV L0) (jV L0)) O W') := by
  have k0_h4 : k0_cond4 L0 = 1#1 := by decide
  rw [cc0__sc_counts_body_eq_skeleton]; unfold cc0__sc_counts_body_skel
  rw [(K (F := F)).scopedBufs_V facts d (cV L0) (jV L0), SparseCore.Cfg.scopedSems0_V (Val := Elt F) d (cV L0) (jV L0), ownSems0_V, ownBufs_V]
  unfold tileRes; simp only [show (0 : ℕ) = 0 ↔ True from by decide, show (0 : ℕ) = 1 ↔ False from by decide, show (0 : ℕ) = 2 ↔ False from by decide, if_true, if_false]
  iintro ⟨#Hlv, ⟨Hlist, Hrow⟩, ⟨⟨%fs, Hs⟩, ⟨%fa, Ha⟩, Hbufs⟩, ⟨Hsem0, Hsem1, Hsem2, Hsem3, Hsems⟩, HO⟩
  ihave Hmw := ((K (F := F)).mayWaits_none (thr := V d (cV L0) (jV L0)) hO) $$ Hlv
  ihave Hlist := (Entails.of_eq (pts_lead (F := F) d (cV L0) (jV L0) _).symm) $$ Hlist
  ihave Hrow := (Entails.of_eq (show (rowPts d 0 (m (cntLoc d)) : sProp 𝕄) = _ from (pts_row (F := F) d (cV L0) (jV L0) L0 k0_h4 (m (cntLoc d))).symm)) $$ Hrow
  ihave Hs := (Entails.of_eq (pts_idx (F := F) d (cV L0) (jV L0) _).symm) $$ Hs
  ihave Ha := (Entails.of_eq (pts_acc (F := F) d (cV L0) (jV L0) _).symm) $$ Ha
  sl_exec (disch := decide)
  unfold role0.sl.dma0
  ihave Hs := (Entails.of_eq (congrArg (fun g => ((idxS).view.loc (V d (cV L0) (jV L0)) ↦{fullShare} g : sProp 𝕄)) (land_list4 (F := F) fs (m (leadLoc d))))) $$ Hs
  -- the accumulator is zeroed, 128 entries a trip
  sl_for (inv1 (F := F) d (cV L0) (jV L0)) $$ [Ha]
  case region =>
    intro k _
    unfold inv1
    iintro ⟨%f, Ha, %hz⟩
    sl_exec
    sl_step
    iexists _; isplitl [Ha]
    · iexact Ha
    · ipureintro; exact zero_trip k f _ _ _ _ _ _ _ _ hz
  · unfold inv1; iexists fa; isplitl [Ha]
    · iexact Ha
    · ipureintro; intro y hy; exact absurd hy (by omega)
  iintro %_ HI
  unfold inv1
  icases HI with ⟨%f1, Ha, %hz1⟩
  obtain rfl : f1 = zeros4096 := zero_full f1 hz1
  -- one histogram step a trip
  sl_for (inv2 (F := F) d (cV L0) (jV L0) (m (leadLoc d))) $$ [Hs Ha]
  case region =>
    intro k _
    unfold inv2
    iintro ⟨Hs, Ha⟩
    sl_exec
    rw [wp_assume_of _ _ _ _ (chk_of_range (F := F) L0 k _ (m (leadLoc d)) hpre)]
    ihave Ha' := (Entails.of_eq (acc_pts (F := F) d (cV L0) (jV L0) _)) $$ Ha
    iapply (SparseCore.wp_vectorStoreIdx (defs := defs₀ (F := F)) 𝒱₀ (V d (cV L0) (jV L0)) none Set.univ (s := S4096) (e := .f32) (base := accS)) $$ Ha'
    iintro Ha'
    have hin' : ∀ a x, ((![(idxS).view.readAt (Elt F) (Rect.unit (s := S1024) (k0_off2 k) S16.size (Cert.Kernel.Gen.k0_off2_inb L0 k k0_h4)).toLoadRect (m (leadLoc d))] : Fin 1 → IVec S16 32) a x).toNat < S4096.size a := by
      rw [chunk_readAt]; exact chunk_inRange' (m (leadLoc d)) hpre k.val
    generalize hX : View.write (Elt F) ((accS).access (Rect.whole S4096)) _ _ Finset.univ = X
    have hX' : X = histStep (histN (F := F) (m (leadLoc d)) k.val) (chunk (m (leadLoc d)) k.val) := by
      rw [← hX]; exact step_eq k (m (leadLoc d)) _ _ (chunk_inRange' (m (leadLoc d)) hpre k.val) hin'
    subst hX'
    sl_step
    isplitl [Hs]; · iexact Hs
    rw [histN_succ, acc_pts (F := F) d (cV L0) (jV L0)]
    iexact Ha'
  · unfold inv2
    isplitl [Hs]; · iexact Hs
    iexact Ha
  iintro %_ HI
  unfold inv2
  icases HI with ⟨Hs, Ha⟩
  sl_exec
  unfold role0.sl.dma0_1
  sl_step
  isplitl [Hlist Hrow]
  · isplitl [Hlist]
    · iapply (Entails.of_eq (pts_lead (F := F) d (cV L0) (jV L0) _)); iexact Hlist
    · ihave Hrow := (Entails.of_eq (pts_row (F := F) d (cV L0) (jV L0) L0 k0_h4 _)) $$ Hrow
      iapply (Entails.of_eq (row_pts_final0 (F := F) m d k0_h4 _))
      iexact Hrow
  isplitl [Hs Ha Hbufs]
  · isplitl [Hs]
    · iexists _; iapply (Entails.of_eq (pts_idx (F := F) d (cV L0) (jV L0) _)); iexact Hs
    isplitl [Ha]
    · iexists _; iapply (Entails.of_eq (pts_acc (F := F) d (cV L0) (jV L0) _)); iexact Ha
    · iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

theorem role1 (hpre : Cert.Spec.InRange (m (nonmLoc d))) : (iprop(levAts (K (F := F)).L (K (F := F)).lev ∗ tileRes m d 1 (m (cntLoc d)) ∗ scopedBufs (V d (cV L1) (jV L1)) ∗ scopedSems0 (V d (cV L1) (jV L1)) ∗ owes (V d (cV L1) (jV L1)) O W) : sProp 𝕄)
      ⊢ wp frame (wpE (defs₀ (F := F)) 𝒱₀ (V d (cV L1) (jV L1)) none) Set.univ
          (cc0__sc_counts_body L1 leadW (Memref.isWhole_whole _) nonmW (Memref.isWhole_whole _) memW (Memref.isWhole_whole _) cntW (Memref.isWhole_whole _)
            idxS (Memref.isWhole_whole _) accS (Memref.isWhole_whole _) cc0_scoped0 cc0_scoped1 cc0_scoped2 cc0_scoped3)
          fun _ => iprop(tileRes m d 1 (CNT m d) ∗ scopedBufs (V d (cV L1) (jV L1)) ∗ scopedSems0 (V d (cV L1) (jV L1))
            ∗ ∃ W', ⌜∀ p ∈ W', p ∈ W ∨ p.2 = none⌝ ∗ owes (V d (cV L1) (jV L1)) O W') := by
  have k0_h4 : k0_cond4 L1 = 1#1 := by decide
  rw [cc0__sc_counts_body_eq_skeleton]; unfold cc0__sc_counts_body_skel
  rw [(K (F := F)).scopedBufs_V facts d (cV L1) (jV L1), SparseCore.Cfg.scopedSems0_V (Val := Elt F) d (cV L1) (jV L1), ownSems0_V, ownBufs_V]
  unfold tileRes; simp only [show (1 : ℕ) = 0 ↔ False from by decide, show (1 : ℕ) = 1 ↔ True from by decide, show (1 : ℕ) = 2 ↔ False from by decide, if_true, if_false]
  iintro ⟨#Hlv, ⟨Hlist, Hrow⟩, ⟨⟨%fs, Hs⟩, ⟨%fa, Ha⟩, Hbufs⟩, ⟨Hsem0, Hsem1, Hsem2, Hsem3, Hsems⟩, HO⟩
  ihave Hmw := ((K (F := F)).mayWaits_none (thr := V d (cV L1) (jV L1)) hO) $$ Hlv
  ihave Hlist := (Entails.of_eq (pts_nonm (F := F) d (cV L1) (jV L1) _).symm) $$ Hlist
  ihave Hrow := (Entails.of_eq (show (rowPts d 1 (m (cntLoc d)) : sProp 𝕄) = _ from (pts_row (F := F) d (cV L1) (jV L1) L1 k0_h4 (m (cntLoc d))).symm)) $$ Hrow
  ihave Hs := (Entails.of_eq (pts_idx (F := F) d (cV L1) (jV L1) _).symm) $$ Hs
  ihave Ha := (Entails.of_eq (pts_acc (F := F) d (cV L1) (jV L1) _).symm) $$ Ha
  sl_exec (disch := decide)
  unfold role1.sl.dma0
  ihave Hs := (Entails.of_eq (congrArg (fun g => ((idxS).view.loc (V d (cV L1) (jV L1)) ↦{fullShare} g : sProp 𝕄)) (land_list3 (F := F) fs (m (nonmLoc d))))) $$ Hs
  -- the accumulator is zeroed, 128 entries a trip
  sl_for (inv1 (F := F) d (cV L1) (jV L1)) $$ [Ha]
  case region =>
    intro k _
    unfold inv1
    iintro ⟨%f, Ha, %hz⟩
    sl_exec
    sl_step
    iexists _; isplitl [Ha]
    · iexact Ha
    · ipureintro; exact zero_trip k f _ _ _ _ _ _ _ _ hz
  · unfold inv1; iexists fa; isplitl [Ha]
    · iexact Ha
    · ipureintro; intro y hy; exact absurd hy (by omega)
  iintro %_ HI
  unfold inv1
  icases HI with ⟨%f1, Ha, %hz1⟩
  obtain rfl : f1 = zeros4096 := zero_full f1 hz1
  -- one histogram step a trip
  sl_for (inv2 (F := F) d (cV L1) (jV L1) (m (nonmLoc d))) $$ [Hs Ha]
  case region =>
    intro k _
    unfold inv2
    iintro ⟨Hs, Ha⟩
    sl_exec
    rw [wp_assume_of _ _ _ _ (chk_of_range (F := F) L1 k _ (m (nonmLoc d)) hpre)]
    ihave Ha' := (Entails.of_eq (acc_pts (F := F) d (cV L1) (jV L1) _)) $$ Ha
    iapply (SparseCore.wp_vectorStoreIdx (defs := defs₀ (F := F)) 𝒱₀ (V d (cV L1) (jV L1)) none Set.univ (s := S4096) (e := .f32) (base := accS)) $$ Ha'
    iintro Ha'
    have hin' : ∀ a x, ((![(idxS).view.readAt (Elt F) (Rect.unit (s := S1024) (k0_off2 k) S16.size (Cert.Kernel.Gen.k0_off2_inb L1 k k0_h4)).toLoadRect (m (nonmLoc d))] : Fin 1 → IVec S16 32) a x).toNat < S4096.size a := by
      rw [chunk_readAt]; exact chunk_inRange' (m (nonmLoc d)) hpre k.val
    generalize hX : View.write (Elt F) ((accS).access (Rect.whole S4096)) _ _ Finset.univ = X
    have hX' : X = histStep (histN (F := F) (m (nonmLoc d)) k.val) (chunk (m (nonmLoc d)) k.val) := by
      rw [← hX]; exact step_eq k (m (nonmLoc d)) _ _ (chunk_inRange' (m (nonmLoc d)) hpre k.val) hin'
    subst hX'
    sl_step
    isplitl [Hs]; · iexact Hs
    rw [histN_succ, acc_pts (F := F) d (cV L1) (jV L1)]
    iexact Ha'
  · unfold inv2
    isplitl [Hs]; · iexact Hs
    iexact Ha
  iintro %_ HI
  unfold inv2
  icases HI with ⟨Hs, Ha⟩
  sl_exec
  unfold role1.sl.dma0_1
  sl_step
  isplitl [Hlist Hrow]
  · isplitl [Hlist]
    · iapply (Entails.of_eq (pts_nonm (F := F) d (cV L1) (jV L1) _)); iexact Hlist
    · ihave Hrow := (Entails.of_eq (pts_row (F := F) d (cV L1) (jV L1) L1 k0_h4 _)) $$ Hrow
      iapply (Entails.of_eq (row_pts_final1 (F := F) m d k0_h4 _))
      iexact Hrow
  isplitl [Hs Ha Hbufs]
  · isplitl [Hs]
    · iexists _; iapply (Entails.of_eq (pts_idx (F := F) d (cV L1) (jV L1) _)); iexact Hs
    isplitl [Ha]
    · iexists _; iapply (Entails.of_eq (pts_acc (F := F) d (cV L1) (jV L1) _)); iexact Ha
    · iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, (default : HIx 1)) (insert (SemLoc.dma cc0_scoped1.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

theorem role2 (hpre : Cert.Spec.InRange (m (memLoc d))) : (iprop(levAts (K (F := F)).L (K (F := F)).lev ∗ tileRes m d 2 (m (cntLoc d)) ∗ scopedBufs (V d (cV L2) (jV L2)) ∗ scopedSems0 (V d (cV L2) (jV L2)) ∗ owes (V d (cV L2) (jV L2)) O W) : sProp 𝕄)
      ⊢ wp frame (wpE (defs₀ (F := F)) 𝒱₀ (V d (cV L2) (jV L2)) none) Set.univ
          (cc0__sc_counts_body L2 leadW (Memref.isWhole_whole _) nonmW (Memref.isWhole_whole _) memW (Memref.isWhole_whole _) cntW (Memref.isWhole_whole _)
            idxS (Memref.isWhole_whole _) accS (Memref.isWhole_whole _) cc0_scoped0 cc0_scoped1 cc0_scoped2 cc0_scoped3)
          fun _ => iprop(tileRes m d 2 (CNT m d) ∗ scopedBufs (V d (cV L2) (jV L2)) ∗ scopedSems0 (V d (cV L2) (jV L2))
            ∗ ∃ W', ⌜∀ p ∈ W', p ∈ W ∨ p.2 = none⌝ ∗ owes (V d (cV L2) (jV L2)) O W') := by
  have k0_h4 : k0_cond4 L2 = 1#1 := by decide
  rw [cc0__sc_counts_body_eq_skeleton]; unfold cc0__sc_counts_body_skel
  rw [(K (F := F)).scopedBufs_V facts d (cV L2) (jV L2), SparseCore.Cfg.scopedSems0_V (Val := Elt F) d (cV L2) (jV L2), ownSems0_V, ownBufs_V]
  unfold tileRes; simp only [show (2 : ℕ) = 0 ↔ False from by decide, show (2 : ℕ) = 1 ↔ False from by decide, show (2 : ℕ) = 2 ↔ True from by decide, if_true, if_false]
  iintro ⟨#Hlv, ⟨Hlist, Hrow⟩, ⟨⟨%fs, Hs⟩, ⟨%fa, Ha⟩, Hbufs⟩, ⟨Hsem0, Hsem1, Hsem2, Hsem3, Hsems⟩, HO⟩
  ihave Hmw := ((K (F := F)).mayWaits_none (thr := V d (cV L2) (jV L2)) hO) $$ Hlv
  ihave Hlist := (Entails.of_eq (pts_mem (F := F) d (cV L2) (jV L2) _).symm) $$ Hlist
  ihave Hrow := (Entails.of_eq (show (rowPts d 2 (m (cntLoc d)) : sProp 𝕄) = _ from (pts_row (F := F) d (cV L2) (jV L2) L2 k0_h4 (m (cntLoc d))).symm)) $$ Hrow
  ihave Hs := (Entails.of_eq (pts_idx (F := F) d (cV L2) (jV L2) _).symm) $$ Hs
  ihave Ha := (Entails.of_eq (pts_acc (F := F) d (cV L2) (jV L2) _).symm) $$ Ha
  sl_exec (disch := decide)
  unfold role2.sl.dma0
  ihave Hs := (Entails.of_eq (congrArg (fun g => ((idxS).view.loc (V d (cV L2) (jV L2)) ↦{fullShare} g : sProp 𝕄)) (land_list2 (F := F) fs (m (memLoc d))))) $$ Hs
  -- the accumulator is zeroed, 128 entries a trip
  sl_for (inv1 (F := F) d (cV L2) (jV L2)) $$ [Ha]
  case region =>
    intro k _
    unfold inv1
    iintro ⟨%f, Ha, %hz⟩
    sl_exec
    sl_step
    iexists _; isplitl [Ha]
    · iexact Ha
    · ipureintro; exact zero_trip k f _ _ _ _ _ _ _ _ hz
  · unfold inv1; iexists fa; isplitl [Ha]
    · iexact Ha
    · ipureintro; intro y hy; exact absurd hy (by omega)
  iintro %_ HI
  unfold inv1
  icases HI with ⟨%f1, Ha, %hz1⟩
  obtain rfl : f1 = zeros4096 := zero_full f1 hz1
  -- one histogram step a trip
  sl_for (inv2 (F := F) d (cV L2) (jV L2) (m (memLoc d))) $$ [Hs Ha]
  case region =>
    intro k _
    unfold inv2
    iintro ⟨Hs, Ha⟩
    sl_exec
    rw [wp_assume_of _ _ _ _ (chk_of_range (F := F) L2 k _ (m (memLoc d)) hpre)]
    ihave Ha' := (Entails.of_eq (acc_pts (F := F) d (cV L2) (jV L2) _)) $$ Ha
    iapply (SparseCore.wp_vectorStoreIdx (defs := defs₀ (F := F)) 𝒱₀ (V d (cV L2) (jV L2)) none Set.univ (s := S4096) (e := .f32) (base := accS)) $$ Ha'
    iintro Ha'
    have hin' : ∀ a x, ((![(idxS).view.readAt (Elt F) (Rect.unit (s := S1024) (k0_off2 k) S16.size (Cert.Kernel.Gen.k0_off2_inb L2 k k0_h4)).toLoadRect (m (memLoc d))] : Fin 1 → IVec S16 32) a x).toNat < S4096.size a := by
      rw [chunk_readAt]; exact chunk_inRange' (m (memLoc d)) hpre k.val
    generalize hX : View.write (Elt F) ((accS).access (Rect.whole S4096)) _ _ Finset.univ = X
    have hX' : X = histStep (histN (F := F) (m (memLoc d)) k.val) (chunk (m (memLoc d)) k.val) := by
      rw [← hX]; exact step_eq k (m (memLoc d)) _ _ (chunk_inRange' (m (memLoc d)) hpre k.val) hin'
    subst hX'
    sl_step
    isplitl [Hs]; · iexact Hs
    rw [histN_succ, acc_pts (F := F) d (cV L2) (jV L2)]
    iexact Ha'
  · unfold inv2
    isplitl [Hs]; · iexact Hs
    iexact Ha
  iintro %_ HI
  unfold inv2
  icases HI with ⟨Hs, Ha⟩
  sl_exec
  unfold role2.sl.dma0_1
  sl_step
  isplitl [Hlist Hrow]
  · isplitl [Hlist]
    · iapply (Entails.of_eq (pts_mem (F := F) d (cV L2) (jV L2) _)); iexact Hlist
    · ihave Hrow := (Entails.of_eq (pts_row (F := F) d (cV L2) (jV L2) L2 k0_h4 _)) $$ Hrow
      iapply (Entails.of_eq (row_pts_final2 (F := F) m d k0_h4 _))
      iexact Hrow
  isplitl [Hs Ha Hbufs]
  · isplitl [Hs]
    · iexists _; iapply (Entails.of_eq (pts_idx (F := F) d (cV L2) (jV L2) _)); iexact Hs
    isplitl [Ha]
    · iexists _; iapply (Entails.of_eq (pts_acc (F := F) d (cV L2) (jV L2) _)); iexact Ha
    · iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc0_scoped3.sem, (default : HIx 1)) (insert (SemLoc.dma cc0_scoped2.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

omit hO in
/-- The three role tiles' obligations from the range precondition, and with them the call's tile obligation. -/
theorem tileObl_of (hpre : PreOK m) : (K (F := F)).TileObl (D (F := F)) 𝒱 (P m) v₀ 0 :=
  tileObl m (fun d O W hO => role0 m d O W hO (hpre d).1) (fun d O W hO => role1 m d O W hO (hpre d).2.1) (fun d O W hO => role2 m d O W hO (hpre d).2.2)

end Cert.Proof.KB
end
-- ==== Proof.B.LaunchMain.lean ====
import proofs.«201762_g83623013253620_cont_9to1_m_623_34_alg».proof.Proof.B.LaunchRegStep
import proofs.«201762_g83623013253620_cont_9to1_m_623_34_alg».proof.Proof.B.LaunchHu0
import proofs.«201762_g83623013253620_cont_9to1_m_623_34_alg».proof.Proof.B.LaunchFin
import proofs.«201762_g83623013253620_cont_9to1_m_623_34_alg».proof.Proof.B.LaunchRun
import proofs.«201762_g83623013253620_cont_9to1_m_623_34_alg».proof.Proof.B.TcBody
import proofs.«201762_g83623013253620_cont_9to1_m_623_34_alg».proof.Proof.B.Tile

/-!
The program's run: every weakly fair execution of the 35 threads from a memory with all counters zero ends,
and every final state has each unscoped buffer of the TensorCore at its final contents.
-/

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Run

variable [∀ e, Nonempty (Elt F e)]
variable (m : (ℓ : Loc nD τ sig) → Buf (Elt F) ℓ) (ρ : Dev nD → PrngReg)

/-- What the run establishes of a final memory: on every device, every unscoped buffer of the TensorCore —
    the result and the seven arguments among them — holds its final contents. -/
def QC : PUnit × MemSt nD τ sig (Elt F) → Prop :=
  fun r => ∀ (c : Dev nD) (b : Ref sig .tc), b.isScoped = false → r.2.mem ((c.tc : Thread nD τ).loc b) = W5 m c (Proc.devRef .tc b)

/-- The run, from the tile's obligation, the split of the call's operands among the tiles, the TensorCore
    body's obligation, and the SparseCore call as a step of @main. -/
theorem run_main_of
    (htile : (K (F := F)).TileObl (D (F := F)) 𝒱 (P m) v₀ 0)
    (hvec : (K (F := F)).VecSplit' (P m) 0)
    (hbody : TcBody (F := F))
    (hrun : ∀ κ d, RunStep m κ d) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain hvec)
    m ρ main (fun d => Gd d) (FIN m) (u₀ (F := F)) (sep_elim_left.trans (hu₀ m))
    (fun κ d => hmain_of m ρ κ d (hrun κ d) (regStep m hbody κ d)) (fq m) (hfin m) (QC m) (fun _ h c b hb => h c b hb)

/-- The run from the tile's obligation alone: the split of the operands, the TensorCore body's obligation
    and the SparseCore call's step are the proved ones. -/
theorem run_main_tile (htile : (K (F := F)).TileObl (D (F := F)) 𝒱 (P m) v₀ 0) :
    θ_run (Cert.Kernel.defs (F := F)) (Cert.Kernel.threads (F := F)) ⟨m, fun _ => 0, ρ⟩ (QC m) :=
  run_main_of m ρ htile (vecSplit m) tcBody (fun κ d => runStep m κ d)

/-- THE RUN: from a memory whose three index lists are in range and all of whose counters are zero, every weakly
    fair execution of the 35 threads ends, and every final state has each unscoped buffer of every
    TensorCore at its final contents. -/
theorem run_main (hpre : PreOK m) :
    θ_run (Cert.Kernel.defs (F := F)) (Cert.Kernel.threads (F := F)) ⟨m, fun _ => 0, ρ⟩ (QC m) :=
  run_main_tile m ρ (tileObl_of m hpre)

end Run

end Cert.Proof.KB

end
-- ==== Proof.RunBits.lean ====
import proofs.«201762_g83623013253620_cont_9to1_m_623_34_alg».proof.Proof.B.RunArgs
import proofs.«201762_g83623013253620_cont_9to1_m_623_34_alg».proof.Proof.B.TileRes
import proofs.«201762_g83623013253620_cont_9to1_m_623_34_alg».proof.Proof.B.LaunchMain
import proofs.«201762_g83623013253620_cont_9to1_m_623_34_alg».proof.Proof.Assemble

/-!
# From the launch's run to the run the claim is assembled from, at the bit-exact instance

The launch's run says of every final state: each unscoped buffer of each device's TensorCore holds the
contents the entry function's chain leaves there.  Read at an argument buffer, that is the argument.
-/

noncomputable section

namespace Cert.Proof.RunBits

open Cert.Kernel Cert.Kernel.Gen
open Idealize.ShloMosaic Idealize.ShloMosaic.TcCoe Idealize.SL.Sem
open Cert.Proof.KB Cert.Proof.Assemble

/-- What the launch's run says of a final state: every unscoped buffer of every device's TensorCore at the
    contents the chain leaves. -/
abbrev QW (m : MemB) : PUnit × MemSt nD τ sig (Elt Bits) → Prop :=
  fun r => ∀ c : Dev nD, ∀ b : Ref sig .tc, b.isScoped = false → r.2.mem ((c.tc : Thread nD τ).loc b) = W5 m c (Proc.devRef .tc b)

/-- THE BRIDGE: the launch's run is the run the claim takes. -/
theorem runB_of (ok : MemB → Prop)
    (hrun : ∀ (m : MemB) (ρ : Dev nD → PrngReg), ok m →
      θ_run (Cert.Kernel.defs (F := Bits)) (Cert.Kernel.threads (F := Bits)) ⟨m, fun _ => 0, ρ⟩ (QW m)) :
    RunB ok := fun m ρ hok =>
  (θ_run (Cert.Kernel.defs (F := Bits)) _ _).mono (fun r h c => post_args m r h c) (hrun m ρ hok)

/-- The two spellings of "the three index lists are in range on every device" are one proposition. -/
theorem preOKB_iff (m : MemB) : PreOKB' m ↔ KB.PreOK (F := Bits) m := Iff.rfl

/-- The kernel's run at the bit-exact instance, as the claim takes it. -/
theorem runB : RunB PreOKB' :=
  runB_of _ (fun m ρ h => Cert.Proof.KB.run_main (F := Bits) m ρ h)

end Cert.Proof.RunBits

end
-- ==== Proof.lean ====
/- The claim's five conjuncts.

   THE MATHEMATICS.  Write F = feature, A = adj, idx_r (r = 0, 1, 2) for the leaders', nonmembers', members'
   index lists (1024 words each, every word in 0 … 4095 by the precondition), W = weight, b = bias.
   The reference computes, for node p, row k = 7r + f (r < 3, f < 7) and channel o,
       (Σ_j A[p, idx_r j] · [idx_r j ≠ p] · F[idx_r j, f]) / 1024 · W[0, o] + b[o],
   and for rows 21 … 27 the node's own features times W[0, o] plus b[o].
   The kernel first builds three histograms cnt_r m = #{j : idx_r j = m} on three vector subcores
   (an indexed store with accumulation: one is added at the entry each list word names, sixteen words a step,
   from an accumulator zeroed first), then on the TensorCore, once, g[7r+f, m] = cnt_r m · F[m, f] · 2⁻¹⁰,
   and per block of 512 columns  Σ_m g[k, m] · A[m, p] − A[p, p] · g[k, p]  (rows 0 … 20), the node's own
   features (rows 21 … 27), and the product with the 28-fold block-diagonal copy of W plus b.
   Regrouping the reference's sum over the list entries j by the row m = idx_r j they name turns it into the
   counted sum over all rows minus row p's own term — with A[p, m] where the kernel has A[m, p].  The two
   agree because the precondition makes A symmetric; the regrouping and the cancelling of the diagonal term use
   that every entry of F and A is a real number (finite inputs).  The block-diagonal product keeps one term
   per row; dividing by 1024 and multiplying by the f32 word of 2⁻¹⁰ are the same map on the extended reals.

   THE RUNS.  The kernel program is 35 threads: the TensorCore runs @main, whose SparseCore call hands the
   three role tiles their index list and their row of the counts array and takes the rows back holding the
   histograms (the other 29 tiles do nothing), and whose pipelined call over 8 column blocks of A fills the
   output block by block from a scratch table written at the first block.  Every copy is waited for by the
   thread that issued it, so no schedule is needed beyond the library's handshakes; nothing faults because
   every list word names an accumulator entry.  The same run, read at the word-level instance, gives the
   word-level program's frame; at the extended reals it names the result, which the algebra above equates with
   the reference's.  The reference is a straight line of host operations: its frame is its run with the
   result dropped.  The idealization rewrote no operation, so `preserves` holds trivially. -/
import proofs.«201762_g83623013253620_cont_9to1_m_623_34_alg».proof.Defs
import proofs.«201762_g83623013253620_cont_9to1_m_623_34_alg».proof.Proof.Assemble
import proofs.«201762_g83623013253620_cont_9to1_m_623_34_alg».proof.Proof.RunIdealFinal
import proofs.«201762_g83623013253620_cont_9to1_m_623_34_alg».proof.Proof.RunBits

noncomputable section

namespace Cert.Proof

theorem claim : Cert.Claim :=
  Cert.Proof.Assemble.claim_of Cert.Proof.RunIdeal.runI Cert.Proof.RunBits.runB

end Cert.Proof

end
